-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x65536x3 : Shape := ⟨3, ![2, 65536, 3]⟩
abbrev S822944x2 : Shape := ⟨2, ![822944, 2]⟩
abbrev S10x524309x2 : Shape := ⟨3, ![10, 524309, 2]⟩
abbrev S_ : Shape := ⟨0, ![]⟩

class Facts : Prop where
  bcast_S_S2x65536x3 : S_.BroadcastsInDim S2x65536x3 (![] : Fin 0 → Fin S2x65536x3.rank)
  reducesTo_S2x65536x3_S_d0_1_2 : S2x65536x3.ReducesTo [0, 1, 2] S_
  h_S_ : 0 < S_.numel
  bcast_S_S822944x2 : S_.BroadcastsInDim S822944x2 (![] : Fin 0 → Fin S822944x2.rank)
  reducesTo_S822944x2_S_d0_1 : S822944x2.ReducesTo [0, 1] S_
  bcast_S_S10x524309x2 : S_.BroadcastsInDim S10x524309x2 (![] : Fin 0 → Fin S10x524309x2.rank)
  reducesTo_S10x524309x2_S_d0_1_2 : S10x524309x2.ReducesTo [0, 1, 2] S_

variable [Facts]

def fn {F : FTy → Type} [FloatOps F] (main_arg0 : FVec F S2x65536x3 .f32) (main_arg1 : FVec F S822944x2 .f32) (main_arg2 : FVec F S10x524309x2 .f32) : IVec S_ 1 :=
  let main_v0 : FVec F S2x65536x3 .f32 := Host.absf main_arg0
  let main_cst : FVec F S_ .f32 := constant S_ .f32 0x7F800000#32
  let main_v1 : FVec F S2x65536x3 .f32 := broadcastInDim S2x65536x3 ![] bcast_S_S2x65536x3 main_cst
  let main_v2 : IVec S2x65536x3 1 := cmpf .olt main_v0 main_v1
  let main_c : IVec S_ 1 := constantI S_ 1 1#1
  let main_v3 : IVec S_ 1 := (fun x v => Host.reduce IntOp.andi x v reducesTo_S2x65536x3_S_d0_1_2 h_S_) main_v2 main_c
  let main_v4 : FVec F S822944x2 .f32 := Host.absf main_arg1
  let main_cst_0 : FVec F S_ .f32 := constant S_ .f32 0x7F800000#32
  let main_v5 : FVec F S822944x2 .f32 := broadcastInDim S822944x2 ![] bcast_S_S822944x2 main_cst_0
  let main_v6 : IVec S822944x2 1 := cmpf .olt main_v4 main_v5
  let main_c_1 : IVec S_ 1 := constantI S_ 1 1#1
  let main_v7 : IVec S_ 1 := (fun x v => Host.reduce IntOp.andi x v reducesTo_S822944x2_S_d0_1 h_S_) main_v6 main_c_1
  let main_v8 : IVec S_ 1 := andi main_v3 main_v7
  let main_v9 : FVec F S10x524309x2 .f32 := Host.absf main_arg2
  let main_cst_2 : FVec F S_ .f32 := constant S_ .f32 0x7F800000#32
  let main_v10 : FVec F S10x524309x2 .f32 := broadcastInDim S10x524309x2 ![] bcast_S_S10x524309x2 main_cst_2
  let main_v11 : IVec S10x524309x2 1 := cmpf .olt main_v9 main_v10
  let main_c_3 : IVec S_ 1 := constantI S_ 1 1#1
  let main_v12 : IVec S_ 1 := (fun x v => Host.reduce IntOp.andi x v reducesTo_S10x524309x2_S_d0_1_2 h_S_) main_v11 main_c_3
  let main_v13 : IVec S_ 1 := andi main_v8 main_v12
  main_v13
-- ==== Kernel.lean ====
abbrev S2x65536x3 : Shape := ⟨3, ![2, 65536, 3]⟩
abbrev S822944x2 : Shape := ⟨2, ![822944, 2]⟩
abbrev S10x524309x2 : Shape := ⟨3, ![10, 524309, 2]⟩
abbrev S3 : Shape := ⟨1, ![3]⟩
abbrev S16x3 : Shape := ⟨2, ![16, 3]⟩
abbrev S8x3 : Shape := ⟨2, ![8, 3]⟩
abbrev S6x3 : Shape := ⟨2, ![6, 3]⟩
abbrev S6 : Shape := ⟨1, ![6]⟩
abbrev S131072x3 : Shape := ⟨2, ![131072, 3]⟩
abbrev S1x3 : Shape := ⟨2, ![1, 3]⟩
abbrev S3x131072 : Shape := ⟨2, ![3, 131072]⟩
abbrev S1x3x131072 : Shape := ⟨3, ![1, 3, 131072]⟩
abbrev S16x3x1 : Shape := ⟨3, ![16, 3, 1]⟩
abbrev S16x3x131072 : Shape := ⟨3, ![16, 3, 131072]⟩
abbrev S16x1x3x131072 : Shape := ⟨4, ![16, 1, 3, 131072]⟩
abbrev S1x8x3x1 : Shape := ⟨4, ![1, 8, 3, 1]⟩
abbrev S16x8x3x131072 : Shape := ⟨4, ![16, 8, 3, 131072]⟩
abbrev S16x1x3x1 : Shape := ⟨4, ![16, 1, 3, 1]⟩
abbrev S_ : Shape := ⟨0, ![]⟩
abbrev S6x8x3x131072 : Shape := ⟨4, ![6, 8, 3, 131072]⟩
abbrev S6x1x3x1 : Shape := ⟨4, ![6, 1, 3, 1]⟩
abbrev S6x8x131072 : Shape := ⟨3, ![6, 8, 131072]⟩
abbrev S6x1x1 : Shape := ⟨3, ![6, 1, 1]⟩
abbrev S10x8x3x131072 : Shape := ⟨4, ![10, 8, 3, 131072]⟩
abbrev S10x8x1x131072 : Shape := ⟨4, ![10, 8, 1, 131072]⟩
abbrev S10x8x131072 : Shape := ⟨3, ![10, 8, 131072]⟩
abbrev S2x822944 : Shape := ⟨2, ![2, 822944]⟩
abbrev S6x8x131072x1 : Shape := ⟨4, ![6, 8, 131072, 1]⟩
abbrev S1 : Shape := ⟨1, ![1]⟩
abbrev S1x1x1x1 : Shape := ⟨4, ![1, 1, 1, 1]⟩
abbrev S2x6x8x131072 : Shape := ⟨4, ![2, 6, 8, 131072]⟩
abbrev S10x2x524309 : Shape := ⟨3, ![10, 2, 524309]⟩
abbrev S10x8x131072x1 : Shape := ⟨4, ![10, 8, 131072, 1]⟩
abbrev S10x2x8x131072 : Shape := ⟨4, ![10, 2, 8, 131072]⟩
abbrev S2x10x8x131072 : Shape := ⟨4, ![2, 10, 8, 131072]⟩
abbrev S2x16x8x131072 : Shape := ⟨4, ![2, 16, 8, 131072]⟩
abbrev S16x8x1x131072 : Shape := ⟨4, ![16, 8, 1, 131072]⟩
abbrev S16x8x131072 : Shape := ⟨3, ![16, 8, 131072]⟩
abbrev S2x16x131072 : Shape := ⟨3, ![2, 16, 131072]⟩
abbrev S2x16x8x4096 : Shape := ⟨4, ![2, 16, 8, 4096]⟩
abbrev S16x8x4096 : Shape := ⟨3, ![16, 8, 4096]⟩
abbrev S2x16x4096 : Shape := ⟨3, ![2, 16, 4096]⟩
abbrev S1x16x8x4096 : Shape := ⟨4, ![1, 16, 8, 4096]⟩
abbrev S131072x16x2 : Shape := ⟨3, ![131072, 16, 2]⟩
abbrev S131072x32 : Shape := ⟨2, ![131072, 32]⟩
abbrev S131072x35 : Shape := ⟨2, ![131072, 35]⟩
abbrev S2x65536x35 : Shape := ⟨3, ![2, 65536, 35]⟩

abbrev nBuf : Space → Nat
  | .hbm => 174
  | .vmem => 6
  | .smem => 0
  | _ => 0

abbrev hbmTy0_0 (i : Nat) : BufTy := match i % 128 with
  | 0 => ⟨S2x65536x3, .f32⟩
  | 1 => ⟨S822944x2, .f32⟩
  | 2 => ⟨S10x524309x2, .f32⟩
  | 3 => ⟨S3, .f32⟩
  | 4 => ⟨S3, .f32⟩
  | 5 => ⟨S16x3, .f32⟩
  | 6 => ⟨S8x3, .f32⟩
  | 7 => ⟨S16x3, .i32⟩
  | 8 => ⟨S6x3, .i32⟩
  | 9 => ⟨S6, .i32⟩
  | 10 => ⟨S131072x3, .f32⟩
  | 11 => ⟨S1x3, .f32⟩
  | 12 => ⟨S131072x3, .f32⟩
  | 13 => ⟨S131072x3, .f32⟩
  | 14 => ⟨S3, .f32⟩
  | 15 => ⟨S1x3, .f32⟩
  | 16 => ⟨S131072x3, .f32⟩
  | 17 => ⟨S131072x3, .f32⟩
  | 18 => ⟨S3x131072, .f32⟩
  | 19 => ⟨S1x3x131072, .f32⟩
  | 20 => ⟨S16x3x1, .f32⟩
  | 21 => ⟨S16x3x131072, .f32⟩
  | 22 => ⟨S16x3x131072, .f32⟩
  | 23 => ⟨S16x3x131072, .f32⟩
  | 24 => ⟨S16x1x3x131072, .f32⟩
  | 25 => ⟨S1x8x3x1, .f32⟩
  | 26 => ⟨S16x8x3x131072, .f32⟩
  | 27 => ⟨S16x8x3x131072, .f32⟩
  | 28 => ⟨S16x8x3x131072, .f32⟩
  | 29 => ⟨S16x8x3x131072, .i32⟩
  | 30 => ⟨S16x1x3x1, .i32⟩
  | 31 => ⟨S_, .i32⟩
  | 32 => ⟨S16x1x3x1, .i32⟩
  | 33 => ⟨S16x1x3x1, .i32⟩
  | 34 => ⟨S_, .i32⟩
  | 35 => ⟨S_, .i32⟩
  | 36 => ⟨S16x8x3x131072, .i32⟩
  | 37 => ⟨S16x8x3x131072, .i32⟩
  | 38 => ⟨S16x8x3x131072, .i32⟩
  | 39 => ⟨S16x8x3x131072, .i32⟩
  | 40 => ⟨S16x1x3x131072, .i32⟩
  | 41 => ⟨S16x3x131072, .i32⟩
  | 42 => ⟨S16x3x131072, .f32⟩
  | 43 => ⟨S16x3x131072, .f32⟩
  | 44 => ⟨S6x8x3x131072, .i32⟩
  | 45 => ⟨S6x1x3x1, .i32⟩
  | 46 => ⟨S6x8x3x131072, .i32⟩
  | 47 => ⟨S6x8x3x131072, .i32⟩
  | 48 => ⟨S_, .i32⟩
  | 49 => ⟨S6x8x131072, .i32⟩
  | 50 => ⟨S6x1x1, .i32⟩
  | 51 => ⟨S6x8x131072, .i32⟩
  | 52 => ⟨S6x8x131072, .i32⟩
  | 53 => ⟨S10x8x3x131072, .i32⟩
  | 54 => ⟨S10x8x1x131072, .i32⟩
  | 55 => ⟨S10x8x131072, .i32⟩
  | 56 => ⟨S_, .i32⟩
  | 57 => ⟨S10x8x131072, .i32⟩
  | 58 => ⟨S10x8x1x131072, .i32⟩
  | 59 => ⟨S10x8x131072, .i32⟩
  | 60 => ⟨S_, .i32⟩
  | 61 => ⟨S10x8x131072, .i32⟩
  | 62 => ⟨S10x8x131072, .i32⟩
  | 63 => ⟨S10x8x131072, .i32⟩
  | 64 => ⟨S10x8x1x131072, .i32⟩
  | 65 => ⟨S10x8x131072, .i32⟩
  | 66 => ⟨S_, .i32⟩
  | 67 => ⟨S10x8x131072, .i32⟩
  | 68 => ⟨S10x8x131072, .i32⟩
  | 69 => ⟨S10x8x131072, .i32⟩
  | 70 => ⟨S10x8x1x131072, .i32⟩
  | 71 => ⟨S10x8x131072, .i32⟩
  | 72 => ⟨S_, .i32⟩
  | 73 => ⟨S10x8x131072, .i32⟩
  | 74 => ⟨S10x8x131072, .i32⟩
  | 75 => ⟨S10x8x131072, .i32⟩
  | 76 => ⟨S_, .i32⟩
  | 77 => ⟨S_, .i32⟩
  | 78 => ⟨S_, .i32⟩
  | 79 => ⟨S_, .i1⟩
  | 80 => ⟨S_, .i32⟩
  | 81 => ⟨S_, .i32⟩
  | 82 => ⟨S10x8x131072, .i32⟩
  | 83 => ⟨S10x8x131072, .i32⟩
  | 84 => ⟨S_, .i32⟩
  | 85 => ⟨S10x8x131072, .i32⟩
  | 86 => ⟨S10x8x131072, .i1⟩
  | 87 => ⟨S_, .i32⟩
  | 88 => ⟨S10x8x131072, .i32⟩
  | 89 => ⟨S10x8x131072, .i1⟩
  | 90 => ⟨S_, .i32⟩
  | 91 => ⟨S_, .i1⟩
  | 92 => ⟨S10x8x131072, .i1⟩
  | 93 => ⟨S10x8x131072, .i1⟩
  | 94 => ⟨S10x8x131072, .i1⟩
  | 95 => ⟨S10x8x131072, .i32⟩
  | 96 => ⟨S10x8x131072, .i32⟩
  | 97 => ⟨S10x8x131072, .i32⟩
  | 98 => ⟨S2x822944, .f32⟩
  | 99 => ⟨S_, .i32⟩
  | 100 => ⟨S6x8x131072, .i32⟩
  | 101 => ⟨S6x8x131072, .i1⟩
  | 102 => ⟨S_, .i32⟩
  | 103 => ⟨S6x8x131072, .i32⟩
  | 104 => ⟨S6x8x131072, .i32⟩
  | 105 => ⟨S6x8x131072, .i32⟩
  | 106 => ⟨S6x8x131072x1, .i32⟩
  | 107 => ⟨S1, .i32⟩
  | 108 => ⟨S_, .i32⟩
  | 109 => ⟨S6x8x131072x1, .i32⟩
  | 110 => ⟨S6x8x131072x1, .i1⟩
  | 111 => ⟨S1x1x1x1, .i32⟩
  | 112 => ⟨S6x8x131072x1, .i32⟩
  | 113 => ⟨S6x8x131072x1, .i1⟩
  | 114 => ⟨S6x8x131072x1, .i1⟩
  | 115 => ⟨S_, .i1⟩
  | 116 => ⟨S6x8x131072, .i1⟩
  | 117 => ⟨S2x6x8x131072, .f32⟩
  | 118 => ⟨S2x6x8x131072, .i1⟩
  | 119 => ⟨S_, .f32⟩
  | 120 => ⟨S2x6x8x131072, .f32⟩
  | 121 => ⟨S2x6x8x131072, .f32⟩
  | 122 => ⟨S10x2x524309, .f32⟩
  | 123 => ⟨S_, .i32⟩
  | 124 => ⟨S10x8x131072, .i32⟩
  | 125 => ⟨S10x8x131072, .i1⟩
  | 126 => ⟨S_, .i32⟩
  | 127 => ⟨S10x8x131072, .i32⟩
  | _ => ⟨S2x65536x3, .f32⟩

abbrev hbmTy0_1 (i : Nat) : BufTy := match i % 128 with
  | 0 => ⟨S10x8x131072, .i32⟩
  | 1 => ⟨S10x8x131072, .i32⟩
  | 2 => ⟨S10x8x131072x1, .i32⟩
  | 3 => ⟨S1, .i32⟩
  | 4 => ⟨S_, .i32⟩
  | 5 => ⟨S10x8x131072x1, .i32⟩
  | 6 => ⟨S10x8x131072x1, .i1⟩
  | 7 => ⟨S1x1x1x1, .i32⟩
  | 8 => ⟨S10x8x131072x1, .i32⟩
  | 9 => ⟨S10x8x131072x1, .i1⟩
  | 10 => ⟨S10x8x131072x1, .i1⟩
  | 11 => ⟨S_, .i1⟩
  | 12 => ⟨S10x8x131072, .i1⟩
  | 13 => ⟨S10x2x8x131072, .f32⟩
  | 14 => ⟨S10x2x8x131072, .i1⟩
  | 15 => ⟨S_, .f32⟩
  | 16 => ⟨S10x2x8x131072, .f32⟩
  | 17 => ⟨S10x2x8x131072, .f32⟩
  | 18 => ⟨S2x10x8x131072, .f32⟩
  | 19 => ⟨S2x16x8x131072, .f32⟩
  | 20 => ⟨S16x1x3x131072, .f32⟩
  | 21 => ⟨S1x8x3x1, .f32⟩
  | 22 => ⟨S_, .f32⟩
  | 23 => ⟨S1x8x3x1, .f32⟩
  | 24 => ⟨S1x8x3x1, .f32⟩
  | 25 => ⟨S_, .f32⟩
  | 26 => ⟨S1x8x3x1, .f32⟩
  | 27 => ⟨S1x8x3x1, .f32⟩
  | 28 => ⟨S_, .f32⟩
  | 29 => ⟨S1x8x3x1, .f32⟩
  | 30 => ⟨S1x8x3x1, .f32⟩
  | 31 => ⟨S16x8x3x131072, .f32⟩
  | 32 => ⟨S16x8x3x131072, .f32⟩
  | 33 => ⟨S16x8x3x131072, .f32⟩
  | 34 => ⟨S16x8x3x131072, .f32⟩
  | 35 => ⟨S16x8x3x131072, .f32⟩
  | 36 => ⟨S16x8x1x131072, .f32⟩
  | 37 => ⟨S16x8x131072, .f32⟩
  | 38 => ⟨S16x8x1x131072, .f32⟩
  | 39 => ⟨S16x8x131072, .f32⟩
  | 40 => ⟨S16x8x131072, .f32⟩
  | 41 => ⟨S2x16x131072, .f32⟩
  | 42 => ⟨S131072x16x2, .f32⟩
  | 43 => ⟨S131072x32, .f32⟩
  | 44 => ⟨S131072x35, .f32⟩
  | 45 => ⟨S2x65536x35, .f32⟩
  | _ => ⟨S2x65536x3, .f32⟩

abbrev hbmTy (i : Nat) : BufTy := match i / 128 with
  | 0 => hbmTy0_0 i
  | 1 => hbmTy0_1 i
  | _ => ⟨S2x65536x3, .f32⟩

abbrev bufTy : (tb : Table) → Fin (tcTables nBuf tb) → BufTy
  | .hbm, ⟨i, _⟩ => hbmTy i
  | .local _ .vmem, ⟨0, _⟩ => ⟨S2x16x8x4096, .f32⟩
  | .local _ .vmem, ⟨1, _⟩ => ⟨S2x16x8x4096, .f32⟩
  | .local _ .vmem, ⟨2, _⟩ => ⟨S16x8x4096, .f32⟩
  | .local _ .vmem, ⟨3, _⟩ => ⟨S16x8x4096, .f32⟩
  | .local _ .vmem, ⟨4, _⟩ => ⟨S2x16x4096, .f32⟩
  | .local _ .vmem, ⟨5, _⟩ => ⟨S2x16x4096, .f32⟩
  | _, _ => ⟨S2x65536x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_c : Ref sig .tc := ⟨.hbm, 7, rfl⟩
abbrev main_c_3 : Ref sig .tc := ⟨.hbm, 8, rfl⟩
abbrev main_c_4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_5 : Ref sig .tc := ⟨.hbm, 31, rfl⟩
abbrev main_v21 : Ref sig .tc := ⟨.hbm, 32, rfl⟩
abbrev main_v22 : Ref sig .tc := ⟨.hbm, 33, rfl⟩
abbrev main_c_6 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_c_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_12 : Ref sig .tc := ⟨.hbm, 76, rfl⟩
abbrev main_call1_v0 : Ref sig .tc := ⟨.hbm, 77, rfl⟩
abbrev main_call1_c : Ref sig .tc := ⟨.hbm, 78, rfl⟩
abbrev main_call1_v1 : Ref sig .tc := ⟨.hbm, 79, rfl⟩
abbrev main_call1_c_0 : Ref sig .tc := ⟨.hbm, 80, rfl⟩
abbrev main_call1_v2 : Ref sig .tc := ⟨.hbm, 81, rfl⟩
abbrev main_call1_v3 : Ref sig .tc := ⟨.hbm, 82, rfl⟩
abbrev main_call1_v4 : Ref sig .tc := ⟨.hbm, 83, rfl⟩
abbrev main_call1_c_1 : Ref sig .tc := ⟨.hbm, 84, rfl⟩
abbrev main_call1_v5 : Ref sig .tc := ⟨.hbm, 85, rfl⟩
abbrev main_call1_v6 : Ref sig .tc := ⟨.hbm, 86, rfl⟩
abbrev main_call1_c_2 : Ref sig .tc := ⟨.hbm, 87, rfl⟩
abbrev main_call1_v7 : Ref sig .tc := ⟨.hbm, 88, rfl⟩
abbrev main_call1_v8 : Ref sig .tc := ⟨.hbm, 89, rfl⟩
abbrev main_call1_c_3 : Ref sig .tc := ⟨.hbm, 90, rfl⟩
abbrev main_call1_v9 : Ref sig .tc := ⟨.hbm, 91, rfl⟩
abbrev main_call1_v10 : Ref sig .tc := ⟨.hbm, 92, rfl⟩
abbrev main_call1_v11 : Ref sig .tc := ⟨.hbm, 93, rfl⟩
abbrev main_call1_v12 : Ref sig .tc := ⟨.hbm, 94, rfl⟩
abbrev main_call1_v13 : Ref sig .tc := ⟨.hbm, 95, rfl⟩
abbrev main_call1_v14 : Ref sig .tc := ⟨.hbm, 96, rfl⟩
abbrev main_v55 : Ref sig .tc := ⟨.hbm, 97, rfl⟩
abbrev main_v56 : Ref sig .tc := ⟨.hbm, 98, rfl⟩
abbrev main_call2_c : Ref sig .tc := ⟨.hbm, 99, rfl⟩
abbrev main_call2_v0 : Ref sig .tc := ⟨.hbm, 100, rfl⟩
abbrev main_call2_v1 : Ref sig .tc := ⟨.hbm, 101, rfl⟩
abbrev main_call2_c_0 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_call2_v5 : Ref sig .tc := ⟨.hbm, 106, rfl⟩
abbrev main_call2_c_1 : Ref sig .tc := ⟨.hbm, 107, rfl⟩
abbrev main_call2_c_2 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_3 : Ref sig .tc := ⟨.hbm, 115, rfl⟩
abbrev main_call2_v12 : Ref sig .tc := ⟨.hbm, 116, rfl⟩
abbrev main_call2_v13 : Ref sig .tc := ⟨.hbm, 117, rfl⟩
abbrev main_call2_v14 : Ref sig .tc := ⟨.hbm, 118, rfl⟩
abbrev main_call2_cst : Ref sig .tc := ⟨.hbm, 119, rfl⟩
abbrev main_call2_v15 : Ref sig .tc := ⟨.hbm, 120, rfl⟩
abbrev main_v57 : Ref sig .tc := ⟨.hbm, 121, rfl⟩
abbrev main_v58 : Ref sig .tc := ⟨.hbm, 122, rfl⟩
abbrev main_call3_c : Ref sig .tc := ⟨.hbm, 123, rfl⟩
abbrev main_call3_v0 : Ref sig .tc := ⟨.hbm, 124, rfl⟩
abbrev main_call3_v1 : Ref sig .tc := ⟨.hbm, 125, rfl⟩
abbrev main_call3_c_0 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_c_1 : Ref sig .tc := ⟨.hbm, 131, rfl⟩
abbrev main_call3_c_2 : Ref sig .tc := ⟨.hbm, 132, rfl⟩
abbrev main_call3_v6 : Ref sig .tc := ⟨.hbm, 133, rfl⟩
abbrev main_call3_v7 : Ref sig .tc := ⟨.hbm, 134, rfl⟩
abbrev main_call3_v8 : Ref sig .tc := ⟨.hbm, 135, rfl⟩
abbrev main_call3_v9 : Ref sig .tc := ⟨.hbm, 136, rfl⟩
abbrev main_call3_v10 : Ref sig .tc := ⟨.hbm, 137, rfl⟩
abbrev main_call3_v11 : Ref sig .tc := ⟨.hbm, 138, rfl⟩
abbrev main_call3_c_3 : Ref sig .tc := ⟨.hbm, 139, rfl⟩
abbrev main_call3_v12 : Ref sig .tc := ⟨.hbm, 140, rfl⟩
abbrev main_call3_v13 : Ref sig .tc := ⟨.hbm, 141, rfl⟩
abbrev main_call3_v14 : Ref sig .tc := ⟨.hbm, 142, rfl⟩
abbrev main_call3_cst : Ref sig .tc := ⟨.hbm, 143, rfl⟩
abbrev main_call3_v15 : Ref sig .tc := ⟨.hbm, 144, rfl⟩
abbrev main_v59 : Ref sig .tc := ⟨.hbm, 145, rfl⟩
abbrev main_v60 : Ref sig .tc := ⟨.hbm, 146, rfl⟩
abbrev main_v61 : Ref sig .tc := ⟨.hbm, 147, rfl⟩
abbrev main_v62 : Ref sig .tc := ⟨.hbm, 148, rfl⟩
abbrev main_v63 : Ref sig .tc := ⟨.hbm, 149, rfl⟩
abbrev main_cst_13 : Ref sig .tc := ⟨.hbm, 150, rfl⟩
abbrev main_v64 : Ref sig .tc := ⟨.hbm, 151, rfl⟩
abbrev main_v65 : Ref sig .tc := ⟨.hbm, 152, rfl⟩
abbrev main_cst_14 : Ref sig .tc := ⟨.hbm, 153, rfl⟩
abbrev main_v66 : Ref sig .tc := ⟨.hbm, 154, rfl⟩
abbrev main_v67 : Ref sig .tc := ⟨.hbm, 155, rfl⟩
abbrev main_cst_15 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x16x8x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S2x65536x3_S131072x3 : S2x65536x3.ShapeCasts S131072x3
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  transposes_S131072x3_S3x131072_1_0 : S131072x3.Transposes [1, 0] S3x131072
  bcast_S3x131072_S1x3x131072_1_2 : S3x131072.BroadcastsInDim S1x3x131072 (![1, 2] : Fin 2 → Fin S1x3x131072.rank)
  bcast_S16x3_S16x3x1_0_1 : S16x3.BroadcastsInDim S16x3x1 (![0, 1] : Fin 2 → Fin S16x3x1.rank)
  bcast_S1x3x131072_S16x3x131072_0_1_2 : S1x3x131072.BroadcastsInDim S16x3x131072 (![0, 1, 2] : Fin 3 → Fin S16x3x131072.rank)
  bcast_S16x3x1_S16x3x131072_0_1_2 : S16x3x1.BroadcastsInDim S16x3x131072 (![0, 1, 2] : Fin 3 → Fin S16x3x131072.rank)
  bcast_S16x3x131072_S16x1x3x131072_0_2_3 : S16x3x131072.BroadcastsInDim S16x1x3x131072 (![0, 2, 3] : Fin 3 → Fin S16x1x3x131072.rank)
  bcast_S8x3_S1x8x3x1_1_2 : S8x3.BroadcastsInDim S1x8x3x1 (![1, 2] : Fin 2 → Fin S1x8x3x1.rank)
  bcast_S16x1x3x131072_S16x8x3x131072_0_1_2_3 : S16x1x3x131072.BroadcastsInDim S16x8x3x131072 (![0, 1, 2, 3] : Fin 4 → Fin S16x8x3x131072.rank)
  bcast_S1x8x3x1_S16x8x3x131072_0_1_2_3 : S1x8x3x1.BroadcastsInDim S16x8x3x131072 (![0, 1, 2, 3] : Fin 4 → Fin S16x8x3x131072.rank)
  bcast_S16x3_S16x1x3x1_0_2 : S16x3.BroadcastsInDim S16x1x3x1 (![0, 2] : Fin 2 → Fin S16x1x3x1.rank)
  bcast_S_S16x1x3x1 : S_.BroadcastsInDim S16x1x3x1 (![] : Fin 0 → Fin S16x1x3x1.rank)
  bcast_S_S16x8x3x131072 : S_.BroadcastsInDim S16x8x3x131072 (![] : Fin 0 → Fin S16x8x3x131072.rank)
  bcast_S16x1x3x1_S16x8x3x131072_0_1_2_3 : S16x1x3x1.BroadcastsInDim S16x8x3x131072 (![0, 1, 2, 3] : Fin 4 → Fin S16x8x3x131072.rank)
  slices_S16x8x3x131072_S16x1x3x131072_0_0_0_0 : S16x8x3x131072.Slices ![0, 0, 0, 0] S16x1x3x131072
  shapeCasts_S16x1x3x131072_S16x3x131072 : S16x1x3x131072.ShapeCasts S16x3x131072
  slices_S16x8x3x131072_S6x8x3x131072_0_0_0_0 : S16x8x3x131072.Slices ![0, 0, 0, 0] S6x8x3x131072
  bcast_S6x3_S6x1x3x1_0_2 : S6x3.BroadcastsInDim S6x1x3x1 (![0, 2] : Fin 2 → Fin S6x1x3x1.rank)
  bcast_S6x1x3x1_S6x8x3x131072_0_1_2_3 : S6x1x3x1.BroadcastsInDim S6x8x3x131072 (![0, 1, 2, 3] : Fin 4 → Fin S6x8x3x131072.rank)
  reducesTo_S6x8x3x131072_S6x8x131072_d2 : S6x8x3x131072.ReducesTo [2] S6x8x131072
  h_S_ : 0 < S_.numel
  bcast_S6_S6x1x1_0 : S6.BroadcastsInDim S6x1x1 (![0] : Fin 1 → Fin S6x1x1.rank)
  bcast_S6x1x1_S6x8x131072_0_1_2 : S6x1x1.BroadcastsInDim S6x8x131072 (![0, 1, 2] : Fin 3 → Fin S6x8x131072.rank)
  slices_S16x8x3x131072_S10x8x3x131072_6_0_0_0 : S16x8x3x131072.Slices ![6, 0, 0, 0] S10x8x3x131072
  slices_S10x8x3x131072_S10x8x1x131072_0_0_0_0 : S10x8x3x131072.Slices ![0, 0, 0, 0] S10x8x1x131072
  shapeCasts_S10x8x1x131072_S10x8x131072 : S10x8x1x131072.ShapeCasts S10x8x131072
  bcast_S_S10x8x131072 : S_.BroadcastsInDim S10x8x131072 (![] : Fin 0 → Fin S10x8x131072.rank)
  slices_S10x8x3x131072_S10x8x1x131072_0_0_1_0 : S10x8x3x131072.Slices ![0, 0, 1, 0] S10x8x1x131072
  slices_S10x8x3x131072_S10x8x1x131072_0_0_2_0 : S10x8x3x131072.Slices ![0, 0, 2, 0] S10x8x1x131072
  transposes_S822944x2_S2x822944_1_0 : S822944x2.Transposes [1, 0] S2x822944
  bcast_S_S6x8x131072 : S_.BroadcastsInDim S6x8x131072 (![] : Fin 0 → Fin S6x8x131072.rank)
  bcast_S6x8x131072_S6x8x131072x1_0_1_2 : S6x8x131072.BroadcastsInDim S6x8x131072x1 (![0, 1, 2] : Fin 3 → Fin S6x8x131072x1.rank)
  bcast_S_S6x8x131072x1 : S_.BroadcastsInDim S6x8x131072x1 (![] : Fin 0 → Fin S6x8x131072x1.rank)
  bcast_S1_S1x1x1x1_3 : S1.BroadcastsInDim S1x1x1x1 (![3] : Fin 1 → Fin S1x1x1x1.rank)
  bcast_S1x1x1x1_S6x8x131072x1_0_1_2_3 : S1x1x1x1.BroadcastsInDim S6x8x131072x1 (![0, 1, 2, 3] : Fin 4 → Fin S6x8x131072x1.rank)
  reducesTo_S6x8x131072x1_S6x8x131072_d3 : S6x8x131072x1.ReducesTo [3] S6x8x131072
  bcast_S6x8x131072_S2x6x8x131072_1_2_3 : S6x8x131072.BroadcastsInDim S2x6x8x131072 (![1, 2, 3] : Fin 3 → Fin S2x6x8x131072.rank)
  bcast_S_S2x6x8x131072 : S_.BroadcastsInDim S2x6x8x131072 (![] : Fin 0 → Fin S2x6x8x131072.rank)
  transposes_S10x524309x2_S10x2x524309_0_2_1 : S10x524309x2.Transposes [0, 2, 1] S10x2x524309
  bcast_S10x8x131072_S10x8x131072x1_0_1_2 : S10x8x131072.BroadcastsInDim S10x8x131072x1 (![0, 1, 2] : Fin 3 → Fin S10x8x131072x1.rank)
  bcast_S_S10x8x131072x1 : S_.BroadcastsInDim S10x8x131072x1 (![] : Fin 0 → Fin S10x8x131072x1.rank)
  bcast_S1x1x1x1_S10x8x131072x1_0_1_2_3 : S1x1x1x1.BroadcastsInDim S10x8x131072x1 (![0, 1, 2, 3] : Fin 4 → Fin S10x8x131072x1.rank)
  reducesTo_S10x8x131072x1_S10x8x131072_d3 : S10x8x131072x1.ReducesTo [3] S10x8x131072
  bcast_S10x8x131072_S10x2x8x131072_0_2_3 : S10x8x131072.BroadcastsInDim S10x2x8x131072 (![0, 2, 3] : Fin 3 → Fin S10x2x8x131072.rank)
  bcast_S_S10x2x8x131072 : S_.BroadcastsInDim S10x2x8x131072 (![] : Fin 0 → Fin S10x2x8x131072.rank)
  transposes_S10x2x8x131072_S2x10x8x131072_1_0_2_3 : S10x2x8x131072.Transposes [1, 0, 2, 3] S2x10x8x131072
  concatenates_S2x6x8x131072_S2x10x8x131072_S2x16x8x131072_d1 : Shape.Concatenates [S2x6x8x131072, S2x10x8x131072] S2x16x8x131072 1
  bcast_S_S1x8x3x1 : S_.BroadcastsInDim S1x8x3x1 (![] : Fin 0 → Fin S1x8x3x1.rank)
  slices_S16x8x3x131072_S16x8x1x131072_0_0_0_0 : S16x8x3x131072.Slices ![0, 0, 0, 0] S16x8x1x131072
  shapeCasts_S16x8x1x131072_S16x8x131072 : S16x8x1x131072.ShapeCasts S16x8x131072
  slices_S16x8x3x131072_S16x8x1x131072_0_0_1_0 : S16x8x3x131072.Slices ![0, 0, 1, 0] S16x8x1x131072
  inb_S2x16x8x4096_S2x16x8x4096_0_0_0_0 : ∀ a, (![0, 0, 0, 0] : Fin 4 → Nat) a + S2x16x8x4096.size a ≤ S2x16x8x4096.size a
  h_S2x16x8x4096 : 0 < S2x16x8x4096.numel
  shapeCasts_S2x16x8x4096_S2x16x8x4096 : S2x16x8x4096.ShapeCasts S2x16x8x4096
  inb_S16x8x4096_S16x8x4096_0_0_0 : ∀ a, (![0, 0, 0] : Fin 3 → Nat) a + S16x8x4096.size a ≤ S16x8x4096.size a
  h_S16x8x4096 : 0 < S16x8x4096.numel
  shapeCasts_S16x8x4096_S16x8x4096 : S16x8x4096.ShapeCasts S16x8x4096
  shapeCasts_S16x8x4096_S1x16x8x4096 : S16x8x4096.ShapeCasts S1x16x8x4096
  broadcasts_S1x16x8x4096_S2x16x8x4096 : S1x16x8x4096.Broadcasts S2x16x8x4096
  reduces_S2x16x8x4096_S2x16x4096 : S2x16x8x4096.Reduces [2] S2x16x4096
  inb_S2x16x4096_S2x16x4096_0_0_0 : ∀ a, (![0, 0, 0] : Fin 3 → Nat) a + S2x16x4096.size a ≤ S2x16x4096.size a
  h_S2x16x4096 : 0 < S2x16x4096.numel
  transposes_S2x16x131072_S131072x16x2_2_1_0 : S2x16x131072.Transposes [2, 1, 0] S131072x16x2
  shapeCasts_S131072x16x2_S131072x32 : S131072x16x2.ShapeCasts S131072x32
  concatenates_S131072x3_S131072x32_S131072x35_d1 : Shape.Concatenates [S131072x3, S131072x32] S131072x35 1
  shapeCasts_S131072x35_S2x65536x35 : S131072x35.ShapeCasts S2x65536x35
  gather_S2x822944_S6x8x131072x1_S2x6x8x131072_0_1_n_n_1_3_21_wf : GatherDims.WF S2x822944 S6x8x131072x1 S2x6x8x131072 [0] [1] [] [1] [] 3 ![2, 1]
  gather_S10x2x524309_S10x8x131072x1_S10x2x8x131072_1_2_0_0_2_3_121_wf : GatherDims.WF S10x2x524309 S10x8x131072x1 S10x2x8x131072 [1] [2] [0] [2] [0] 3 ![1, 2, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16x8x4096.size a ≤ S2x16x8x131072.size a
  hwx0_0 : ∀ i : grid0.Coords, EltTy.bits .f32 = 32 ∨ (Rect.block (s := S2x16x8x131072) S2x16x8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x8x4096.size a ≤ S16x8x131072.size a
  hwx0_1 : ∀ i : grid0.Coords, EltTy.bits .f32 = 32 ∨ (Rect.block (s := S16x8x131072) S16x8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16x4096.size a ≤ S2x16x131072.size a
  hwx0_2 : ∀ i : grid0.Coords, EltTy.bits .f32 = 32 ∨ (Rect.block (s := S2x16x131072) S2x16x4096.size (cc0_transform_2 i) (hinb0_2 i)).WholeWords (EltTy.packing .f32)

variable [Facts₀]

def gather_S2x822944_S6x8x131072x1_S2x6x8x131072_0_1_n_n_1_3_21 : GatherDims S2x822944 S6x8x131072x1 S2x6x8x131072 where
  offsetDims := [0]
  collapsedSliceDims := [1]
  operandBatchingDims := []
  startIndicesBatchingDims := []
  startIndexMap := [1]
  indexVectorDim := 3
  sliceSizes := ![2, 1]
  wf := gather_S2x822944_S6x8x131072x1_S2x6x8x131072_0_1_n_n_1_3_21_wf
def gather_S10x2x524309_S10x8x131072x1_S10x2x8x131072_1_2_0_0_2_3_121 : GatherDims S10x2x524309 S10x8x131072x1 S10x2x8x131072 where
  offsetDims := [1]
  collapsedSliceDims := [2]
  operandBatchingDims := [0]
  startIndicesBatchingDims := [0]
  startIndexMap := [2]
  indexVectorDim := 3
  sliceSizes := ![1, 2, 1]
  wf := gather_S10x2x524309_S10x8x131072x1_S10x2x8x131072_1_2_0_0_2_3_121_wf

abbrev win0_0 : Pipeline.Window sig grid0 :=
  Pipeline.Window.ofSpec (Memref.whole main_v61) S2x16x8x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v79) S16x8x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v80) S2x16x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x65536x3 : Shape := ⟨3, ![2, 65536, 3]⟩
abbrev S822944x2 : Shape := ⟨2, ![822944, 2]⟩
abbrev S10x524309x2 : Shape := ⟨3, ![10, 524309, 2]⟩
abbrev S3 : Shape := ⟨1, ![3]⟩
abbrev S16x3 : Shape := ⟨2, ![16, 3]⟩
abbrev S8x3 : Shape := ⟨2, ![8, 3]⟩
abbrev S6x3 : Shape := ⟨2, ![6, 3]⟩
abbrev S6 : Shape := ⟨1, ![6]⟩
abbrev S131072x3 : Shape := ⟨2, ![131072, 3]⟩
abbrev S1x3 : Shape := ⟨2, ![1, 3]⟩
abbrev S1x131072x3 : Shape := ⟨3, ![1, 131072, 3]⟩
abbrev S16x1x3 : Shape := ⟨3, ![16, 1, 3]⟩
abbrev S16x131072x3 : Shape := ⟨3, ![16, 131072, 3]⟩
abbrev S16x131072x1x3 : Shape := ⟨4, ![16, 131072, 1, 3]⟩
abbrev S1x1x8x3 : Shape := ⟨4, ![1, 1, 8, 3]⟩
abbrev S16x131072x8x3 : Shape := ⟨4, ![16, 131072, 8, 3]⟩
abbrev S16x1x1x3 : Shape := ⟨4, ![16, 1, 1, 3]⟩
abbrev S_ : Shape := ⟨0, ![]⟩
abbrev S6x131072x8x3 : Shape := ⟨4, ![6, 131072, 8, 3]⟩
abbrev S6x1x1x3 : Shape := ⟨4, ![6, 1, 1, 3]⟩
abbrev S6x131072x8 : Shape := ⟨3, ![6, 131072, 8]⟩
abbrev S6x1x1 : Shape := ⟨3, ![6, 1, 1]⟩
abbrev S10x131072x8x1 : Shape := ⟨4, ![10, 131072, 8, 1]⟩
abbrev S10x131072x8 : Shape := ⟨3, ![10, 131072, 8]⟩
abbrev S6x131072x8x1 : Shape := ⟨4, ![6, 131072, 8, 1]⟩
abbrev S6x131072x8x2 : Shape := ⟨4, ![6, 131072, 8, 2]⟩
abbrev S10x1048576 : Shape := ⟨2, ![10, 1048576]⟩
abbrev S10x1048576x1 : Shape := ⟨3, ![10, 1048576, 1]⟩
abbrev S1 : Shape := ⟨1, ![1]⟩
abbrev S1x1x1 : Shape := ⟨3, ![1, 1, 1]⟩
abbrev S10x1048576x2 : Shape := ⟨3, ![10, 1048576, 2]⟩
abbrev S10x131072x8x2 : Shape := ⟨4, ![10, 131072, 8, 2]⟩
abbrev S16x131072x8x2 : Shape := ⟨4, ![16, 131072, 8, 2]⟩
abbrev S16x131072x8x1 : Shape := ⟨4, ![16, 131072, 8, 1]⟩
abbrev S16x131072x8 : Shape := ⟨3, ![16, 131072, 8]⟩
abbrev S16x131072x2 : Shape := ⟨3, ![16, 131072, 2]⟩
abbrev S131072x16x2 : Shape := ⟨3, ![131072, 16, 2]⟩
abbrev S131072x32 : Shape := ⟨2, ![131072, 32]⟩
abbrev S131072x35 : Shape := ⟨2, ![131072, 35]⟩
abbrev S2x65536x35 : Shape := ⟨3, ![2, 65536, 35]⟩

abbrev nBuf : Space → Nat
  | .hbm => 160
  | .vmem => 0
  | .smem => 0
  | _ => 0

abbrev hbmTy0_0 (i : Nat) : BufTy := match i % 128 with
  | 0 => ⟨S2x65536x3, .f32⟩
  | 1 => ⟨S822944x2, .f32⟩
  | 2 => ⟨S10x524309x2, .f32⟩
  | 3 => ⟨S3, .f32⟩
  | 4 => ⟨S3, .f32⟩
  | 5 => ⟨S16x3, .f32⟩
  | 6 => ⟨S8x3, .f32⟩
  | 7 => ⟨S16x3, .i32⟩
  | 8 => ⟨S6x3, .i32⟩
  | 9 => ⟨S6, .i32⟩
  | 10 => ⟨S131072x3, .f32⟩
  | 11 => ⟨S1x3, .f32⟩
  | 12 => ⟨S131072x3, .f32⟩
  | 13 => ⟨S131072x3, .f32⟩
  | 14 => ⟨S1x3, .f32⟩
  | 15 => ⟨S131072x3, .f32⟩
  | 16 => ⟨S131072x3, .f32⟩
  | 17 => ⟨S1x131072x3, .f32⟩
  | 18 => ⟨S16x1x3, .f32⟩
  | 19 => ⟨S16x131072x3, .f32⟩
  | 20 => ⟨S16x131072x3, .f32⟩
  | 21 => ⟨S16x131072x3, .f32⟩
  | 22 => ⟨S16x131072x1x3, .f32⟩
  | 23 => ⟨S1x1x8x3, .f32⟩
  | 24 => ⟨S16x131072x8x3, .f32⟩
  | 25 => ⟨S16x131072x8x3, .f32⟩
  | 26 => ⟨S16x131072x8x3, .f32⟩
  | 27 => ⟨S16x131072x8x3, .i32⟩
  | 28 => ⟨S16x1x1x3, .i32⟩
  | 29 => ⟨S_, .i32⟩
  | 30 => ⟨S16x1x1x3, .i32⟩
  | 31 => ⟨S16x1x1x3, .i32⟩
  | 32 => ⟨S_, .i32⟩
  | 33 => ⟨S_, .i32⟩
  | 34 => ⟨S16x131072x8x3, .i32⟩
  | 35 => ⟨S16x131072x8x3, .i32⟩
  | 36 => ⟨S16x131072x8x3, .i32⟩
  | 37 => ⟨S16x131072x8x3, .i32⟩
  | 38 => ⟨S16x131072x1x3, .i32⟩
  | 39 => ⟨S16x131072x3, .i32⟩
  | 40 => ⟨S16x131072x3, .f32⟩
  | 41 => ⟨S16x131072x3, .f32⟩
  | 42 => ⟨S6x131072x8x3, .i32⟩
  | 43 => ⟨S6x1x1x3, .i32⟩
  | 44 => ⟨S6x131072x8x3, .i32⟩
  | 45 => ⟨S6x131072x8x3, .i32⟩
  | 46 => ⟨S_, .i32⟩
  | 47 => ⟨S6x131072x8, .i32⟩
  | 48 => ⟨S6x1x1, .i32⟩
  | 49 => ⟨S6x131072x8, .i32⟩
  | 50 => ⟨S6x131072x8, .i32⟩
  | 51 => ⟨S10x131072x8x1, .i32⟩
  | 52 => ⟨S10x131072x8, .i32⟩
  | 53 => ⟨S_, .i32⟩
  | 54 => ⟨S10x131072x8, .i32⟩
  | 55 => ⟨S10x131072x8x1, .i32⟩
  | 56 => ⟨S10x131072x8, .i32⟩
  | 57 => ⟨S_, .i32⟩
  | 58 => ⟨S10x131072x8, .i32⟩
  | 59 => ⟨S10x131072x8, .i32⟩
  | 60 => ⟨S10x131072x8, .i32⟩
  | 61 => ⟨S10x131072x8x1, .i32⟩
  | 62 => ⟨S10x131072x8, .i32⟩
  | 63 => ⟨S_, .i32⟩
  | 64 => ⟨S10x131072x8, .i32⟩
  | 65 => ⟨S10x131072x8, .i32⟩
  | 66 => ⟨S10x131072x8, .i32⟩
  | 67 => ⟨S10x131072x8x1, .i32⟩
  | 68 => ⟨S10x131072x8, .i32⟩
  | 69 => ⟨S_, .i32⟩
  | 70 => ⟨S10x131072x8, .i32⟩
  | 71 => ⟨S10x131072x8, .i32⟩
  | 72 => ⟨S10x131072x8, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S10x131072x8, .i32⟩
  | 80 => ⟨S10x131072x8, .i32⟩
  | 81 => ⟨S_, .i32⟩
  | 82 => ⟨S10x131072x8, .i32⟩
  | 83 => ⟨S10x131072x8, .i1⟩
  | 84 => ⟨S_, .i32⟩
  | 85 => ⟨S10x131072x8, .i32⟩
  | 86 => ⟨S10x131072x8, .i1⟩
  | 87 => ⟨S_, .i32⟩
  | 88 => ⟨S_, .i1⟩
  | 89 => ⟨S10x131072x8, .i1⟩
  | 90 => ⟨S10x131072x8, .i1⟩
  | 91 => ⟨S10x131072x8, .i1⟩
  | 92 => ⟨S10x131072x8, .i32⟩
  | 93 => ⟨S10x131072x8, .i32⟩
  | 94 => ⟨S10x131072x8, .i32⟩
  | 95 => ⟨S_, .i32⟩
  | 96 => ⟨S6x131072x8, .i32⟩
  | 97 => ⟨S6x131072x8, .i1⟩
  | 98 => ⟨S_, .i32⟩
  | 99 => ⟨S6x131072x8, .i32⟩
  | 100 => ⟨S6x131072x8, .i32⟩
  | 101 => ⟨S6x131072x8, .i32⟩
  | 102 => ⟨S6x131072x8x1, .i32⟩
  | 103 => ⟨S6x131072x8x2, .f32⟩
  | 104 => ⟨S10x1048576, .i32⟩
  | 105 => ⟨S10x1048576x1, .i32⟩
  | 106 => ⟨S_, .i32⟩
  | 107 => ⟨S10x1048576x1, .i32⟩
  | 108 => ⟨S10x1048576x1, .i1⟩
  | 109 => ⟨S_, .i32⟩
  | 110 => ⟨S10x1048576x1, .i32⟩
  | 111 => ⟨S10x1048576x1, .i32⟩
  | 112 => ⟨S10x1048576x1, .i32⟩
  | 113 => ⟨S1, .i32⟩
  | 114 => ⟨S_, .i32⟩
  | 115 => ⟨S10x1048576x1, .i32⟩
  | 116 => ⟨S10x1048576x1, .i1⟩
  | 117 => ⟨S1x1x1, .i32⟩
  | 118 => ⟨S10x1048576x1, .i32⟩
  | 119 => ⟨S10x1048576x1, .i1⟩
  | 120 => ⟨S10x1048576x1, .i1⟩
  | 121 => ⟨S_, .i1⟩
  | 122 => ⟨S10x1048576, .i1⟩
  | 123 => ⟨S10x1048576x2, .f32⟩
  | 124 => ⟨S10x1048576x2, .i1⟩
  | 125 => ⟨S_, .f32⟩
  | 126 => ⟨S10x1048576x2, .f32⟩
  | 127 => ⟨S10x1048576x2, .f32⟩
  | _ => ⟨S2x65536x3, .f32⟩

abbrev hbmTy0_1 (i : Nat) : BufTy := match i % 128 with
  | 0 => ⟨S10x131072x8x2, .f32⟩
  | 1 => ⟨S16x131072x8x2, .f32⟩
  | 2 => ⟨S1x1x8x3, .f32⟩
  | 3 => ⟨S_, .f32⟩
  | 4 => ⟨S1x1x8x3, .f32⟩
  | 5 => ⟨S1x1x8x3, .f32⟩
  | 6 => ⟨S_, .f32⟩
  | 7 => ⟨S1x1x8x3, .f32⟩
  | 8 => ⟨S1x1x8x3, .f32⟩
  | 9 => ⟨S_, .f32⟩
  | 10 => ⟨S1x1x8x3, .f32⟩
  | 11 => ⟨S1x1x8x3, .f32⟩
  | 12 => ⟨S16x131072x1x3, .f32⟩
  | 13 => ⟨S16x131072x8x3, .f32⟩
  | 14 => ⟨S16x131072x8x3, .f32⟩
  | 15 => ⟨S16x131072x8x3, .f32⟩
  | 16 => ⟨S16x131072x8x3, .f32⟩
  | 17 => ⟨S16x131072x8x3, .f32⟩
  | 18 => ⟨S16x131072x8x1, .f32⟩
  | 19 => ⟨S16x131072x8, .f32⟩
  | 20 => ⟨S16x131072x8x1, .f32⟩
  | 21 => ⟨S16x131072x8, .f32⟩
  | 22 => ⟨S16x131072x8, .f32⟩
  | 23 => ⟨S16x131072x8x1, .f32⟩
  | 24 => ⟨S16x131072x8x2, .f32⟩
  | 25 => ⟨S16x131072x8x2, .f32⟩
  | 26 => ⟨S_, .f32⟩
  | 27 => ⟨S16x131072x2, .f32⟩
  | 28 => ⟨S131072x16x2, .f32⟩
  | 29 => ⟨S131072x32, .f32⟩
  | 30 => ⟨S131072x35, .f32⟩
  | 31 => ⟨S2x65536x35, .f32⟩
  | _ => ⟨S2x65536x3, .f32⟩

abbrev hbmTy (i : Nat) : BufTy := match i / 128 with
  | 0 => hbmTy0_0 i
  | 1 => hbmTy0_1 i
  | _ => ⟨S2x65536x3, .f32⟩

abbrev bufTy : (tb : Table) → Fin (tcTables nBuf tb) → BufTy
  | .hbm, ⟨i, _⟩ => hbmTy i
  | _, _ => ⟨S2x65536x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_cst_2 : Ref sig .tc := ⟨.hbm, 6, rfl⟩
abbrev main_c : Ref sig .tc := ⟨.hbm, 7, rfl⟩
abbrev main_c_3 : Ref sig .tc := ⟨.hbm, 8, rfl⟩
abbrev main_c_4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_5 : Ref sig .tc := ⟨.hbm, 29, rfl⟩
abbrev main_v19 : Ref sig .tc := ⟨.hbm, 30, rfl⟩
abbrev main_v20 : Ref sig .tc := ⟨.hbm, 31, rfl⟩
abbrev main_c_6 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_10 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_12 : Ref sig .tc := ⟨.hbm, 73, rfl⟩
abbrev main_call1_v0 : Ref sig .tc := ⟨.hbm, 74, rfl⟩
abbrev main_call1_c : Ref sig .tc := ⟨.hbm, 75, rfl⟩
abbrev main_call1_v1 : Ref sig .tc := ⟨.hbm, 76, rfl⟩
abbrev main_call1_c_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_c_1 : Ref sig .tc := ⟨.hbm, 81, rfl⟩
abbrev main_call1_v5 : Ref sig .tc := ⟨.hbm, 82, rfl⟩
abbrev main_call1_v6 : Ref sig .tc := ⟨.hbm, 83, rfl⟩
abbrev main_call1_c_2 : Ref sig .tc := ⟨.hbm, 84, rfl⟩
abbrev main_call1_v7 : Ref sig .tc := ⟨.hbm, 85, rfl⟩
abbrev main_call1_v8 : Ref sig .tc := ⟨.hbm, 86, rfl⟩
abbrev main_call1_c_3 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_v12 : Ref sig .tc := ⟨.hbm, 91, rfl⟩
abbrev main_call1_v13 : Ref sig .tc := ⟨.hbm, 92, rfl⟩
abbrev main_call1_v14 : Ref sig .tc := ⟨.hbm, 93, rfl⟩
abbrev main_v52 : Ref sig .tc := ⟨.hbm, 94, rfl⟩
abbrev main_c_13 : Ref sig .tc := ⟨.hbm, 95, rfl⟩
abbrev main_v53 : Ref sig .tc := ⟨.hbm, 96, rfl⟩
abbrev main_v54 : Ref sig .tc := ⟨.hbm, 97, rfl⟩
abbrev main_c_14 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_call2_c : Ref sig .tc := ⟨.hbm, 106, rfl⟩
abbrev main_call2_v0 : Ref sig .tc := ⟨.hbm, 107, rfl⟩
abbrev main_call2_v1 : Ref sig .tc := ⟨.hbm, 108, rfl⟩
abbrev main_call2_c_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_c_1 : Ref sig .tc := ⟨.hbm, 113, rfl⟩
abbrev main_call2_c_2 : Ref sig .tc := ⟨.hbm, 114, rfl⟩
abbrev main_call2_v5 : Ref sig .tc := ⟨.hbm, 115, rfl⟩
abbrev main_call2_v6 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_call2_c_3 : Ref sig .tc := ⟨.hbm, 121, rfl⟩
abbrev main_call2_v11 : Ref sig .tc := ⟨.hbm, 122, rfl⟩
abbrev main_call2_v12 : Ref sig .tc := ⟨.hbm, 123, rfl⟩
abbrev main_call2_v13 : Ref sig .tc := ⟨.hbm, 124, rfl⟩
abbrev main_call2_cst : Ref sig .tc := ⟨.hbm, 125, rfl⟩
abbrev main_call2_v14 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_cst_15 : Ref sig .tc := ⟨.hbm, 131, rfl⟩
abbrev main_v66 : Ref sig .tc := ⟨.hbm, 132, rfl⟩
abbrev main_v67 : Ref sig .tc := ⟨.hbm, 133, rfl⟩
abbrev main_cst_16 : Ref sig .tc := ⟨.hbm, 134, rfl⟩
abbrev main_v68 : Ref sig .tc := ⟨.hbm, 135, rfl⟩
abbrev main_v69 : Ref sig .tc := ⟨.hbm, 136, rfl⟩
abbrev main_cst_17 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_cst_18 : Ref sig .tc := ⟨.hbm, 154, rfl⟩
abbrev main_v86 : Ref sig .tc := ⟨.hbm, 155, rfl⟩
abbrev main_v87 : Ref sig .tc := ⟨.hbm, 156, rfl⟩
abbrev main_v88 : Ref sig .tc := ⟨.hbm, 157, rfl⟩
abbrev main_v89 : Ref sig .tc := ⟨.hbm, 158, rfl⟩
abbrev main_v90 : Ref sig .tc := ⟨.hbm, 159, rfl⟩

abbrev nD : Nat := 1
abbrev τ : Topo := Topo.v7x

variable {F : FTy → Type} [FloatOps F]

class Facts₀ : Prop where
  shapeCasts_S2x65536x3_S131072x3 : S2x65536x3.ShapeCasts S131072x3
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  bcast_S131072x3_S1x131072x3_1_2 : S131072x3.BroadcastsInDim S1x131072x3 (![1, 2] : Fin 2 → Fin S1x131072x3.rank)
  bcast_S16x3_S16x1x3_0_2 : S16x3.BroadcastsInDim S16x1x3 (![0, 2] : Fin 2 → Fin S16x1x3.rank)
  bcast_S1x131072x3_S16x131072x3_0_1_2 : S1x131072x3.BroadcastsInDim S16x131072x3 (![0, 1, 2] : Fin 3 → Fin S16x131072x3.rank)
  bcast_S16x1x3_S16x131072x3_0_1_2 : S16x1x3.BroadcastsInDim S16x131072x3 (![0, 1, 2] : Fin 3 → Fin S16x131072x3.rank)
  bcast_S16x131072x3_S16x131072x1x3_0_1_3 : S16x131072x3.BroadcastsInDim S16x131072x1x3 (![0, 1, 3] : Fin 3 → Fin S16x131072x1x3.rank)
  bcast_S8x3_S1x1x8x3_2_3 : S8x3.BroadcastsInDim S1x1x8x3 (![2, 3] : Fin 2 → Fin S1x1x8x3.rank)
  bcast_S16x131072x1x3_S16x131072x8x3_0_1_2_3 : S16x131072x1x3.BroadcastsInDim S16x131072x8x3 (![0, 1, 2, 3] : Fin 4 → Fin S16x131072x8x3.rank)
  bcast_S1x1x8x3_S16x131072x8x3_0_1_2_3 : S1x1x8x3.BroadcastsInDim S16x131072x8x3 (![0, 1, 2, 3] : Fin 4 → Fin S16x131072x8x3.rank)
  bcast_S16x3_S16x1x1x3_0_3 : S16x3.BroadcastsInDim S16x1x1x3 (![0, 3] : Fin 2 → Fin S16x1x1x3.rank)
  bcast_S_S16x1x1x3 : S_.BroadcastsInDim S16x1x1x3 (![] : Fin 0 → Fin S16x1x1x3.rank)
  bcast_S_S16x131072x8x3 : S_.BroadcastsInDim S16x131072x8x3 (![] : Fin 0 → Fin S16x131072x8x3.rank)
  bcast_S16x1x1x3_S16x131072x8x3_0_1_2_3 : S16x1x1x3.BroadcastsInDim S16x131072x8x3 (![0, 1, 2, 3] : Fin 4 → Fin S16x131072x8x3.rank)
  slices_S16x131072x8x3_S16x131072x1x3_0_0_0_0 : S16x131072x8x3.Slices ![0, 0, 0, 0] S16x131072x1x3
  shapeCasts_S16x131072x1x3_S16x131072x3 : S16x131072x1x3.ShapeCasts S16x131072x3
  slices_S16x131072x8x3_S6x131072x8x3_0_0_0_0 : S16x131072x8x3.Slices ![0, 0, 0, 0] S6x131072x8x3
  bcast_S6x3_S6x1x1x3_0_3 : S6x3.BroadcastsInDim S6x1x1x3 (![0, 3] : Fin 2 → Fin S6x1x1x3.rank)
  bcast_S6x1x1x3_S6x131072x8x3_0_1_2_3 : S6x1x1x3.BroadcastsInDim S6x131072x8x3 (![0, 1, 2, 3] : Fin 4 → Fin S6x131072x8x3.rank)
  reducesTo_S6x131072x8x3_S6x131072x8_d3 : S6x131072x8x3.ReducesTo [3] S6x131072x8
  h_S_ : 0 < S_.numel
  bcast_S6_S6x1x1_0 : S6.BroadcastsInDim S6x1x1 (![0] : Fin 1 → Fin S6x1x1.rank)
  bcast_S6x1x1_S6x131072x8_0_1_2 : S6x1x1.BroadcastsInDim S6x131072x8 (![0, 1, 2] : Fin 3 → Fin S6x131072x8.rank)
  slices_S16x131072x8x3_S10x131072x8x1_6_0_0_0 : S16x131072x8x3.Slices ![6, 0, 0, 0] S10x131072x8x1
  shapeCasts_S10x131072x8x1_S10x131072x8 : S10x131072x8x1.ShapeCasts S10x131072x8
  bcast_S_S10x131072x8 : S_.BroadcastsInDim S10x131072x8 (![] : Fin 0 → Fin S10x131072x8.rank)
  slices_S16x131072x8x3_S10x131072x8x1_6_0_0_1 : S16x131072x8x3.Slices ![6, 0, 0, 1] S10x131072x8x1
  slices_S16x131072x8x3_S10x131072x8x1_6_0_0_2 : S16x131072x8x3.Slices ![6, 0, 0, 2] S10x131072x8x1
  bcast_S_S6x131072x8 : S_.BroadcastsInDim S6x131072x8 (![] : Fin 0 → Fin S6x131072x8.rank)
  bcast_S6x131072x8_S6x131072x8x1_0_1_2 : S6x131072x8.BroadcastsInDim S6x131072x8x1 (![0, 1, 2] : Fin 3 → Fin S6x131072x8x1.rank)
  shapeCasts_S10x131072x8_S10x1048576 : S10x131072x8.ShapeCasts S10x1048576
  bcast_S10x1048576_S10x1048576x1_0_1 : S10x1048576.BroadcastsInDim S10x1048576x1 (![0, 1] : Fin 2 → Fin S10x1048576x1.rank)
  bcast_S_S10x1048576x1 : S_.BroadcastsInDim S10x1048576x1 (![] : Fin 0 → Fin S10x1048576x1.rank)
  bcast_S1_S1x1x1_2 : S1.BroadcastsInDim S1x1x1 (![2] : Fin 1 → Fin S1x1x1.rank)
  bcast_S1x1x1_S10x1048576x1_0_1_2 : S1x1x1.BroadcastsInDim S10x1048576x1 (![0, 1, 2] : Fin 3 → Fin S10x1048576x1.rank)
  reducesTo_S10x1048576x1_S10x1048576_d2 : S10x1048576x1.ReducesTo [2] S10x1048576
  bcast_S10x1048576_S10x1048576x2_0_1 : S10x1048576.BroadcastsInDim S10x1048576x2 (![0, 1] : Fin 2 → Fin S10x1048576x2.rank)
  bcast_S_S10x1048576x2 : S_.BroadcastsInDim S10x1048576x2 (![] : Fin 0 → Fin S10x1048576x2.rank)
  shapeCasts_S10x1048576x2_S10x131072x8x2 : S10x1048576x2.ShapeCasts S10x131072x8x2
  concatenates_S6x131072x8x2_S10x131072x8x2_S16x131072x8x2_d0 : Shape.Concatenates [S6x131072x8x2, S10x131072x8x2] S16x131072x8x2 0
  bcast_S_S1x1x8x3 : S_.BroadcastsInDim S1x1x8x3 (![] : Fin 0 → Fin S1x1x8x3.rank)
  slices_S16x131072x8x3_S16x131072x8x1_0_0_0_0 : S16x131072x8x3.Slices ![0, 0, 0, 0] S16x131072x8x1
  shapeCasts_S16x131072x8x1_S16x131072x8 : S16x131072x8x1.ShapeCasts S16x131072x8
  slices_S16x131072x8x3_S16x131072x8x1_0_0_0_1 : S16x131072x8x3.Slices ![0, 0, 0, 1] S16x131072x8x1
  bcast_S16x131072x8_S16x131072x8x1_0_1_2 : S16x131072x8.BroadcastsInDim S16x131072x8x1 (![0, 1, 2] : Fin 3 → Fin S16x131072x8x1.rank)
  bcast_S16x131072x8x1_S16x131072x8x2_0_1_2_3 : S16x131072x8x1.BroadcastsInDim S16x131072x8x2 (![0, 1, 2, 3] : Fin 4 → Fin S16x131072x8x2.rank)
  reducesTo_S16x131072x8x2_S16x131072x2_d2 : S16x131072x8x2.ReducesTo [2] S16x131072x2
  transposes_S16x131072x2_S131072x16x2_1_0_2 : S16x131072x2.Transposes [1, 0, 2] S131072x16x2
  shapeCasts_S131072x16x2_S131072x32 : S131072x16x2.ShapeCasts S131072x32
  concatenates_S131072x3_S131072x32_S131072x35_d1 : Shape.Concatenates [S131072x3, S131072x32] S131072x35 1
  shapeCasts_S131072x35_S2x65536x35 : S131072x35.ShapeCasts S2x65536x35
  gather_S822944x2_S6x131072x8x1_S6x131072x8x2_3_0_n_n_0_3_12_wf : GatherDims.WF S822944x2 S6x131072x8x1 S6x131072x8x2 [3] [0] [] [0] [] 3 ![1, 2]
  gather_S10x524309x2_S10x1048576x1_S10x1048576x2_2_1_0_0_1_2_112_wf : GatherDims.WF S10x524309x2 S10x1048576x1 S10x1048576x2 [2] [1] [0] [1] [0] 2 ![1, 1, 2]

variable [Facts₀]

def gather_S822944x2_S6x131072x8x1_S6x131072x8x2_3_0_n_n_0_3_12 : GatherDims S822944x2 S6x131072x8x1 S6x131072x8x2 where
  offsetDims := [3]
  collapsedSliceDims := [0]
  operandBatchingDims := []
  startIndicesBatchingDims := []
  startIndexMap := [0]
  indexVectorDim := 3
  sliceSizes := ![1, 2]
  wf := gather_S822944x2_S6x131072x8x1_S6x131072x8x2_3_0_n_n_0_3_12_wf
def gather_S10x524309x2_S10x1048576x1_S10x1048576x2_2_1_0_0_1_2_112 : GatherDims S10x524309x2 S10x1048576x1 S10x1048576x2 where
  offsetDims := [2]
  collapsedSliceDims := [1]
  operandBatchingDims := [0]
  startIndicesBatchingDims := [0]
  startIndexMap := [1]
  indexVectorDim := 2
  sliceSizes := ![1, 1, 2]
  wf := gather_S10x524309x2_S10x1048576x1_S10x1048576x2_2_1_0_0_1_2_112_wf

class Facts : Prop extends Facts₀ where

variable [Facts]
-- ==== Proof.KPayload.lean ====
/-
  The body of the one region: each output entry (f, l, n) of a block is the sum over the eight corners k of
  value(f, l, k, n) times weight(l, k, n) — the weight block, given a leading unit axis and spread over the two
  features, multiplied entrywise into the value block and summed along the corner axis from zero.
-/
import proofs.«133126_j89799176225629_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Region

open Cert.KernelIdeal Cert.KernelIdeal.Facts₀ Idealize.ShloMosaic Idealize.ShloMosaic.ValueIdx

/-- The index the corner axis's coordinate k is inserted into. -/
theorem lift_eq (f : Fin 2) (l : Fin 16) (n : Fin 4096) (k : Fin 8) :
    reduces_S2x16x8x4096_S2x16x4096.lift (ix3 f l n) k = ix4 f l k n := by
  funext a; apply Fin.ext
  match a with
  | ⟨0, _⟩ => rfl
  | ⟨1, _⟩ => rfl
  | ⟨2, _⟩ => rfl
  | ⟨3, _⟩ => rfl

/-- The weight block spread over the features, read at an entry. -/
theorem spread_apply (x1 : Vec Ideal S16x8x4096 .f32) (f : Fin 2) (l : Fin 16) (k : Fin 8) (n : Fin 4096) :
    broadcastTo S2x16x8x4096 (shapeCast S1x16x8x4096 x1 shapeCasts_S16x8x4096_S1x16x8x4096)
      broadcasts_S1x16x8x4096_S2x16x8x4096 (ix4 f l k n) = x1 (ix3 l k n) := by
  rw [broadcastTo_apply _ _ (ix4 f l k n) (ix4 (0 : Fin 1) l k n) (fun a => by
    match a with
    | ⟨0, _⟩ => rfl
    | ⟨1, _⟩ => rfl
    | ⟨2, _⟩ => rfl
    | ⟨3, _⟩ => rfl)]
  rw [shapeCast_addUnit_apply]
  refine congrArg x1 (funext fun a => ?_)
  match a with
  | ⟨0, _⟩ => rfl
  | ⟨1, _⟩ => rfl
  | ⟨2, _⟩ => rfl

/-- The stored block at an entry: the sum over the corners of value times weight. -/
theorem pay_apply (x0 : Vec Ideal S2x16x8x4096 .f32) (x1 : Vec Ideal S16x8x4096 .f32) (f : Fin 2) (l : Fin 16)
    (n : Fin 4096) :
    Gen.k0_pay1 (F := Ideal) x0 x1 (ix3 f l n) = ∑ k : Fin 8, x0 (ix4 f l k n) * x1 (ix3 l k n) := by
  unfold Gen.k0_pay1
  dsimp only
  rw [shapeCast_self, shapeCast_self]
  refine (Ideal.multiReduction_add_single _ _ _ _ _ _).trans ?_
  show ∑ k : Fin 8, _ = _
  refine Finset.sum_congr rfl fun k _ => ?_
  rw [lift_eq]
  show x0 (ix4 f l k n) * _ = _
  rw [spread_apply]

end Cert.KernelIdeal.Region

end
-- ==== Proof.KCover.lean ====
/-
  The 32 grid points' output blocks tile the output array: an index (f, l, n) lies in the block of the point
  n / 4096.
-/
import proofs.«133126_j89799176225629_2_alg».proof.Proof.Gen.KernelIdeal.Frame
import Idealize.ShloMosaic.Lib.Pipeline.Value

noncomputable section

namespace Cert.KernelIdeal.Region

open Cert.KernelIdeal Idealize.ShloMosaic Idealize.ShloMosaic.TcCoe Idealize.SL.Sem

/-- Every column block is some point's. -/
theorem idx_onto : ∀ q : Fin 32, ∃ t : Fin cfg0.N, win0_2.index t = ![0, 0, q.val] :=
  (by decide +kernel : ∀ q : Fin 32, ∃ t : Fin grid0.N, win0_2.index t = ![0, 0, q.val])

/-- An index of the output is in point t's block iff each coordinate is in the block's range on its axis. -/
theorem mem_blk (t : Fin cfg0.N) (i : S2x16x131072.Idx) :
    i ∈ ((cfg0.win 2).blk t).view.set ↔ ∀ a : Fin 3, win0_2.index t a * S2x16x4096.size a ≤ (i a).val ∧ (i a).val < win0_2.index t a * S2x16x4096.size a + S2x16x4096.size a := by
  show i ∈ ((View.whole main_v80).slice (win0_2.rect t)).set ↔ _
  rw [View.set_slice_whole, Rect.mem_set_unit]
  exact Iff.rfl

/-- Every index of the output lies in the block of the point that owns its column block. -/
theorem cover (i : S2x16x131072.Idx) :
    ∃ t : Fin cfg0.N, (cfg0.win 2).flush t = true ∧ i ∈ ((cfg0.win 2).blk t).view.set := by
  have hi0 : (i 0).val < 2 := (i 0).isLt
  have hi1 : (i 1).val < 16 := (i 1).isLt
  have hi2 : (i 2).val < 131072 := (i 2).isLt
  obtain ⟨t, ht⟩ := idx_onto ⟨(i 2).val / 4096, by omega⟩
  have q0 : win0_2.index t (0 : Fin 3) = 0 := congrFun ht 0
  have q1 : win0_2.index t (1 : Fin 3) = 0 := congrFun ht 1
  have q2 : win0_2.index t (2 : Fin 3) = (i 2).val / 4096 := congrFun ht 2
  refine ⟨t, Gen.flush0_2 t, ?_⟩
  rw [mem_blk]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 16 ≤ (i 1).val ∧ (i 1).val < win0_2.index t (1 : Fin 3) * 16 + 16; omega
  | ⟨2, _⟩ => show win0_2.index t (2 : Fin 3) * 4096 ≤ (i 2).val ∧ (i 2).val < win0_2.index t (2 : Fin 3) * 4096 + 4096; omega

end Cert.KernelIdeal.Region

end
-- ==== Proof.KRegion.lean ====
/-
  The region's output array.  Grid point t stages columns [4096 t, 4096 t + 4096) of the value array (F, L, K, N)
  and of the weight array (L, K, N), and writes back the same columns of the output (F, L, N); its block is, entry
  by entry, the sum over the corners of value times weight.  The 32 points' blocks tile the output, so after the
  region the output array is that sum at every index.
-/
import proofs.«133126_j89799176225629_2_alg».proof.Proof.Gen.KernelIdeal.Frame
import proofs.«133126_j89799176225629_2_alg».proof.Proof.KPayload
import proofs.«133126_j89799176225629_2_alg».proof.Proof.KCover
import Idealize.ShloMosaic.Lib.Pipeline.Value

noncomputable section

namespace Cert.KernelIdeal.Region

open Cert.KernelIdeal Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The weighted corner sum of a value array and a weight array, as one array over (F, L, N). -/
def G (val : S2x16x8x131072.Idx → EReal) (w : S16x8x131072.Idx → EReal) : S2x16x131072.Idx → EReal :=
  fun i => ∑ k : Fin 8, val (ix4 (i 0) (i 1) k (i 2)) * w (ix3 (i 1) k (i 2))

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The three windows' block indices at a grid point: only the column block moves, and all three move together. -/
theorem idx_facts : ∀ t : Fin cfg0.N,
    win0_0.index t (0 : Fin 4) = 0 ∧ win0_0.index t (1 : Fin 4) = 0 ∧ win0_0.index t (2 : Fin 4) = 0
    ∧ win0_0.index t (3 : Fin 4) = win0_2.index t (2 : Fin 3)
    ∧ win0_1.index t (0 : Fin 3) = 0 ∧ win0_1.index t (1 : Fin 3) = 0
    ∧ win0_1.index t (2 : Fin 3) = win0_2.index t (2 : Fin 3)
    ∧ win0_2.index t (0 : Fin 3) = 0 ∧ win0_2.index t (1 : Fin 3) = 0 ∧ win0_2.index t (2 : Fin 3) < 32 :=
  (by decide +kernel : ∀ t : Fin grid0.N, _)

/-- The weighted corner sum of two blocks, entry by entry. -/
def Gblk (x0 : Vec Ideal S2x16x8x4096 .f32) (x1 : Vec Ideal S16x8x4096 .f32) : S2x16x4096.Idx → EReal :=
  fun j => ∑ k : Fin 8, x0 (ix4 (j 0) (j 1) k (j 2)) * x1 (ix3 (j 1) k (j 2))

/-- What the body leaves in the output's staging buffer is the weighted corner sum of the two input blocks. -/
theorem out_eq (x0 : Vec Ideal S2x16x8x4096 .f32) (x1 : Vec Ideal S16x8x4096 .f32) :
    Gen.out0_2 x0 x1 = Gblk x0 x1 := by
  unfold Gen.out0_2
  rw [View.canon_unit_zero hz3]
  simp only [View.ld_unit_zero (S := S2x16x8x4096) hz4, View.ld_unit_zero (S := S16x8x4096) hz3]
  funext j
  obtain ⟨f, l, n, rfl⟩ : ∃ (f : Fin 2) (l : Fin 16) (n : Fin 4096), j = ix3 f l n := ⟨j 0, j 1, j 2, eq_ix3 j⟩
  exact pay_apply x0 x1 f l n

/-- An entry of point t's value block is the entry of the staged value array at the block's place. -/
theorem blk0_read (c : Dev nD) (t : Fin cfg0.N) (y : S2x16x8x4096.Idx) (i : S2x16x8x131072.Idx)
    (h : ∀ a : Fin 4, (i a).val = win0_0.index t a * S2x16x8x4096.size a + (y a).val) :
    Gen.iblk m c 0 t y = Gen.V m c (Pipeline.arrRef spec0 0) i := by
  have he : ((cfg0.win 0).blk t).view.emb y = i := by
    refine funext fun a => Fin.ext ?_
    rw [h a]
    exact Pipeline.Window.rect_emb_val win0_0 t y a
  unfold Gen.iblk
  rw [View.read_apply]
  refine (cast_eq _ _).trans ?_
  rw [he]

/-- An entry of point t's weight block is the entry of the staged weight array at the block's place. -/
theorem blk1_read (c : Dev nD) (t : Fin cfg0.N) (y : S16x8x4096.Idx) (i : S16x8x131072.Idx)
    (h : ∀ a : Fin 3, (i a).val = win0_1.index t a * S16x8x4096.size a + (y a).val) :
    Gen.iblk m c 1 t y = Gen.V m c (Pipeline.arrRef spec0 1) i := by
  have he : ((cfg0.win 1).blk t).view.emb y = i := by
    refine funext fun a => Fin.ext ?_
    rw [h a]
    exact Pipeline.Window.rect_emb_val win0_1 t y a
  unfold Gen.iblk
  rw [View.read_apply]
  refine (cast_eq _ _).trans ?_
  rw [he]

set_option maxHeartbeats 400000 in
/-- What point t writes back is block t of the weighted corner sum of the two staged arrays. -/
theorem flushed_eq (c : Dev nD) (t : Fin cfg0.N) :
    (Gen.dats m 0 c).flushed 2 t
      = ((cfg0.win 2).blk t).view.read (Elt Ideal)
          (G (Gen.V m c (Pipeline.arrRef spec0 0)) (Gen.V m c (Pipeline.arrRef spec0 1))) := by
  show (cfg0.win 2).cut (grid0.coords t) ((Gen.dats m 0 c).after 2 t) = _
  rw [Gen.after0_2, out_eq]
  obtain ⟨e0, e1, e2, e3, e4, e5, e6, e7, e8, e9⟩ := idx_facts t
  funext j
  show Gblk (Gen.iblk m c 0 t) (Gen.iblk m c 1 t) j = G _ _ (((cfg0.win 2).blk t).view.emb j)
  unfold Gblk G
  refine Finset.sum_congr rfl fun k _ => ?_
  have E0 : ((((cfg0.win 2).blk t).view.emb j) 0).val = win0_2.index t (0 : Fin 3) * 2 + (j 0).val :=
    Pipeline.Window.rect_emb_val win0_2 t j 0
  have E1 : ((((cfg0.win 2).blk t).view.emb j) 1).val = win0_2.index t (1 : Fin 3) * 16 + (j 1).val :=
    Pipeline.Window.rect_emb_val win0_2 t j 1
  have E2 : ((((cfg0.win 2).blk t).view.emb j) 2).val = win0_2.index t (2 : Fin 3) * 4096 + (j 2).val :=
    Pipeline.Window.rect_emb_val win0_2 t j 2
  rw [blk0_read m c t (ix4 (j 0) (j 1) k (j 2))
      (ix4 ((((cfg0.win 2).blk t).view.emb j) 0) ((((cfg0.win 2).blk t).view.emb j) 1) k ((((cfg0.win 2).blk t).view.emb j) 2))
      (fun a => by
        match a with
        | ⟨0, _⟩ => show _ = win0_0.index t (0 : Fin 4) * 2 + (j 0).val; rw [E0, e0, e7]
        | ⟨1, _⟩ => show _ = win0_0.index t (1 : Fin 4) * 16 + (j 1).val; rw [E1, e1, e8]
        | ⟨2, _⟩ => show k.val = win0_0.index t (2 : Fin 4) * 8 + k.val; rw [e2, Nat.zero_mul, Nat.zero_add]
        | ⟨3, _⟩ => show _ = win0_0.index t (3 : Fin 4) * 4096 + (j 2).val; rw [E2, e3]),
    blk1_read m c t (ix3 (j 1) k (j 2))
      (ix3 ((((cfg0.win 2).blk t).view.emb j) 1) k ((((cfg0.win 2).blk t).view.emb j) 2))
      (fun a => by
        match a with
        | ⟨0, _⟩ => show _ = win0_1.index t (0 : Fin 3) * 16 + (j 1).val; rw [E1, e4, e8]
        | ⟨1, _⟩ => show k.val = win0_1.index t (1 : Fin 3) * 8 + k.val; rw [e5, Nat.zero_mul, Nat.zero_add]
        | ⟨2, _⟩ => show _ = win0_1.index t (2 : Fin 3) * 4096 + (j 2).val; rw [E2, e6])]

/-- After the region the output array is the weighted corner sum of the two staged arrays, at every index. -/
theorem final (c : Dev nD) :
    (Gen.dats m 0 c).arrAt 2 cfg0.N
      = G (Gen.V m c (Pipeline.arrRef spec0 0)) (Gen.V m c (Pipeline.arrRef spec0 1)) :=
  (Gen.dats m 0 c).arrAt_eq_of_cover 2 _ (fun t _ => flushed_eq m c t) cover

end Cert.KernelIdeal.Region

end
-- ==== Proof.Spec.lean ====
/-
  The mathematics of a multiresolution hash-grid embedding, as scalar functions of the three argument arrays.

  A point n has normalised coordinates xn(n,d) = (x(n,d) - 0) / 1.  At level l its grid coordinate on axis d is
  flt(l,d,n) = xn(n,d) / es(l,d).  Corner k of the enclosing cell has the integer coordinate
  intx(l,k,d,n) = min(num(l,d) - 1, max(0, toInt(flt(l,d,n) + o(k,d)))), the offset of the point from corner 0 is
  off(l,d,n) = flt(l,d,n) - toFloat(intx(l,0,d,n)), and the corner's weight is the product over the first two axes of
  (1 - o(k,d)) + (2 o(k,d) - 1) off(l,d,n).  A dense level (l < 6) stores its corner values at the row
  ind(l,k,n) = sum_d intx * stride(l,d) + base(l) of one table; a hashed level (l >= 6) at the row
  ((1 xor i0*1) xor i1*p1) xor i2*p2, reduced modulo the table length, of its own table.  The feature (l,f) of point n
  is the sum over the eight corners of weight times value, and the output row is xn(n,.) followed by the features.

  Everything is stated with the float operations of the instance at which the programs are read, so that a program's
  array read at an index unfolds to these terms; the tables es, o, num, stride, base are parameters.
-/
import Idealize.ShloMosaic.PureOps.Ideal
import Idealize.ShloMosaic.PureOps.Reduce
import Idealize.ShloMosaic.Lib.ValueIdx

noncomputable section

namespace Cert.Spec

open Idealize.ShloMosaic Idealize.ShloMosaic.ValueIdx

/-- The constant tables of the embedding: cell sizes, corner offsets, grid resolutions, the dense levels' strides
    and their base rows. -/
structure Tables where
  es : FVec Ideal ⟨2, ![16, 3]⟩ .f32
  o : FVec Ideal ⟨2, ![8, 3]⟩ .f32
  num : IVec ⟨2, ![16, 3]⟩ 32
  str : IVec ⟨2, ![6, 3]⟩ 32
  base : IVec ⟨1, ![6]⟩ 32

/-- The float words 0, 1, 2 and the fill word of an out-of-range take. -/
abbrev c0 : Ideal .f32 := FloatOps.ofBits (F := Ideal) .f32 0x00000000#32
abbrev c1 : Ideal .f32 := FloatOps.ofBits (F := Ideal) .f32 0x3F800000#32
abbrev c2 : Ideal .f32 := FloatOps.ofBits (F := Ideal) .f32 0x40000000#32
abbrev cfill : Ideal .f32 := FloatOps.ofBits (F := Ideal) .f32 0x7FC00000#32

/-- Dense level l as a level; hashed level h as a level. -/
def lo6 (l : Fin 6) : Fin 16 := ⟨l.val, by omega⟩
def hi10 (h : Fin 10) : Fin 16 := ⟨6 + h.val, by omega⟩

section
variable (T : Tables) (X : FVec Ideal ⟨2, ![131072, 3]⟩ .f32)

/-- The normalised coordinate. -/
def xn (n : Fin 131072) (d : Fin 3) : Ideal .f32 :=
  FloatOps.hostDivf (FloatOps.subf (X (ix2 n d)) c0) c1

/-- The coordinate in grid units at level l. -/
def flt (l : Fin 16) (d : Fin 3) (n : Fin 131072) : Ideal .f32 :=
  FloatOps.hostDivf (xn X n d) (T.es (ix2 l d))

/-- Corner k's integer coordinate, clipped to the grid. -/
def intx (l : Fin 16) (k : Fin 8) (d : Fin 3) (n : Fin 131072) : BitVec 32 :=
  IntOp.minsi (IntOp.subi (T.num (ix2 l d)) 1#32)
    (IntOp.maxsi 0#32 (FloatOps.fptosi 32 (FloatOps.addf (flt T X l d n) (T.o (ix2 k d)))))

/-- The point's offset from corner 0. -/
def off (l : Fin 16) (d : Fin 3) (n : Fin 131072) : Ideal .f32 :=
  FloatOps.subf (flt T X l d n) (FloatOps.sitofp .f32 (intx T X l 0 d n))

/-- The interpolation factor of corner k on axis d. -/
def wf (l : Fin 16) (k : Fin 8) (d : Fin 3) (n : Fin 131072) : Ideal .f32 :=
  FloatOps.addf (FloatOps.subf c1 (T.o (ix2 k d)))
    (FloatOps.mulf (FloatOps.subf (FloatOps.mulf c2 (T.o (ix2 k d))) c1) (off T X l d n))

/-- The corner's weight: the factors of the first two axes. -/
def w (l : Fin 16) (k : Fin 8) (n : Fin 131072) : Ideal .f32 :=
  FloatOps.mulf (wf T X l k 0 n) (wf T X l k 1 n)

/-- The row of a dense level's corner in the dense table. -/
def ind (l : Fin 6) (k : Fin 8) (n : Fin 131072) : BitVec 32 :=
  IntOp.addi
    ((Finset.univ : Finset (Fin 3)).fold IntOp.addi 0#32
      fun d => IntOp.muli (intx T X (lo6 l) k d n) (T.str (ix2 l d)))
    (T.base (ix1 l))

/-- The remainder of the floor division by a divisor, as the host spells it: the truncating remainder by the divisor
    (by 1 for a zero divisor), moved by one divisor when its sign differs from the divisor's and it is not zero. -/
def pmod (x t : BitVec 32) : BitVec 32 :=
  Scalar.select
    (IntOp.andi
      (IntOp.cmpi .ne
        (IntOp.cmpi .slt (IntOp.remsi .host x (Scalar.select (IntOp.cmpi .eq t 0#32) 1#32 t)) 0#32)
        (IntOp.cmpi .slt (Scalar.select (IntOp.cmpi .eq t 0#32) 1#32 t) 0#32))
      (IntOp.cmpi .ne (IntOp.remsi .host x (Scalar.select (IntOp.cmpi .eq t 0#32) 1#32 t)) 0#32))
    (IntOp.addi (IntOp.remsi .host x (Scalar.select (IntOp.cmpi .eq t 0#32) 1#32 t))
      (Scalar.select (IntOp.cmpi .eq t 0#32) 1#32 t))
    (IntOp.remsi .host x (Scalar.select (IntOp.cmpi .eq t 0#32) 1#32 t))

/-- The row of a hashed level's corner in that level's table. -/
def ih (h : Fin 10) (k : Fin 8) (n : Fin 131072) : BitVec 32 :=
  pmod
    (IntOp.xori
      (IntOp.xori
        (IntOp.xori 1#32 (IntOp.muli (intx T X (hi10 h) k 0 n) 1#32))
        (IntOp.muli (intx T X (hi10 h) k 1 n) 19349663#32))
      (IntOp.muli (intx T X (hi10 h) k 2 n) 83492791#32))
    524309#32

end

/-- A negative row counts from the end of a table of N rows. -/
def wrap (N i : BitVec 32) : BitVec 32 :=
  Scalar.select (IntOp.cmpi .slt i 0#32) (IntOp.addi i N) i

/-- The row a gather reads for a start word: the word as a signed number, clamped into the table. -/
def rowAt (N : Nat) (hN : 0 < N) (i : BitVec 32) : Fin N :=
  ⟨min i.toInt.toNat (N - 1), by omega⟩

/-- The test of a fill-mode take: the row lies in [0, last]. -/
def inRange (last i : BitVec 32) : BitVec 1 :=
  (Finset.univ : Finset (Fin 1)).fold IntOp.andi 1#1
    fun _ => IntOp.andi (IntOp.cmpi .sge i 0#32) (IntOp.cmpi .sle i last)

section
variable (T : Tables) (X : FVec Ideal ⟨2, ![131072, 3]⟩ .f32)
  (D : FVec Ideal ⟨2, ![822944, 2]⟩ .f32) (H : FVec Ideal ⟨3, ![10, 524309, 2]⟩ .f32)

/-- A dense level's corner value, read without a range test. -/
def valDense (l : Fin 6) (k : Fin 8) (n : Fin 131072) (f : Fin 2) : Ideal .f32 :=
  D (ix2 (rowAt 822944 (by omega) (wrap 822944#32 (ind T X l k n))) f)

/-- The same value read by a fill-mode take. -/
def valDenseFill (l : Fin 6) (k : Fin 8) (n : Fin 131072) (f : Fin 2) : Ideal .f32 :=
  Scalar.select (inRange 822943#32 (wrap 822944#32 (ind T X l k n))) (valDense T X D l k n f) cfill

/-- A hashed level's corner value (a fill-mode take). -/
def valHash (h : Fin 10) (k : Fin 8) (n : Fin 131072) (f : Fin 2) : Ideal .f32 :=
  Scalar.select (inRange 524308#32 (wrap 524309#32 (ih T X h k n)))
    (H (ix3 h (rowAt 524309 (by omega) (wrap 524309#32 (ih T X h k n))) f)) cfill

/-- The corner values of all sixteen levels, the dense ones read without a range test. -/
def val (l : Fin 16) (k : Fin 8) (n : Fin 131072) (f : Fin 2) : Ideal .f32 :=
  if h : l.val < 6 then valDense T X D ⟨l.val, h⟩ k n f else valHash T X H ⟨l.val - 6, by omega⟩ k n f

/-- The same with the dense levels read by a fill-mode take. -/
def valFill (l : Fin 16) (k : Fin 8) (n : Fin 131072) (f : Fin 2) : Ideal .f32 :=
  if h : l.val < 6 then valDenseFill T X D ⟨l.val, h⟩ k n f else valHash T X H ⟨l.val - 6, by omega⟩ k n f

/-- Feature (l,f) of point n as the host sums it: from the word 0, the weight on the left of each product. -/
def featR (n : Fin 131072) (l : Fin 16) (f : Fin 2) : Ideal .f32 :=
  c0 + ∑ k : Fin 8, w T X l k n * val T X D H l k n f

/-- The same feature as a lane reduction of value times weight sums it, the dense levels read by a fill-mode take. -/
def featK (n : Fin 131072) (l : Fin 16) (f : Fin 2) : Ideal .f32 :=
  ∑ k : Fin 8, valFill T X D H l k n f * w T X l k n

end

/-- The output array from the normalised coordinates [N,3] and the features [N,16,2]: the features of a point laid
    side by side, appended to its coordinates, and the points regrouped as [2, N/2]. -/
def tail (h1 : (⟨3, ![131072, 16, 2]⟩ : Shape).ShapeCasts ⟨2, ![131072, 32]⟩)
    (h2 : Shape.Concatenates [(⟨2, ![131072, 3]⟩ : Shape), ⟨2, ![131072, 32]⟩] ⟨2, ![131072, 35]⟩ 1)
    (h3 : (⟨2, ![131072, 35]⟩ : Shape).ShapeCasts ⟨3, ![2, 65536, 35]⟩)
    (a : FVec Ideal ⟨2, ![131072, 3]⟩ .f32) (b : FVec Ideal ⟨3, ![131072, 16, 2]⟩ .f32) :
    FVec Ideal ⟨3, ![2, 65536, 35]⟩ .f32 :=
  shapeCast ⟨3, ![2, 65536, 35]⟩
    (concatenate ⟨2, ![131072, 35]⟩ 1
      [⟨⟨2, ![131072, 3]⟩, a⟩, ⟨⟨2, ![131072, 32]⟩, shapeCast ⟨2, ![131072, 32]⟩ b h1⟩] h2) h3

end Cert.Spec

end
-- ==== Proof.KTail.lean ====
/-
  The host operations after the region: the output (F, L, N) is transposed to (N, L, F), each point's sixteen
  feature pairs are laid side by side, appended to the point's three normalised coordinates, and the points are
  regrouped as (2, N/2).
-/
import proofs.«133126_j89799176225629_2_alg».proof.Proof.Gen.KernelIdeal.Frame
import proofs.«133126_j89799176225629_2_alg».proof.Proof.Spec
import Idealize.ShloMosaic.Lib.Pipeline.Value
import Idealize.ShloMosaic.Lib.StableHlo.Run

noncomputable section

namespace Cert.KernelIdeal.Region

open Cert.KernelIdeal Cert.KernelIdeal.Facts₀ Idealize.ShloMosaic Idealize.ShloMosaic.TcCoe Idealize.SL.Sem
open Idealize.ShloMosaic.StableHlo

variable (m : (ℓ : Loc nD τ sig) → Buf (Elt Ideal) ℓ)

set_option maxHeartbeats 1000000 in
/-- The result buffer after the four closing operations, from the region's output array and the normalised
    coordinates as the region found them. -/
theorem tail_eq (c : Dev nD) :
    (Pipeline.afterTail₀ cfgs (Gen.dats m) 0 (Gen.V0 m) [Gen.hostOps1] c main_v84 : S2x65536x35.Idx → EReal)
      = Cert.Spec.tail shapeCasts_S131072x16x2_S131072x32 concatenates_S131072x3_S131072x32_S131072x35_d1
          shapeCasts_S131072x35_S2x65536x35 (Gen.V m c main_v7)
          (transpose S131072x16x2 [2, 1, 0] ((Gen.dats m 0 c).arrAt 2 cfg0.N) transposes_S2x16x131072_S131072x16x2_2_1_0) := by
  unfold Pipeline.afterTail₀
  show StableHlo.after Gen.hostOps1 _ (Proc.devRef .tc main_v84) = _
  after_results
  rw [Pipeline.withArrays_of_ne _ c (Gen.V0 m c) _ main_v7 (by exact (by decide : ∀ w, Pipeline.arrRef spec0 w ≠ main_v7))]
  have h80 : Pipeline.withArrays (cfgs 0).spec c (Gen.V0 m c) (fun w => (Gen.dats m 0 c).arrAt w (cfgs 0).N)
      (Proc.devRef .tc main_v80) = (Gen.dats m 0 c).arrAt 2 cfg0.N :=
    Pipeline.withArrays_arr spec0 Gen.launch0.win.arr_inj c _ _ 2
  rw [h80]
  rfl

end Cert.KernelIdeal.Region

end
-- ==== Proof.KRun.lean ====
/-
  The idealized kernel program's run, read: every execution ends with the result buffer at the closing operations'
  function of the normalised coordinates and of the weighted corner sum of the two arrays the region staged, and with
  the three argument arrays as launched.
-/
import proofs.«133126_j89799176225629_2_alg».proof.Proof.KRegion
import proofs.«133126_j89799176225629_2_alg».proof.Proof.KTail

noncomputable section

namespace Cert.KernelIdeal.Region

open Cert.KernelIdeal Cert.KernelIdeal.Facts₀ Idealize.ShloMosaic Idealize.ShloMosaic.TcCoe Idealize.SL.Sem

variable (m : (ℓ : Loc nD τ sig) → Buf (Elt Ideal) ℓ) (ρ : Dev nD → PrngReg)

/-- The result array as a function of what the region finds. -/
def outK (c : Dev nD) : S2x65536x35.Idx → EReal :=
  Cert.Spec.tail shapeCasts_S131072x16x2_S131072x32 concatenates_S131072x3_S131072x32_S131072x35_d1
    shapeCasts_S131072x35_S2x65536x35 (Gen.V m c main_v7)
    (transpose S131072x16x2 [2, 1, 0]
      (G (Gen.V m c main_v61) (Gen.V m c main_v79))
      transposes_S2x16x131072_S131072x16x2_2_1_0)

theorem tail_final (c : Dev nD) :
    (Pipeline.afterTail₀ cfgs (Gen.dats m) 0 (Gen.V0 m) [Gen.hostOps1] c main_v84 : S2x65536x35.Idx → EReal)
      = outK m c := by
  rw [tail_eq, final]
  rfl

theorem run : θ_run defs (onTc (τ := τ) (main (F := Ideal))) ⟨m, fun _ => 0, ρ⟩ fun r => ∀ c : Dev nD,
      r.2.mem ((c.tc : Thread nD τ).loc main_v84) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v84 (Pipeline.mem_restRefs_of main_v84 (by decide) (by decide))).trans (tail_final m c),
      ((h c).2 main_arg0 (Pipeline.mem_restRefs_of main_arg0 (by decide) (by decide))).trans (Gen.W_main_arg0 m (Gen.dats m) c),
      ((h c).2 main_arg1 (Pipeline.mem_restRefs_of main_arg1 (by decide) (by decide))).trans (Gen.W_main_arg1 m (Gen.dats m) c),
      ((h c).2 main_arg2 (Pipeline.mem_restRefs_of main_arg2 (by decide) (by decide))).trans (Gen.W_main_arg2 m (Gen.dats m) c)⟩)
    (Gen.run_main m ρ)

end Cert.KernelIdeal.Region

end
-- ==== Proof.KOut.lean ====
/-
  The kernel program's result in the specification's terms, given what the region finds in its two staged arrays
  and in the normalised coordinates: the transposed weighted corner sum at (n, l, f) is the feature sum of value
  times weight over the corners.
-/
import proofs.«133126_j89799176225629_2_alg».proof.Proof.KRun
import Idealize.ShloMosaic.Lib.ValueIdx

noncomputable section

namespace Cert.KernelIdeal.Region

open Cert.KernelIdeal Cert.KernelIdeal.Facts₀ Idealize.ShloMosaic Idealize.ShloMosaic.TcCoe Idealize.SL.Sem
open Idealize.ShloMosaic.ValueIdx

variable (m : (ℓ : Loc nD τ sig) → Buf (Elt Ideal) ℓ)

/-- The transposed weighted corner sum at (n, l, f). -/
theorem transpose_G (val : S2x16x8x131072.Idx → EReal) (w : S16x8x131072.Idx → EReal) (n : Fin 131072) (l : Fin 16)
    (f : Fin 2) :
    transpose S131072x16x2 [2, 1, 0] (G val w) transposes_S2x16x131072_S131072x16x2_2_1_0 (ix3 n l f)
      = ∑ k : Fin 8, val (ix4 f l k n) * w (ix3 l k n) := by
  rw [transpose_apply [2, 1, 0] _ _ (ix3 n l f) (ix3 f l n) (fun b => by
    match b with
    | ⟨0, _⟩ => rfl
    | ⟨1, _⟩ => rfl
    | ⟨2, _⟩ => rfl)]
  rfl

theorem outK_eq (c : Dev nD) (T : Cert.Spec.Tables) (X : FVec Ideal ⟨2, ![131072, 3]⟩ .f32)
    (D : FVec Ideal ⟨2, ![822944, 2]⟩ .f32) (H : FVec Ideal ⟨3, ![10, 524309, 2]⟩ .f32)
    (hxn : ∀ (n : Fin 131072) (d : Fin 3), (Gen.V m c main_v7 : S131072x3.Idx → EReal) (ix2 n d) = Cert.Spec.xn X n d)
    (hval : ∀ (f : Fin 2) (l : Fin 16) (k : Fin 8) (n : Fin 131072),
      (Gen.V m c main_v61 : S2x16x8x131072.Idx → EReal) (ix4 f l k n) = Cert.Spec.valFill T X D H l k n f)
    (hw : ∀ (l : Fin 16) (k : Fin 8) (n : Fin 131072),
      (Gen.V m c main_v79 : S16x8x131072.Idx → EReal) (ix3 l k n) = Cert.Spec.w T X l k n) :
    outK m c = Cert.Spec.tail shapeCasts_S131072x16x2_S131072x32 concatenates_S131072x3_S131072x32_S131072x35_d1
      shapeCasts_S131072x35_S2x65536x35 (fun i => Cert.Spec.xn X (i 0) (i 1))
      (fun i => Cert.Spec.featK T X D H (i 0) (i 1) (i 2)) := by
  have h7 : (Gen.V m c main_v7 : S131072x3.Idx → EReal) = fun i => Cert.Spec.xn X (i 0) (i 1) := funext fun i => by
    obtain ⟨n, d, rfl⟩ : ∃ (n : Fin 131072) (d : Fin 3), i = ix2 n d := ⟨i 0, i 1, eq_ix2 i⟩
    exact hxn n d
  have hT : transpose S131072x16x2 [2, 1, 0] (G (Gen.V m c main_v61) (Gen.V m c main_v79))
      transposes_S2x16x131072_S131072x16x2_2_1_0 = fun i => Cert.Spec.featK T X D H (i 0) (i 1) (i 2) := funext fun i => by
    obtain ⟨n, l, f, rfl⟩ : ∃ (n : Fin 131072) (l : Fin 16) (f : Fin 2), i = ix3 n l f := ⟨i 0, i 1, i 2, eq_ix3 i⟩
    rw [transpose_G]
    unfold Cert.Spec.featK
    exact Finset.sum_congr rfl fun k _ => by rw [hval, hw]
  unfold outK
  rw [h7, hT]
  rfl

end Cert.KernelIdeal.Region

end
-- ==== Proof.KerSplit.lean ====
/- The host operations before the region, as nine stretches run one after the other. -/
import proofs.«133126_j89799176225629_2_alg».proof.Proof.Gen.KernelIdeal.Launch
import Idealize.ShloMosaic.Lib.Pipeline.Frame

noncomputable section

namespace Cert.KernelIdeal.KerHost

open Idealize.ShloMosaic Idealize.ShloMosaic.TcCoe
open Cert.KernelIdeal Cert.KernelIdeal.Gen

variable {F : FTy → Type} [FloatOps F]

/-- Nine stretches flattened and run are the nine run in order. -/
theorem after_flatten9 {τ : Topo} {sig : RefSig} {Val : EltTy → Type}
    (l0 l1 l2 l3 l4 l5 l6 l7 l8 : List (HloOp τ sig Val)) (W : Valuation τ sig Val) :
    StableHlo.after (List.flatten [l0, l1, l2, l3, l4, l5, l6, l7, l8]) W
      = StableHlo.after l8 (StableHlo.after l7 (StableHlo.after l6 (StableHlo.after l5 (StableHlo.after l4
          (StableHlo.after l3 (StableHlo.after l2 (StableHlo.after l1 (StableHlo.after l0 W)))))))) := by
  simp only [List.flatten_cons, List.flatten_nil, List.append_nil, StableHlo.after_append]

/-- The host operations before the region, stretch by stretch. -/
theorem after_all (W : Valuation τ sig (Elt F)) :
    StableHlo.after (List.flatten [hostOps0, hostOps0_1, hostOps0_2, hostOps0_3, hostOps0_4, hostOps0_5, hostOps0_6, hostOps0_7, hostOps0_8]) W
      = StableHlo.after hostOps0_8 (StableHlo.after hostOps0_7 (StableHlo.after hostOps0_6 (StableHlo.after hostOps0_5 (StableHlo.after hostOps0_4
          (StableHlo.after hostOps0_3 (StableHlo.after hostOps0_2 (StableHlo.after hostOps0_1 (StableHlo.after hostOps0 W)))))))) :=
  after_flatten9 _ _ _ _ _ _ _ _ _ W

end Cert.KernelIdeal.KerHost

end
-- ==== Proof.KerKeep.lean ====
/- Per stretch of host operations before the region: the buffers the stretch writes, and that every other
   buffer keeps its contents across the stretch. -/
import proofs.«133126_j89799176225629_2_alg».proof.Proof.Gen.KernelIdeal.Launch

noncomputable section

namespace Cert.KernelIdeal.KerHost

open Idealize.ShloMosaic Idealize.ShloMosaic.TcCoe
open Cert.KernelIdeal Cert.KernelIdeal.Gen

variable {F : FTy → Type} [FloatOps F]

/-- The buffers stretch 0 writes, in order. -/
abbrev writes0 : List (Ref sig .tc) :=
  [main_cst, main_cst_0, main_cst_1, main_cst_2, main_c, main_c_3, main_c_4, main_v0, main_v1, main_v2, main_v3, main_v4, main_v5, main_v6, main_v7, main_v8, main_v9, main_v10, main_v11, main_v12, main_v13, main_v14, main_v15, main_v16, main_v17, main_v18, main_v19, main_v20, main_c_5, main_v21, main_v22, main_c_6]

/-- A buffer stretch 0 does not write keeps its contents across it. -/
theorem keep0 (W : Valuation τ sig (Elt F)) {r : Ref sig .tc} (hr : r ∉ writes0) :
    StableHlo.after (hostOps0 : List (HloOp τ sig (Elt F))) W (Proc.devRef .tc r) = W (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- The buffers stretch 1 writes, in order. -/
abbrev writes1 : List (Ref sig .tc) :=
  [main_call0_v0, main_call0_v1, main_call0_v2, main_call0_v3, main_v23]

/-- A buffer stretch 1 does not write keeps its contents across it. -/
theorem keep1 (W : Valuation τ sig (Elt F)) {r : Ref sig .tc} (hr : r ∉ writes1) :
    StableHlo.after (hostOps0_1 : List (HloOp τ sig (Elt F))) W (Proc.devRef .tc r) = W (Proc.devRef .tc r) :=
  StableHlo.after_of_forall_not_mem (b := Proc.devRef .tc r) _ _ (List.forall_iff_forall_mem.mp (by
    simp only [hostOps0_1, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- The buffers stretch 2 writes, in order. -/
abbrev writes2 : List (Ref sig .tc) :=
  [main_v24, main_v25, main_v26, main_v27, main_v28, main_v29, main_v30, main_v31, main_c_7, main_v32, main_v33, main_v34, main_v35, main_v36, main_v37, main_v38, main_c_8, main_v39, main_v40, main_v41, main_c_9, main_v42, main_v43, main_v44, main_v45, main_v46, main_c_10, main_v47, main_v48, main_v49, main_v50, main_v51, main_c_11, main_v52, main_v53, main_v54, main_c_12]

/-- A buffer stretch 2 does not write keeps its contents across it. -/
theorem keep2 (W : Valuation τ sig (Elt F)) {r : Ref sig .tc} (hr : r ∉ writes2) :
    StableHlo.after (hostOps0_2 : List (HloOp τ sig (Elt F))) W (Proc.devRef .tc r) = W (Proc.devRef .tc r) :=
  StableHlo.after_of_forall_not_mem (b := Proc.devRef .tc r) _ _ (List.forall_iff_forall_mem.mp (by
    simp only [hostOps0_2, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- The buffers stretch 3 writes, in order. -/
abbrev writes3 : List (Ref sig .tc) :=
  [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v55]

/-- A buffer stretch 3 does not write keeps its contents across it. -/
theorem keep3 (W : Valuation τ sig (Elt F)) {r : Ref sig .tc} (hr : r ∉ writes3) :
    StableHlo.after (hostOps0_3 : List (HloOp τ sig (Elt F))) W (Proc.devRef .tc r) = W (Proc.devRef .tc r) :=
  StableHlo.after_of_forall_not_mem (b := Proc.devRef .tc r) _ _ (List.forall_iff_forall_mem.mp (by
    simp only [hostOps0_3, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- The buffers stretch 4 writes, in order. -/
abbrev writes4 : List (Ref sig .tc) :=
  [main_v56]

/-- A buffer stretch 4 does not write keeps its contents across it. -/
theorem keep4 (W : Valuation τ sig (Elt F)) {r : Ref sig .tc} (hr : r ∉ writes4) :
    StableHlo.after (hostOps0_4 : List (HloOp τ sig (Elt F))) W (Proc.devRef .tc r) = W (Proc.devRef .tc r) :=
  StableHlo.after_of_forall_not_mem (b := Proc.devRef .tc r) _ _ (List.forall_iff_forall_mem.mp (by
    simp only [hostOps0_4, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- The buffers stretch 5 writes, in order. -/
abbrev writes5 : List (Ref sig .tc) :=
  [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v57]

/-- A buffer stretch 5 does not write keeps its contents across it. -/
theorem keep5 (W : Valuation τ sig (Elt F)) {r : Ref sig .tc} (hr : r ∉ writes5) :
    StableHlo.after (hostOps0_5 : List (HloOp τ sig (Elt F))) W (Proc.devRef .tc r) = W (Proc.devRef .tc r) :=
  StableHlo.after_of_forall_not_mem (b := Proc.devRef .tc r) _ _ (List.forall_iff_forall_mem.mp (by
    simp only [hostOps0_5, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- The buffers stretch 6 writes, in order. -/
abbrev writes6 : List (Ref sig .tc) :=
  [main_v58]

/-- A buffer stretch 6 does not write keeps its contents across it. -/
theorem keep6 (W : Valuation τ sig (Elt F)) {r : Ref sig .tc} (hr : r ∉ writes6) :
    StableHlo.after (hostOps0_6 : List (HloOp τ sig (Elt F))) W (Proc.devRef .tc r) = W (Proc.devRef .tc r) :=
  StableHlo.after_of_forall_not_mem (b := Proc.devRef .tc r) _ _ (List.forall_iff_forall_mem.mp (by
    simp only [hostOps0_6, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- The buffers stretch 7 writes, in order. -/
abbrev writes7 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v59]

/-- A buffer stretch 7 does not write keeps its contents across it. -/
theorem keep7 (W : Valuation τ sig (Elt F)) {r : Ref sig .tc} (hr : r ∉ writes7) :
    StableHlo.after (hostOps0_7 : List (HloOp τ sig (Elt F))) W (Proc.devRef .tc r) = W (Proc.devRef .tc r) :=
  StableHlo.after_of_forall_not_mem (b := Proc.devRef .tc r) _ _ (List.forall_iff_forall_mem.mp (by
    simp only [hostOps0_7, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- The buffers stretch 8 writes, in order. -/
abbrev writes8 : List (Ref sig .tc) :=
  [main_v60, main_v61, main_v62, main_v63, main_cst_13, main_v64, main_v65, main_cst_14, main_v66, main_v67, main_cst_15, main_v68, main_v69, main_v70, main_v71, main_v72, main_v73, main_v74, main_v75, main_v76, main_v77, main_v78, main_v79]

/-- A buffer stretch 8 does not write keeps its contents across it. -/
theorem keep8 (W : Valuation τ sig (Elt F)) {r : Ref sig .tc} (hr : r ∉ writes8) :
    StableHlo.after (hostOps0_8 : List (HloOp τ sig (Elt F))) W (Proc.devRef .tc r) = W (Proc.devRef .tc r) :=
  StableHlo.after_of_forall_not_mem (b := Proc.devRef .tc r) _ _ (List.forall_iff_forall_mem.mp (by
    simp only [hostOps0_8, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

end Cert.KernelIdeal.KerHost

end
-- ==== Proof.KerPieces.lean ====
/- The longer stretches of host operations before the region cut into consecutive pieces, each ending where a value
   later stretches read is complete; and, per piece, that a buffer the piece does not write keeps its contents. -/
import proofs.«133126_j89799176225629_2_alg».proof.Proof.Gen.KernelIdeal.Launch
import Idealize.ShloMosaic.Lib.Pipeline.Frame

noncomputable section

namespace Cert.KernelIdeal.KerHost

open Idealize.ShloMosaic Idealize.ShloMosaic.TcCoe
open Cert.KernelIdeal Cert.KernelIdeal.Gen

variable {F : FTy → Type} [FloatOps F]

/-- Operations 0 to 14 of `hostOps0`. -/
abbrev p0a : List (HloOp τ sig (Elt F)) :=
  [ StableHlo.nullary main_cst (constant S3 .f32 0x00000000#32),
    StableHlo.nullary main_cst_0 (constant S3 .f32 0x3F800000#32),
    StableHlo.nullary main_cst_1 (fun i => FloatOps.ofBits .f32 (lit0 (S16x3.rowMajor i))),
    StableHlo.nullary main_cst_2 (fun i => FloatOps.ofBits .f32 (lit1 (S8x3.rowMajor i))),
    StableHlo.nullary main_c (fun i => lit2 (S16x3.rowMajor i)),
    StableHlo.nullary main_c_3 (fun i => lit3 (S6x3.rowMajor i)),
    StableHlo.nullary main_c_4 (fun i => lit4 (S6.rowMajor i)),
    StableHlo.reshape main_arg0 main_v0 rfl shapeCasts_S2x65536x3_S131072x3,
    StableHlo.unary main_cst main_v1 (broadcastInDim S1x3 ![1] bcast_S3_S1x3_1 : (⟨S3, .f32⟩ : BufTy).Contents (Elt F) → (⟨S1x3, .f32⟩ : BufTy).Contents (Elt F)),
    StableHlo.unary main_v1 main_v2 (broadcastInDim S131072x3 ![0, 1] bcast_S1x3_S131072x3_0_1 : (⟨S1x3, .f32⟩ : BufTy).Contents (Elt F) → (⟨S131072x3, .f32⟩ : BufTy).Contents (Elt F)),
    StableHlo.binary main_v0 main_v2 main_v3 (subf : (⟨S131072x3, .f32⟩ : BufTy).Contents (Elt F) → (⟨S131072x3, .f32⟩ : BufTy).Contents (Elt F) → (⟨S131072x3, .f32⟩ : BufTy).Contents (Elt F)),
    StableHlo.binary main_cst_0 main_cst main_v4 (subf : (⟨S3, .f32⟩ : BufTy).Contents (Elt F) → (⟨S3, .f32⟩ : BufTy).Contents (Elt F) → (⟨S3, .f32⟩ : BufTy).Contents (Elt F)),
    StableHlo.unary main_v4 main_v5 (broadcastInDim S1x3 ![1] bcast_S3_S1x3_1 : (⟨S3, .f32⟩ : BufTy).Contents (Elt F) → (⟨S1x3, .f32⟩ : BufTy).Contents (Elt F)),
    StableHlo.unary main_v5 main_v6 (broadcastInDim S131072x3 ![0, 1] bcast_S1x3_S131072x3_0_1 : (⟨S1x3, .f32⟩ : BufTy).Contents (Elt F) → (⟨S131072x3, .f32⟩ : BufTy).Contents (Elt F)),
    StableHlo.binary main_v3 main_v6 main_v7 (Host.divf : (⟨S131072x3, .f32⟩ : BufTy).Contents (Elt F) → (⟨S131072x3, .f32⟩ : BufTy).Contents (Elt F) → (⟨S131072x3, .f32⟩ : BufTy).Contents (Elt F)) ]

/-- The buffers the piece writes. -/
abbrev p0a_writes : List (Ref sig .tc) :=
  [main_cst, main_cst_0, main_cst_1, main_cst_2, main_c, main_c_3, main_c_4, main_v0, main_v1, main_v2, main_v3, main_v4, main_v5, main_v6, main_v7]

/-- A buffer the piece does not write keeps its contents across it. -/
theorem p0a_keep (W : Valuation τ sig (Elt F)) {r : Ref sig .tc} (hr : r ∉ p0a_writes) :
    StableHlo.after (p0a : List (HloOp τ sig (Elt F))) W (Proc.devRef .tc r) = W (Proc.devRef .tc r) :=
  StableHlo.after_of_forall_not_mem (b := Proc.devRef .tc r) _ _ (List.forall_iff_forall_mem.mp (by
    simp only [p0a, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 15 to 20 of `hostOps0`. -/
abbrev p0b : List (HloOp τ sig (Elt F)) :=
  [ StableHlo.unary main_v7 main_v8 ((transpose S3x131072 [1, 0] · transposes_S131072x3_S3x131072_1_0) : (⟨S131072x3, .f32⟩ : BufTy).Contents (Elt F) → (⟨S3x131072, .f32⟩ : BufTy).Contents (Elt F)),
    StableHlo.unary main_v8 main_v9 (broadcastInDim S1x3x131072 ![1, 2] bcast_S3x131072_S1x3x131072_1_2 : (⟨S3x131072, .f32⟩ : BufTy).Contents (Elt F) → (⟨S1x3x131072, .f32⟩ : BufTy).Contents (Elt F)),
    StableHlo.unary main_cst_1 main_v10 (broadcastInDim S16x3x1 ![0, 1] bcast_S16x3_S16x3x1_0_1 : (⟨S16x3, .f32⟩ : BufTy).Contents (Elt F) → (⟨S16x3x1, .f32⟩ : BufTy).Contents (Elt F)),
    StableHlo.unary main_v9 main_v11 (broadcastInDim S16x3x131072 ![0, 1, 2] bcast_S1x3x131072_S16x3x131072_0_1_2 : (⟨S1x3x131072, .f32⟩ : BufTy).Contents (Elt F) → (⟨S16x3x131072, .f32⟩ : BufTy).Contents (Elt F)),
    StableHlo.unary main_v10 main_v12 (broadcastInDim S16x3x131072 ![0, 1, 2] bcast_S16x3x1_S16x3x131072_0_1_2 : (⟨S16x3x1, .f32⟩ : BufTy).Contents (Elt F) → (⟨S16x3x131072, .f32⟩ : BufTy).Contents (Elt F)),
    StableHlo.binary main_v11 main_v12 main_v13 (Host.divf : (⟨S16x3x131072, .f32⟩ : BufTy).Contents (Elt F) → (⟨S16x3x131072, .f32⟩ : BufTy).Contents (Elt F) → (⟨S16x3x131072, .f32⟩ : BufTy).Contents (Elt F)) ]

/-- The buffers the piece writes. -/
abbrev p0b_writes : List (Ref sig .tc) :=
  [main_v8, main_v9, main_v10, main_v11, main_v12, main_v13]

/-- A buffer the piece does not write keeps its contents across it. -/
theorem p0b_keep (W : Valuation τ sig (Elt F)) {r : Ref sig .tc} (hr : r ∉ p0b_writes) :
    StableHlo.after (p0b : List (HloOp τ sig (Elt F))) W (Proc.devRef .tc r) = W (Proc.devRef .tc r) :=
  StableHlo.after_of_forall_not_mem (b := Proc.devRef .tc r) _ _ (List.forall_iff_forall_mem.mp (by
    simp only [p0b, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 21 to 26 of `hostOps0`. -/
abbrev p0c : List (HloOp τ sig (Elt F)) :=
  [ StableHlo.unary main_v13 main_v14 (broadcastInDim S16x1x3x131072 ![0, 2, 3] bcast_S16x3x131072_S16x1x3x131072_0_2_3 : (⟨S16x3x131072, .f32⟩ : BufTy).Contents (Elt F) → (⟨S16x1x3x131072, .f32⟩ : BufTy).Contents (Elt F)),
    StableHlo.unary main_cst_2 main_v15 (broadcastInDim S1x8x3x1 ![1, 2] bcast_S8x3_S1x8x3x1_1_2 : (⟨S8x3, .f32⟩ : BufTy).Contents (Elt F) → (⟨S1x8x3x1, .f32⟩ : BufTy).Contents (Elt F)),
    StableHlo.unary main_v14 main_v16 (broadcastInDim S16x8x3x131072 ![0, 1, 2, 3] bcast_S16x1x3x131072_S16x8x3x131072_0_1_2_3 : (⟨S16x1x3x131072, .f32⟩ : BufTy).Contents (Elt F) → (⟨S16x8x3x131072, .f32⟩ : BufTy).Contents (Elt F)),
    StableHlo.unary main_v15 main_v17 (broadcastInDim S16x8x3x131072 ![0, 1, 2, 3] bcast_S1x8x3x1_S16x8x3x131072_0_1_2_3 : (⟨S1x8x3x1, .f32⟩ : BufTy).Contents (Elt F) → (⟨S16x8x3x131072, .f32⟩ : BufTy).Contents (Elt F)),
    StableHlo.binary main_v16 main_v17 main_v18 (addf : (⟨S16x8x3x131072, .f32⟩ : BufTy).Contents (Elt F) → (⟨S16x8x3x131072, .f32⟩ : BufTy).Contents (Elt F) → (⟨S16x8x3x131072, .f32⟩ : BufTy).Contents (Elt F)),
    StableHlo.unary main_v18 main_v19 (fptosi 32 : (⟨S16x8x3x131072, .f32⟩ : BufTy).Contents (Elt F) → (⟨S16x8x3x131072, .i32⟩ : BufTy).Contents (Elt F)) ]

/-- The buffers the piece writes. -/
abbrev p0c_writes : List (Ref sig .tc) :=
  [main_v14, main_v15, main_v16, main_v17, main_v18, main_v19]

/-- A buffer the piece does not write keeps its contents across it. -/
theorem p0c_keep (W : Valuation τ sig (Elt F)) {r : Ref sig .tc} (hr : r ∉ p0c_writes) :
    StableHlo.after (p0c : List (HloOp τ sig (Elt F))) W (Proc.devRef .tc r) = W (Proc.devRef .tc r) :=
  StableHlo.after_of_forall_not_mem (b := Proc.devRef .tc r) _ _ (List.forall_iff_forall_mem.mp (by
    simp only [p0c, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 27 to 31 of `hostOps0`. -/
abbrev p0d : List (HloOp τ sig (Elt F)) :=
  [ StableHlo.unary main_c main_v20 (broadcastInDim S16x1x3x1 ![0, 2] bcast_S16x3_S16x1x3x1_0_2 : (⟨S16x3, .i32⟩ : BufTy).Contents (Elt F) → (⟨S16x1x3x1, .i32⟩ : BufTy).Contents (Elt F)),
    StableHlo.nullary main_c_5 (constantI S_ 32 1#32),
    StableHlo.unary main_c_5 main_v21 (broadcastInDim S16x1x3x1 ![] bcast_S_S16x1x3x1 : (⟨S_, .i32⟩ : BufTy).Contents (Elt F) → (⟨S16x1x3x1, .i32⟩ : BufTy).Contents (Elt F)),
    StableHlo.binary main_v20 main_v21 main_v22 (subi : (⟨S16x1x3x1, .i32⟩ : BufTy).Contents (Elt F) → (⟨S16x1x3x1, .i32⟩ : BufTy).Contents (Elt F) → (⟨S16x1x3x1, .i32⟩ : BufTy).Contents (Elt F)),
    StableHlo.nullary main_c_6 (constantI S_ 32 0#32) ]

/-- The buffers the piece writes. -/
abbrev p0d_writes : List (Ref sig .tc) :=
  [main_v20, main_c_5, main_v21, main_v22, main_c_6]

/-- A buffer the piece does not write keeps its contents across it. -/
theorem p0d_keep (W : Valuation τ sig (Elt F)) {r : Ref sig .tc} (hr : r ∉ p0d_writes) :
    StableHlo.after (p0d : List (HloOp τ sig (Elt F))) W (Proc.devRef .tc r) = W (Proc.devRef .tc r) :=
  StableHlo.after_of_forall_not_mem (b := Proc.devRef .tc r) _ _ (List.forall_iff_forall_mem.mp (by
    simp only [p0d, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 0 to 3 of `hostOps0_2`. -/
abbrev p2a : List (HloOp τ sig (Elt F)) :=
  [ StableHlo.unary main_v23 main_v24 ((extractStridedSlice S16x1x3x131072 ![0, 0, 0, 0] · slices_S16x8x3x131072_S16x1x3x131072_0_0_0_0) : (⟨S16x8x3x131072, .i32⟩ : BufTy).Contents (Elt F) → (⟨S16x1x3x131072, .i32⟩ : BufTy).Contents (Elt F)),
    StableHlo.reshape main_v24 main_v25 rfl shapeCasts_S16x1x3x131072_S16x3x131072,
    StableHlo.unary main_v25 main_v26 (sitofp .f32 : (⟨S16x3x131072, .i32⟩ : BufTy).Contents (Elt F) → (⟨S16x3x131072, .f32⟩ : BufTy).Contents (Elt F)),
    StableHlo.binary main_v13 main_v26 main_v27 (subf : (⟨S16x3x131072, .f32⟩ : BufTy).Contents (Elt F) → (⟨S16x3x131072, .f32⟩ : BufTy).Contents (Elt F) → (⟨S16x3x131072, .f32⟩ : BufTy).Contents (Elt F)) ]

/-- The buffers the piece writes. -/
abbrev p2a_writes : List (Ref sig .tc) :=
  [main_v24, main_v25, main_v26, main_v27]

/-- A buffer the piece does not write keeps its contents across it. -/
theorem p2a_keep (W : Valuation τ sig (Elt F)) {r : Ref sig .tc} (hr : r ∉ p2a_writes) :
    StableHlo.after (p2a : List (HloOp τ sig (Elt F))) W (Proc.devRef .tc r) = W (Proc.devRef .tc r) :=
  StableHlo.after_of_forall_not_mem (b := Proc.devRef .tc r) _ _ (List.forall_iff_forall_mem.mp (by
    simp only [p2a, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 4 to 12 of `hostOps0_2`. -/
abbrev p2b : List (HloOp τ sig (Elt F)) :=
  [ StableHlo.unary main_v23 main_v28 ((extractStridedSlice S6x8x3x131072 ![0, 0, 0, 0] · slices_S16x8x3x131072_S6x8x3x131072_0_0_0_0) : (⟨S16x8x3x131072, .i32⟩ : BufTy).Contents (Elt F) → (⟨S6x8x3x131072, .i32⟩ : BufTy).Contents (Elt F)),
    StableHlo.unary main_c_3 main_v29 (broadcastInDim S6x1x3x1 ![0, 2] bcast_S6x3_S6x1x3x1_0_2 : (⟨S6x3, .i32⟩ : BufTy).Contents (Elt F) → (⟨S6x1x3x1, .i32⟩ : BufTy).Contents (Elt F)),
    StableHlo.unary main_v29 main_v30 (broadcastInDim S6x8x3x131072 ![0, 1, 2, 3] bcast_S6x1x3x1_S6x8x3x131072_0_1_2_3 : (⟨S6x1x3x1, .i32⟩ : BufTy).Contents (Elt F) → (⟨S6x8x3x131072, .i32⟩ : BufTy).Contents (Elt F)),
    StableHlo.binary main_v28 main_v30 main_v31 (muli : (⟨S6x8x3x131072, .i32⟩ : BufTy).Contents (Elt F) → (⟨S6x8x3x131072, .i32⟩ : BufTy).Contents (Elt F) → (⟨S6x8x3x131072, .i32⟩ : BufTy).Contents (Elt F)),
    StableHlo.nullary main_c_7 (constantI S_ 32 0#32),
    StableHlo.binary main_v31 main_c_7 main_v32 ((fun x v => Host.reduce IntOp.addi x v reducesTo_S6x8x3x131072_S6x8x131072_d2 h_S_) : (⟨S6x8x3x131072, .i32⟩ : BufTy).Contents (Elt F) → (⟨S_, .i32⟩ : BufTy).Contents (Elt F) → (⟨S6x8x131072, .i32⟩ : BufTy).Contents (Elt F)),
    StableHlo.unary main_c_4 main_v33 (broadcastInDim S6x1x1 ![0] bcast_S6_S6x1x1_0 : (⟨S6, .i32⟩ : BufTy).Contents (Elt F) → (⟨S6x1x1, .i32⟩ : BufTy).Contents (Elt F)),
    StableHlo.unary main_v33 main_v34 (broadcastInDim S6x8x131072 ![0, 1, 2] bcast_S6x1x1_S6x8x131072_0_1_2 : (⟨S6x1x1, .i32⟩ : BufTy).Contents (Elt F) → (⟨S6x8x131072, .i32⟩ : BufTy).Contents (Elt F)),
    StableHlo.binary main_v32 main_v34 main_v35 (addi : (⟨S6x8x131072, .i32⟩ : BufTy).Contents (Elt F) → (⟨S6x8x131072, .i32⟩ : BufTy).Contents (Elt F) → (⟨S6x8x131072, .i32⟩ : BufTy).Contents (Elt F)) ]

/-- The buffers the piece writes. -/
abbrev p2b_writes : List (Ref sig .tc) :=
  [main_v28, main_v29, main_v30, main_v31, main_c_7, main_v32, main_v33, main_v34, main_v35]

/-- A buffer the piece does not write keeps its contents across it. -/
theorem p2b_keep (W : Valuation τ sig (Elt F)) {r : Ref sig .tc} (hr : r ∉ p2b_writes) :
    StableHlo.after (p2b : List (HloOp τ sig (Elt F))) W (Proc.devRef .tc r) = W (Proc.devRef .tc r) :=
  StableHlo.after_of_forall_not_mem (b := Proc.devRef .tc r) _ _ (List.forall_iff_forall_mem.mp (by
    simp only [p2b, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 13 to 36 of `hostOps0_2`. -/
abbrev p2c : List (HloOp τ sig (Elt F)) :=
  [ StableHlo.unary main_v23 main_v36 ((extractStridedSlice S10x8x3x131072 ![6, 0, 0, 0] · slices_S16x8x3x131072_S10x8x3x131072_6_0_0_0) : (⟨S16x8x3x131072, .i32⟩ : BufTy).Contents (Elt F) → (⟨S10x8x3x131072, .i32⟩ : BufTy).Contents (Elt F)),
    StableHlo.unary main_v36 main_v37 ((extractStridedSlice S10x8x1x131072 ![0, 0, 0, 0] · slices_S10x8x3x131072_S10x8x1x131072_0_0_0_0) : (⟨S10x8x3x131072, .i32⟩ : BufTy).Contents (Elt F) → (⟨S10x8x1x131072, .i32⟩ : BufTy).Contents (Elt F)),
    StableHlo.reshape main_v37 main_v38 rfl shapeCasts_S10x8x1x131072_S10x8x131072,
    StableHlo.nullary main_c_8 (constantI S_ 32 1#32),
    StableHlo.unary main_c_8 main_v39 (broadcastInDim S10x8x131072 ![] bcast_S_S10x8x131072 : (⟨S_, .i32⟩ : BufTy).Contents (Elt F) → (⟨S10x8x131072, .i32⟩ : BufTy).Contents (Elt F)),
    StableHlo.unary main_v36 main_v40 ((extractStridedSlice S10x8x1x131072 ![0, 0, 0, 0] · slices_S10x8x3x131072_S10x8x1x131072_0_0_0_0) : (⟨S10x8x3x131072, .i32⟩ : BufTy).Contents (Elt F) → (⟨S10x8x1x131072, .i32⟩ : BufTy).Contents (Elt F)),
    StableHlo.reshape main_v40 main_v41 rfl shapeCasts_S10x8x1x131072_S10x8x131072,
    StableHlo.nullary main_c_9 (constantI S_ 32 1#32),
    StableHlo.unary main_c_9 main_v42 (broadcastInDim S10x8x131072 ![] bcast_S_S10x8x131072 : (⟨S_, .i32⟩ : BufTy).Contents (Elt F) → (⟨S10x8x131072, .i32⟩ : BufTy).Contents (Elt F)),
    StableHlo.binary main_v41 main_v42 main_v43 (muli : (⟨S10x8x131072, .i32⟩ : BufTy).Contents (Elt F) → (⟨S10x8x131072, .i32⟩ : BufTy).Contents (Elt F) → (⟨S10x8x131072, .i32⟩ : BufTy).Contents (Elt F)),
    StableHlo.binary main_v39 main_v43 main_v44 (xori : (⟨S10x8x131072, .i32⟩ : BufTy).Contents (Elt F) → (⟨S10x8x131072, .i32⟩ : BufTy).Contents (Elt F) → (⟨S10x8x131072, .i32⟩ : BufTy).Contents (Elt F)),
    StableHlo.unary main_v36 main_v45 ((extractStridedSlice S10x8x1x131072 ![0, 0, 1, 0] · slices_S10x8x3x131072_S10x8x1x131072_0_0_1_0) : (⟨S10x8x3x131072, .i32⟩ : BufTy).Contents (Elt F) → (⟨S10x8x1x131072, .i32⟩ : BufTy).Contents (Elt F)),
    StableHlo.reshape main_v45 main_v46 rfl shapeCasts_S10x8x1x131072_S10x8x131072,
    StableHlo.nullary main_c_10 (constantI S_ 32 19349663#32),
    StableHlo.unary main_c_10 main_v47 (broadcastInDim S10x8x131072 ![] bcast_S_S10x8x131072 : (⟨S_, .i32⟩ : BufTy).Contents (Elt F) → (⟨S10x8x131072, .i32⟩ : BufTy).Contents (Elt F)),
    StableHlo.binary main_v46 main_v47 main_v48 (muli : (⟨S10x8x131072, .i32⟩ : BufTy).Contents (Elt F) → (⟨S10x8x131072, .i32⟩ : BufTy).Contents (Elt F) → (⟨S10x8x131072, .i32⟩ : BufTy).Contents (Elt F)),
    StableHlo.binary main_v44 main_v48 main_v49 (xori : (⟨S10x8x131072, .i32⟩ : BufTy).Contents (Elt F) → (⟨S10x8x131072, .i32⟩ : BufTy).Contents (Elt F) → (⟨S10x8x131072, .i32⟩ : BufTy).Contents (Elt F)),
    StableHlo.unary main_v36 main_v50 ((extractStridedSlice S10x8x1x131072 ![0, 0, 2, 0] · slices_S10x8x3x131072_S10x8x1x131072_0_0_2_0) : (⟨S10x8x3x131072, .i32⟩ : BufTy).Contents (Elt F) → (⟨S10x8x1x131072, .i32⟩ : BufTy).Contents (Elt F)),
    StableHlo.reshape main_v50 main_v51 rfl shapeCasts_S10x8x1x131072_S10x8x131072,
    StableHlo.nullary main_c_11 (constantI S_ 32 83492791#32),
    StableHlo.unary main_c_11 main_v52 (broadcastInDim S10x8x131072 ![] bcast_S_S10x8x131072 : (⟨S_, .i32⟩ : BufTy).Contents (Elt F) → (⟨S10x8x131072, .i32⟩ : BufTy).Contents (Elt F)),
    StableHlo.binary main_v51 main_v52 main_v53 (muli : (⟨S10x8x131072, .i32⟩ : BufTy).Contents (Elt F) → (⟨S10x8x131072, .i32⟩ : BufTy).Contents (Elt F) → (⟨S10x8x131072, .i32⟩ : BufTy).Contents (Elt F)),
    StableHlo.binary main_v49 main_v53 main_v54 (xori : (⟨S10x8x131072, .i32⟩ : BufTy).Contents (Elt F) → (⟨S10x8x131072, .i32⟩ : BufTy).Contents (Elt F) → (⟨S10x8x131072, .i32⟩ : BufTy).Contents (Elt F)),
    StableHlo.nullary main_c_12 (constantI S_ 32 524309#32) ]

/-- The buffers the piece writes. -/
abbrev p2c_writes : List (Ref sig .tc) :=
  [main_v36, main_v37, main_v38, main_c_8, main_v39, main_v40, main_v41, main_c_9, main_v42, main_v43, main_v44, main_v45, main_v46, main_c_10, main_v47, main_v48, main_v49, main_v50, main_v51, main_c_11, main_v52, main_v53, main_v54, main_c_12]

/-- A buffer the piece does not write keeps its contents across it. -/
theorem p2c_keep (W : Valuation τ sig (Elt F)) {r : Ref sig .tc} (hr : r ∉ p2c_writes) :
    StableHlo.after (p2c : List (HloOp τ sig (Elt F))) W (Proc.devRef .tc r) = W (Proc.devRef .tc r) :=
  StableHlo.after_of_forall_not_mem (b := Proc.devRef .tc r) _ _ (List.forall_iff_forall_mem.mp (by
    simp only [p2c, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 0 to 1 of `hostOps0_8`. -/
abbrev p8a : List (HloOp τ sig (Elt F)) :=
  [ StableHlo.unary main_v59 main_v60 ((transpose S2x10x8x131072 [1, 0, 2, 3] · transposes_S10x2x8x131072_S2x10x8x131072_1_0_2_3) : (⟨S10x2x8x131072, .f32⟩ : BufTy).Contents (Elt F) → (⟨S2x10x8x131072, .f32⟩ : BufTy).Contents (Elt F)),
    StableHlo.binary main_v57 main_v60 main_v61 ((fun a b => concatenate S2x16x8x131072 1 [⟨S2x6x8x131072, a⟩, ⟨S2x10x8x131072, b⟩] concatenates_S2x6x8x131072_S2x10x8x131072_S2x16x8x131072_d1) : (⟨S2x6x8x131072, .f32⟩ : BufTy).Contents (Elt F) → (⟨S2x10x8x131072, .f32⟩ : BufTy).Contents (Elt F) → (⟨S2x16x8x131072, .f32⟩ : BufTy).Contents (Elt F)) ]

/-- The buffers the piece writes. -/
abbrev p8a_writes : List (Ref sig .tc) :=
  [main_v60, main_v61]

/-- A buffer the piece does not write keeps its contents across it. -/
theorem p8a_keep (W : Valuation τ sig (Elt F)) {r : Ref sig .tc} (hr : r ∉ p8a_writes) :
    StableHlo.after (p8a : List (HloOp τ sig (Elt F))) W (Proc.devRef .tc r) = W (Proc.devRef .tc r) :=
  StableHlo.after_of_forall_not_mem (b := Proc.devRef .tc r) _ _ (List.forall_iff_forall_mem.mp (by
    simp only [p8a, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 2 to 22 of `hostOps0_8`. -/
abbrev p8b : List (HloOp τ sig (Elt F)) :=
  [ StableHlo.unary main_v27 main_v62 (broadcastInDim S16x1x3x131072 ![0, 2, 3] bcast_S16x3x131072_S16x1x3x131072_0_2_3 : (⟨S16x3x131072, .f32⟩ : BufTy).Contents (Elt F) → (⟨S16x1x3x131072, .f32⟩ : BufTy).Contents (Elt F)),
    StableHlo.unary main_cst_2 main_v63 (broadcastInDim S1x8x3x1 ![1, 2] bcast_S8x3_S1x8x3x1_1_2 : (⟨S8x3, .f32⟩ : BufTy).Contents (Elt F) → (⟨S1x8x3x1, .f32⟩ : BufTy).Contents (Elt F)),
    StableHlo.nullary main_cst_13 (constant S_ .f32 0x3F800000#32),
    StableHlo.unary main_cst_13 main_v64 (broadcastInDim S1x8x3x1 ![] bcast_S_S1x8x3x1 : (⟨S_, .f32⟩ : BufTy).Contents (Elt F) → (⟨S1x8x3x1, .f32⟩ : BufTy).Contents (Elt F)),
    StableHlo.binary main_v64 main_v63 main_v65 (subf : (⟨S1x8x3x1, .f32⟩ : BufTy).Contents (Elt F) → (⟨S1x8x3x1, .f32⟩ : BufTy).Contents (Elt F) → (⟨S1x8x3x1, .f32⟩ : BufTy).Contents (Elt F)),
    StableHlo.nullary main_cst_14 (constant S_ .f32 0x40000000#32),
    StableHlo.unary main_cst_14 main_v66 (broadcastInDim S1x8x3x1 ![] bcast_S_S1x8x3x1 : (⟨S_, .f32⟩ : BufTy).Contents (Elt F) → (⟨S1x8x3x1, .f32⟩ : BufTy).Contents (Elt F)),
    StableHlo.binary main_v66 main_v63 main_v67 (mulf : (⟨S1x8x3x1, .f32⟩ : BufTy).Contents (Elt F) → (⟨S1x8x3x1, .f32⟩ : BufTy).Contents (Elt F) → (⟨S1x8x3x1, .f32⟩ : BufTy).Contents (Elt F)),
    StableHlo.nullary main_cst_15 (constant S_ .f32 0x3F800000#32),
    StableHlo.unary main_cst_15 main_v68 (broadcastInDim S1x8x3x1 ![] bcast_S_S1x8x3x1 : (⟨S_, .f32⟩ : BufTy).Contents (Elt F) → (⟨S1x8x3x1, .f32⟩ : BufTy).Contents (Elt F)),
    StableHlo.binary main_v67 main_v68 main_v69 (subf : (⟨S1x8x3x1, .f32⟩ : BufTy).Contents (Elt F) → (⟨S1x8x3x1, .f32⟩ : BufTy).Contents (Elt F) → (⟨S1x8x3x1, .f32⟩ : BufTy).Contents (Elt F)),
    StableHlo.unary main_v69 main_v70 (broadcastInDim S16x8x3x131072 ![0, 1, 2, 3] bcast_S1x8x3x1_S16x8x3x131072_0_1_2_3 : (⟨S1x8x3x1, .f32⟩ : BufTy).Contents (Elt F) → (⟨S16x8x3x131072, .f32⟩ : BufTy).Contents (Elt F)),
    StableHlo.unary main_v62 main_v71 (broadcastInDim S16x8x3x131072 ![0, 1, 2, 3] bcast_S16x1x3x131072_S16x8x3x131072_0_1_2_3 : (⟨S16x1x3x131072, .f32⟩ : BufTy).Contents (Elt F) → (⟨S16x8x3x131072, .f32⟩ : BufTy).Contents (Elt F)),
    StableHlo.binary main_v70 main_v71 main_v72 (mulf : (⟨S16x8x3x131072, .f32⟩ : BufTy).Contents (Elt F) → (⟨S16x8x3x131072, .f32⟩ : BufTy).Contents (Elt F) → (⟨S16x8x3x131072, .f32⟩ : BufTy).Contents (Elt F)),
    StableHlo.unary main_v65 main_v73 (broadcastInDim S16x8x3x131072 ![0, 1, 2, 3] bcast_S1x8x3x1_S16x8x3x131072_0_1_2_3 : (⟨S1x8x3x1, .f32⟩ : BufTy).Contents (Elt F) → (⟨S16x8x3x131072, .f32⟩ : BufTy).Contents (Elt F)),
    StableHlo.binary main_v73 main_v72 main_v74 (addf : (⟨S16x8x3x131072, .f32⟩ : BufTy).Contents (Elt F) → (⟨S16x8x3x131072, .f32⟩ : BufTy).Contents (Elt F) → (⟨S16x8x3x131072, .f32⟩ : BufTy).Contents (Elt F)),
    StableHlo.unary main_v74 main_v75 ((extractStridedSlice S16x8x1x131072 ![0, 0, 0, 0] · slices_S16x8x3x131072_S16x8x1x131072_0_0_0_0) : (⟨S16x8x3x131072, .f32⟩ : BufTy).Contents (Elt F) → (⟨S16x8x1x131072, .f32⟩ : BufTy).Contents (Elt F)),
    StableHlo.reshape main_v75 main_v76 rfl shapeCasts_S16x8x1x131072_S16x8x131072,
    StableHlo.unary main_v74 main_v77 ((extractStridedSlice S16x8x1x131072 ![0, 0, 1, 0] · slices_S16x8x3x131072_S16x8x1x131072_0_0_1_0) : (⟨S16x8x3x131072, .f32⟩ : BufTy).Contents (Elt F) → (⟨S16x8x1x131072, .f32⟩ : BufTy).Contents (Elt F)),
    StableHlo.reshape main_v77 main_v78 rfl shapeCasts_S16x8x1x131072_S16x8x131072,
    StableHlo.binary main_v76 main_v78 main_v79 (mulf : (⟨S16x8x131072, .f32⟩ : BufTy).Contents (Elt F) → (⟨S16x8x131072, .f32⟩ : BufTy).Contents (Elt F) → (⟨S16x8x131072, .f32⟩ : BufTy).Contents (Elt F)) ]

/-- The buffers the piece writes. -/
abbrev p8b_writes : List (Ref sig .tc) :=
  [main_v62, main_v63, main_cst_13, main_v64, main_v65, main_cst_14, main_v66, main_v67, main_cst_15, main_v68, main_v69, main_v70, main_v71, main_v72, main_v73, main_v74, main_v75, main_v76, main_v77, main_v78, main_v79]

/-- A buffer the piece does not write keeps its contents across it. -/
theorem p8b_keep (W : Valuation τ sig (Elt F)) {r : Ref sig .tc} (hr : r ∉ p8b_writes) :
    StableHlo.after (p8b : List (HloOp τ sig (Elt F))) W (Proc.devRef .tc r) = W (Proc.devRef .tc r) :=
  StableHlo.after_of_forall_not_mem (b := Proc.devRef .tc r) _ _ (List.forall_iff_forall_mem.mp (by
    simp only [p8b, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Stretch 0 is its four pieces in a row. -/
theorem after0_split (W : Valuation τ sig (Elt F)) :
    StableHlo.after (hostOps0 : List (HloOp τ sig (Elt F))) W = StableHlo.after p0d (StableHlo.after p0c (StableHlo.after p0b (StableHlo.after p0a W))) := by
  rw [show (hostOps0 : List (HloOp τ sig (Elt F))) = p0a ++ (p0b ++ (p0c ++ p0d)) from rfl]
  simp only [StableHlo.after_append]

/-- Stretch 2 is its three pieces in a row. -/
theorem after2_split (W : Valuation τ sig (Elt F)) :
    StableHlo.after (hostOps0_2 : List (HloOp τ sig (Elt F))) W = StableHlo.after p2c (StableHlo.after p2b (StableHlo.after p2a W)) := by
  rw [show (hostOps0_2 : List (HloOp τ sig (Elt F))) = p2a ++ (p2b ++ p2c) from rfl]
  simp only [StableHlo.after_append]

/-- Stretch 8 is its two pieces in a row. -/
theorem after8_split (W : Valuation τ sig (Elt F)) :
    StableHlo.after (hostOps0_8 : List (HloOp τ sig (Elt F))) W = StableHlo.after p8b (StableHlo.after p8a W) := by
  rw [show (hostOps0_8 : List (HloOp τ sig (Elt F))) = p8a ++ p8b from rfl]
  simp only [StableHlo.after_append]

end Cert.KernelIdeal.KerHost

end
-- ==== Proof.KerL0.lean ====
/- Stretch 0 of the host operations before the region, read at an index: the normalised coordinates, the coordinates
   in grid units, the corner coordinates before clipping, the clip's bounds and the constant tables. -/
import proofs.«133126_j89799176225629_2_alg».proof.Proof.KerPieces
import proofs.«133126_j89799176225629_2_alg».proof.Proof.Spec
import Idealize.ShloMosaic.Lib.Pipeline.Value
import Idealize.ShloMosaic.Lib.ValueIdx
import Idealize.ShloMosaic.PureOps.Ideal.Laws

noncomputable section

namespace Cert.KernelIdeal.KerHost

open Idealize.ShloMosaic Idealize.ShloMosaic.TcCoe Idealize.ShloMosaic.ValueIdx
open Cert.KernelIdeal Cert.KernelIdeal.Gen

/-- The constant tables of the program. -/
def kerTables : Cert.Spec.Tables where
  es := fun i => FloatOps.ofBits .f32 (lit0 (S16x3.rowMajor i))
  o := fun i => FloatOps.ofBits .f32 (lit1 (S8x3.rowMajor i))
  num := fun i => lit2 (S16x3.rowMajor i)
  str := fun i => lit3 (S6x3.rowMajor i)
  base := fun i => lit4 (S6.rowMajor i)

variable (W : Valuation τ sig (Elt Ideal))

/-- The points as a [131072, 3] array. -/
abbrev XofW : FVec Ideal ⟨2, ![131072, 3]⟩ .f32 :=
  shapeCast S131072x3 (W (Proc.devRef .tc main_arg0)) shapeCasts_S2x65536x3_S131072x3

/-- The word 1 less the word 0 is the word 1. -/
theorem one_sub_zero : FloatOps.subf (F := Ideal) Cert.Spec.c1 Cert.Spec.c0 = Cert.Spec.c1 := by
  show (Cert.Spec.c1 : EReal) - Cert.Spec.c0 = Cert.Spec.c1
  have h : (Cert.Spec.c0 : EReal) = 0 := Ideal.ofBits_zero_f32
  rw [h, sub_zero]

/-- The normalised coordinates. -/
theorem p0a_v7 (n : Fin 131072) (d : Fin 3) :
    (StableHlo.after (p0a : List (HloOp τ sig (Elt Ideal))) W (Proc.devRef .tc main_v7) : S131072x3.Idx → EReal) (ix2 n d) = Cert.Spec.xn (XofW W) n d := by
  after_results
  show FloatOps.hostDivf (FloatOps.subf (XofW W (ix2 n d)) Cert.Spec.c0) (FloatOps.subf (F := Ideal) Cert.Spec.c1 Cert.Spec.c0) = _
  rw [one_sub_zero]
  rfl

/-- The tables, as the first piece leaves them. -/
theorem p0a_es : (StableHlo.after (p0a : List (HloOp τ sig (Elt Ideal))) W (Proc.devRef .tc main_cst_1) : S16x3.Idx → EReal) = kerTables.es := by after_results; rfl
theorem p0a_o : (StableHlo.after (p0a : List (HloOp τ sig (Elt Ideal))) W (Proc.devRef .tc main_cst_2) : S8x3.Idx → EReal) = kerTables.o := by after_results; rfl
theorem p0a_num : (StableHlo.after (p0a : List (HloOp τ sig (Elt Ideal))) W (Proc.devRef .tc main_c) : S16x3.Idx → BitVec 32) = kerTables.num := by after_results; rfl
theorem p0a_str : (StableHlo.after (p0a : List (HloOp τ sig (Elt Ideal))) W (Proc.devRef .tc main_c_3) : S6x3.Idx → BitVec 32) = kerTables.str := by after_results; rfl
theorem p0a_base : (StableHlo.after (p0a : List (HloOp τ sig (Elt Ideal))) W (Proc.devRef .tc main_c_4) : S6.Idx → BitVec 32) = kerTables.base := by after_results; rfl

/-- The coordinates in grid units. -/
theorem p0b_v13 (T : Cert.Spec.Tables) (X : FVec Ideal ⟨2, ![131072, 3]⟩ .f32)
    (h7 : ∀ n d, (W (Proc.devRef .tc main_v7) : S131072x3.Idx → EReal) (ix2 n d) = Cert.Spec.xn X n d)
    (hes : (W (Proc.devRef .tc main_cst_1) : S16x3.Idx → EReal) = T.es) (l : Fin 16) (d : Fin 3) (n : Fin 131072) :
    (StableHlo.after (p0b : List (HloOp τ sig (Elt Ideal))) W (Proc.devRef .tc main_v13) : S16x3x131072.Idx → EReal) (ix3 l d n) = Cert.Spec.flt T X l d n := by
  after_results
  unfold Cert.Spec.flt
  refine congrArg₂ FloatOps.hostDivf ?_ ?_
  · refine (broadcastInDim_apply _ _ _ (ix3 l d n) (ix3 0 d n) ?_).trans ?_
    · intro a; fin_cases a <;> rfl
    refine (broadcastInDim_apply _ _ _ (ix3 0 d n) (ix2 d n) ?_).trans ?_
    · intro a; fin_cases a <;> rfl
    refine (transpose_apply _ _ _ (ix2 d n) (ix2 n d) ?_).trans ?_
    · intro a; fin_cases a <;> rfl
    exact h7 n d
  · refine (broadcastInDim_apply _ _ _ (ix3 l d n) (ix3 l d 0) ?_).trans ?_
    · intro a; fin_cases a <;> rfl
    refine (broadcastInDim_apply _ _ _ (ix3 l d 0) (ix2 l d) ?_).trans ?_
    · intro a; fin_cases a <;> rfl
    rw [hes]

/-- The corner coordinates before clipping. -/
theorem p0c_v19 (T : Cert.Spec.Tables) (X : FVec Ideal ⟨2, ![131072, 3]⟩ .f32)
    (h13 : ∀ l d n, (W (Proc.devRef .tc main_v13) : S16x3x131072.Idx → EReal) (ix3 l d n) = Cert.Spec.flt T X l d n)
    (ho : (W (Proc.devRef .tc main_cst_2) : S8x3.Idx → EReal) = T.o) (l : Fin 16) (k : Fin 8) (d : Fin 3) (n : Fin 131072) :
    (StableHlo.after (p0c : List (HloOp τ sig (Elt Ideal))) W (Proc.devRef .tc main_v19) : S16x8x3x131072.Idx → BitVec 32) (ix4 l k d n)
      = FloatOps.fptosi 32 (FloatOps.addf (Cert.Spec.flt T X l d n) (T.o (ix2 k d))) := by
  after_results
  refine congrArg (FloatOps.fptosi 32) (congrArg₂ FloatOps.addf ?_ ?_)
  · refine (broadcastInDim_apply _ _ _ (ix4 l k d n) (ix4 l 0 d n) ?_).trans ?_
    · intro a; fin_cases a <;> rfl
    refine (broadcastInDim_apply _ _ _ (ix4 l 0 d n) (ix3 l d n) ?_).trans ?_
    · intro a; fin_cases a <;> rfl
    exact h13 l d n
  · refine (broadcastInDim_apply _ _ _ (ix4 l k d n) (ix4 0 k d 0) ?_).trans ?_
    · intro a; fin_cases a <;> rfl
    refine (broadcastInDim_apply _ _ _ (ix4 0 k d 0) (ix2 k d) ?_).trans ?_
    · intro a; fin_cases a <;> rfl
    rw [ho]

/-- The last grid coordinate of each level and axis. -/
theorem p0d_v22 (T : Cert.Spec.Tables)
    (hnum : (W (Proc.devRef .tc main_c) : S16x3.Idx → BitVec 32) = T.num) (l : Fin 16) (d : Fin 3) :
    (StableHlo.after (p0d : List (HloOp τ sig (Elt Ideal))) W (Proc.devRef .tc main_v22) : S16x1x3x1.Idx → BitVec 32) (ix4 l 0 d 0) = IntOp.subi (T.num (ix2 l d)) 1#32 := by
  after_results
  refine congrArg₂ IntOp.subi ?_ rfl
  refine (broadcastInDim_apply _ _ _ (ix4 l 0 d 0) (ix2 l d) ?_).trans ?_
  · intro a; fin_cases a <;> rfl
  rw [hnum]

/-- The clip's lower bound. -/
theorem p0d_c6 (i : S_.Idx) : (StableHlo.after (p0d : List (HloOp τ sig (Elt Ideal))) W (Proc.devRef .tc main_c_6) : S_.Idx → BitVec 32) i = 0#32 := by
  after_results
  rfl

/-! ### Stretch 0 as a whole -/

theorem L0_v7 (n : Fin 131072) (d : Fin 3) :
    (StableHlo.after (hostOps0 : List (HloOp τ sig (Elt Ideal))) W (Proc.devRef .tc main_v7) : S131072x3.Idx → EReal) (ix2 n d) = Cert.Spec.xn (XofW W) n d := by
  rw [after0_split, p0d_keep _ (by decide), p0c_keep _ (by decide), p0b_keep _ (by decide)]
  exact p0a_v7 W n d

theorem L0_v13 (l : Fin 16) (d : Fin 3) (n : Fin 131072) :
    (StableHlo.after (hostOps0 : List (HloOp τ sig (Elt Ideal))) W (Proc.devRef .tc main_v13) : S16x3x131072.Idx → EReal) (ix3 l d n) = Cert.Spec.flt kerTables (XofW W) l d n := by
  rw [after0_split, p0d_keep _ (by decide), p0c_keep _ (by decide)]
  exact p0b_v13 _ kerTables (XofW W) (p0a_v7 W) (p0a_es W) l d n

theorem L0_v19 (l : Fin 16) (k : Fin 8) (d : Fin 3) (n : Fin 131072) :
    (StableHlo.after (hostOps0 : List (HloOp τ sig (Elt Ideal))) W (Proc.devRef .tc main_v19) : S16x8x3x131072.Idx → BitVec 32) (ix4 l k d n)
      = FloatOps.fptosi 32 (FloatOps.addf (Cert.Spec.flt kerTables (XofW W) l d n) (kerTables.o (ix2 k d))) := by
  rw [after0_split, p0d_keep _ (by decide)]
  refine p0c_v19 _ kerTables (XofW W) (p0b_v13 _ kerTables (XofW W) (p0a_v7 W) (p0a_es W)) ?_ l k d n
  rw [p0b_keep _ (by decide)]
  exact p0a_o W

theorem L0_v22 (l : Fin 16) (d : Fin 3) :
    (StableHlo.after (hostOps0 : List (HloOp τ sig (Elt Ideal))) W (Proc.devRef .tc main_v22) : S16x1x3x1.Idx → BitVec 32) (ix4 l 0 d 0) = IntOp.subi (kerTables.num (ix2 l d)) 1#32 := by
  rw [after0_split]
  refine p0d_v22 _ kerTables ?_ l d
  rw [p0c_keep _ (by decide), p0b_keep _ (by decide)]
  exact p0a_num W

theorem L0_c6 (i : S_.Idx) : (StableHlo.after (hostOps0 : List (HloOp τ sig (Elt Ideal))) W (Proc.devRef .tc main_c_6) : S_.Idx → BitVec 32) i = 0#32 := by
  rw [after0_split]
  exact p0d_c6 _ i

theorem L0_o : (StableHlo.after (hostOps0 : List (HloOp τ sig (Elt Ideal))) W (Proc.devRef .tc main_cst_2) : S8x3.Idx → EReal) = kerTables.o := by
  rw [after0_split, p0d_keep _ (by decide), p0c_keep _ (by decide), p0b_keep _ (by decide)]
  exact p0a_o W

theorem L0_str : (StableHlo.after (hostOps0 : List (HloOp τ sig (Elt Ideal))) W (Proc.devRef .tc main_c_3) : S6x3.Idx → BitVec 32) = kerTables.str := by
  rw [after0_split, p0d_keep _ (by decide), p0c_keep _ (by decide), p0b_keep _ (by decide)]
  exact p0a_str W

theorem L0_base : (StableHlo.after (hostOps0 : List (HloOp τ sig (Elt Ideal))) W (Proc.devRef .tc main_c_4) : S6.Idx → BitVec 32) = kerTables.base := by
  rw [after0_split, p0d_keep _ (by decide), p0c_keep _ (by decide), p0b_keep _ (by decide)]
  exact p0a_base W

end Cert.KernelIdeal.KerHost

end
-- ==== Proof.KerL1.lean ====
/- Stretch 1 of the host operations before the region (the clip), read at an index. -/
import proofs.«133126_j89799176225629_2_alg».proof.Proof.Gen.KernelIdeal.Launch
import proofs.«133126_j89799176225629_2_alg».proof.Proof.Spec
import Idealize.ShloMosaic.Lib.Pipeline.Value
import Idealize.ShloMosaic.Lib.ValueIdx

noncomputable section

namespace Cert.KernelIdeal.KerHost

open Idealize.ShloMosaic Idealize.ShloMosaic.TcCoe Idealize.ShloMosaic.ValueIdx
open Cert.KernelIdeal Cert.KernelIdeal.Gen

variable (W : Valuation τ sig (Elt Ideal))

/-- The corner coordinates, clipped to the grid. -/
theorem L1_v23 (T : Cert.Spec.Tables) (X : FVec Ideal ⟨2, ![131072, 3]⟩ .f32)
    (h19 : ∀ l k d n, (W (Proc.devRef .tc main_v19) : S16x8x3x131072.Idx → BitVec 32) (ix4 l k d n)
      = FloatOps.fptosi 32 (FloatOps.addf (Cert.Spec.flt T X l d n) (T.o (ix2 k d))))
    (h22 : ∀ l d, (W (Proc.devRef .tc main_v22) : S16x1x3x1.Idx → BitVec 32) (ix4 l 0 d 0) = IntOp.subi (T.num (ix2 l d)) 1#32)
    (h6 : ∀ i, (W (Proc.devRef .tc main_c_6) : S_.Idx → BitVec 32) i = 0#32)
    (l : Fin 16) (k : Fin 8) (d : Fin 3) (n : Fin 131072) :
    (StableHlo.after (hostOps0_1 : List (HloOp τ sig (Elt Ideal))) W (Proc.devRef .tc main_v23) : S16x8x3x131072.Idx → BitVec 32) (ix4 l k d n) = Cert.Spec.intx T X l k d n := by
  after_results
  show IntOp.minsi
      (broadcastInDim S16x8x3x131072 ![0, 1, 2, 3] bcast_S16x1x3x1_S16x8x3x131072_0_1_2_3
        (W (Proc.devRef .tc main_v22) : S16x1x3x1.Idx → BitVec 32) (ix4 l k d n))
      (IntOp.maxsi
        (broadcastInDim S16x8x3x131072 ![] bcast_S_S16x8x3x131072 (W (Proc.devRef .tc main_c_6) : S_.Idx → BitVec 32) (ix4 l k d n))
        ((W (Proc.devRef .tc main_v19) : S16x8x3x131072.Idx → BitVec 32) (ix4 l k d n))) = _
  unfold Cert.Spec.intx
  refine congrArg₂ IntOp.minsi ?_ (congrArg₂ IntOp.maxsi ?_ ?_)
  · refine (broadcastInDim_apply _ _ _ (ix4 l k d n) (ix4 l 0 d 0) ?_).trans ?_
    · intro a; fin_cases a <;> rfl
    exact h22 l d
  · refine (broadcastInDim_apply _ _ _ (ix4 l k d n) ix0 ?_).trans ?_
    · intro a; exact a.elim0
    exact h6 _
  · exact h19 l k d n

end Cert.KernelIdeal.KerHost

end
-- ==== Proof.KerL2.lean ====
/- Stretch 2 of the host operations before the region, read at an index: the offset from corner 0, the dense levels'
   rows, and the hashed levels' hash words. -/
import proofs.«133126_j89799176225629_2_alg».proof.Proof.KerPieces
import proofs.«133126_j89799176225629_2_alg».proof.Proof.Spec
import Idealize.ShloMosaic.Lib.Pipeline.Value
import Idealize.ShloMosaic.Lib.ValueIdx
import Idealize.ShloMosaic.PureOps.Reduce

noncomputable section

namespace Cert.KernelIdeal.KerHost

open Idealize.ShloMosaic Idealize.ShloMosaic.TcCoe Idealize.ShloMosaic.ValueIdx
open Cert.KernelIdeal Cert.KernelIdeal.Gen

variable (W : Valuation τ sig (Elt Ideal))

/-- The point's offset from corner 0. -/
theorem p2a_v27 (T : Cert.Spec.Tables) (X : FVec Ideal ⟨2, ![131072, 3]⟩ .f32) (h23 : ∀ l k d n, (W (Proc.devRef .tc main_v23) : S16x8x3x131072.Idx → BitVec 32) (ix4 l k d n) = Cert.Spec.intx T X l k d n)
    (h13 : ∀ l d n, (W (Proc.devRef .tc main_v13) : S16x3x131072.Idx → EReal) (ix3 l d n) = Cert.Spec.flt T X l d n)
    (l : Fin 16) (d : Fin 3) (n : Fin 131072) :
    (StableHlo.after (p2a : List (HloOp τ sig (Elt Ideal))) W (Proc.devRef .tc main_v27) : S16x3x131072.Idx → EReal) (ix3 l d n) = Cert.Spec.off T X l d n := by
  after_results
  unfold Cert.Spec.off
  refine congrArg₂ FloatOps.subf (h13 l d n) (congrArg (FloatOps.sitofp .f32) ?_)
  show shapeCast S16x3x131072 _ shapeCasts_S16x1x3x131072_S16x3x131072 (ix3 l d n) = _
  refine (shapeCast_apply _ _ (ix3 l d n) (ix4 l 0 d n) ?_).trans ?_
  · rw [Shape.rowMajor_val_four, Shape.rowMajor_val_three]
    show ((l.val * 1 + 0) * 3 + d.val) * 131072 + n.val = (l.val * 3 + d.val) * 131072 + n.val
    omega
  refine (extractStridedSlice_apply _ _ _ (ix4 l 0 d n) (ix4 l 0 d n) ?_).trans ?_
  · intro a; fin_cases a <;> simp
  exact h23 l 0 d n

/-- Source axis 2 of a [6, 8, 3, 131072] array dropped: the index over (l, k, n) with coordinate d on that axis. -/
theorem lift_d2 (hr : S6x8x3x131072.Reduces [2] S6x8x131072) (l : Fin 6) (k : Fin 8) (n : Fin 131072) (d : Fin 3) :
    hr.lift (ix3 l k n) d = ix4 l k d n := by
  funext c
  refine Fin.ext ?_
  fin_cases c <;> rfl

/-- The row of a dense level's corner in the dense table. -/
theorem p2b_v35 (T : Cert.Spec.Tables) (X : FVec Ideal ⟨2, ![131072, 3]⟩ .f32) (h23 : ∀ l k d n, (W (Proc.devRef .tc main_v23) : S16x8x3x131072.Idx → BitVec 32) (ix4 l k d n) = Cert.Spec.intx T X l k d n)
    (hstr : (W (Proc.devRef .tc main_c_3) : S6x3.Idx → BitVec 32) = T.str)
    (hbase : (W (Proc.devRef .tc main_c_4) : S6.Idx → BitVec 32) = T.base)
    (l : Fin 6) (k : Fin 8) (n : Fin 131072) :
    (StableHlo.after (p2b : List (HloOp τ sig (Elt Ideal))) W (Proc.devRef .tc main_v35) : S6x8x131072.Idx → BitVec 32) (ix3 l k n) = Cert.Spec.ind T X l k n := by
  after_results
  unfold Cert.Spec.ind
  refine congrArg₂ IntOp.addi ?_ ?_
  · have hr : S6x8x3x131072.Reduces [2] S6x8x131072 := by decide
    refine (Host.reduce_eq_fold_single IntOp.addi _ _ reducesTo_S6x8x3x131072_S6x8x131072_d2 hr h_S_ (ix3 l k n)).trans ?_
    show (Finset.univ : Finset (Fin 3)).fold IntOp.addi 0#32 _ = _
    refine congrArg (fun g => Finset.fold IntOp.addi 0#32 g (Finset.univ : Finset (Fin 3))) (funext fun (d : Fin 3) => ?_)
    show IntOp.muli (extractStridedSlice S6x8x3x131072 ![0, 0, 0, 0] (W (Proc.devRef .tc main_v23) : S16x8x3x131072.Idx → BitVec 32) slices_S16x8x3x131072_S6x8x3x131072_0_0_0_0 (hr.lift (ix3 l k n) d))
      (broadcastInDim S6x8x3x131072 ![0, 1, 2, 3] bcast_S6x1x3x1_S6x8x3x131072_0_1_2_3
        (broadcastInDim S6x1x3x1 ![0, 2] bcast_S6x3_S6x1x3x1_0_2 (W (Proc.devRef .tc main_c_3) : S6x3.Idx → BitVec 32)) (hr.lift (ix3 l k n) d)) = _
    rw [lift_d2 hr l k n d]
    refine congrArg₂ IntOp.muli ?_ ?_
    · refine (extractStridedSlice_apply _ _ _ (ix4 l k d n) (ix4 (Cert.Spec.lo6 l) k d n) ?_).trans ?_
      · intro a; fin_cases a <;> simp [Cert.Spec.lo6]
      exact h23 (Cert.Spec.lo6 l) k d n
    · refine (broadcastInDim_apply _ _ _ (ix4 l k d n) (ix4 l 0 d 0) ?_).trans ?_
      · intro a; fin_cases a <;> rfl
      refine (broadcastInDim_apply _ _ _ (ix4 l 0 d 0) (ix2 l d) ?_).trans ?_
      · intro a; fin_cases a <;> rfl
      rw [hstr]
      try rfl
  · refine (broadcastInDim_apply _ _ _ (ix3 l k n) (ix3 l 0 0) ?_).trans ?_
    · intro a; fin_cases a <;> rfl
    refine (broadcastInDim_apply _ _ _ (ix3 l 0 0) (ix1 l) ?_).trans ?_
    · intro a; fin_cases a <;> rfl
    rw [hbase]

/-- One axis of a hashed level's corner coordinate: the level slice, the axis slice, the unit axis dropped. -/
theorem hashAxis (T : Cert.Spec.Tables) (X : FVec Ideal ⟨2, ![131072, 3]⟩ .f32) (h23 : ∀ l k d n, (W (Proc.devRef .tc main_v23) : S16x8x3x131072.Idx → BitVec 32) (ix4 l k d n) = Cert.Spec.intx T X l k d n)
    (e : Fin 3) (off : Fin 4 → Nat) (hoff : off = ![0, 0, e.val, 0]) (hs : S10x8x3x131072.Slices off S10x8x1x131072)
    (h : Fin 10) (k : Fin 8) (n : Fin 131072) :
    shapeCast S10x8x131072
      (extractStridedSlice S10x8x1x131072 off
        (extractStridedSlice S10x8x3x131072 ![6, 0, 0, 0] (W (Proc.devRef .tc main_v23) : S16x8x3x131072.Idx → BitVec 32) slices_S16x8x3x131072_S10x8x3x131072_6_0_0_0) hs)
      shapeCasts_S10x8x1x131072_S10x8x131072 (ix3 h k n) = Cert.Spec.intx T X (Cert.Spec.hi10 h) k e n := by
  subst hoff
  refine (shapeCast_apply _ _ (ix3 h k n) (ix4 h k 0 n) ?_).trans ?_
  · rw [Shape.rowMajor_val_four, Shape.rowMajor_val_three]
    show ((h.val * 8 + k.val) * 1 + 0) * 131072 + n.val = (h.val * 8 + k.val) * 131072 + n.val
    omega
  refine (extractStridedSlice_apply _ _ _ (ix4 h k 0 n) (ix4 h k e n) ?_).trans ?_
  · intro a; fin_cases a <;> simp
  refine (extractStridedSlice_apply _ _ _ (ix4 h k e n) (ix4 (Cert.Spec.hi10 h) k e n) ?_).trans ?_
  · intro a; fin_cases a <;> simp [Cert.Spec.hi10]
  exact h23 (Cert.Spec.hi10 h) k e n

/-- The hash word of a hashed level's corner, before the reduction modulo the table length. -/
theorem p2c_v54 (T : Cert.Spec.Tables) (X : FVec Ideal ⟨2, ![131072, 3]⟩ .f32) (h23 : ∀ l k d n, (W (Proc.devRef .tc main_v23) : S16x8x3x131072.Idx → BitVec 32) (ix4 l k d n) = Cert.Spec.intx T X l k d n) (h : Fin 10) (k : Fin 8) (n : Fin 131072) :
    (StableHlo.after (p2c : List (HloOp τ sig (Elt Ideal))) W (Proc.devRef .tc main_v54) : S10x8x131072.Idx → BitVec 32) (ix3 h k n)
      = IntOp.xori
          (IntOp.xori
            (IntOp.xori 1#32 (IntOp.muli (Cert.Spec.intx T X (Cert.Spec.hi10 h) k 0 n) 1#32))
            (IntOp.muli (Cert.Spec.intx T X (Cert.Spec.hi10 h) k 1 n) 19349663#32))
          (IntOp.muli (Cert.Spec.intx T X (Cert.Spec.hi10 h) k 2 n) 83492791#32) := by
  after_results_simp
  refine congrArg₂ IntOp.xori (congrArg₂ IntOp.xori (congrArg₂ IntOp.xori rfl (congrArg₂ IntOp.muli ?_ rfl))
    (congrArg₂ IntOp.muli ?_ rfl)) (congrArg₂ IntOp.muli ?_ rfl)
  · exact hashAxis W T X h23 0 _ rfl _ h k n
  · exact hashAxis W T X h23 1 _ rfl _ h k n
  · exact hashAxis W T X h23 2 _ rfl _ h k n

/-- The modulus of the hash. -/
theorem p2c_c12 (i : S_.Idx) : (StableHlo.after (p2c : List (HloOp τ sig (Elt Ideal))) W (Proc.devRef .tc main_c_12) : S_.Idx → BitVec 32) i = 524309#32 := by
  after_results
  rfl

/-! ### Stretch 2 as a whole -/

theorem L2_v27 (T : Cert.Spec.Tables) (X : FVec Ideal ⟨2, ![131072, 3]⟩ .f32) (h23 : ∀ l k d n, (W (Proc.devRef .tc main_v23) : S16x8x3x131072.Idx → BitVec 32) (ix4 l k d n) = Cert.Spec.intx T X l k d n)
    (h13 : ∀ l d n, (W (Proc.devRef .tc main_v13) : S16x3x131072.Idx → EReal) (ix3 l d n) = Cert.Spec.flt T X l d n)
    (l : Fin 16) (d : Fin 3) (n : Fin 131072) :
    (StableHlo.after (hostOps0_2 : List (HloOp τ sig (Elt Ideal))) W (Proc.devRef .tc main_v27) : S16x3x131072.Idx → EReal) (ix3 l d n) = Cert.Spec.off T X l d n := by
  rw [after2_split, p2c_keep _ (by decide), p2b_keep _ (by decide)]
  exact p2a_v27 W T X h23 h13 l d n

theorem L2_v35 (T : Cert.Spec.Tables) (X : FVec Ideal ⟨2, ![131072, 3]⟩ .f32) (h23 : ∀ l k d n, (W (Proc.devRef .tc main_v23) : S16x8x3x131072.Idx → BitVec 32) (ix4 l k d n) = Cert.Spec.intx T X l k d n)
    (hstr : (W (Proc.devRef .tc main_c_3) : S6x3.Idx → BitVec 32) = T.str)
    (hbase : (W (Proc.devRef .tc main_c_4) : S6.Idx → BitVec 32) = T.base)
    (l : Fin 6) (k : Fin 8) (n : Fin 131072) :
    (StableHlo.after (hostOps0_2 : List (HloOp τ sig (Elt Ideal))) W (Proc.devRef .tc main_v35) : S6x8x131072.Idx → BitVec 32) (ix3 l k n) = Cert.Spec.ind T X l k n := by
  rw [after2_split, p2c_keep _ (by decide)]
  refine p2b_v35 _ T X (fun l k d n => ?_) ?_ ?_ l k n
  · rw [p2a_keep _ (by decide)]; exact h23 l k d n
  · rw [p2a_keep _ (by decide)]; exact hstr
  · rw [p2a_keep _ (by decide)]; exact hbase

theorem L2_v54 (T : Cert.Spec.Tables) (X : FVec Ideal ⟨2, ![131072, 3]⟩ .f32) (h23 : ∀ l k d n, (W (Proc.devRef .tc main_v23) : S16x8x3x131072.Idx → BitVec 32) (ix4 l k d n) = Cert.Spec.intx T X l k d n) (h : Fin 10) (k : Fin 8) (n : Fin 131072) :
    (StableHlo.after (hostOps0_2 : List (HloOp τ sig (Elt Ideal))) W (Proc.devRef .tc main_v54) : S10x8x131072.Idx → BitVec 32) (ix3 h k n)
      = IntOp.xori
          (IntOp.xori
            (IntOp.xori 1#32 (IntOp.muli (Cert.Spec.intx T X (Cert.Spec.hi10 h) k 0 n) 1#32))
            (IntOp.muli (Cert.Spec.intx T X (Cert.Spec.hi10 h) k 1 n) 19349663#32))
          (IntOp.muli (Cert.Spec.intx T X (Cert.Spec.hi10 h) k 2 n) 83492791#32) := by
  rw [after2_split]
  refine p2c_v54 _ T X (fun l k d n => ?_) h k n
  rw [p2b_keep _ (by decide), p2a_keep _ (by decide)]; exact h23 l k d n

theorem L2_c12 (i : S_.Idx) : (StableHlo.after (hostOps0_2 : List (HloOp τ sig (Elt Ideal))) W (Proc.devRef .tc main_c_12) : S_.Idx → BitVec 32) i = 524309#32 := by
  rw [after2_split]
  exact p2c_c12 _ i

end Cert.KernelIdeal.KerHost

end
-- ==== Proof.KerTRef.lean ====
/- A module-local function's buffers carry the type of the value they hold; contents moved to a buffer's own type
   and back are the contents. -/
import Idealize.ShloMosaic.Lib.StableHlo

namespace Cert.KernelIdeal.KerHost

open Idealize.ShloMosaic

variable {sig : RefSig} {Val : EltTy → Type} {T : BufTy}

/-- Contents at the value's type, moved to the buffer's type and back. -/
theorem ofBuf_toBuf (x y : StableHlo.TRef sig T) (hxy : x.ref = y.ref) (v : T.Contents Val) :
    x.ofBuf (cast (by rw [hxy]) (y.toBuf v)) = v := by
  obtain ⟨r, h1, h2, h3⟩ := x
  obtain ⟨r', h1', h2', h3'⟩ := y
  simp only at hxy
  subst hxy
  subst h1
  rfl

/-- The same, for one typed reference. -/
theorem ofBuf_toBuf_self (x : StableHlo.TRef sig T) (v : T.Contents Val) : x.ofBuf (x.toBuf v) = v := by
  obtain ⟨r, h1, h2, h3⟩ := x
  subst h1
  rfl

end Cert.KernelIdeal.KerHost
-- ==== Proof.KerL3.lean ====
/- Stretch 3 of the host operations before the region (the remainder), read at an index. -/
import proofs.«133126_j89799176225629_2_alg».proof.Proof.Gen.KernelIdeal.Launch
import proofs.«133126_j89799176225629_2_alg».proof.Proof.Spec
import proofs.«133126_j89799176225629_2_alg».proof.Proof.KerTRef
import Idealize.ShloMosaic.Lib.Pipeline.Value
import Idealize.ShloMosaic.Lib.ValueIdx

noncomputable section

namespace Cert.KernelIdeal.KerHost

open Idealize.ShloMosaic Idealize.ShloMosaic.TcCoe Idealize.ShloMosaic.ValueIdx
open Cert.KernelIdeal Cert.KernelIdeal.Gen

variable (W : Valuation τ sig (Elt Ideal))

/-- The row of a hashed level's corner: the hash word reduced modulo the table length, as the host's remainder of
    the floor division spells it. -/
theorem L3_v55 (x : Fin 10 → Fin 8 → Fin 131072 → BitVec 32)
    (h54 : ∀ h k n, (W (Proc.devRef .tc main_v54) : S10x8x131072.Idx → BitVec 32) (ix3 h k n) = x h k n)
    (h12 : ∀ i, (W (Proc.devRef .tc main_c_12) : S_.Idx → BitVec 32) i = 524309#32)
    (h : Fin 10) (k : Fin 8) (n : Fin 131072) :
    (StableHlo.after (hostOps0_3 : List (HloOp τ sig (Elt Ideal))) W (Proc.devRef .tc main_v55) : S10x8x131072.Idx → BitVec 32) (ix3 h k n) = Cert.Spec.pmod (x h k n) 524309#32 := by
  after_results_simp
  simp only [ofBuf_toBuf_self]
  have hc : (W (Proc.devRef .tc main_c_12) : S_.Idx → BitVec 32) = fun _ => 524309#32 := funext h12
  have hv : (W (Proc.devRef .tc main_v54) : S10x8x131072.Idx → BitVec 32) = fun j => x (j 0) (j 1) (j 2) :=
    funext fun j => by rw [eq_ix3 j]; exact h54 _ _ _
  rw [hv, hc]
  rfl

end Cert.KernelIdeal.KerHost

end
-- ==== Proof.KerL46.lean ====
/- Stretches 4 and 6 of the host operations before the region (the tables' transposes), read at an index. -/
import proofs.«133126_j89799176225629_2_alg».proof.Proof.Gen.KernelIdeal.Launch
import Idealize.ShloMosaic.Lib.Pipeline.Value
import Idealize.ShloMosaic.Lib.ValueIdx

noncomputable section

namespace Cert.KernelIdeal.KerHost

open Idealize.ShloMosaic Idealize.ShloMosaic.TcCoe Idealize.ShloMosaic.ValueIdx
open Cert.KernelIdeal Cert.KernelIdeal.Gen

variable (W : Valuation τ sig (Elt Ideal))

/-- The dense table, features first. -/
theorem L4_v56 (f : Fin 2) (r : Fin 822944) :
    (StableHlo.after (hostOps0_4 : List (HloOp τ sig (Elt Ideal))) W (Proc.devRef .tc main_v56) : S2x822944.Idx → EReal) (ix2 f r)
      = (W (Proc.devRef .tc main_arg1) : S822944x2.Idx → EReal) (ix2 r f) := by
  after_results
  exact transpose_apply _ _ _ (ix2 f r) (ix2 r f) (by intro a; fin_cases a <;> rfl)

/-- The hashed tables, features before rows. -/
theorem L6_v58 (l : Fin 10) (f : Fin 2) (r : Fin 524309) :
    (StableHlo.after (hostOps0_6 : List (HloOp τ sig (Elt Ideal))) W (Proc.devRef .tc main_v58) : S10x2x524309.Idx → EReal) (ix3 l f r)
      = (W (Proc.devRef .tc main_arg2) : S10x524309x2.Idx → EReal) (ix3 l r f) := by
  after_results
  exact transpose_apply _ _ _ (ix3 l f r) (ix3 l r f) (by intro a; fin_cases a <;> rfl)

end Cert.KernelIdeal.KerHost

end
-- ==== Proof.KerPiecesT.lean ====
/- The two takes' stretches cut into three consecutive pieces each (the row, wrapped; the range test; the gather and
   the fill); and, per piece, that a buffer the piece does not write keeps its contents. -/
import proofs.«133126_j89799176225629_2_alg».proof.Proof.Gen.KernelIdeal.Launch
import Idealize.ShloMosaic.Lib.Pipeline.Frame

noncomputable section

namespace Cert.KernelIdeal.KerHost

open Idealize.ShloMosaic Idealize.ShloMosaic.TcCoe
open Cert.KernelIdeal Cert.KernelIdeal.Gen

variable {F : FTy → Type} [FloatOps F]

/-- Operations 0 to 7 of `hostOps0_5`. -/
abbrev p5a : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S6x8x131072, .i32⟩) (broadcastInDim S6x8x131072 ![] bcast_S_S6x8x131072),
    StableHlo.TRef.binary (.of main_v35 : StableHlo.TRef sig ⟨S6x8x131072, .i32⟩) (.of main_call2_v0 : StableHlo.TRef sig ⟨S6x8x131072, .i32⟩) (.of main_call2_v1 : StableHlo.TRef sig ⟨S6x8x131072, .i1⟩) (cmpi .slt),
    StableHlo.TRef.nullary (.of main_call2_c_0 : StableHlo.TRef sig ⟨S_, .i32⟩) (constantI S_ 32 822944#32),
    StableHlo.TRef.unary (.of main_call2_c_0 : StableHlo.TRef sig ⟨S_, .i32⟩) (.of main_call2_v2 : StableHlo.TRef sig ⟨S6x8x131072, .i32⟩) (broadcastInDim S6x8x131072 ![] bcast_S_S6x8x131072),
    StableHlo.TRef.binary (.of main_v35 : StableHlo.TRef sig ⟨S6x8x131072, .i32⟩) (.of main_call2_v2 : StableHlo.TRef sig ⟨S6x8x131072, .i32⟩) (.of main_call2_v3 : StableHlo.TRef sig ⟨S6x8x131072, .i32⟩) addi,
    StableHlo.TRef.ternary (.of main_call2_v1 : StableHlo.TRef sig ⟨S6x8x131072, .i1⟩) (.of main_call2_v3 : StableHlo.TRef sig ⟨S6x8x131072, .i32⟩) (.of main_v35 : StableHlo.TRef sig ⟨S6x8x131072, .i32⟩) (.of main_call2_v4 : StableHlo.TRef sig ⟨S6x8x131072, .i32⟩) select,
    StableHlo.TRef.unary main_call2_call0.v0 (.of main_call2_v5 : StableHlo.TRef sig ⟨S6x8x131072x1, .i32⟩) (broadcastInDim S6x8x131072x1 ![0, 1, 2] bcast_S6x8x131072_S6x8x131072x1_0_1_2) ]

/-- The buffers the piece writes. -/
abbrev p5a_writes : List (Ref sig .tc) :=
  [main_call2_c, main_call2_v0, main_call2_v1, main_call2_c_0, main_call2_v2, main_call2_v3, main_call2_v4, main_call2_v5]

/-- A buffer the piece does not write keeps its contents across it. -/
theorem p5a_keep (W : Valuation τ sig (Elt F)) {r : Ref sig .tc} (hr : r ∉ p5a_writes) :
    StableHlo.after (p5a : List (HloOp τ sig (Elt F))) W (Proc.devRef .tc r) = W (Proc.devRef .tc r) :=
  StableHlo.after_of_forall_not_mem (b := Proc.devRef .tc r) _ _ (List.forall_iff_forall_mem.mp (by
    simp only [p5a, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 8 to 17 of `hostOps0_5`. -/
abbrev p5b : List (HloOp τ sig (Elt F)) :=
  [ StableHlo.TRef.nullary (.of main_call2_c_1 : StableHlo.TRef sig ⟨S1, .i32⟩) (constantI S1 32 822943#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S6x8x131072x1, .i32⟩) (broadcastInDim S6x8x131072x1 ![] bcast_S_S6x8x131072x1),
    StableHlo.TRef.binary (.of main_call2_v5 : StableHlo.TRef sig ⟨S6x8x131072x1, .i32⟩) (.of main_call2_v6 : StableHlo.TRef sig ⟨S6x8x131072x1, .i32⟩) (.of main_call2_v7 : StableHlo.TRef sig ⟨S6x8x131072x1, .i1⟩) (cmpi .sge),
    StableHlo.TRef.unary (.of main_call2_c_1 : StableHlo.TRef sig ⟨S1, .i32⟩) (.of main_call2_v8 : StableHlo.TRef sig ⟨S1x1x1x1, .i32⟩) (broadcastInDim S1x1x1x1 ![3] bcast_S1_S1x1x1x1_3),
    StableHlo.TRef.unary (.of main_call2_v8 : StableHlo.TRef sig ⟨S1x1x1x1, .i32⟩) (.of main_call2_v9 : StableHlo.TRef sig ⟨S6x8x131072x1, .i32⟩) (broadcastInDim S6x8x131072x1 ![0, 1, 2, 3] bcast_S1x1x1x1_S6x8x131072x1_0_1_2_3),
    StableHlo.TRef.binary (.of main_call2_v5 : StableHlo.TRef sig ⟨S6x8x131072x1, .i32⟩) (.of main_call2_v9 : StableHlo.TRef sig ⟨S6x8x131072x1, .i32⟩) (.of main_call2_v10 : StableHlo.TRef sig ⟨S6x8x131072x1, .i1⟩) (cmpi .sle),
    StableHlo.TRef.binary (.of main_call2_v7 : StableHlo.TRef sig ⟨S6x8x131072x1, .i1⟩) (.of main_call2_v10 : StableHlo.TRef sig ⟨S6x8x131072x1, .i1⟩) (.of main_call2_v11 : StableHlo.TRef sig ⟨S6x8x131072x1, .i1⟩) andi,
    StableHlo.TRef.nullary (.of main_call2_c_3 : StableHlo.TRef sig ⟨S_, .i1⟩) (constantI S_ 1 1#1),
    StableHlo.TRef.binary (.of main_call2_v11 : StableHlo.TRef sig ⟨S6x8x131072x1, .i1⟩) (.of main_call2_c_3 : StableHlo.TRef sig ⟨S_, .i1⟩) (.of main_call2_v12 : StableHlo.TRef sig ⟨S6x8x131072, .i1⟩) (fun x v => Host.reduce IntOp.andi x v reducesTo_S6x8x131072x1_S6x8x131072_d3 h_S_) ]

/-- The buffers the piece writes. -/
abbrev p5b_writes : List (Ref sig .tc) :=
  [main_call2_c_1, main_call2_c_2, main_call2_v6, main_call2_v7, main_call2_v8, main_call2_v9, main_call2_v10, main_call2_v11, main_call2_c_3, main_call2_v12]

/-- A buffer the piece does not write keeps its contents across it. -/
theorem p5b_keep (W : Valuation τ sig (Elt F)) {r : Ref sig .tc} (hr : r ∉ p5b_writes) :
    StableHlo.after (p5b : List (HloOp τ sig (Elt F))) W (Proc.devRef .tc r) = W (Proc.devRef .tc r) :=
  StableHlo.after_of_forall_not_mem (b := Proc.devRef .tc r) _ _ (List.forall_iff_forall_mem.mp (by
    simp only [p5b, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 18 to 22 of `hostOps0_5`. -/
abbrev p5c : List (HloOp τ sig (Elt F)) :=
  [ StableHlo.TRef.binary (.of main_v56 : StableHlo.TRef sig ⟨S2x822944, .f32⟩) (.of main_call2_v5 : StableHlo.TRef sig ⟨S6x8x131072x1, .i32⟩) (.of main_call2_v13 : StableHlo.TRef sig ⟨S2x6x8x131072, .f32⟩) (fun x i => Host.gather gather_S2x822944_S6x8x131072x1_S2x6x8x131072_0_1_n_n_1_3_21 x i),
    StableHlo.TRef.unary (.of main_call2_v12 : StableHlo.TRef sig ⟨S6x8x131072, .i1⟩) (.of main_call2_v14 : StableHlo.TRef sig ⟨S2x6x8x131072, .i1⟩) (broadcastInDim S2x6x8x131072 ![1, 2, 3] bcast_S6x8x131072_S2x6x8x131072_1_2_3),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S2x6x8x131072, .f32⟩) (broadcastInDim S2x6x8x131072 ![] bcast_S_S2x6x8x131072),
    StableHlo.TRef.ternary (.of main_call2_v14 : StableHlo.TRef sig ⟨S2x6x8x131072, .i1⟩) (.of main_call2_v13 : StableHlo.TRef sig ⟨S2x6x8x131072, .f32⟩) (.of main_call2_v15 : StableHlo.TRef sig ⟨S2x6x8x131072, .f32⟩) (.of main_v57 : StableHlo.TRef sig ⟨S2x6x8x131072, .f32⟩) select ]

/-- The buffers the piece writes. -/
abbrev p5c_writes : List (Ref sig .tc) :=
  [main_call2_v13, main_call2_v14, main_call2_cst, main_call2_v15, main_v57]

/-- A buffer the piece does not write keeps its contents across it. -/
theorem p5c_keep (W : Valuation τ sig (Elt F)) {r : Ref sig .tc} (hr : r ∉ p5c_writes) :
    StableHlo.after (p5c : List (HloOp τ sig (Elt F))) W (Proc.devRef .tc r) = W (Proc.devRef .tc r) :=
  StableHlo.after_of_forall_not_mem (b := Proc.devRef .tc r) _ _ (List.forall_iff_forall_mem.mp (by
    simp only [p5c, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 0 to 7 of `hostOps0_7`. -/
abbrev p7a : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S10x8x131072, .i32⟩) (broadcastInDim S10x8x131072 ![] bcast_S_S10x8x131072),
    StableHlo.TRef.binary (.of main_v55 : StableHlo.TRef sig ⟨S10x8x131072, .i32⟩) (.of main_call3_v0 : StableHlo.TRef sig ⟨S10x8x131072, .i32⟩) (.of main_call3_v1 : StableHlo.TRef sig ⟨S10x8x131072, .i1⟩) (cmpi .slt),
    StableHlo.TRef.nullary (.of main_call3_c_0 : StableHlo.TRef sig ⟨S_, .i32⟩) (constantI S_ 32 524309#32),
    StableHlo.TRef.unary (.of main_call3_c_0 : StableHlo.TRef sig ⟨S_, .i32⟩) (.of main_call3_v2 : StableHlo.TRef sig ⟨S10x8x131072, .i32⟩) (broadcastInDim S10x8x131072 ![] bcast_S_S10x8x131072),
    StableHlo.TRef.binary (.of main_v55 : StableHlo.TRef sig ⟨S10x8x131072, .i32⟩) (.of main_call3_v2 : StableHlo.TRef sig ⟨S10x8x131072, .i32⟩) (.of main_call3_v3 : StableHlo.TRef sig ⟨S10x8x131072, .i32⟩) addi,
    StableHlo.TRef.ternary (.of main_call3_v1 : StableHlo.TRef sig ⟨S10x8x131072, .i1⟩) (.of main_call3_v3 : StableHlo.TRef sig ⟨S10x8x131072, .i32⟩) (.of main_v55 : StableHlo.TRef sig ⟨S10x8x131072, .i32⟩) (.of main_call3_v4 : StableHlo.TRef sig ⟨S10x8x131072, .i32⟩) select,
    StableHlo.TRef.unary main_call3_call0.v0 (.of main_call3_v5 : StableHlo.TRef sig ⟨S10x8x131072x1, .i32⟩) (broadcastInDim S10x8x131072x1 ![0, 1, 2] bcast_S10x8x131072_S10x8x131072x1_0_1_2) ]

/-- The buffers the piece writes. -/
abbrev p7a_writes : List (Ref sig .tc) :=
  [main_call3_c, main_call3_v0, main_call3_v1, main_call3_c_0, main_call3_v2, main_call3_v3, main_call3_v4, main_call3_v5]

/-- A buffer the piece does not write keeps its contents across it. -/
theorem p7a_keep (W : Valuation τ sig (Elt F)) {r : Ref sig .tc} (hr : r ∉ p7a_writes) :
    StableHlo.after (p7a : List (HloOp τ sig (Elt F))) W (Proc.devRef .tc r) = W (Proc.devRef .tc r) :=
  StableHlo.after_of_forall_not_mem (b := Proc.devRef .tc r) _ _ (List.forall_iff_forall_mem.mp (by
    simp only [p7a, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 8 to 17 of `hostOps0_7`. -/
abbrev p7b : List (HloOp τ sig (Elt F)) :=
  [ StableHlo.TRef.nullary (.of main_call3_c_1 : StableHlo.TRef sig ⟨S1, .i32⟩) (constantI S1 32 524308#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S10x8x131072x1, .i32⟩) (broadcastInDim S10x8x131072x1 ![] bcast_S_S10x8x131072x1),
    StableHlo.TRef.binary (.of main_call3_v5 : StableHlo.TRef sig ⟨S10x8x131072x1, .i32⟩) (.of main_call3_v6 : StableHlo.TRef sig ⟨S10x8x131072x1, .i32⟩) (.of main_call3_v7 : StableHlo.TRef sig ⟨S10x8x131072x1, .i1⟩) (cmpi .sge),
    StableHlo.TRef.unary (.of main_call3_c_1 : StableHlo.TRef sig ⟨S1, .i32⟩) (.of main_call3_v8 : StableHlo.TRef sig ⟨S1x1x1x1, .i32⟩) (broadcastInDim S1x1x1x1 ![3] bcast_S1_S1x1x1x1_3),
    StableHlo.TRef.unary (.of main_call3_v8 : StableHlo.TRef sig ⟨S1x1x1x1, .i32⟩) (.of main_call3_v9 : StableHlo.TRef sig ⟨S10x8x131072x1, .i32⟩) (broadcastInDim S10x8x131072x1 ![0, 1, 2, 3] bcast_S1x1x1x1_S10x8x131072x1_0_1_2_3),
    StableHlo.TRef.binary (.of main_call3_v5 : StableHlo.TRef sig ⟨S10x8x131072x1, .i32⟩) (.of main_call3_v9 : StableHlo.TRef sig ⟨S10x8x131072x1, .i32⟩) (.of main_call3_v10 : StableHlo.TRef sig ⟨S10x8x131072x1, .i1⟩) (cmpi .sle),
    StableHlo.TRef.binary (.of main_call3_v7 : StableHlo.TRef sig ⟨S10x8x131072x1, .i1⟩) (.of main_call3_v10 : StableHlo.TRef sig ⟨S10x8x131072x1, .i1⟩) (.of main_call3_v11 : StableHlo.TRef sig ⟨S10x8x131072x1, .i1⟩) andi,
    StableHlo.TRef.nullary (.of main_call3_c_3 : StableHlo.TRef sig ⟨S_, .i1⟩) (constantI S_ 1 1#1),
    StableHlo.TRef.binary (.of main_call3_v11 : StableHlo.TRef sig ⟨S10x8x131072x1, .i1⟩) (.of main_call3_c_3 : StableHlo.TRef sig ⟨S_, .i1⟩) (.of main_call3_v12 : StableHlo.TRef sig ⟨S10x8x131072, .i1⟩) (fun x v => Host.reduce IntOp.andi x v reducesTo_S10x8x131072x1_S10x8x131072_d3 h_S_) ]

/-- The buffers the piece writes. -/
abbrev p7b_writes : List (Ref sig .tc) :=
  [main_call3_c_1, main_call3_c_2, main_call3_v6, main_call3_v7, main_call3_v8, main_call3_v9, main_call3_v10, main_call3_v11, main_call3_c_3, main_call3_v12]

/-- A buffer the piece does not write keeps its contents across it. -/
theorem p7b_keep (W : Valuation τ sig (Elt F)) {r : Ref sig .tc} (hr : r ∉ p7b_writes) :
    StableHlo.after (p7b : List (HloOp τ sig (Elt F))) W (Proc.devRef .tc r) = W (Proc.devRef .tc r) :=
  StableHlo.after_of_forall_not_mem (b := Proc.devRef .tc r) _ _ (List.forall_iff_forall_mem.mp (by
    simp only [p7b, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 18 to 22 of `hostOps0_7`. -/
abbrev p7c : List (HloOp τ sig (Elt F)) :=
  [ StableHlo.TRef.binary (.of main_v58 : StableHlo.TRef sig ⟨S10x2x524309, .f32⟩) (.of main_call3_v5 : StableHlo.TRef sig ⟨S10x8x131072x1, .i32⟩) (.of main_call3_v13 : StableHlo.TRef sig ⟨S10x2x8x131072, .f32⟩) (fun x i => Host.gather gather_S10x2x524309_S10x8x131072x1_S10x2x8x131072_1_2_0_0_2_3_121 x i),
    StableHlo.TRef.unary (.of main_call3_v12 : StableHlo.TRef sig ⟨S10x8x131072, .i1⟩) (.of main_call3_v14 : StableHlo.TRef sig ⟨S10x2x8x131072, .i1⟩) (broadcastInDim S10x2x8x131072 ![0, 2, 3] bcast_S10x8x131072_S10x2x8x131072_0_2_3),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v15 : StableHlo.TRef sig ⟨S10x2x8x131072, .f32⟩) (broadcastInDim S10x2x8x131072 ![] bcast_S_S10x2x8x131072),
    StableHlo.TRef.ternary (.of main_call3_v14 : StableHlo.TRef sig ⟨S10x2x8x131072, .i1⟩) (.of main_call3_v13 : StableHlo.TRef sig ⟨S10x2x8x131072, .f32⟩) (.of main_call3_v15 : StableHlo.TRef sig ⟨S10x2x8x131072, .f32⟩) (.of main_v59 : StableHlo.TRef sig ⟨S10x2x8x131072, .f32⟩) select ]

/-- The buffers the piece writes. -/
abbrev p7c_writes : List (Ref sig .tc) :=
  [main_call3_v13, main_call3_v14, main_call3_cst, main_call3_v15, main_v59]

/-- A buffer the piece does not write keeps its contents across it. -/
theorem p7c_keep (W : Valuation τ sig (Elt F)) {r : Ref sig .tc} (hr : r ∉ p7c_writes) :
    StableHlo.after (p7c : List (HloOp τ sig (Elt F))) W (Proc.devRef .tc r) = W (Proc.devRef .tc r) :=
  StableHlo.after_of_forall_not_mem (b := Proc.devRef .tc r) _ _ (List.forall_iff_forall_mem.mp (by
    simp only [p7c, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Stretch 5 is its three pieces in a row. -/
theorem after5_split (W : Valuation τ sig (Elt F)) :
    StableHlo.after (hostOps0_5 : List (HloOp τ sig (Elt F))) W = StableHlo.after p5c (StableHlo.after p5b (StableHlo.after p5a W)) := by
  rw [show (hostOps0_5 : List (HloOp τ sig (Elt F))) = p5a ++ (p5b ++ p5c) from rfl]
  simp only [StableHlo.after_append]

/-- Stretch 7 is its three pieces in a row. -/
theorem after7_split (W : Valuation τ sig (Elt F)) :
    StableHlo.after (hostOps0_7 : List (HloOp τ sig (Elt F))) W = StableHlo.after p7c (StableHlo.after p7b (StableHlo.after p7a W)) := by
  rw [show (hostOps0_7 : List (HloOp τ sig (Elt F))) = p7a ++ (p7b ++ p7c) from rfl]
  simp only [StableHlo.after_append]

end Cert.KernelIdeal.KerHost

end
-- ==== Proof.KerGather.lean ====
/- The two gathers of the program read at an index. -/
import proofs.«133126_j89799176225629_2_alg».proof.Proof.Gen.KernelIdeal.Launch
import proofs.«133126_j89799176225629_2_alg».proof.Proof.Spec
import Idealize.ShloMosaic.Lib.ValueIdx

noncomputable section

namespace Cert.KernelIdeal.KerHost

open Idealize.ShloMosaic Idealize.ShloMosaic.TcCoe Idealize.ShloMosaic.ValueIdx
open Cert.KernelIdeal Cert.KernelIdeal.Gen

/-- The dense levels' gather read at (f, l, k, n): the operand at feature f of the row the start word names, read
    signed and clamped into the table. -/
theorem gatherD_apply {α : Type} (x : S2x822944.Idx → α) (idx : IVec S6x8x131072x1 32)
    (f : Fin 2) (l : Fin 6) (k : Fin 8) (n : Fin 131072) :
    Host.gather gather_S2x822944_S6x8x131072x1_S2x6x8x131072_0_1_n_n_1_3_21 x idx (ix4 f l k n)
      = x (ix2 f (Cert.Spec.rowAt 822944 (by omega) (idx (ix4 l k n 0)))) := by
  unfold Host.gather
  refine congrArg x (funext fun a => Fin.ext ?_)
  have hsi : gather_S2x822944_S6x8x131072x1_S2x6x8x131072_0_1_n_n_1_3_21.siIdx (ix4 f l k n) ⟨0, by decide⟩ = ix4 l k n 0 := by
    funext b; refine Fin.ext ?_; fin_cases b <;> rfl
  fin_cases a
  · show 0 + 0 + f.val = f.val
    omega
  · show min (idx (gather_S2x822944_S6x8x131072x1_S2x6x8x131072_0_1_n_n_1_3_21.siIdx (ix4 f l k n) ⟨0, _⟩)).toInt.toNat (822944 - 1) + 0 + 0 = _
    rw [hsi]; rfl

/-- The hashed levels' gather read at (h, f, k, n): the operand at level h, feature f, and the row the start word
    names, read signed and clamped into the table. -/
theorem gatherH_apply {α : Type} (x : S10x2x524309.Idx → α) (idx : IVec S10x8x131072x1 32)
    (h : Fin 10) (f : Fin 2) (k : Fin 8) (n : Fin 131072) :
    Host.gather gather_S10x2x524309_S10x8x131072x1_S10x2x8x131072_1_2_0_0_2_3_121 x idx (ix4 h f k n)
      = x (ix3 h f (Cert.Spec.rowAt 524309 (by omega) (idx (ix4 h k n 0)))) := by
  unfold Host.gather
  refine congrArg x (funext fun a => Fin.ext ?_)
  have hsi : gather_S10x2x524309_S10x8x131072x1_S10x2x8x131072_1_2_0_0_2_3_121.siIdx (ix4 h f k n) ⟨0, by decide⟩ = ix4 h k n 0 := by
    funext b; refine Fin.ext ?_; fin_cases b <;> rfl
  fin_cases a
  · show 0 + h.val + 0 = h.val
    omega
  · show 0 + 0 + f.val = f.val
    omega
  · show min (idx (gather_S10x2x524309_S10x8x131072x1_S10x2x8x131072_1_2_0_0_2_3_121.siIdx (ix4 h f k n) ⟨0, _⟩)).toInt.toNat (524309 - 1) + 0 + 0 = _
    rw [hsi]; rfl

end Cert.KernelIdeal.KerHost

end
-- ==== Proof.KerL5.lean ====
/- Stretch 5 of the host operations before the region (the dense levels' fill-mode take), read at an index. -/
import proofs.«133126_j89799176225629_2_alg».proof.Proof.KerPiecesT
import proofs.«133126_j89799176225629_2_alg».proof.Proof.KerGather
import proofs.«133126_j89799176225629_2_alg».proof.Proof.KerTRef
import proofs.«133126_j89799176225629_2_alg».proof.Proof.Spec
import Idealize.ShloMosaic.Lib.Pipeline.Value
import Idealize.ShloMosaic.Lib.ValueIdx
import Idealize.ShloMosaic.PureOps.Reduce

noncomputable section

namespace Cert.KernelIdeal.KerHost

open Idealize.ShloMosaic Idealize.ShloMosaic.TcCoe Idealize.ShloMosaic.ValueIdx
open Cert.KernelIdeal Cert.KernelIdeal.Gen

variable (W : Valuation τ sig (Elt Ideal))

/-- The unit axis of a [6, 8, 131072, 1] array dropped: the index over (l, k, n) with coordinate e on that axis. -/
theorem lift_d3_5 (hr : S6x8x131072x1.Reduces [3] S6x8x131072) (l : Fin 6) (k : Fin 8) (n : Fin 131072) (e : Fin 1) :
    hr.lift (ix3 l k n) e = ix4 l k n e := by
  funext c
  refine Fin.ext ?_
  fin_cases c <;> rfl

/-- The row, a negative one counted from the end of the table, with a trailing unit axis. -/
theorem p5a_v5 (i : Fin 6 → Fin 8 → Fin 131072 → BitVec 32)
    (hi : ∀ l k n, (W (Proc.devRef .tc main_v35) : S6x8x131072.Idx → BitVec 32) (ix3 l k n) = i l k n)
    (l : Fin 6) (k : Fin 8) (n : Fin 131072) (e : Fin 1) :
    (StableHlo.after (p5a : List (HloOp τ sig (Elt Ideal))) W (Proc.devRef .tc main_call2_v5) : S6x8x131072x1.Idx → BitVec 32) (ix4 l k n e) = Cert.Spec.wrap 822944#32 (i l k n) := by
  after_results_simp
  simp only [ofBuf_toBuf_self]
  have hv : (W (Proc.devRef .tc main_v35) : S6x8x131072.Idx → BitVec 32) = fun j => i (j 0) (j 1) (j 2) :=
    funext fun j => by rw [eq_ix3 j]; exact hi _ _ _
  rw [hv]
  rfl

/-- The range test of the fill-mode take. -/
theorem p5b_v12 (i : Fin 6 → Fin 8 → Fin 131072 → BitVec 32)
    (h5 : ∀ l k n e, (W (Proc.devRef .tc main_call2_v5) : S6x8x131072x1.Idx → BitVec 32) (ix4 l k n e) = i l k n)
    (l : Fin 6) (k : Fin 8) (n : Fin 131072) :
    (StableHlo.after (p5b : List (HloOp τ sig (Elt Ideal))) W (Proc.devRef .tc main_call2_v12) : S6x8x131072.Idx → BitVec 1) (ix3 l k n) = Cert.Spec.inRange 822943#32 (i l k n) := by
  after_results_simp
  simp only [ofBuf_toBuf_self]
  have hr : S6x8x131072x1.Reduces [3] S6x8x131072 := by decide
  generalize hR : Host.reduce IntOp.andi _ _ reducesTo_S6x8x131072x1_S6x8x131072_d3 h_S_ = R
  have key : ∀ (Q : S6x8x131072.Idx → BitVec 1),
      (StableHlo.TRef.toBuf (Val := Elt Ideal) (.of main_call2_v12 : StableHlo.TRef sig ⟨S6x8x131072, .i1⟩) Q : S6x8x131072.Idx → BitVec 1) = Q :=
    fun Q => rfl
  rw [key]
  rw [← hR]
  refine (Host.reduce_eq_fold_single IntOp.andi _ _ reducesTo_S6x8x131072x1_S6x8x131072_d3 hr h_S_ (ix3 l k n)).trans ?_
  unfold Cert.Spec.inRange
  refine Finset.fold_congr (fun e _ => ?_)
  rw [Function.comp_apply, lift_d3_5 hr l k n e]
  refine congrArg₂ IntOp.andi (congrArg₂ (IntOp.cmpi .sge) ?_ rfl) (congrArg₂ (IntOp.cmpi .sle) ?_ rfl)
  · exact h5 l k n e
  · exact h5 l k n e

/-- The gathered value, or the fill word where the range test fails. -/
theorem p5c_out (i : Fin 6 → Fin 8 → Fin 131072 → BitVec 32) (m : Fin 6 → Fin 8 → Fin 131072 → BitVec 1) (G : Fin 2 → Fin 822944 → EReal)
    (h5 : ∀ l k n e, (W (Proc.devRef .tc main_call2_v5) : S6x8x131072x1.Idx → BitVec 32) (ix4 l k n e) = i l k n)
    (h12 : ∀ l k n, (W (Proc.devRef .tc main_call2_v12) : S6x8x131072.Idx → BitVec 1) (ix3 l k n) = m l k n)
    (htab : ∀ (f : Fin 2) (r : Fin 822944), (W (Proc.devRef .tc main_v56) : S2x822944.Idx → EReal) (ix2 f r) = G f r)
    (f : Fin 2) (l : Fin 6) (k : Fin 8) (n : Fin 131072) :
    (StableHlo.after (p5c : List (HloOp τ sig (Elt Ideal))) W (Proc.devRef .tc main_v57) : S2x6x8x131072.Idx → EReal) (ix4 f l k n)
      = Scalar.select (m l k n) (G f (Cert.Spec.rowAt 822944 (by omega) (i l k n))) Cert.Spec.cfill := by
  after_results_simp
  simp only [ofBuf_toBuf_self]
  show Scalar.select
      (broadcastInDim S2x6x8x131072 ![1, 2, 3] bcast_S6x8x131072_S2x6x8x131072_1_2_3 (W (Proc.devRef .tc main_call2_v12) : S6x8x131072.Idx → BitVec 1) (ix4 f l k n))
      (Host.gather gather_S2x822944_S6x8x131072x1_S2x6x8x131072_0_1_n_n_1_3_21 (W (Proc.devRef .tc main_v56) : S2x822944.Idx → EReal) (W (Proc.devRef .tc main_call2_v5) : S6x8x131072x1.Idx → BitVec 32) (ix4 f l k n))
      Cert.Spec.cfill = _
  have e1 : broadcastInDim S2x6x8x131072 ![1, 2, 3] bcast_S6x8x131072_S2x6x8x131072_1_2_3 (W (Proc.devRef .tc main_call2_v12) : S6x8x131072.Idx → BitVec 1) (ix4 f l k n) = m l k n :=
    (broadcastInDim_apply _ _ _ (ix4 f l k n) (ix3 l k n) (by intro a; fin_cases a <;> rfl)).trans (h12 l k n)
  have e2 : Host.gather gather_S2x822944_S6x8x131072x1_S2x6x8x131072_0_1_n_n_1_3_21 (W (Proc.devRef .tc main_v56) : S2x822944.Idx → EReal) (W (Proc.devRef .tc main_call2_v5) : S6x8x131072x1.Idx → BitVec 32) (ix4 f l k n) = G f (Cert.Spec.rowAt 822944 (by omega) (i l k n)) := by
    refine (gatherD_apply _ _ f l k n).trans ?_
    rw [h5 l k n 0]
    exact htab _ _
  rw [e1, e2]

/-! ### The stretch as a whole -/

theorem L5_out (i : Fin 6 → Fin 8 → Fin 131072 → BitVec 32) (G : Fin 2 → Fin 822944 → EReal)
    (hi : ∀ l k n, (W (Proc.devRef .tc main_v35) : S6x8x131072.Idx → BitVec 32) (ix3 l k n) = i l k n)
    (htab : ∀ (f : Fin 2) (r : Fin 822944), (W (Proc.devRef .tc main_v56) : S2x822944.Idx → EReal) (ix2 f r) = G f r)
    (f : Fin 2) (l : Fin 6) (k : Fin 8) (n : Fin 131072) :
    (StableHlo.after (hostOps0_5 : List (HloOp τ sig (Elt Ideal))) W (Proc.devRef .tc main_v57) : S2x6x8x131072.Idx → EReal) (ix4 f l k n)
      = Scalar.select (Cert.Spec.inRange 822943#32 (Cert.Spec.wrap 822944#32 (i l k n)))
          (G f (Cert.Spec.rowAt 822944 (by omega) (Cert.Spec.wrap 822944#32 (i l k n)))) Cert.Spec.cfill := by
  rw [after5_split]
  have h5 : ∀ l k n e, (StableHlo.after (p5b : List (HloOp τ sig (Elt Ideal))) (StableHlo.after p5a W) (Proc.devRef .tc main_call2_v5) : S6x8x131072x1.Idx → BitVec 32) (ix4 l k n e)
      = Cert.Spec.wrap 822944#32 (i l k n) := fun l k n e => by
    rw [p5b_keep _ (by decide)]; exact p5a_v5 W i hi l k n e
  refine p5c_out _ (fun l k n => Cert.Spec.wrap 822944#32 (i l k n)) (fun l k n => Cert.Spec.inRange 822943#32 (Cert.Spec.wrap 822944#32 (i l k n))) G h5 ?_ ?_ f l k n
  · intro l k n
    exact p5b_v12 _ (fun l k n => Cert.Spec.wrap 822944#32 (i l k n)) (fun l k n e => p5a_v5 W i hi l k n e) l k n
  · intro f r
    rw [p5b_keep _ (by decide), p5a_keep _ (by decide)]; exact htab _ _

end Cert.KernelIdeal.KerHost

end
-- ==== Proof.KerL7.lean ====
/- Stretch 7 of the host operations before the region (the hashed levels' fill-mode take), read at an index. -/
import proofs.«133126_j89799176225629_2_alg».proof.Proof.KerPiecesT
import proofs.«133126_j89799176225629_2_alg».proof.Proof.KerGather
import proofs.«133126_j89799176225629_2_alg».proof.Proof.KerTRef
import proofs.«133126_j89799176225629_2_alg».proof.Proof.Spec
import Idealize.ShloMosaic.Lib.Pipeline.Value
import Idealize.ShloMosaic.Lib.ValueIdx
import Idealize.ShloMosaic.PureOps.Reduce

noncomputable section

namespace Cert.KernelIdeal.KerHost

open Idealize.ShloMosaic Idealize.ShloMosaic.TcCoe Idealize.ShloMosaic.ValueIdx
open Cert.KernelIdeal Cert.KernelIdeal.Gen

variable (W : Valuation τ sig (Elt Ideal))

/-- The unit axis of a [10, 8, 131072, 1] array dropped: the index over (l, k, n) with coordinate e on that axis. -/
theorem lift_d3_7 (hr : S10x8x131072x1.Reduces [3] S10x8x131072) (l : Fin 10) (k : Fin 8) (n : Fin 131072) (e : Fin 1) :
    hr.lift (ix3 l k n) e = ix4 l k n e := by
  funext c
  refine Fin.ext ?_
  fin_cases c <;> rfl

/-- The row, a negative one counted from the end of the table, with a trailing unit axis. -/
theorem p7a_v5 (i : Fin 10 → Fin 8 → Fin 131072 → BitVec 32)
    (hi : ∀ l k n, (W (Proc.devRef .tc main_v55) : S10x8x131072.Idx → BitVec 32) (ix3 l k n) = i l k n)
    (l : Fin 10) (k : Fin 8) (n : Fin 131072) (e : Fin 1) :
    (StableHlo.after (p7a : List (HloOp τ sig (Elt Ideal))) W (Proc.devRef .tc main_call3_v5) : S10x8x131072x1.Idx → BitVec 32) (ix4 l k n e) = Cert.Spec.wrap 524309#32 (i l k n) := by
  after_results_simp
  simp only [ofBuf_toBuf_self]
  have hv : (W (Proc.devRef .tc main_v55) : S10x8x131072.Idx → BitVec 32) = fun j => i (j 0) (j 1) (j 2) :=
    funext fun j => by rw [eq_ix3 j]; exact hi _ _ _
  rw [hv]
  rfl

/-- The range test of the fill-mode take. -/
theorem p7b_v12 (i : Fin 10 → Fin 8 → Fin 131072 → BitVec 32)
    (h5 : ∀ l k n e, (W (Proc.devRef .tc main_call3_v5) : S10x8x131072x1.Idx → BitVec 32) (ix4 l k n e) = i l k n)
    (l : Fin 10) (k : Fin 8) (n : Fin 131072) :
    (StableHlo.after (p7b : List (HloOp τ sig (Elt Ideal))) W (Proc.devRef .tc main_call3_v12) : S10x8x131072.Idx → BitVec 1) (ix3 l k n) = Cert.Spec.inRange 524308#32 (i l k n) := by
  after_results_simp
  simp only [ofBuf_toBuf_self]
  have hr : S10x8x131072x1.Reduces [3] S10x8x131072 := by decide
  generalize hR : Host.reduce IntOp.andi _ _ reducesTo_S10x8x131072x1_S10x8x131072_d3 h_S_ = R
  have key : ∀ (Q : S10x8x131072.Idx → BitVec 1),
      (StableHlo.TRef.toBuf (Val := Elt Ideal) (.of main_call3_v12 : StableHlo.TRef sig ⟨S10x8x131072, .i1⟩) Q : S10x8x131072.Idx → BitVec 1) = Q :=
    fun Q => rfl
  rw [key]
  rw [← hR]
  refine (Host.reduce_eq_fold_single IntOp.andi _ _ reducesTo_S10x8x131072x1_S10x8x131072_d3 hr h_S_ (ix3 l k n)).trans ?_
  unfold Cert.Spec.inRange
  refine Finset.fold_congr (fun e _ => ?_)
  rw [Function.comp_apply, lift_d3_7 hr l k n e]
  refine congrArg₂ IntOp.andi (congrArg₂ (IntOp.cmpi .sge) ?_ rfl) (congrArg₂ (IntOp.cmpi .sle) ?_ rfl)
  · exact h5 l k n e
  · exact h5 l k n e

/-- The gathered value, or the fill word where the range test fails. -/
theorem p7c_out (i : Fin 10 → Fin 8 → Fin 131072 → BitVec 32) (m : Fin 10 → Fin 8 → Fin 131072 → BitVec 1) (G : Fin 10 → Fin 2 → Fin 524309 → EReal)
    (h5 : ∀ l k n e, (W (Proc.devRef .tc main_call3_v5) : S10x8x131072x1.Idx → BitVec 32) (ix4 l k n e) = i l k n)
    (h12 : ∀ l k n, (W (Proc.devRef .tc main_call3_v12) : S10x8x131072.Idx → BitVec 1) (ix3 l k n) = m l k n)
    (htab : ∀ (l : Fin 10) (f : Fin 2) (r : Fin 524309), (W (Proc.devRef .tc main_v58) : S10x2x524309.Idx → EReal) (ix3 l f r) = G l f r)
    (f : Fin 2) (l : Fin 10) (k : Fin 8) (n : Fin 131072) :
    (StableHlo.after (p7c : List (HloOp τ sig (Elt Ideal))) W (Proc.devRef .tc main_v59) : S10x2x8x131072.Idx → EReal) (ix4 l f k n)
      = Scalar.select (m l k n) (G l f (Cert.Spec.rowAt 524309 (by omega) (i l k n))) Cert.Spec.cfill := by
  after_results_simp
  simp only [ofBuf_toBuf_self]
  show Scalar.select
      (broadcastInDim S10x2x8x131072 ![0, 2, 3] bcast_S10x8x131072_S10x2x8x131072_0_2_3 (W (Proc.devRef .tc main_call3_v12) : S10x8x131072.Idx → BitVec 1) (ix4 l f k n))
      (Host.gather gather_S10x2x524309_S10x8x131072x1_S10x2x8x131072_1_2_0_0_2_3_121 (W (Proc.devRef .tc main_v58) : S10x2x524309.Idx → EReal) (W (Proc.devRef .tc main_call3_v5) : S10x8x131072x1.Idx → BitVec 32) (ix4 l f k n))
      Cert.Spec.cfill = _
  have e1 : broadcastInDim S10x2x8x131072 ![0, 2, 3] bcast_S10x8x131072_S10x2x8x131072_0_2_3 (W (Proc.devRef .tc main_call3_v12) : S10x8x131072.Idx → BitVec 1) (ix4 l f k n) = m l k n :=
    (broadcastInDim_apply _ _ _ (ix4 l f k n) (ix3 l k n) (by intro a; fin_cases a <;> rfl)).trans (h12 l k n)
  have e2 : Host.gather gather_S10x2x524309_S10x8x131072x1_S10x2x8x131072_1_2_0_0_2_3_121 (W (Proc.devRef .tc main_v58) : S10x2x524309.Idx → EReal) (W (Proc.devRef .tc main_call3_v5) : S10x8x131072x1.Idx → BitVec 32) (ix4 l f k n) = G l f (Cert.Spec.rowAt 524309 (by omega) (i l k n)) := by
    refine (gatherH_apply _ _ l f k n).trans ?_
    rw [h5 l k n 0]
    exact htab _ _ _
  rw [e1, e2]

/-! ### The stretch as a whole -/

theorem L7_out (i : Fin 10 → Fin 8 → Fin 131072 → BitVec 32) (G : Fin 10 → Fin 2 → Fin 524309 → EReal)
    (hi : ∀ l k n, (W (Proc.devRef .tc main_v55) : S10x8x131072.Idx → BitVec 32) (ix3 l k n) = i l k n)
    (htab : ∀ (l : Fin 10) (f : Fin 2) (r : Fin 524309), (W (Proc.devRef .tc main_v58) : S10x2x524309.Idx → EReal) (ix3 l f r) = G l f r)
    (f : Fin 2) (l : Fin 10) (k : Fin 8) (n : Fin 131072) :
    (StableHlo.after (hostOps0_7 : List (HloOp τ sig (Elt Ideal))) W (Proc.devRef .tc main_v59) : S10x2x8x131072.Idx → EReal) (ix4 l f k n)
      = Scalar.select (Cert.Spec.inRange 524308#32 (Cert.Spec.wrap 524309#32 (i l k n)))
          (G l f (Cert.Spec.rowAt 524309 (by omega) (Cert.Spec.wrap 524309#32 (i l k n)))) Cert.Spec.cfill := by
  rw [after7_split]
  have h5 : ∀ l k n e, (StableHlo.after (p7b : List (HloOp τ sig (Elt Ideal))) (StableHlo.after p7a W) (Proc.devRef .tc main_call3_v5) : S10x8x131072x1.Idx → BitVec 32) (ix4 l k n e)
      = Cert.Spec.wrap 524309#32 (i l k n) := fun l k n e => by
    rw [p7b_keep _ (by decide)]; exact p7a_v5 W i hi l k n e
  refine p7c_out _ (fun l k n => Cert.Spec.wrap 524309#32 (i l k n)) (fun l k n => Cert.Spec.inRange 524308#32 (Cert.Spec.wrap 524309#32 (i l k n))) G h5 ?_ ?_ f l k n
  · intro l k n
    exact p7b_v12 _ (fun l k n => Cert.Spec.wrap 524309#32 (i l k n)) (fun l k n e => p7a_v5 W i hi l k n e) l k n
  · intro l f r
    rw [p7b_keep _ (by decide), p7a_keep _ (by decide)]; exact htab _ _ _

end Cert.KernelIdeal.KerHost

end
-- ==== Proof.KerPieces8.lean ====
/- The weights' piece of the last stretch cut in two: the interpolation factors of the three axes; the product of
   the first two. -/
import proofs.«133126_j89799176225629_2_alg».proof.Proof.KerPieces

noncomputable section

namespace Cert.KernelIdeal.KerHost

open Idealize.ShloMosaic Idealize.ShloMosaic.TcCoe
open Cert.KernelIdeal Cert.KernelIdeal.Gen

variable {F : FTy → Type} [FloatOps F]

/-- Operations 2 to 17 of `hostOps0_8`. -/
abbrev p8b1 : List (HloOp τ sig (Elt F)) :=
  [ StableHlo.unary main_v27 main_v62 (broadcastInDim S16x1x3x131072 ![0, 2, 3] bcast_S16x3x131072_S16x1x3x131072_0_2_3 : (⟨S16x3x131072, .f32⟩ : BufTy).Contents (Elt F) → (⟨S16x1x3x131072, .f32⟩ : BufTy).Contents (Elt F)),
    StableHlo.unary main_cst_2 main_v63 (broadcastInDim S1x8x3x1 ![1, 2] bcast_S8x3_S1x8x3x1_1_2 : (⟨S8x3, .f32⟩ : BufTy).Contents (Elt F) → (⟨S1x8x3x1, .f32⟩ : BufTy).Contents (Elt F)),
    StableHlo.nullary main_cst_13 (constant S_ .f32 0x3F800000#32),
    StableHlo.unary main_cst_13 main_v64 (broadcastInDim S1x8x3x1 ![] bcast_S_S1x8x3x1 : (⟨S_, .f32⟩ : BufTy).Contents (Elt F) → (⟨S1x8x3x1, .f32⟩ : BufTy).Contents (Elt F)),
    StableHlo.binary main_v64 main_v63 main_v65 (subf : (⟨S1x8x3x1, .f32⟩ : BufTy).Contents (Elt F) → (⟨S1x8x3x1, .f32⟩ : BufTy).Contents (Elt F) → (⟨S1x8x3x1, .f32⟩ : BufTy).Contents (Elt F)),
    StableHlo.nullary main_cst_14 (constant S_ .f32 0x40000000#32),
    StableHlo.unary main_cst_14 main_v66 (broadcastInDim S1x8x3x1 ![] bcast_S_S1x8x3x1 : (⟨S_, .f32⟩ : BufTy).Contents (Elt F) → (⟨S1x8x3x1, .f32⟩ : BufTy).Contents (Elt F)),
    StableHlo.binary main_v66 main_v63 main_v67 (mulf : (⟨S1x8x3x1, .f32⟩ : BufTy).Contents (Elt F) → (⟨S1x8x3x1, .f32⟩ : BufTy).Contents (Elt F) → (⟨S1x8x3x1, .f32⟩ : BufTy).Contents (Elt F)),
    StableHlo.nullary main_cst_15 (constant S_ .f32 0x3F800000#32),
    StableHlo.unary main_cst_15 main_v68 (broadcastInDim S1x8x3x1 ![] bcast_S_S1x8x3x1 : (⟨S_, .f32⟩ : BufTy).Contents (Elt F) → (⟨S1x8x3x1, .f32⟩ : BufTy).Contents (Elt F)),
    StableHlo.binary main_v67 main_v68 main_v69 (subf : (⟨S1x8x3x1, .f32⟩ : BufTy).Contents (Elt F) → (⟨S1x8x3x1, .f32⟩ : BufTy).Contents (Elt F) → (⟨S1x8x3x1, .f32⟩ : BufTy).Contents (Elt F)),
    StableHlo.unary main_v69 main_v70 (broadcastInDim S16x8x3x131072 ![0, 1, 2, 3] bcast_S1x8x3x1_S16x8x3x131072_0_1_2_3 : (⟨S1x8x3x1, .f32⟩ : BufTy).Contents (Elt F) → (⟨S16x8x3x131072, .f32⟩ : BufTy).Contents (Elt F)),
    StableHlo.unary main_v62 main_v71 (broadcastInDim S16x8x3x131072 ![0, 1, 2, 3] bcast_S16x1x3x131072_S16x8x3x131072_0_1_2_3 : (⟨S16x1x3x131072, .f32⟩ : BufTy).Contents (Elt F) → (⟨S16x8x3x131072, .f32⟩ : BufTy).Contents (Elt F)),
    StableHlo.binary main_v70 main_v71 main_v72 (mulf : (⟨S16x8x3x131072, .f32⟩ : BufTy).Contents (Elt F) → (⟨S16x8x3x131072, .f32⟩ : BufTy).Contents (Elt F) → (⟨S16x8x3x131072, .f32⟩ : BufTy).Contents (Elt F)),
    StableHlo.unary main_v65 main_v73 (broadcastInDim S16x8x3x131072 ![0, 1, 2, 3] bcast_S1x8x3x1_S16x8x3x131072_0_1_2_3 : (⟨S1x8x3x1, .f32⟩ : BufTy).Contents (Elt F) → (⟨S16x8x3x131072, .f32⟩ : BufTy).Contents (Elt F)),
    StableHlo.binary main_v73 main_v72 main_v74 (addf : (⟨S16x8x3x131072, .f32⟩ : BufTy).Contents (Elt F) → (⟨S16x8x3x131072, .f32⟩ : BufTy).Contents (Elt F) → (⟨S16x8x3x131072, .f32⟩ : BufTy).Contents (Elt F)) ]

/-- The buffers the piece writes. -/
abbrev p8b1_writes : List (Ref sig .tc) :=
  [main_v62, main_v63, main_cst_13, main_v64, main_v65, main_cst_14, main_v66, main_v67, main_cst_15, main_v68, main_v69, main_v70, main_v71, main_v72, main_v73, main_v74]

/-- A buffer the piece does not write keeps its contents across it. -/
theorem p8b1_keep (W : Valuation τ sig (Elt F)) {r : Ref sig .tc} (hr : r ∉ p8b1_writes) :
    StableHlo.after (p8b1 : List (HloOp τ sig (Elt F))) W (Proc.devRef .tc r) = W (Proc.devRef .tc r) :=
  StableHlo.after_of_forall_not_mem (b := Proc.devRef .tc r) _ _ (List.forall_iff_forall_mem.mp (by
    simp only [p8b1, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- Operations 18 to 22 of `hostOps0_8`. -/
abbrev p8b2 : List (HloOp τ sig (Elt F)) :=
  [ StableHlo.unary main_v74 main_v75 ((extractStridedSlice S16x8x1x131072 ![0, 0, 0, 0] · slices_S16x8x3x131072_S16x8x1x131072_0_0_0_0) : (⟨S16x8x3x131072, .f32⟩ : BufTy).Contents (Elt F) → (⟨S16x8x1x131072, .f32⟩ : BufTy).Contents (Elt F)),
    StableHlo.reshape main_v75 main_v76 rfl shapeCasts_S16x8x1x131072_S16x8x131072,
    StableHlo.unary main_v74 main_v77 ((extractStridedSlice S16x8x1x131072 ![0, 0, 1, 0] · slices_S16x8x3x131072_S16x8x1x131072_0_0_1_0) : (⟨S16x8x3x131072, .f32⟩ : BufTy).Contents (Elt F) → (⟨S16x8x1x131072, .f32⟩ : BufTy).Contents (Elt F)),
    StableHlo.reshape main_v77 main_v78 rfl shapeCasts_S16x8x1x131072_S16x8x131072,
    StableHlo.binary main_v76 main_v78 main_v79 (mulf : (⟨S16x8x131072, .f32⟩ : BufTy).Contents (Elt F) → (⟨S16x8x131072, .f32⟩ : BufTy).Contents (Elt F) → (⟨S16x8x131072, .f32⟩ : BufTy).Contents (Elt F)) ]

/-- The buffers the piece writes. -/
abbrev p8b2_writes : List (Ref sig .tc) :=
  [main_v75, main_v76, main_v77, main_v78, main_v79]

/-- A buffer the piece does not write keeps its contents across it. -/
theorem p8b2_keep (W : Valuation τ sig (Elt F)) {r : Ref sig .tc} (hr : r ∉ p8b2_writes) :
    StableHlo.after (p8b2 : List (HloOp τ sig (Elt F))) W (Proc.devRef .tc r) = W (Proc.devRef .tc r) :=
  StableHlo.after_of_forall_not_mem (b := Proc.devRef .tc r) _ _ (List.forall_iff_forall_mem.mp (by
    simp only [p8b2, List.Forall, StableHlo.nullary_writes, StableHlo.unary_writes, StableHlo.binary_writes, StableHlo.ternary_writes, StableHlo.reshape_writes, Finset.mem_singleton]
    repeat' apply And.intro
    all_goals exact StableHlo.devRef_ne_of_ne (fun h => hr (by subst h; decide))))

/-- The weights' piece is its two halves in a row. -/
theorem after8b_split (W : Valuation τ sig (Elt F)) :
    StableHlo.after (p8b : List (HloOp τ sig (Elt F))) W = StableHlo.after p8b2 (StableHlo.after p8b1 W) := by
  rw [show (p8b : List (HloOp τ sig (Elt F))) = p8b1 ++ p8b2 from rfl]
  simp only [StableHlo.after_append]

end Cert.KernelIdeal.KerHost

end
-- ==== Proof.KerL8.lean ====
/- Stretch 8 of the host operations before the region, read at an index: the corner values of all levels and the
   corner weights. -/
import proofs.«133126_j89799176225629_2_alg».proof.Proof.KerPieces8
import proofs.«133126_j89799176225629_2_alg».proof.Proof.Spec
import Idealize.ShloMosaic.Lib.Pipeline.Value
import Idealize.ShloMosaic.Lib.ValueIdx

noncomputable section

namespace Cert.KernelIdeal.KerHost

open Idealize.ShloMosaic Idealize.ShloMosaic.TcCoe Idealize.ShloMosaic.ValueIdx
open Cert.KernelIdeal Cert.KernelIdeal.Gen

variable (W : Valuation τ sig (Elt Ideal))

/-- The corner values of all sixteen levels: the dense levels' take, then the hashed levels' take with its level and
    feature axes exchanged, side by side along the level axis. -/
theorem p8a_v61 (vd : Fin 6 → Fin 8 → Fin 131072 → Fin 2 → EReal) (vh : Fin 10 → Fin 8 → Fin 131072 → Fin 2 → EReal)
    (h57 : ∀ f l k n, (W (Proc.devRef .tc main_v57) : S2x6x8x131072.Idx → EReal) (ix4 f l k n) = vd l k n f)
    (h59 : ∀ h f k n, (W (Proc.devRef .tc main_v59) : S10x2x8x131072.Idx → EReal) (ix4 h f k n) = vh h k n f)
    (f : Fin 2) (l : Fin 16) (k : Fin 8) (n : Fin 131072) :
    (StableHlo.after (p8a : List (HloOp τ sig (Elt Ideal))) W (Proc.devRef .tc main_v61) : S2x16x8x131072.Idx → EReal) (ix4 f l k n)
      = if h : l.val < 6 then vd ⟨l.val, h⟩ k n f else vh ⟨l.val - 6, by omega⟩ k n f := by
  after_results
  by_cases h : l.val < 6
  · rw [dif_pos h]
    refine (concatenate_pair_apply_left (t := S2x16x8x131072) (s₁ := S2x6x8x131072) (s₂ := S2x10x8x131072) 1 _ _ _ (ix4 f l k n) rfl
      (ix4 f (⟨l.val, h⟩ : Fin 6) k n : S2x6x8x131072.Idx) ?_).trans (h57 f ⟨l.val, h⟩ k n)
    intro a; fin_cases a <;> rfl
  · rw [dif_neg h]
    refine (concatenate_pair_apply_right (t := S2x16x8x131072) (s₁ := S2x6x8x131072) (s₂ := S2x10x8x131072) 1 _ _ _ (ix4 f l k n) rfl rfl
      (ix4 f (⟨l.val - 6, by omega⟩ : Fin 10) k n : S2x10x8x131072.Idx) ?_ ?_).trans ?_
    · intro b hb
      fin_cases b
      · rfl
      · exact absurd rfl hb
      · rfl
      · rfl
    · show l.val - 6 + 6 = l.val
      omega
    refine (transpose_apply _ _ _ (ix4 f (⟨l.val - 6, by omega⟩ : Fin 10) k n : S2x10x8x131072.Idx) (ix4 (⟨l.val - 6, by omega⟩ : Fin 10) f k n : S10x2x8x131072.Idx) ?_).trans ?_
    · intro a; fin_cases a <;> rfl
    exact h59 ⟨l.val - 6, by omega⟩ f k n

/-- The interpolation factors. -/
theorem p8b1_v74 (T : Cert.Spec.Tables) (X : FVec Ideal ⟨2, ![131072, 3]⟩ .f32)
    (h27 : ∀ l d n, (W (Proc.devRef .tc main_v27) : S16x3x131072.Idx → EReal) (ix3 l d n) = Cert.Spec.off T X l d n)
    (ho : (W (Proc.devRef .tc main_cst_2) : S8x3.Idx → EReal) = T.o)
    (l : Fin 16) (k : Fin 8) (d : Fin 3) (n : Fin 131072) :
    (StableHlo.after (p8b1 : List (HloOp τ sig (Elt Ideal))) W (Proc.devRef .tc main_v74) : S16x8x3x131072.Idx → EReal) (ix4 l k d n) = Cert.Spec.wf T X l k d n := by
  after_results_simp
  unfold Cert.Spec.wf
  refine congrArg₂ FloatOps.addf ?_ (congrArg₂ FloatOps.mulf ?_ ?_)
  · refine (broadcastInDim_apply _ _ _ (ix4 l k d n) (ix4 0 k d 0) ?_).trans ?_
    · intro a; fin_cases a <;> rfl
    refine congrArg₂ FloatOps.subf rfl ?_
    refine (broadcastInDim_apply _ _ _ (ix4 0 k d 0) (ix2 k d) ?_).trans ?_
    · intro a; fin_cases a <;> rfl
    rw [ho]
  · refine (broadcastInDim_apply _ _ _ (ix4 l k d n) (ix4 0 k d 0) ?_).trans ?_
    · intro a; fin_cases a <;> rfl
    refine congrArg₂ FloatOps.subf (congrArg₂ FloatOps.mulf rfl ?_) rfl
    refine (broadcastInDim_apply _ _ _ (ix4 0 k d 0) (ix2 k d) ?_).trans ?_
    · intro a; fin_cases a <;> rfl
    rw [ho]
  · refine (broadcastInDim_apply _ _ _ (ix4 l k d n) (ix4 l 0 d n) ?_).trans ?_
    · intro a; fin_cases a <;> rfl
    refine (broadcastInDim_apply _ _ _ (ix4 l 0 d n) (ix3 l d n) ?_).trans ?_
    · intro a; fin_cases a <;> rfl
    exact h27 l d n

/-- One axis's factor: the axis slice, the unit axis dropped. -/
theorem wAxis (g : Fin 16 → Fin 8 → Fin 3 → Fin 131072 → Ideal .f32)
    (h74 : ∀ l k d n, (W (Proc.devRef .tc main_v74) : S16x8x3x131072.Idx → EReal) (ix4 l k d n) = g l k d n)
    (e : Fin 3) (off : Fin 4 → Nat) (hoff : off = ![0, 0, e.val, 0]) (hs : S16x8x3x131072.Slices off S16x8x1x131072)
    (l : Fin 16) (k : Fin 8) (n : Fin 131072) :
    shapeCast S16x8x131072 (extractStridedSlice S16x8x1x131072 off (W (Proc.devRef .tc main_v74) : S16x8x3x131072.Idx → EReal) hs)
      shapeCasts_S16x8x1x131072_S16x8x131072 (ix3 l k n) = g l k e n := by
  subst hoff
  refine (shapeCast_apply _ _ (ix3 l k n) (ix4 l k 0 n) ?_).trans ?_
  · rw [Shape.rowMajor_val_four, Shape.rowMajor_val_three]
    show ((l.val * 8 + k.val) * 1 + 0) * 131072 + n.val = (l.val * 8 + k.val) * 131072 + n.val
    omega
  refine (extractStridedSlice_apply _ _ _ (ix4 l k 0 n) (ix4 l k e n) ?_).trans ?_
  · intro a; fin_cases a <;> simp
  exact h74 l k e n

/-- The weight: the factors of the first two axes. -/
theorem p8b2_v79 (g : Fin 16 → Fin 8 → Fin 3 → Fin 131072 → Ideal .f32)
    (h74 : ∀ l k d n, (W (Proc.devRef .tc main_v74) : S16x8x3x131072.Idx → EReal) (ix4 l k d n) = g l k d n)
    (l : Fin 16) (k : Fin 8) (n : Fin 131072) :
    (StableHlo.after (p8b2 : List (HloOp τ sig (Elt Ideal))) W (Proc.devRef .tc main_v79) : S16x8x131072.Idx → EReal) (ix3 l k n) = FloatOps.mulf (F := Ideal) (φ := .f32) (g l k 0 n) (g l k 1 n) := by
  after_results
  refine congrArg₂ FloatOps.mulf ?_ ?_
  · exact wAxis W g h74 0 _ rfl _ l k n
  · exact wAxis W g h74 1 _ rfl _ l k n

/-! ### Stretch 8 as a whole -/

theorem L8_v61 (vd : Fin 6 → Fin 8 → Fin 131072 → Fin 2 → EReal) (vh : Fin 10 → Fin 8 → Fin 131072 → Fin 2 → EReal)
    (h57 : ∀ f l k n, (W (Proc.devRef .tc main_v57) : S2x6x8x131072.Idx → EReal) (ix4 f l k n) = vd l k n f)
    (h59 : ∀ h f k n, (W (Proc.devRef .tc main_v59) : S10x2x8x131072.Idx → EReal) (ix4 h f k n) = vh h k n f)
    (f : Fin 2) (l : Fin 16) (k : Fin 8) (n : Fin 131072) :
    (StableHlo.after (hostOps0_8 : List (HloOp τ sig (Elt Ideal))) W (Proc.devRef .tc main_v61) : S2x16x8x131072.Idx → EReal) (ix4 f l k n)
      = if h : l.val < 6 then vd ⟨l.val, h⟩ k n f else vh ⟨l.val - 6, by omega⟩ k n f := by
  rw [after8_split, p8b_keep _ (by decide)]
  exact p8a_v61 W vd vh h57 h59 f l k n

theorem L8_v79 (T : Cert.Spec.Tables) (X : FVec Ideal ⟨2, ![131072, 3]⟩ .f32)
    (h27 : ∀ l d n, (W (Proc.devRef .tc main_v27) : S16x3x131072.Idx → EReal) (ix3 l d n) = Cert.Spec.off T X l d n)
    (ho : (W (Proc.devRef .tc main_cst_2) : S8x3.Idx → EReal) = T.o)
    (l : Fin 16) (k : Fin 8) (n : Fin 131072) :
    (StableHlo.after (hostOps0_8 : List (HloOp τ sig (Elt Ideal))) W (Proc.devRef .tc main_v79) : S16x8x131072.Idx → EReal) (ix3 l k n) = Cert.Spec.w T X l k n := by
  rw [after8_split, after8b_split]
  refine p8b2_v79 _ (Cert.Spec.wf T X) (fun l k d n => ?_) l k n
  refine p8b1_v74 _ T X (fun l d n => ?_) ?_ l k d n
  · rw [p8a_keep _ (by decide)]; exact h27 l d n
  · rw [p8a_keep _ (by decide)]; exact ho

end Cert.KernelIdeal.KerHost

end
-- ==== Proof.KerStages.lean ====
/- The host operations before the region composed: what each later stretch reads, stage by stage, down to the two
   arrays the region stages and the normalised coordinates the lines after it read. -/
import proofs.«133126_j89799176225629_2_alg».proof.Proof.KerSplit
import proofs.«133126_j89799176225629_2_alg».proof.Proof.KerKeep
import proofs.«133126_j89799176225629_2_alg».proof.Proof.KerL0
import proofs.«133126_j89799176225629_2_alg».proof.Proof.KerL1
import proofs.«133126_j89799176225629_2_alg».proof.Proof.KerL2
import proofs.«133126_j89799176225629_2_alg».proof.Proof.KerL3
import proofs.«133126_j89799176225629_2_alg».proof.Proof.KerL46
import proofs.«133126_j89799176225629_2_alg».proof.Proof.KerL5
import proofs.«133126_j89799176225629_2_alg».proof.Proof.KerL7
import proofs.«133126_j89799176225629_2_alg».proof.Proof.KerL8
import proofs.«133126_j89799176225629_2_alg».proof.Proof.Spec

noncomputable section

namespace Cert.KernelIdeal.KerHost

open Idealize.ShloMosaic Idealize.ShloMosaic.TcCoe Idealize.ShloMosaic.ValueIdx
open Cert.KernelIdeal Cert.KernelIdeal.Gen

variable (W : Valuation τ sig (Elt Ideal))

/-! ### The values later stretches read, stage by stage (stage k: after stretches 0 … k−1) -/

theorem S2_v23 (l : Fin 16) (k : Fin 8) (d : Fin 3) (n : Fin 131072) :
    ((StableHlo.after (hostOps0_1 : List (HloOp τ sig (Elt Ideal))) (StableHlo.after (hostOps0 : List (HloOp τ sig (Elt Ideal))) W)) (Proc.devRef .tc main_v23) : S16x8x3x131072.Idx → BitVec 32) (ix4 l k d n) = Cert.Spec.intx kerTables (XofW W) l k d n :=
  L1_v23 _ kerTables (XofW W) (L0_v19 W) (L0_v22 W) (L0_c6 W) l k d n

theorem S2_v13 (l : Fin 16) (d : Fin 3) (n : Fin 131072) :
    ((StableHlo.after (hostOps0_1 : List (HloOp τ sig (Elt Ideal))) (StableHlo.after (hostOps0 : List (HloOp τ sig (Elt Ideal))) W)) (Proc.devRef .tc main_v13) : S16x3x131072.Idx → EReal) (ix3 l d n) = Cert.Spec.flt kerTables (XofW W) l d n := by
  rw [keep1 _ (by decide)]; exact L0_v13 W l d n

theorem S2_str : ((StableHlo.after (hostOps0_1 : List (HloOp τ sig (Elt Ideal))) (StableHlo.after (hostOps0 : List (HloOp τ sig (Elt Ideal))) W)) (Proc.devRef .tc main_c_3) : S6x3.Idx → BitVec 32) = kerTables.str := by
  rw [keep1 _ (by decide)]; exact L0_str W

theorem S2_base : ((StableHlo.after (hostOps0_1 : List (HloOp τ sig (Elt Ideal))) (StableHlo.after (hostOps0 : List (HloOp τ sig (Elt Ideal))) W)) (Proc.devRef .tc main_c_4) : S6.Idx → BitVec 32) = kerTables.base := by
  rw [keep1 _ (by decide)]; exact L0_base W

theorem S3_v27 (l : Fin 16) (d : Fin 3) (n : Fin 131072) :
    ((StableHlo.after (hostOps0_2 : List (HloOp τ sig (Elt Ideal))) (StableHlo.after (hostOps0_1 : List (HloOp τ sig (Elt Ideal))) (StableHlo.after (hostOps0 : List (HloOp τ sig (Elt Ideal))) W))) (Proc.devRef .tc main_v27) : S16x3x131072.Idx → EReal) (ix3 l d n) = Cert.Spec.off kerTables (XofW W) l d n :=
  L2_v27 _ kerTables (XofW W) (S2_v23 W) (S2_v13 W) l d n

theorem S3_v35 (l : Fin 6) (k : Fin 8) (n : Fin 131072) :
    ((StableHlo.after (hostOps0_2 : List (HloOp τ sig (Elt Ideal))) (StableHlo.after (hostOps0_1 : List (HloOp τ sig (Elt Ideal))) (StableHlo.after (hostOps0 : List (HloOp τ sig (Elt Ideal))) W))) (Proc.devRef .tc main_v35) : S6x8x131072.Idx → BitVec 32) (ix3 l k n) = Cert.Spec.ind kerTables (XofW W) l k n :=
  L2_v35 _ kerTables (XofW W) (S2_v23 W) (S2_str W) (S2_base W) l k n

theorem S4_v55 (h : Fin 10) (k : Fin 8) (n : Fin 131072) :
    ((StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W)))) (Proc.devRef .tc main_v55) : S10x8x131072.Idx → BitVec 32) (ix3 h k n) = Cert.Spec.ih kerTables (XofW W) h k n :=
  L3_v55 _ (fun (h : Fin 10) (k : Fin 8) (n : Fin 131072) => IntOp.xori
          (IntOp.xori
            (IntOp.xori 1#32 (IntOp.muli (Cert.Spec.intx kerTables (XofW W) (Cert.Spec.hi10 h) k 0 n) 1#32))
            (IntOp.muli (Cert.Spec.intx kerTables (XofW W) (Cert.Spec.hi10 h) k 1 n) 19349663#32))
          (IntOp.muli (Cert.Spec.intx kerTables (XofW W) (Cert.Spec.hi10 h) k 2 n) 83492791#32))
    (L2_v54 _ kerTables (XofW W) (S2_v23 W)) (L2_c12 _) h k n

theorem S5_v35 (l : Fin 6) (k : Fin 8) (n : Fin 131072) :
    ((StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W))))) (Proc.devRef .tc main_v35) : S6x8x131072.Idx → BitVec 32) (ix3 l k n) = Cert.Spec.ind kerTables (XofW W) l k n := by
  rw [keep4 _ (by decide), keep3 _ (by decide)]; exact S3_v35 W l k n

theorem S5_v56 (f : Fin 2) (r : Fin 822944) :
    ((StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W))))) (Proc.devRef .tc main_v56) : S2x822944.Idx → EReal) (ix2 f r) = (W (Proc.devRef .tc main_arg1) : S822944x2.Idx → EReal) (ix2 r f) := by
  refine (L4_v56 _ f r).trans ?_
  rw [keep3 _ (by decide), keep2 _ (by decide), keep1 _ (by decide), keep0 _ (by decide)]

theorem S6_v57 (f : Fin 2) (l : Fin 6) (k : Fin 8) (n : Fin 131072) :
    ((StableHlo.after (hostOps0_5 : List (HloOp τ sig (Elt Ideal))) (StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W)))))) (Proc.devRef .tc main_v57) : S2x6x8x131072.Idx → EReal) (ix4 f l k n) = Cert.Spec.valDenseFill kerTables (XofW W) (W (Proc.devRef .tc main_arg1) : S822944x2.Idx → EReal) l k n f :=
  L5_out _ (Cert.Spec.ind kerTables (XofW W)) (fun f r => (W (Proc.devRef .tc main_arg1) : S822944x2.Idx → EReal) (ix2 r f)) (S5_v35 W) (S5_v56 W) f l k n

theorem S7_v55 (h : Fin 10) (k : Fin 8) (n : Fin 131072) :
    ((StableHlo.after (hostOps0_6 : List (HloOp τ sig (Elt Ideal))) (StableHlo.after (hostOps0_5 : List (HloOp τ sig (Elt Ideal))) (StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W))))))) (Proc.devRef .tc main_v55) : S10x8x131072.Idx → BitVec 32) (ix3 h k n) = Cert.Spec.ih kerTables (XofW W) h k n := by
  rw [keep6 _ (by decide), keep5 _ (by decide), keep4 _ (by decide)]; exact S4_v55 W h k n

theorem S7_v58 (l : Fin 10) (f : Fin 2) (r : Fin 524309) :
    ((StableHlo.after (hostOps0_6 : List (HloOp τ sig (Elt Ideal))) (StableHlo.after (hostOps0_5 : List (HloOp τ sig (Elt Ideal))) (StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W))))))) (Proc.devRef .tc main_v58) : S10x2x524309.Idx → EReal) (ix3 l f r) = (W (Proc.devRef .tc main_arg2) : S10x524309x2.Idx → EReal) (ix3 l r f) := by
  refine (L6_v58 _ l f r).trans ?_
  rw [keep5 _ (by decide), keep4 _ (by decide), keep3 _ (by decide), keep2 _ (by decide), keep1 _ (by decide), keep0 _ (by decide)]

theorem S8_v59 (h : Fin 10) (f : Fin 2) (k : Fin 8) (n : Fin 131072) :
    ((StableHlo.after (hostOps0_7 : List (HloOp τ sig (Elt Ideal))) (StableHlo.after (hostOps0_6 : List (HloOp τ sig (Elt Ideal))) (StableHlo.after (hostOps0_5 : List (HloOp τ sig (Elt Ideal))) (StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W)))))))) (Proc.devRef .tc main_v59) : S10x2x8x131072.Idx → EReal) (ix4 h f k n) = Cert.Spec.valHash kerTables (XofW W) (W (Proc.devRef .tc main_arg2) : S10x524309x2.Idx → EReal) h k n f :=
  L7_out _ (Cert.Spec.ih kerTables (XofW W)) (fun l f r => (W (Proc.devRef .tc main_arg2) : S10x524309x2.Idx → EReal) (ix3 l r f)) (S7_v55 W) (S7_v58 W) f h k n

theorem S8_v57 (f : Fin 2) (l : Fin 6) (k : Fin 8) (n : Fin 131072) :
    ((StableHlo.after (hostOps0_7 : List (HloOp τ sig (Elt Ideal))) (StableHlo.after (hostOps0_6 : List (HloOp τ sig (Elt Ideal))) (StableHlo.after (hostOps0_5 : List (HloOp τ sig (Elt Ideal))) (StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W)))))))) (Proc.devRef .tc main_v57) : S2x6x8x131072.Idx → EReal) (ix4 f l k n) = Cert.Spec.valDenseFill kerTables (XofW W) (W (Proc.devRef .tc main_arg1) : S822944x2.Idx → EReal) l k n f := by
  rw [keep7 _ (by decide), keep6 _ (by decide)]; exact S6_v57 W f l k n

theorem S8_v27 (l : Fin 16) (d : Fin 3) (n : Fin 131072) :
    ((StableHlo.after (hostOps0_7 : List (HloOp τ sig (Elt Ideal))) (StableHlo.after (hostOps0_6 : List (HloOp τ sig (Elt Ideal))) (StableHlo.after (hostOps0_5 : List (HloOp τ sig (Elt Ideal))) (StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W)))))))) (Proc.devRef .tc main_v27) : S16x3x131072.Idx → EReal) (ix3 l d n) = Cert.Spec.off kerTables (XofW W) l d n := by
  rw [keep7 _ (by decide), keep6 _ (by decide), keep5 _ (by decide), keep4 _ (by decide), keep3 _ (by decide)]; exact S3_v27 W l d n

theorem S8_o : ((StableHlo.after (hostOps0_7 : List (HloOp τ sig (Elt Ideal))) (StableHlo.after (hostOps0_6 : List (HloOp τ sig (Elt Ideal))) (StableHlo.after (hostOps0_5 : List (HloOp τ sig (Elt Ideal))) (StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W)))))))) (Proc.devRef .tc main_cst_2) : S8x3.Idx → EReal) = kerTables.o := by
  rw [keep7 _ (by decide), keep6 _ (by decide), keep5 _ (by decide), keep4 _ (by decide), keep3 _ (by decide), keep2 _ (by decide), keep1 _ (by decide)]; exact L0_o W

/-! ### What the region and the lines after it find -/

theorem S9_v61 (f : Fin 2) (l : Fin 16) (k : Fin 8) (n : Fin 131072) :
    ((StableHlo.after (hostOps0_8 : List (HloOp τ sig (Elt Ideal))) (StableHlo.after (hostOps0_7 : List (HloOp τ sig (Elt Ideal))) (StableHlo.after (hostOps0_6 : List (HloOp τ sig (Elt Ideal))) (StableHlo.after (hostOps0_5 : List (HloOp τ sig (Elt Ideal))) (StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W))))))))) (Proc.devRef .tc main_v61) : S2x16x8x131072.Idx → EReal) (ix4 f l k n) = Cert.Spec.valFill kerTables (XofW W) (W (Proc.devRef .tc main_arg1) : S822944x2.Idx → EReal) (W (Proc.devRef .tc main_arg2) : S10x524309x2.Idx → EReal) l k n f :=
  L8_v61 _ (Cert.Spec.valDenseFill kerTables (XofW W) (W (Proc.devRef .tc main_arg1) : S822944x2.Idx → EReal)) (Cert.Spec.valHash kerTables (XofW W) (W (Proc.devRef .tc main_arg2) : S10x524309x2.Idx → EReal)) (S8_v57 W) (S8_v59 W) f l k n

theorem S9_v79 (l : Fin 16) (k : Fin 8) (n : Fin 131072) :
    ((StableHlo.after (hostOps0_8 : List (HloOp τ sig (Elt Ideal))) (StableHlo.after (hostOps0_7 : List (HloOp τ sig (Elt Ideal))) (StableHlo.after (hostOps0_6 : List (HloOp τ sig (Elt Ideal))) (StableHlo.after (hostOps0_5 : List (HloOp τ sig (Elt Ideal))) (StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W))))))))) (Proc.devRef .tc main_v79) : S16x8x131072.Idx → EReal) (ix3 l k n) = Cert.Spec.w kerTables (XofW W) l k n :=
  L8_v79 _ kerTables (XofW W) (S8_v27 W) (S8_o W) l k n

theorem S9_v7 (n : Fin 131072) (d : Fin 3) :
    ((StableHlo.after (hostOps0_8 : List (HloOp τ sig (Elt Ideal))) (StableHlo.after (hostOps0_7 : List (HloOp τ sig (Elt Ideal))) (StableHlo.after (hostOps0_6 : List (HloOp τ sig (Elt Ideal))) (StableHlo.after (hostOps0_5 : List (HloOp τ sig (Elt Ideal))) (StableHlo.after (hostOps0_4 : List (HloOp τ sig (Elt Ideal))) (StableHlo.after (hostOps0_3 : List (HloOp τ sig (Elt Ideal))) (StableHlo.after (hostOps0_2 : List (HloOp τ sig (Elt Ideal))) (StableHlo.after (hostOps0_1 : List (HloOp τ sig (Elt Ideal))) (StableHlo.after (hostOps0 : List (HloOp τ sig (Elt Ideal))) W))))))))) (Proc.devRef .tc main_v7) : S131072x3.Idx → EReal) (ix2 n d) = Cert.Spec.xn (XofW W) n d := by
  rw [keep8 _ (by decide), keep7 _ (by decide), keep6 _ (by decide), keep5 _ (by decide), keep4 _ (by decide), keep3 _ (by decide), keep2 _ (by decide), keep1 _ (by decide)]; exact L0_v7 W n d

end Cert.KernelIdeal.KerHost

end
-- ==== Proof.KerV.lean ====
/- The arrays the region finds, read at an index: the corner values, the corner weights, the normalised coordinates. -/
import proofs.«133126_j89799176225629_2_alg».proof.Proof.KerStages
import proofs.«133126_j89799176225629_2_alg».proof.Proof.Gen.KernelIdeal.Frame

noncomputable section

namespace Cert.KernelIdeal.KerHost

open Idealize.ShloMosaic Idealize.ShloMosaic.TcCoe Idealize.ShloMosaic.ValueIdx
open Cert.KernelIdeal Cert.KernelIdeal.Gen

/-! ### The same, of the arrays as the region finds them -/

section
variable (m : (ℓ : Loc nD τ sig) → Buf (Elt Ideal) ℓ) (c : Dev nD)

/-- The points as a [131072, 3] array. -/
abbrev Xof : FVec Ideal ⟨2, ![131072, 3]⟩ .f32 :=
  shapeCast S131072x3 (m ((c : Thread nD τ).loc main_arg0)) shapeCasts_S2x65536x3_S131072x3

theorem V_val (f : Fin 2) (l : Fin 16) (k : Fin 8) (n : Fin 131072) :
    (Gen.V m c main_v61 : S2x16x8x131072.Idx → EReal) (ix4 f l k n)
      = Cert.Spec.valFill kerTables (Xof m c) (m ((c : Thread nD τ).loc main_arg1)) (m ((c : Thread nD τ).loc main_arg2)) l k n f := by
  show (StableHlo.after (List.flatten [hostOps0, hostOps0_1, hostOps0_2, hostOps0_3, hostOps0_4, hostOps0_5, hostOps0_6, hostOps0_7, hostOps0_8])
    (fun b => m (c, b)) (Proc.devRef .tc main_v61) : S2x16x8x131072.Idx → EReal) (ix4 f l k n) = _
  rw [after_all]
  exact S9_v61 (fun b => m (c, b)) f l k n

theorem V_w (l : Fin 16) (k : Fin 8) (n : Fin 131072) :
    (Gen.V m c main_v79 : S16x8x131072.Idx → EReal) (ix3 l k n) = Cert.Spec.w kerTables (Xof m c) l k n := by
  show (StableHlo.after (List.flatten [hostOps0, hostOps0_1, hostOps0_2, hostOps0_3, hostOps0_4, hostOps0_5, hostOps0_6, hostOps0_7, hostOps0_8])
    (fun b => m (c, b)) (Proc.devRef .tc main_v79) : S16x8x131072.Idx → EReal) (ix3 l k n) = _
  rw [after_all]
  exact S9_v79 (fun b => m (c, b)) l k n

theorem V_xn (n : Fin 131072) (d : Fin 3) :
    (Gen.V m c main_v7 : S131072x3.Idx → EReal) (ix2 n d) = Cert.Spec.xn (Xof m c) n d := by
  show (StableHlo.after (List.flatten [hostOps0, hostOps0_1, hostOps0_2, hostOps0_3, hostOps0_4, hostOps0_5, hostOps0_6, hostOps0_7, hostOps0_8])
    (fun b => m (c, b)) (Proc.devRef .tc main_v7) : S131072x3.Idx → EReal) (ix2 n d) = _
  rw [after_all]
  exact S9_v7 (fun b => m (c, b)) n d

end

end Cert.KernelIdeal.KerHost

end
-- ==== Proof.RefOps.lean ====
/- The reference's @main as lists of its host operations, in program order: each outlined function's operations
   stand at its call over that call's own buffers. The lists are consecutive segments; segment k ends right after
   the operation that writes the k-th of: main_v6, main_v11, main_v21, main_v25, main_v33, main_v51, main_v52, main_v59, main_v61, main_call2_v4, main_call2_v11, main_v62, main_v64, main_v82, main_v90.
   Per segment: the references it writes, that every operation touches TensorCore references only, that every
   write is among the listed references, that no operation allocates, and hence that a reference outside the
   list keeps its contents through the segment. -/
import proofs.«133126_j89799176225629_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Segment 0: 14 operations, ending with the write of main_v6. -/
abbrev seg0 : List (HloOp τ sig (Elt F)) :=
  [ StableHlo.nullary main_cst (constant S3 .f32 0x00000000#32),
    StableHlo.nullary main_cst_0 (constant S3 .f32 0x3F800000#32),
    StableHlo.nullary main_cst_1 (fun i => FloatOps.ofBits .f32 (lit0 (S16x3.rowMajor i))),
    StableHlo.nullary main_cst_2 (fun i => FloatOps.ofBits .f32 (lit1 (S8x3.rowMajor i))),
    StableHlo.nullary main_c (fun i => lit2 (S16x3.rowMajor i)),
    StableHlo.nullary main_c_3 (fun i => lit3 (S6x3.rowMajor i)),
    StableHlo.nullary main_c_4 (fun i => lit4 (S6.rowMajor i)),
    StableHlo.reshape main_arg0 main_v0 rfl shapeCasts_S2x65536x3_S131072x3,
    StableHlo.unary main_cst main_v1 (broadcastInDim S1x3 ![1] bcast_S3_S1x3_1 : (⟨S3, .f32⟩ : BufTy).Contents (Elt F) → (⟨S1x3, .f32⟩ : BufTy).Contents (Elt F)),
    StableHlo.unary main_v1 main_v2 (broadcastInDim S131072x3 ![0, 1] bcast_S1x3_S131072x3_0_1 : (⟨S1x3, .f32⟩ : BufTy).Contents (Elt F) → (⟨S131072x3, .f32⟩ : BufTy).Contents (Elt F)),
    StableHlo.binary main_v0 main_v2 main_v3 (subf : (⟨S131072x3, .f32⟩ : BufTy).Contents (Elt F) → (⟨S131072x3, .f32⟩ : BufTy).Contents (Elt F) → (⟨S131072x3, .f32⟩ : BufTy).Contents (Elt F)),
    StableHlo.unary main_cst_0 main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S131072x3 ![0, 1] bcast_S1x3_S131072x3_0_1 : (⟨S1x3, .f32⟩ : BufTy).Contents (Elt F) → (⟨S131072x3, .f32⟩ : BufTy).Contents (Elt F)),
    StableHlo.binary main_v3 main_v5 main_v6 (Host.divf : (⟨S131072x3, .f32⟩ : BufTy).Contents (Elt F) → (⟨S131072x3, .f32⟩ : BufTy).Contents (Elt F) → (⟨S131072x3, .f32⟩ : BufTy).Contents (Elt F)) ]

/-- The references segment 0 writes. -/
abbrev seg0_W : List (Ref sig .tc) :=
  [main_cst, main_cst_0, main_cst_1, main_cst_2, main_c, main_c_3, main_c_4, main_v0, main_v1, main_v2, main_v3, main_v4, main_v5, main_v6]

set_option maxRecDepth 8192 in
theorem seg0_sub : (seg0 : List (HloOp τ sig (Elt F))).Forall fun op => op.bufs ⊆ tcRefs τ sig :=
  ⟨nullary_bufs_sub .., nullary_bufs_sub .., nullary_bufs_sub .., nullary_bufs_sub .., nullary_bufs_sub .., nullary_bufs_sub .., nullary_bufs_sub .., reshape_bufs_sub .., unary_bufs_sub .., unary_bufs_sub .., binary_bufs_sub .., unary_bufs_sub .., unary_bufs_sub .., binary_bufs_sub ..⟩

set_option maxRecDepth 8192 in
theorem seg0_writes : (seg0 : List (HloOp τ sig (Elt F))).Forall fun op => op.writes ⊆ (seg0_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg0_fresh : (seg0 : List (HloOp τ sig (Elt F))).Forall fun op => op.fresh = ∅ := by
  simp only [List.Forall]; repeat' constructor

/-- A reference segment 0 does not write keeps its contents through it. -/
theorem seg0_keep (V : Valuation τ sig (Elt F)) (r : Ref sig .tc) (h : r ∉ seg0_W) :
    after (seg0 (F := F)) V (Proc.devRef .tc r) = V (Proc.devRef .tc r) :=
  after_of_writes_sub seg0 V seg0_writes h

/-- Segment 1: 5 operations, ending with the write of main_v11. -/
abbrev seg1 : List (HloOp τ sig (Elt F)) :=
  [ StableHlo.unary main_v6 main_v7 (broadcastInDim S1x131072x3 ![1, 2] bcast_S131072x3_S1x131072x3_1_2 : (⟨S131072x3, .f32⟩ : BufTy).Contents (Elt F) → (⟨S1x131072x3, .f32⟩ : BufTy).Contents (Elt F)),
    StableHlo.unary main_cst_1 main_v8 (broadcastInDim S16x1x3 ![0, 2] bcast_S16x3_S16x1x3_0_2 : (⟨S16x3, .f32⟩ : BufTy).Contents (Elt F) → (⟨S16x1x3, .f32⟩ : BufTy).Contents (Elt F)),
    StableHlo.unary main_v7 main_v9 (broadcastInDim S16x131072x3 ![0, 1, 2] bcast_S1x131072x3_S16x131072x3_0_1_2 : (⟨S1x131072x3, .f32⟩ : BufTy).Contents (Elt F) → (⟨S16x131072x3, .f32⟩ : BufTy).Contents (Elt F)),
    StableHlo.unary main_v8 main_v10 (broadcastInDim S16x131072x3 ![0, 1, 2] bcast_S16x1x3_S16x131072x3_0_1_2 : (⟨S16x1x3, .f32⟩ : BufTy).Contents (Elt F) → (⟨S16x131072x3, .f32⟩ : BufTy).Contents (Elt F)),
    StableHlo.binary main_v9 main_v10 main_v11 (Host.divf : (⟨S16x131072x3, .f32⟩ : BufTy).Contents (Elt F) → (⟨S16x131072x3, .f32⟩ : BufTy).Contents (Elt F) → (⟨S16x131072x3, .f32⟩ : BufTy).Contents (Elt F)) ]

/-- The references segment 1 writes. -/
abbrev seg1_W : List (Ref sig .tc) :=
  [main_v7, main_v8, main_v9, main_v10, main_v11]

set_option maxRecDepth 8192 in
theorem seg1_sub : (seg1 : List (HloOp τ sig (Elt F))).Forall fun op => op.bufs ⊆ tcRefs τ sig :=
  ⟨unary_bufs_sub .., unary_bufs_sub .., unary_bufs_sub .., unary_bufs_sub .., binary_bufs_sub ..⟩

set_option maxRecDepth 8192 in
theorem seg1_writes : (seg1 : List (HloOp τ sig (Elt F))).Forall fun op => op.writes ⊆ (seg1_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg1_fresh : (seg1 : List (HloOp τ sig (Elt F))).Forall fun op => op.fresh = ∅ := by
  simp only [List.Forall]; repeat' constructor

/-- A reference segment 1 does not write keeps its contents through it. -/
theorem seg1_keep (V : Valuation τ sig (Elt F)) (r : Ref sig .tc) (h : r ∉ seg1_W) :
    after (seg1 (F := F)) V (Proc.devRef .tc r) = V (Proc.devRef .tc r) :=
  after_of_writes_sub seg1 V seg1_writes h

/-- Segment 2: 16 operations, ending with the write of main_v21. -/
abbrev seg2 : List (HloOp τ sig (Elt F)) :=
  [ StableHlo.unary main_v11 main_v12 (broadcastInDim S16x131072x1x3 ![0, 1, 3] bcast_S16x131072x3_S16x131072x1x3_0_1_3 : (⟨S16x131072x3, .f32⟩ : BufTy).Contents (Elt F) → (⟨S16x131072x1x3, .f32⟩ : BufTy).Contents (Elt F)),
    StableHlo.unary main_cst_2 main_v13 (broadcastInDim S1x1x8x3 ![2, 3] bcast_S8x3_S1x1x8x3_2_3 : (⟨S8x3, .f32⟩ : BufTy).Contents (Elt F) → (⟨S1x1x8x3, .f32⟩ : BufTy).Contents (Elt F)),
    StableHlo.unary main_v12 main_v14 (broadcastInDim S16x131072x8x3 ![0, 1, 2, 3] bcast_S16x131072x1x3_S16x131072x8x3_0_1_2_3 : (⟨S16x131072x1x3, .f32⟩ : BufTy).Contents (Elt F) → (⟨S16x131072x8x3, .f32⟩ : BufTy).Contents (Elt F)),
    StableHlo.unary main_v13 main_v15 (broadcastInDim S16x131072x8x3 ![0, 1, 2, 3] bcast_S1x1x8x3_S16x131072x8x3_0_1_2_3 : (⟨S1x1x8x3, .f32⟩ : BufTy).Contents (Elt F) → (⟨S16x131072x8x3, .f32⟩ : BufTy).Contents (Elt F)),
    StableHlo.binary main_v14 main_v15 main_v16 (addf : (⟨S16x131072x8x3, .f32⟩ : BufTy).Contents (Elt F) → (⟨S16x131072x8x3, .f32⟩ : BufTy).Contents (Elt F) → (⟨S16x131072x8x3, .f32⟩ : BufTy).Contents (Elt F)),
    StableHlo.unary main_v16 main_v17 (fptosi 32 : (⟨S16x131072x8x3, .f32⟩ : BufTy).Contents (Elt F) → (⟨S16x131072x8x3, .i32⟩ : BufTy).Contents (Elt F)),
    StableHlo.unary main_c main_v18 (broadcastInDim S16x1x1x3 ![0, 3] bcast_S16x3_S16x1x1x3_0_3 : (⟨S16x3, .i32⟩ : BufTy).Contents (Elt F) → (⟨S16x1x1x3, .i32⟩ : BufTy).Contents (Elt F)),
    StableHlo.nullary main_c_5 (constantI S_ 32 1#32),
    StableHlo.unary main_c_5 main_v19 (broadcastInDim S16x1x1x3 ![] bcast_S_S16x1x1x3 : (⟨S_, .i32⟩ : BufTy).Contents (Elt F) → (⟨S16x1x1x3, .i32⟩ : BufTy).Contents (Elt F)),
    StableHlo.binary main_v18 main_v19 main_v20 (subi : (⟨S16x1x1x3, .i32⟩ : BufTy).Contents (Elt F) → (⟨S16x1x1x3, .i32⟩ : BufTy).Contents (Elt F) → (⟨S16x1x1x3, .i32⟩ : BufTy).Contents (Elt F)),
    StableHlo.nullary main_c_6 (constantI S_ 32 0#32),
    StableHlo.TRef.unary (.of main_c_6 : StableHlo.TRef sig ⟨S_, .i32⟩) main_call0.v0 id,
    StableHlo.TRef.unary main_call0.v0 main_call0.v1 (broadcastInDim S16x131072x8x3 ![] bcast_S_S16x131072x8x3),
    StableHlo.TRef.binary main_call0.v1 (.of main_v17 : StableHlo.TRef sig ⟨S16x131072x8x3, .i32⟩) main_call0.v2 maxsi,
    StableHlo.TRef.unary (.of main_v20 : StableHlo.TRef sig ⟨S16x1x1x3, .i32⟩) main_call0.v3 (broadcastInDim S16x131072x8x3 ![0, 1, 2, 3] bcast_S16x1x1x3_S16x131072x8x3_0_1_2_3),
    StableHlo.TRef.binary main_call0.v3 main_call0.v2 main_call0.v4 minsi ]

/-- The references segment 2 writes. -/
abbrev seg2_W : List (Ref sig .tc) :=
  [main_v12, main_v13, main_v14, main_v15, main_v16, main_v17, main_v18, main_c_5, main_v19, main_v20, main_c_6, main_call0_v0, main_call0_v1, main_call0_v2, main_call0_v3, main_v21]

set_option maxRecDepth 8192 in
theorem seg2_sub : (seg2 : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., unary_bufs_sub .., binary_bufs_sub .., unary_bufs_sub .., binary_bufs_sub ..⟩

set_option maxRecDepth 8192 in
theorem seg2_writes : (seg2 : List (HloOp τ sig (Elt F))).Forall fun op => op.writes ⊆ (seg2_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg2_fresh : (seg2 : List (HloOp τ sig (Elt F))).Forall fun op => op.fresh = ∅ := by
  simp only [List.Forall]; repeat' constructor

/-- A reference segment 2 does not write keeps its contents through it. -/
theorem seg2_keep (V : Valuation τ sig (Elt F)) (r : Ref sig .tc) (h : r ∉ seg2_W) :
    after (seg2 (F := F)) V (Proc.devRef .tc r) = V (Proc.devRef .tc r) :=
  after_of_writes_sub seg2 V seg2_writes h

/-- Segment 3: 4 operations, ending with the write of main_v25. -/
abbrev seg3 : List (HloOp τ sig (Elt F)) :=
  [ StableHlo.unary main_v21 main_v22 ((extractStridedSlice S16x131072x1x3 ![0, 0, 0, 0] · slices_S16x131072x8x3_S16x131072x1x3_0_0_0_0) : (⟨S16x131072x8x3, .i32⟩ : BufTy).Contents (Elt F) → (⟨S16x131072x1x3, .i32⟩ : BufTy).Contents (Elt F)),
    StableHlo.reshape main_v22 main_v23 rfl shapeCasts_S16x131072x1x3_S16x131072x3,
    StableHlo.unary main_v23 main_v24 (sitofp .f32 : (⟨S16x131072x3, .i32⟩ : BufTy).Contents (Elt F) → (⟨S16x131072x3, .f32⟩ : BufTy).Contents (Elt F)),
    StableHlo.binary main_v11 main_v24 main_v25 (subf : (⟨S16x131072x3, .f32⟩ : BufTy).Contents (Elt F) → (⟨S16x131072x3, .f32⟩ : BufTy).Contents (Elt F) → (⟨S16x131072x3, .f32⟩ : BufTy).Contents (Elt F)) ]

/-- The references segment 3 writes. -/
abbrev seg3_W : List (Ref sig .tc) :=
  [main_v22, main_v23, main_v24, main_v25]

set_option maxRecDepth 8192 in
theorem seg3_sub : (seg3 : List (HloOp τ sig (Elt F))).Forall fun op => op.bufs ⊆ tcRefs τ sig :=
  ⟨unary_bufs_sub .., reshape_bufs_sub .., unary_bufs_sub .., binary_bufs_sub ..⟩

set_option maxRecDepth 8192 in
theorem seg3_writes : (seg3 : List (HloOp τ sig (Elt F))).Forall fun op => op.writes ⊆ (seg3_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg3_fresh : (seg3 : List (HloOp τ sig (Elt F))).Forall fun op => op.fresh = ∅ := by
  simp only [List.Forall]; repeat' constructor

/-- A reference segment 3 does not write keeps its contents through it. -/
theorem seg3_keep (V : Valuation τ sig (Elt F)) (r : Ref sig .tc) (h : r ∉ seg3_W) :
    after (seg3 (F := F)) V (Proc.devRef .tc r) = V (Proc.devRef .tc r) :=
  after_of_writes_sub seg3 V seg3_writes h

/-- Segment 4: 9 operations, ending with the write of main_v33. -/
abbrev seg4 : List (HloOp τ sig (Elt F)) :=
  [ StableHlo.unary main_v21 main_v26 ((extractStridedSlice S6x131072x8x3 ![0, 0, 0, 0] · slices_S16x131072x8x3_S6x131072x8x3_0_0_0_0) : (⟨S16x131072x8x3, .i32⟩ : BufTy).Contents (Elt F) → (⟨S6x131072x8x3, .i32⟩ : BufTy).Contents (Elt F)),
    StableHlo.unary main_c_3 main_v27 (broadcastInDim S6x1x1x3 ![0, 3] bcast_S6x3_S6x1x1x3_0_3 : (⟨S6x3, .i32⟩ : BufTy).Contents (Elt F) → (⟨S6x1x1x3, .i32⟩ : BufTy).Contents (Elt F)),
    StableHlo.unary main_v27 main_v28 (broadcastInDim S6x131072x8x3 ![0, 1, 2, 3] bcast_S6x1x1x3_S6x131072x8x3_0_1_2_3 : (⟨S6x1x1x3, .i32⟩ : BufTy).Contents (Elt F) → (⟨S6x131072x8x3, .i32⟩ : BufTy).Contents (Elt F)),
    StableHlo.binary main_v26 main_v28 main_v29 (muli : (⟨S6x131072x8x3, .i32⟩ : BufTy).Contents (Elt F) → (⟨S6x131072x8x3, .i32⟩ : BufTy).Contents (Elt F) → (⟨S6x131072x8x3, .i32⟩ : BufTy).Contents (Elt F)),
    StableHlo.nullary main_c_7 (constantI S_ 32 0#32),
    StableHlo.binary main_v29 main_c_7 main_v30 ((fun x v => Host.reduce IntOp.addi x v reducesTo_S6x131072x8x3_S6x131072x8_d3 h_S_) : (⟨S6x131072x8x3, .i32⟩ : BufTy).Contents (Elt F) → (⟨S_, .i32⟩ : BufTy).Contents (Elt F) → (⟨S6x131072x8, .i32⟩ : BufTy).Contents (Elt F)),
    StableHlo.unary main_c_4 main_v31 (broadcastInDim S6x1x1 ![0] bcast_S6_S6x1x1_0 : (⟨S6, .i32⟩ : BufTy).Contents (Elt F) → (⟨S6x1x1, .i32⟩ : BufTy).Contents (Elt F)),
    StableHlo.unary main_v31 main_v32 (broadcastInDim S6x131072x8 ![0, 1, 2] bcast_S6x1x1_S6x131072x8_0_1_2 : (⟨S6x1x1, .i32⟩ : BufTy).Contents (Elt F) → (⟨S6x131072x8, .i32⟩ : BufTy).Contents (Elt F)),
    StableHlo.binary main_v30 main_v32 main_v33 (addi : (⟨S6x131072x8, .i32⟩ : BufTy).Contents (Elt F) → (⟨S6x131072x8, .i32⟩ : BufTy).Contents (Elt F) → (⟨S6x131072x8, .i32⟩ : BufTy).Contents (Elt F)) ]

/-- The references segment 4 writes. -/
abbrev seg4_W : List (Ref sig .tc) :=
  [main_v26, main_v27, main_v28, main_v29, main_c_7, main_v30, main_v31, main_v32, main_v33]

set_option maxRecDepth 8192 in
theorem seg4_sub : (seg4 : List (HloOp τ sig (Elt F))).Forall fun op => op.bufs ⊆ tcRefs τ sig :=
  ⟨unary_bufs_sub .., unary_bufs_sub .., unary_bufs_sub .., binary_bufs_sub .., nullary_bufs_sub .., binary_bufs_sub .., unary_bufs_sub .., unary_bufs_sub .., binary_bufs_sub ..⟩

set_option maxRecDepth 8192 in
theorem seg4_writes : (seg4 : List (HloOp τ sig (Elt F))).Forall fun op => op.writes ⊆ (seg4_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg4_fresh : (seg4 : List (HloOp τ sig (Elt F))).Forall fun op => op.fresh = ∅ := by
  simp only [List.Forall]; repeat' constructor

/-- A reference segment 4 does not write keeps its contents through it. -/
theorem seg4_keep (V : Valuation τ sig (Elt F)) (r : Ref sig .tc) (h : r ∉ seg4_W) :
    after (seg4 (F := F)) V (Proc.devRef .tc r) = V (Proc.devRef .tc r) :=
  after_of_writes_sub seg4 V seg4_writes h

/-- Segment 5: 22 operations, ending with the write of main_v51. -/
abbrev seg5 : List (HloOp τ sig (Elt F)) :=
  [ StableHlo.unary main_v21 main_v34 ((extractStridedSlice S10x131072x8x1 ![6, 0, 0, 0] · slices_S16x131072x8x3_S10x131072x8x1_6_0_0_0) : (⟨S16x131072x8x3, .i32⟩ : BufTy).Contents (Elt F) → (⟨S10x131072x8x1, .i32⟩ : BufTy).Contents (Elt F)),
    StableHlo.reshape main_v34 main_v35 rfl shapeCasts_S10x131072x8x1_S10x131072x8,
    StableHlo.nullary main_c_8 (constantI S_ 32 1#32),
    StableHlo.unary main_c_8 main_v36 (broadcastInDim S10x131072x8 ![] bcast_S_S10x131072x8 : (⟨S_, .i32⟩ : BufTy).Contents (Elt F) → (⟨S10x131072x8, .i32⟩ : BufTy).Contents (Elt F)),
    StableHlo.unary main_v21 main_v37 ((extractStridedSlice S10x131072x8x1 ![6, 0, 0, 0] · slices_S16x131072x8x3_S10x131072x8x1_6_0_0_0) : (⟨S16x131072x8x3, .i32⟩ : BufTy).Contents (Elt F) → (⟨S10x131072x8x1, .i32⟩ : BufTy).Contents (Elt F)),
    StableHlo.reshape main_v37 main_v38 rfl shapeCasts_S10x131072x8x1_S10x131072x8,
    StableHlo.nullary main_c_9 (constantI S_ 32 1#32),
    StableHlo.unary main_c_9 main_v39 (broadcastInDim S10x131072x8 ![] bcast_S_S10x131072x8 : (⟨S_, .i32⟩ : BufTy).Contents (Elt F) → (⟨S10x131072x8, .i32⟩ : BufTy).Contents (Elt F)),
    StableHlo.binary main_v38 main_v39 main_v40 (muli : (⟨S10x131072x8, .i32⟩ : BufTy).Contents (Elt F) → (⟨S10x131072x8, .i32⟩ : BufTy).Contents (Elt F) → (⟨S10x131072x8, .i32⟩ : BufTy).Contents (Elt F)),
    StableHlo.binary main_v36 main_v40 main_v41 (xori : (⟨S10x131072x8, .i32⟩ : BufTy).Contents (Elt F) → (⟨S10x131072x8, .i32⟩ : BufTy).Contents (Elt F) → (⟨S10x131072x8, .i32⟩ : BufTy).Contents (Elt F)),
    StableHlo.unary main_v21 main_v42 ((extractStridedSlice S10x131072x8x1 ![6, 0, 0, 1] · slices_S16x131072x8x3_S10x131072x8x1_6_0_0_1) : (⟨S16x131072x8x3, .i32⟩ : BufTy).Contents (Elt F) → (⟨S10x131072x8x1, .i32⟩ : BufTy).Contents (Elt F)),
    StableHlo.reshape main_v42 main_v43 rfl shapeCasts_S10x131072x8x1_S10x131072x8,
    StableHlo.nullary main_c_10 (constantI S_ 32 19349663#32),
    StableHlo.unary main_c_10 main_v44 (broadcastInDim S10x131072x8 ![] bcast_S_S10x131072x8 : (⟨S_, .i32⟩ : BufTy).Contents (Elt F) → (⟨S10x131072x8, .i32⟩ : BufTy).Contents (Elt F)),
    StableHlo.binary main_v43 main_v44 main_v45 (muli : (⟨S10x131072x8, .i32⟩ : BufTy).Contents (Elt F) → (⟨S10x131072x8, .i32⟩ : BufTy).Contents (Elt F) → (⟨S10x131072x8, .i32⟩ : BufTy).Contents (Elt F)),
    StableHlo.binary main_v41 main_v45 main_v46 (xori : (⟨S10x131072x8, .i32⟩ : BufTy).Contents (Elt F) → (⟨S10x131072x8, .i32⟩ : BufTy).Contents (Elt F) → (⟨S10x131072x8, .i32⟩ : BufTy).Contents (Elt F)),
    StableHlo.unary main_v21 main_v47 ((extractStridedSlice S10x131072x8x1 ![6, 0, 0, 2] · slices_S16x131072x8x3_S10x131072x8x1_6_0_0_2) : (⟨S16x131072x8x3, .i32⟩ : BufTy).Contents (Elt F) → (⟨S10x131072x8x1, .i32⟩ : BufTy).Contents (Elt F)),
    StableHlo.reshape main_v47 main_v48 rfl shapeCasts_S10x131072x8x1_S10x131072x8,
    StableHlo.nullary main_c_11 (constantI S_ 32 83492791#32),
    StableHlo.unary main_c_11 main_v49 (broadcastInDim S10x131072x8 ![] bcast_S_S10x131072x8 : (⟨S_, .i32⟩ : BufTy).Contents (Elt F) → (⟨S10x131072x8, .i32⟩ : BufTy).Contents (Elt F)),
    StableHlo.binary main_v48 main_v49 main_v50 (muli : (⟨S10x131072x8, .i32⟩ : BufTy).Contents (Elt F) → (⟨S10x131072x8, .i32⟩ : BufTy).Contents (Elt F) → (⟨S10x131072x8, .i32⟩ : BufTy).Contents (Elt F)),
    StableHlo.binary main_v46 main_v50 main_v51 (xori : (⟨S10x131072x8, .i32⟩ : BufTy).Contents (Elt F) → (⟨S10x131072x8, .i32⟩ : BufTy).Contents (Elt F) → (⟨S10x131072x8, .i32⟩ : BufTy).Contents (Elt F)) ]

/-- The references segment 5 writes. -/
abbrev seg5_W : List (Ref sig .tc) :=
  [main_v34, main_v35, main_c_8, main_v36, main_v37, main_v38, main_c_9, main_v39, main_v40, main_v41, main_v42, main_v43, main_c_10, main_v44, main_v45, main_v46, main_v47, main_v48, main_c_11, main_v49, main_v50, main_v51]

set_option maxRecDepth 8192 in
theorem seg5_sub : (seg5 : List (HloOp τ sig (Elt F))).Forall fun op => op.bufs ⊆ tcRefs τ sig :=
  ⟨unary_bufs_sub .., reshape_bufs_sub .., nullary_bufs_sub .., unary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub .., unary_bufs_sub .., reshape_bufs_sub .., nullary_bufs_sub .., unary_bufs_sub .., binary_bufs_sub .., binary_bufs_sub ..⟩

set_option maxRecDepth 8192 in
theorem seg5_writes : (seg5 : List (HloOp τ sig (Elt F))).Forall fun op => op.writes ⊆ (seg5_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg5_fresh : (seg5 : List (HloOp τ sig (Elt F))).Forall fun op => op.fresh = ∅ := by
  simp only [List.Forall]; repeat' constructor

/-- A reference segment 5 does not write keeps its contents through it. -/
theorem seg5_keep (V : Valuation τ sig (Elt F)) (r : Ref sig .tc) (h : r ∉ seg5_W) :
    after (seg5 (F := F)) V (Proc.devRef .tc r) = V (Proc.devRef .tc r) :=
  after_of_writes_sub seg5 V seg5_writes h

/-- Segment 6: 22 operations, ending with the write of main_v52. -/
abbrev seg6 : List (HloOp τ sig (Elt F)) :=
  [ StableHlo.nullary main_c_12 (constantI S_ 32 524309#32),
    StableHlo.TRef.unary (.of main_c_12 : StableHlo.TRef sig ⟨S_, .i32⟩) main_call1.v0 id,
    StableHlo.TRef.nullary main_call1.c (constantI S_ 32 0#32),
    StableHlo.TRef.binary main_call1.v0 main_call1.c main_call1.v1 (cmpi .eq),
    StableHlo.TRef.nullary main_call1.c_0 (constantI S_ 32 1#32),
    StableHlo.TRef.ternary main_call1.v1 main_call1.c_0 main_call1.v0 main_call1.call0.v0 select,
    StableHlo.TRef.unary main_call1.call0.v0 main_call1.v3 (broadcastInDim S10x131072x8 ![] bcast_S_S10x131072x8),
    StableHlo.TRef.binary (.of main_v51 : StableHlo.TRef sig ⟨S10x131072x8, .i32⟩) main_call1.v3 main_call1.v4 Host.remsi,
    StableHlo.TRef.nullary main_call1.c_1 (constantI S_ 32 0#32),
    StableHlo.TRef.unary main_call1.c_1 main_call1.v5 (broadcastInDim S10x131072x8 ![] bcast_S_S10x131072x8),
    StableHlo.TRef.binary main_call1.v4 main_call1.v5 main_call1.v6 (cmpi .ne),
    StableHlo.TRef.nullary main_call1.c_2 (constantI S_ 32 0#32),
    StableHlo.TRef.unary main_call1.c_2 main_call1.v7 (broadcastInDim S10x131072x8 ![] bcast_S_S10x131072x8),
    StableHlo.TRef.binary main_call1.v4 main_call1.v7 main_call1.v8 (cmpi .slt),
    StableHlo.TRef.nullary main_call1.c_3 (constantI S_ 32 0#32),
    StableHlo.TRef.binary main_call1.call0.v0 main_call1.c_3 main_call1.v9 (cmpi .slt),
    StableHlo.TRef.unary main_call1.v9 main_call1.v10 (broadcastInDim S10x131072x8 ![] bcast_S_S10x131072x8),
    StableHlo.TRef.binary main_call1.v8 main_call1.v10 main_call1.v11 (cmpi .ne),
    StableHlo.TRef.binary main_call1.v11 main_call1.v6 main_call1.v12 andi,
    StableHlo.TRef.unary main_call1.call0.v0 main_call1.v13 (broadcastInDim S10x131072x8 ![] bcast_S_S10x131072x8),
    StableHlo.TRef.binary main_call1.v4 main_call1.v13 main_call1.v14 addi,
    StableHlo.TRef.ternary main_call1.v12 main_call1.v14 main_call1.v4 main_call1.v15 select ]

/-- The references segment 6 writes. -/
abbrev seg6_W : List (Ref sig .tc) :=
  [main_c_12, main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v52]

set_option maxRecDepth 8192 in
theorem seg6_sub : (seg6 : List (HloOp τ sig (Elt F))).Forall fun op => op.bufs ⊆ tcRefs τ sig :=
  ⟨nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub ..⟩

set_option maxRecDepth 8192 in
theorem seg6_writes : (seg6 : List (HloOp τ sig (Elt F))).Forall fun op => op.writes ⊆ (seg6_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg6_fresh : (seg6 : List (HloOp τ sig (Elt F))).Forall fun op => op.fresh = ∅ := by
  simp only [List.Forall]; repeat' constructor

/-- A reference segment 6 does not write keeps its contents through it. -/
theorem seg6_keep (V : Valuation τ sig (Elt F)) (r : Ref sig .tc) (h : r ∉ seg6_W) :
    after (seg6 (F := F)) V (Proc.devRef .tc r) = V (Proc.devRef .tc r) :=
  after_of_writes_sub seg6 V seg6_writes h

/-- Segment 7: 9 operations, ending with the write of main_v59. -/
abbrev seg7 : List (HloOp τ sig (Elt F)) :=
  [ StableHlo.nullary main_c_13 (constantI S_ 32 0#32),
    StableHlo.unary main_c_13 main_v53 (broadcastInDim S6x131072x8 ![] bcast_S_S6x131072x8 : (⟨S_, .i32⟩ : BufTy).Contents (Elt F) → (⟨S6x131072x8, .i32⟩ : BufTy).Contents (Elt F)),
    StableHlo.binary main_v33 main_v53 main_v54 (cmpi .slt : (⟨S6x131072x8, .i32⟩ : BufTy).Contents (Elt F) → (⟨S6x131072x8, .i32⟩ : BufTy).Contents (Elt F) → (⟨S6x131072x8, .i1⟩ : BufTy).Contents (Elt F)),
    StableHlo.nullary main_c_14 (constantI S_ 32 822944#32),
    StableHlo.unary main_c_14 main_v55 (broadcastInDim S6x131072x8 ![] bcast_S_S6x131072x8 : (⟨S_, .i32⟩ : BufTy).Contents (Elt F) → (⟨S6x131072x8, .i32⟩ : BufTy).Contents (Elt F)),
    StableHlo.binary main_v33 main_v55 main_v56 (addi : (⟨S6x131072x8, .i32⟩ : BufTy).Contents (Elt F) → (⟨S6x131072x8, .i32⟩ : BufTy).Contents (Elt F) → (⟨S6x131072x8, .i32⟩ : BufTy).Contents (Elt F)),
    StableHlo.ternary main_v54 main_v56 main_v33 main_v57 (select : (⟨S6x131072x8, .i1⟩ : BufTy).Contents (Elt F) → (⟨S6x131072x8, .i32⟩ : BufTy).Contents (Elt F) → (⟨S6x131072x8, .i32⟩ : BufTy).Contents (Elt F) → (⟨S6x131072x8, .i32⟩ : BufTy).Contents (Elt F)),
    StableHlo.unary main_v57 main_v58 (broadcastInDim S6x131072x8x1 ![0, 1, 2] bcast_S6x131072x8_S6x131072x8x1_0_1_2 : (⟨S6x131072x8, .i32⟩ : BufTy).Contents (Elt F) → (⟨S6x131072x8x1, .i32⟩ : BufTy).Contents (Elt F)),
    StableHlo.binary main_arg1 main_v58 main_v59 ((fun x i => Host.gather gather_S822944x2_S6x131072x8x1_S6x131072x8x2_3_0_n_n_0_3_12 x i) : (⟨S822944x2, .f32⟩ : BufTy).Contents (Elt F) → (⟨S6x131072x8x1, .i32⟩ : BufTy).Contents (Elt F) → (⟨S6x131072x8x2, .f32⟩ : BufTy).Contents (Elt F)) ]

/-- The references segment 7 writes. -/
abbrev seg7_W : List (Ref sig .tc) :=
  [main_c_13, main_v53, main_v54, main_c_14, main_v55, main_v56, main_v57, main_v58, main_v59]

set_option maxRecDepth 8192 in
theorem seg7_sub : (seg7 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub ..⟩

set_option maxRecDepth 8192 in
theorem seg7_writes : (seg7 : List (HloOp τ sig (Elt F))).Forall fun op => op.writes ⊆ (seg7_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg7_fresh : (seg7 : List (HloOp τ sig (Elt F))).Forall fun op => op.fresh = ∅ := by
  simp only [List.Forall]; repeat' constructor

/-- A reference segment 7 does not write keeps its contents through it. -/
theorem seg7_keep (V : Valuation τ sig (Elt F)) (r : Ref sig .tc) (h : r ∉ seg7_W) :
    after (seg7 (F := F)) V (Proc.devRef .tc r) = V (Proc.devRef .tc r) :=
  after_of_writes_sub seg7 V seg7_writes h

/-- Segment 8a: 2 operations, ending with the write of main_v61. -/
abbrev seg8a : List (HloOp τ sig (Elt F)) :=
  [ StableHlo.reshape main_v52 main_v60 rfl shapeCasts_S10x131072x8_S10x1048576,
    StableHlo.unary main_v60 main_v61 (broadcastInDim S10x1048576x1 ![0, 1] bcast_S10x1048576_S10x1048576x1_0_1 : (⟨S10x1048576, .i32⟩ : BufTy).Contents (Elt F) → (⟨S10x1048576x1, .i32⟩ : BufTy).Contents (Elt F)) ]

/-- The references segment 8a writes. -/
abbrev seg8a_W : List (Ref sig .tc) :=
  [main_v60, main_v61]

set_option maxRecDepth 8192 in
theorem seg8a_sub : (seg8a : List (HloOp τ sig (Elt F))).Forall fun op => op.bufs ⊆ tcRefs τ sig :=
  ⟨reshape_bufs_sub .., unary_bufs_sub ..⟩

set_option maxRecDepth 8192 in
theorem seg8a_writes : (seg8a : List (HloOp τ sig (Elt F))).Forall fun op => op.writes ⊆ (seg8a_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg8a_fresh : (seg8a : List (HloOp τ sig (Elt F))).Forall fun op => op.fresh = ∅ := by
  simp only [List.Forall]; repeat' constructor

/-- A reference segment 8a does not write keeps its contents through it. -/
theorem seg8a_keep (V : Valuation τ sig (Elt F)) (r : Ref sig .tc) (h : r ∉ seg8a_W) :
    after (seg8a (F := F)) V (Proc.devRef .tc r) = V (Proc.devRef .tc r) :=
  after_of_writes_sub seg8a V seg8a_writes h

/-- Segment 8b: 7 operations, ending with the write of main_call2_v4. -/
abbrev seg8b : List (HloOp τ sig (Elt F)) :=
  [ StableHlo.TRef.nullary main_call2.c (constantI S_ 32 0#32),
    StableHlo.TRef.unary main_call2.c main_call2.v0 (broadcastInDim S10x1048576x1 ![] bcast_S_S10x1048576x1),
    StableHlo.TRef.binary (.of main_v61 : StableHlo.TRef sig ⟨S10x1048576x1, .i32⟩) main_call2.v0 main_call2.v1 (cmpi .slt),
    StableHlo.TRef.nullary main_call2.c_0 (constantI S_ 32 524309#32),
    StableHlo.TRef.unary main_call2.c_0 main_call2.v2 (broadcastInDim S10x1048576x1 ![] bcast_S_S10x1048576x1),
    StableHlo.TRef.binary (.of main_v61 : StableHlo.TRef sig ⟨S10x1048576x1, .i32⟩) main_call2.v2 main_call2.v3 addi,
    StableHlo.TRef.ternary main_call2.v1 main_call2.v3 (.of main_v61 : StableHlo.TRef sig ⟨S10x1048576x1, .i32⟩) main_call2.v4 select ]

/-- The references segment 8b writes. -/
abbrev seg8b_W : List (Ref sig .tc) :=
  [main_call2_c, main_call2_v0, main_call2_v1, main_call2_c_0, main_call2_v2, main_call2_v3, main_call2_v4]

set_option maxRecDepth 8192 in
theorem seg8b_sub : (seg8b : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..⟩

set_option maxRecDepth 8192 in
theorem seg8b_writes : (seg8b : List (HloOp τ sig (Elt F))).Forall fun op => op.writes ⊆ (seg8b_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg8b_fresh : (seg8b : List (HloOp τ sig (Elt F))).Forall fun op => op.fresh = ∅ := by
  simp only [List.Forall]; repeat' constructor

/-- A reference segment 8b does not write keeps its contents through it. -/
theorem seg8b_keep (V : Valuation τ sig (Elt F)) (r : Ref sig .tc) (h : r ∉ seg8b_W) :
    after (seg8b (F := F)) V (Proc.devRef .tc r) = V (Proc.devRef .tc r) :=
  after_of_writes_sub seg8b V seg8b_writes h

/-- Segment 8c: 10 operations, ending with the write of main_call2_v11. -/
abbrev seg8c : List (HloOp τ sig (Elt F)) :=
  [ StableHlo.TRef.nullary main_call2.c_1 (constantI S1 32 524308#32),
    StableHlo.TRef.nullary main_call2.c_2 (constantI S_ 32 0#32),
    StableHlo.TRef.unary main_call2.c_2 main_call2.v5 (broadcastInDim S10x1048576x1 ![] bcast_S_S10x1048576x1),
    StableHlo.TRef.binary main_call2.v4 main_call2.v5 main_call2.v6 (cmpi .sge),
    StableHlo.TRef.unary main_call2.c_1 main_call2.v7 (broadcastInDim S1x1x1 ![2] bcast_S1_S1x1x1_2),
    StableHlo.TRef.unary main_call2.v7 main_call2.v8 (broadcastInDim S10x1048576x1 ![0, 1, 2] bcast_S1x1x1_S10x1048576x1_0_1_2),
    StableHlo.TRef.binary main_call2.v4 main_call2.v8 main_call2.v9 (cmpi .sle),
    StableHlo.TRef.binary main_call2.v6 main_call2.v9 main_call2.v10 andi,
    StableHlo.TRef.nullary main_call2.c_3 (constantI S_ 1 1#1),
    StableHlo.TRef.binary main_call2.v10 main_call2.c_3 main_call2.v11 (fun x v => Host.reduce IntOp.andi x v reducesTo_S10x1048576x1_S10x1048576_d2 h_S_) ]

/-- The references segment 8c writes. -/
abbrev seg8c_W : List (Ref sig .tc) :=
  [main_call2_c_1, main_call2_c_2, main_call2_v5, main_call2_v6, main_call2_v7, main_call2_v8, main_call2_v9, main_call2_v10, main_call2_c_3, main_call2_v11]

set_option maxRecDepth 8192 in
theorem seg8c_sub : (seg8c : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub ..⟩

set_option maxRecDepth 8192 in
theorem seg8c_writes : (seg8c : List (HloOp τ sig (Elt F))).Forall fun op => op.writes ⊆ (seg8c_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg8c_fresh : (seg8c : List (HloOp τ sig (Elt F))).Forall fun op => op.fresh = ∅ := by
  simp only [List.Forall]; repeat' constructor

/-- A reference segment 8c does not write keeps its contents through it. -/
theorem seg8c_keep (V : Valuation τ sig (Elt F)) (r : Ref sig .tc) (h : r ∉ seg8c_W) :
    after (seg8c (F := F)) V (Proc.devRef .tc r) = V (Proc.devRef .tc r) :=
  after_of_writes_sub seg8c V seg8c_writes h

/-- Segment 8d: 5 operations, ending with the write of main_v62. -/
abbrev seg8d : List (HloOp τ sig (Elt F)) :=
  [ StableHlo.TRef.binary (.of main_arg2 : StableHlo.TRef sig ⟨S10x524309x2, .f32⟩) main_call2.v4 main_call2.v12 (fun x i => Host.gather gather_S10x524309x2_S10x1048576x1_S10x1048576x2_2_1_0_0_1_2_112 x i),
    StableHlo.TRef.unary main_call2.v11 main_call2.v13 (broadcastInDim S10x1048576x2 ![0, 1] bcast_S10x1048576_S10x1048576x2_0_1),
    StableHlo.TRef.nullary main_call2.cst (constant S_ .f32 0x7FC00000#32),
    StableHlo.TRef.unary main_call2.cst main_call2.v14 (broadcastInDim S10x1048576x2 ![] bcast_S_S10x1048576x2),
    StableHlo.TRef.ternary main_call2.v13 main_call2.v12 main_call2.v14 main_call2.v15 select ]

/-- The references segment 8d writes. -/
abbrev seg8d_W : List (Ref sig .tc) :=
  [main_call2_v12, main_call2_v13, main_call2_cst, main_call2_v14, main_v62]

set_option maxRecDepth 8192 in
theorem seg8d_sub : (seg8d : List (HloOp τ sig (Elt F))).Forall fun op => op.bufs ⊆ tcRefs τ sig :=
  ⟨binary_bufs_sub .., unary_bufs_sub .., nullary_bufs_sub .., unary_bufs_sub .., ternary_bufs_sub ..⟩

set_option maxRecDepth 8192 in
theorem seg8d_writes : (seg8d : List (HloOp τ sig (Elt F))).Forall fun op => op.writes ⊆ (seg8d_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg8d_fresh : (seg8d : List (HloOp τ sig (Elt F))).Forall fun op => op.fresh = ∅ := by
  simp only [List.Forall]; repeat' constructor

/-- A reference segment 8d does not write keeps its contents through it. -/
theorem seg8d_keep (V : Valuation τ sig (Elt F)) (r : Ref sig .tc) (h : r ∉ seg8d_W) :
    after (seg8d (F := F)) V (Proc.devRef .tc r) = V (Proc.devRef .tc r) :=
  after_of_writes_sub seg8d V seg8d_writes h

/-- Segment 8e: 2 operations, ending with the write of main_v64. -/
abbrev seg8e : List (HloOp τ sig (Elt F)) :=
  [ StableHlo.reshape main_v62 main_v63 rfl shapeCasts_S10x1048576x2_S10x131072x8x2,
    StableHlo.binary main_v59 main_v63 main_v64 ((fun a b => concatenate S16x131072x8x2 0 [⟨S6x131072x8x2, a⟩, ⟨S10x131072x8x2, b⟩] concatenates_S6x131072x8x2_S10x131072x8x2_S16x131072x8x2_d0) : (⟨S6x131072x8x2, .f32⟩ : BufTy).Contents (Elt F) → (⟨S10x131072x8x2, .f32⟩ : BufTy).Contents (Elt F) → (⟨S16x131072x8x2, .f32⟩ : BufTy).Contents (Elt F)) ]

/-- The references segment 8e writes. -/
abbrev seg8e_W : List (Ref sig .tc) :=
  [main_v63, main_v64]

set_option maxRecDepth 8192 in
theorem seg8e_sub : (seg8e : List (HloOp τ sig (Elt F))).Forall fun op => op.bufs ⊆ tcRefs τ sig :=
  ⟨reshape_bufs_sub .., binary_bufs_sub ..⟩

set_option maxRecDepth 8192 in
theorem seg8e_writes : (seg8e : List (HloOp τ sig (Elt F))).Forall fun op => op.writes ⊆ (seg8e_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg8e_fresh : (seg8e : List (HloOp τ sig (Elt F))).Forall fun op => op.fresh = ∅ := by
  simp only [List.Forall]; repeat' constructor

/-- A reference segment 8e does not write keeps its contents through it. -/
theorem seg8e_keep (V : Valuation τ sig (Elt F)) (r : Ref sig .tc) (h : r ∉ seg8e_W) :
    after (seg8e (F := F)) V (Proc.devRef .tc r) = V (Proc.devRef .tc r) :=
  after_of_writes_sub seg8e V seg8e_writes h

/-- Segment 9: 21 operations, ending with the write of main_v82. -/
abbrev seg9 : List (HloOp τ sig (Elt F)) :=
  [ StableHlo.unary main_cst_2 main_v65 (broadcastInDim S1x1x8x3 ![2, 3] bcast_S8x3_S1x1x8x3_2_3 : (⟨S8x3, .f32⟩ : BufTy).Contents (Elt F) → (⟨S1x1x8x3, .f32⟩ : BufTy).Contents (Elt F)),
    StableHlo.nullary main_cst_15 (constant S_ .f32 0x3F800000#32),
    StableHlo.unary main_cst_15 main_v66 (broadcastInDim S1x1x8x3 ![] bcast_S_S1x1x8x3 : (⟨S_, .f32⟩ : BufTy).Contents (Elt F) → (⟨S1x1x8x3, .f32⟩ : BufTy).Contents (Elt F)),
    StableHlo.binary main_v66 main_v65 main_v67 (subf : (⟨S1x1x8x3, .f32⟩ : BufTy).Contents (Elt F) → (⟨S1x1x8x3, .f32⟩ : BufTy).Contents (Elt F) → (⟨S1x1x8x3, .f32⟩ : BufTy).Contents (Elt F)),
    StableHlo.nullary main_cst_16 (constant S_ .f32 0x40000000#32),
    StableHlo.unary main_cst_16 main_v68 (broadcastInDim S1x1x8x3 ![] bcast_S_S1x1x8x3 : (⟨S_, .f32⟩ : BufTy).Contents (Elt F) → (⟨S1x1x8x3, .f32⟩ : BufTy).Contents (Elt F)),
    StableHlo.binary main_v68 main_v65 main_v69 (mulf : (⟨S1x1x8x3, .f32⟩ : BufTy).Contents (Elt F) → (⟨S1x1x8x3, .f32⟩ : BufTy).Contents (Elt F) → (⟨S1x1x8x3, .f32⟩ : BufTy).Contents (Elt F)),
    StableHlo.nullary main_cst_17 (constant S_ .f32 0x3F800000#32),
    StableHlo.unary main_cst_17 main_v70 (broadcastInDim S1x1x8x3 ![] bcast_S_S1x1x8x3 : (⟨S_, .f32⟩ : BufTy).Contents (Elt F) → (⟨S1x1x8x3, .f32⟩ : BufTy).Contents (Elt F)),
    StableHlo.binary main_v69 main_v70 main_v71 (subf : (⟨S1x1x8x3, .f32⟩ : BufTy).Contents (Elt F) → (⟨S1x1x8x3, .f32⟩ : BufTy).Contents (Elt F) → (⟨S1x1x8x3, .f32⟩ : BufTy).Contents (Elt F)),
    StableHlo.unary main_v25 main_v72 (broadcastInDim S16x131072x1x3 ![0, 1, 3] bcast_S16x131072x3_S16x131072x1x3_0_1_3 : (⟨S16x131072x3, .f32⟩ : BufTy).Contents (Elt F) → (⟨S16x131072x1x3, .f32⟩ : BufTy).Contents (Elt F)),
    StableHlo.unary main_v71 main_v73 (broadcastInDim S16x131072x8x3 ![0, 1, 2, 3] bcast_S1x1x8x3_S16x131072x8x3_0_1_2_3 : (⟨S1x1x8x3, .f32⟩ : BufTy).Contents (Elt F) → (⟨S16x131072x8x3, .f32⟩ : BufTy).Contents (Elt F)),
    StableHlo.unary main_v72 main_v74 (broadcastInDim S16x131072x8x3 ![0, 1, 2, 3] bcast_S16x131072x1x3_S16x131072x8x3_0_1_2_3 : (⟨S16x131072x1x3, .f32⟩ : BufTy).Contents (Elt F) → (⟨S16x131072x8x3, .f32⟩ : BufTy).Contents (Elt F)),
    StableHlo.binary main_v73 main_v74 main_v75 (mulf : (⟨S16x131072x8x3, .f32⟩ : BufTy).Contents (Elt F) → (⟨S16x131072x8x3, .f32⟩ : BufTy).Contents (Elt F) → (⟨S16x131072x8x3, .f32⟩ : BufTy).Contents (Elt F)),
    StableHlo.unary main_v67 main_v76 (broadcastInDim S16x131072x8x3 ![0, 1, 2, 3] bcast_S1x1x8x3_S16x131072x8x3_0_1_2_3 : (⟨S1x1x8x3, .f32⟩ : BufTy).Contents (Elt F) → (⟨S16x131072x8x3, .f32⟩ : BufTy).Contents (Elt F)),
    StableHlo.binary main_v76 main_v75 main_v77 (addf : (⟨S16x131072x8x3, .f32⟩ : BufTy).Contents (Elt F) → (⟨S16x131072x8x3, .f32⟩ : BufTy).Contents (Elt F) → (⟨S16x131072x8x3, .f32⟩ : BufTy).Contents (Elt F)),
    StableHlo.unary main_v77 main_v78 ((extractStridedSlice S16x131072x8x1 ![0, 0, 0, 0] · slices_S16x131072x8x3_S16x131072x8x1_0_0_0_0) : (⟨S16x131072x8x3, .f32⟩ : BufTy).Contents (Elt F) → (⟨S16x131072x8x1, .f32⟩ : BufTy).Contents (Elt F)),
    StableHlo.reshape main_v78 main_v79 rfl shapeCasts_S16x131072x8x1_S16x131072x8,
    StableHlo.unary main_v77 main_v80 ((extractStridedSlice S16x131072x8x1 ![0, 0, 0, 1] · slices_S16x131072x8x3_S16x131072x8x1_0_0_0_1) : (⟨S16x131072x8x3, .f32⟩ : BufTy).Contents (Elt F) → (⟨S16x131072x8x1, .f32⟩ : BufTy).Contents (Elt F)),
    StableHlo.reshape main_v80 main_v81 rfl shapeCasts_S16x131072x8x1_S16x131072x8,
    StableHlo.binary main_v79 main_v81 main_v82 (mulf : (⟨S16x131072x8, .f32⟩ : BufTy).Contents (Elt F) → (⟨S16x131072x8, .f32⟩ : BufTy).Contents (Elt F) → (⟨S16x131072x8, .f32⟩ : BufTy).Contents (Elt F)) ]

/-- The references segment 9 writes. -/
abbrev seg9_W : List (Ref sig .tc) :=
  [main_v65, main_cst_15, main_v66, main_v67, main_cst_16, main_v68, main_v69, main_cst_17, main_v70, main_v71, main_v72, main_v73, main_v74, main_v75, main_v76, main_v77, main_v78, main_v79, main_v80, main_v81, main_v82]

set_option maxRecDepth 8192 in
theorem seg9_sub : (seg9 : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., unary_bufs_sub .., reshape_bufs_sub .., unary_bufs_sub .., reshape_bufs_sub .., binary_bufs_sub ..⟩

set_option maxRecDepth 8192 in
theorem seg9_writes : (seg9 : List (HloOp τ sig (Elt F))).Forall fun op => op.writes ⊆ (seg9_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg9_fresh : (seg9 : List (HloOp τ sig (Elt F))).Forall fun op => op.fresh = ∅ := by
  simp only [List.Forall]; repeat' constructor

/-- A reference segment 9 does not write keeps its contents through it. -/
theorem seg9_keep (V : Valuation τ sig (Elt F)) (r : Ref sig .tc) (h : r ∉ seg9_W) :
    after (seg9 (F := F)) V (Proc.devRef .tc r) = V (Proc.devRef .tc r) :=
  after_of_writes_sub seg9 V seg9_writes h

/-- Segment 10: 9 operations, ending with the write of main_v90. -/
abbrev seg10 : List (HloOp τ sig (Elt F)) :=
  [ StableHlo.unary main_v82 main_v83 (broadcastInDim S16x131072x8x1 ![0, 1, 2] bcast_S16x131072x8_S16x131072x8x1_0_1_2 : (⟨S16x131072x8, .f32⟩ : BufTy).Contents (Elt F) → (⟨S16x131072x8x1, .f32⟩ : BufTy).Contents (Elt F)),
    StableHlo.unary main_v83 main_v84 (broadcastInDim S16x131072x8x2 ![0, 1, 2, 3] bcast_S16x131072x8x1_S16x131072x8x2_0_1_2_3 : (⟨S16x131072x8x1, .f32⟩ : BufTy).Contents (Elt F) → (⟨S16x131072x8x2, .f32⟩ : BufTy).Contents (Elt F)),
    StableHlo.binary main_v84 main_v64 main_v85 (mulf : (⟨S16x131072x8x2, .f32⟩ : BufTy).Contents (Elt F) → (⟨S16x131072x8x2, .f32⟩ : BufTy).Contents (Elt F) → (⟨S16x131072x8x2, .f32⟩ : BufTy).Contents (Elt F)),
    StableHlo.nullary main_cst_18 (constant S_ .f32 0x00000000#32),
    StableHlo.binary main_v85 main_cst_18 main_v86 ((fun x v => Host.reduceAdd x v reducesTo_S16x131072x8x2_S16x131072x2_d2 h_S_) : (⟨S16x131072x8x2, .f32⟩ : BufTy).Contents (Elt F) → (⟨S_, .f32⟩ : BufTy).Contents (Elt F) → (⟨S16x131072x2, .f32⟩ : BufTy).Contents (Elt F)),
    StableHlo.unary main_v86 main_v87 ((transpose S131072x16x2 [1, 0, 2] · transposes_S16x131072x2_S131072x16x2_1_0_2) : (⟨S16x131072x2, .f32⟩ : BufTy).Contents (Elt F) → (⟨S131072x16x2, .f32⟩ : BufTy).Contents (Elt F)),
    StableHlo.reshape main_v87 main_v88 rfl shapeCasts_S131072x16x2_S131072x32,
    StableHlo.binary main_v6 main_v88 main_v89 ((fun a b => concatenate S131072x35 1 [⟨S131072x3, a⟩, ⟨S131072x32, b⟩] concatenates_S131072x3_S131072x32_S131072x35_d1) : (⟨S131072x3, .f32⟩ : BufTy).Contents (Elt F) → (⟨S131072x32, .f32⟩ : BufTy).Contents (Elt F) → (⟨S131072x35, .f32⟩ : BufTy).Contents (Elt F)),
    StableHlo.reshape main_v89 main_v90 rfl shapeCasts_S131072x35_S2x65536x35 ]

/-- The references segment 10 writes. -/
abbrev seg10_W : List (Ref sig .tc) :=
  [main_v83, main_v84, main_v85, main_cst_18, main_v86, main_v87, main_v88, main_v89, main_v90]

set_option maxRecDepth 8192 in
theorem seg10_sub : (seg10 : List (HloOp τ sig (Elt F))).Forall fun op => op.bufs ⊆ tcRefs τ sig :=
  ⟨unary_bufs_sub .., unary_bufs_sub .., binary_bufs_sub .., nullary_bufs_sub .., binary_bufs_sub .., unary_bufs_sub .., reshape_bufs_sub .., binary_bufs_sub .., reshape_bufs_sub ..⟩

set_option maxRecDepth 8192 in
theorem seg10_writes : (seg10 : List (HloOp τ sig (Elt F))).Forall fun op => op.writes ⊆ (seg10_W.map (Proc.devRef (τ := τ) .tc)).toFinset := by
  simp only [List.Forall]; exact ⟨by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide), by simp only [nullary_writes, unary_writes, binary_writes, ternary_writes, reshape_writes, Finset.singleton_subset_iff, List.mem_toFinset]; exact List.mem_map_of_mem (by decide)⟩

theorem seg10_fresh : (seg10 : List (HloOp τ sig (Elt F))).Forall fun op => op.fresh = ∅ := by
  simp only [List.Forall]; repeat' constructor

/-- A reference segment 10 does not write keeps its contents through it. -/
theorem seg10_keep (V : Valuation τ sig (Elt F)) (r : Ref sig .tc) (h : r ∉ seg10_W) :
    after (seg10 (F := F)) V (Proc.devRef .tc r) = V (Proc.devRef .tc r) :=
  after_of_writes_sub seg10 V seg10_writes h

/-- @main's 157 operations, in order: the segments one after the other. -/
abbrev ops : List (HloOp τ sig (Elt F)) :=
  seg0 ++ seg1 ++ seg2 ++ seg3 ++ seg4 ++ seg5 ++ seg6 ++ seg7 ++ seg8a ++ seg8b ++ seg8c ++ seg8d ++ seg8e ++ seg9 ++ seg10

end Cert.ReferenceIdeal.RefRun

end
-- ==== Proof.RefRun.lean ====
/- The reference's run. Its @main is a straight line of host operations: the two printed windows one after the
   other, each outlined function (the clamp, the remainder with its scalar select, the gather along an axis) standing
   for its own operations at its call. So @main is the sequence of the operations listed in RefOps, every fair
   execution terminates, and each buffer ends at the fold of the operations' results over the launch contents.
   The three argument buffers are written by no operation and keep their launch contents. -/
import proofs.«133126_j89799176225629_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- @main is the sequence of its operations: the functions unfolded at their calls and the records at their fields,
    both sides are one chain of steps once sequencing is reassociated. -/
theorem main_eq (c : Dev nD) : main (F := F) c = seq ops := by
  simp only [main, main_part0, main_part1, fn_clip.body, fn_remainder.body, fn_where.body, fn_take_along_axis.body,
    ops, seg0, seg1, seg2, seg3, seg4, seg5, seg6, seg7, seg8a, seg8b, seg8c, seg8d, seg8e, seg9, seg10, seq_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig := by
  simp only [ops, List.forall_append]
  exact ⟨⟨⟨⟨⟨⟨⟨⟨⟨⟨⟨⟨⟨⟨seg0_sub, seg1_sub⟩, seg2_sub⟩, seg3_sub⟩, seg4_sub⟩, seg5_sub⟩, seg6_sub⟩, seg7_sub⟩, seg8a_sub⟩, seg8b_sub⟩, seg8c_sub⟩, seg8d_sub⟩, seg8e_sub⟩, seg9_sub⟩, seg10_sub⟩

/-- No operation allocates a buffer of undetermined contents. -/
theorem ops_fresh : ∀ op ∈ (ops : List (HloOp τ sig (Elt F))), op.fresh = ∅ := by
  refine List.forall_iff_forall_mem.mp ?_
  simp only [ops, List.forall_append]
  exact ⟨⟨⟨⟨⟨⟨⟨⟨⟨⟨⟨⟨⟨⟨seg0_fresh, seg1_fresh⟩, seg2_fresh⟩, seg3_fresh⟩, seg4_fresh⟩, seg5_fresh⟩, seg6_fresh⟩, seg7_fresh⟩, seg8a_fresh⟩, seg8b_fresh⟩, seg8c_fresh⟩, seg8d_fresh⟩, seg8e_fresh⟩, seg9_fresh⟩, seg10_fresh⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- The fold over a concatenation is the fold over its second part from the fold over its first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The fold over all the operations is the fold over the segments in turn. -/
theorem after_ops (V : Valuation τ sig (Elt F)) :
    after (ops (F := F)) V
      = after seg10 (after seg9 (after seg8e (after seg8d (after seg8c (after seg8b (after seg8a (after seg7 (after seg6 (after seg5 (after seg4 (after seg3 (after seg2 (after seg1 (after seg0 V)))))))))))))) := by
  simp only [ops, after_append]

/-- A reference no segment writes keeps its contents through the whole program. -/
theorem ops_keep (V : Valuation τ sig (Elt F)) (r : Ref sig .tc)
    (h0 : r ∉ seg0_W) (h1 : r ∉ seg1_W) (h2 : r ∉ seg2_W) (h3 : r ∉ seg3_W) (h4 : r ∉ seg4_W)
    (h5 : r ∉ seg5_W) (h6 : r ∉ seg6_W) (h7 : r ∉ seg7_W) (h8a : r ∉ seg8a_W) (h8b : r ∉ seg8b_W)
    (h8c : r ∉ seg8c_W) (h8d : r ∉ seg8d_W) (h8e : r ∉ seg8e_W) (h9 : r ∉ seg9_W) (h10 : r ∉ seg10_W) :
    after (ops (F := F)) V (Proc.devRef .tc r) = V (Proc.devRef .tc r) := by
  rw [after_ops, seg10_keep _ r h10, seg9_keep _ r h9, seg8e_keep _ r h8e, seg8d_keep _ r h8d, seg8c_keep _ r h8c, seg8b_keep _ r h8b, seg8a_keep _ r h8a, seg7_keep _ r h7,
    seg6_keep _ r h6, seg5_keep _ r h5, seg4_keep _ r h4, seg3_keep _ r h3,
    seg2_keep _ r h2, seg1_keep _ r h1, seg0_keep _ r h0]

theorem arg0_keep (V : Valuation τ sig (Elt F)) :
    after (ops (F := F)) V (main_arg0 : DevRef τ sig) = V (main_arg0 : DevRef τ sig) :=
  ops_keep V main_arg0 (by decide) (by decide) (by decide) (by decide) (by decide) (by decide) (by decide) (by decide) (by decide) (by decide) (by decide) (by decide) (by decide) (by decide) (by decide)

theorem arg1_keep (V : Valuation τ sig (Elt F)) :
    after (ops (F := F)) V (main_arg1 : DevRef τ sig) = V (main_arg1 : DevRef τ sig) :=
  ops_keep V main_arg1 (by decide) (by decide) (by decide) (by decide) (by decide) (by decide) (by decide) (by decide) (by decide) (by decide) (by decide) (by decide) (by decide) (by decide) (by decide)

theorem arg2_keep (V : Valuation τ sig (Elt F)) :
    after (ops (F := F)) V (main_arg2 : DevRef τ sig) = V (main_arg2 : DevRef τ sig) :=
  ops_keep V main_arg2 (by decide) (by decide) (by decide) (by decide) (by decide) (by decide) (by decide) (by decide) (by decide) (by decide) (by decide) (by decide) (by decide) (by decide) (by decide)

end Cert.ReferenceIdeal.RefRun

end
-- ==== Proof.RefTac.lean ====
/- Small tactics for the coordinate equations a layout operation read at an index asks for: one goal per axis of a
   literal shape, each closed by computation (a slice's zero offset by 0 + x = x). -/
import Idealize.ShloMosaic.Lib.ValueIdx
import Idealize.ShloMosaic.Lib.Pipeline.Value
import Idealize.ShloMosaic.Lib.StableHlo.Run

/-- One axis equation: by computation, or a zero offset added on the left. -/
macro "axis_eq" : tactic => `(tactic| first | rfl | exact (Nat.zero_add _).symm)

/-- Every axis of a rank-1 … rank-4 shape in turn. -/
macro "axes1" : tactic => `(tactic| (intro a; match a with | ⟨0, _⟩ => axis_eq))
macro "axes2" : tactic => `(tactic| (intro a; match a with | ⟨0, _⟩ => axis_eq | ⟨1, _⟩ => axis_eq))
macro "axes3" : tactic => `(tactic| (intro a; match a with | ⟨0, _⟩ => axis_eq | ⟨1, _⟩ => axis_eq | ⟨2, _⟩ => axis_eq))
macro "axes4" : tactic => `(tactic| (intro a; match a with | ⟨0, _⟩ => axis_eq | ⟨1, _⟩ => axis_eq | ⟨2, _⟩ => axis_eq | ⟨3, _⟩ => axis_eq))

/-- A buffer after a stretch of operations as the operations' composed term: the fold unrolled, each result read at
    its own buffer, and the typed references' transports (identities at literal references) removed. -/
macro "read_results" : tactic => `(tactic| (
  open Idealize.ShloMosaic.StableHlo in after_results
  try simp only [Idealize.ShloMosaic.StableHlo.TRef.ofBuf, Idealize.ShloMosaic.StableHlo.TRef.toBuf, cast_eq, id_eq]))

/-! The results of an outlined function's operations (the builders over typed references), stated for one
    rewriting pass as the library states the plain builders': at the operation's own result buffer its function's
    value, at any other reference what was there. -/

namespace Idealize.ShloMosaic.StableHlo

variable {τ : Topo} {sig : RefSig} {Val : EltTy → Type} {Tx Ta Tb Tc Ty : BufTy}

theorem tref_nullary_result' (y : TRef sig Ty) (v : Ty.Contents Val) (F : Valuation τ sig Val) :
    (TRef.nullary (τ := τ) y v).result F (no_index (Proc.devRef .tc y.ref)) = y.toBuf v :=
  nullary_result' _ _ F
theorem tref_unary_result' (x : TRef sig Tx) (y : TRef sig Ty) (f : Tx.Contents Val → Ty.Contents Val)
    (F : Valuation τ sig Val) :
    (TRef.unary (τ := τ) x y f).result F (no_index (Proc.devRef .tc y.ref))
      = y.toBuf (f (x.ofBuf (F (Proc.devRef .tc x.ref)))) :=
  unary_result' _ _ _ F
theorem tref_binary_result' (a : TRef sig Ta) (b : TRef sig Tb) (y : TRef sig Ty)
    (f : Ta.Contents Val → Tb.Contents Val → Ty.Contents Val) (F : Valuation τ sig Val) :
    (TRef.binary (τ := τ) a b y f).result F (no_index (Proc.devRef .tc y.ref))
      = y.toBuf (f (a.ofBuf (F (Proc.devRef .tc a.ref))) (b.ofBuf (F (Proc.devRef .tc b.ref)))) :=
  binary_result' _ _ _ _ F
theorem tref_ternary_result' (c : TRef sig Tc) (a : TRef sig Ta) (b : TRef sig Tb) (y : TRef sig Ty)
    (f : Tc.Contents Val → Ta.Contents Val → Tb.Contents Val → Ty.Contents Val) (F : Valuation τ sig Val) :
    (TRef.ternary (τ := τ) c a b y f).result F (no_index (Proc.devRef .tc y.ref))
      = y.toBuf (f (c.ofBuf (F (Proc.devRef .tc c.ref))) (a.ofBuf (F (Proc.devRef .tc a.ref)))
          (b.ofBuf (F (Proc.devRef .tc b.ref)))) :=
  ternary_result' _ _ _ _ _ F

theorem tref_nullary_result_ne' (y : TRef sig Ty) (v : Ty.Contents Val) (F : Valuation τ sig Val) {r : Ref sig .tc}
    (h : r ≠ y.ref) :
    (TRef.nullary (τ := τ) y v).result F (no_index (Proc.devRef .tc r)) = F (Proc.devRef .tc r) :=
  nullary_result_ne' _ _ F h
theorem tref_unary_result_ne' (x : TRef sig Tx) (y : TRef sig Ty) (f : Tx.Contents Val → Ty.Contents Val)
    (F : Valuation τ sig Val) {r : Ref sig .tc} (h : r ≠ y.ref) :
    (TRef.unary (τ := τ) x y f).result F (no_index (Proc.devRef .tc r)) = F (Proc.devRef .tc r) :=
  unary_result_ne' _ _ _ F h
theorem tref_binary_result_ne' (a : TRef sig Ta) (b : TRef sig Tb) (y : TRef sig Ty)
    (f : Ta.Contents Val → Tb.Contents Val → Ty.Contents Val) (F : Valuation τ sig Val) {r : Ref sig .tc}
    (h : r ≠ y.ref) :
    (TRef.binary (τ := τ) a b y f).result F (no_index (Proc.devRef .tc r)) = F (Proc.devRef .tc r) :=
  binary_result_ne' _ _ _ _ F h
theorem tref_ternary_result_ne' (c : TRef sig Tc) (a : TRef sig Ta) (b : TRef sig Tb) (y : TRef sig Ty)
    (f : Tc.Contents Val → Ta.Contents Val → Tb.Contents Val → Ty.Contents Val) (F : Valuation τ sig Val)
    {r : Ref sig .tc} (h : r ≠ y.ref) :
    (TRef.ternary (τ := τ) c a b y f).result F (no_index (Proc.devRef .tc r)) = F (Proc.devRef .tc r) :=
  ternary_result_ne' _ _ _ _ _ F h

end Idealize.ShloMosaic.StableHlo

/-- The same for a long stretch: the results rewritten in one pass, the outlined functions' operations included. -/
macro "read_results_simp" : tactic => `(tactic| (
  simp (disch := decide) only [Idealize.ShloMosaic.StableHlo.after_cons, Idealize.ShloMosaic.StableHlo.after_nil,
    Idealize.ShloMosaic.StableHlo.nullary_result', Idealize.ShloMosaic.StableHlo.unary_result',
    Idealize.ShloMosaic.StableHlo.binary_result', Idealize.ShloMosaic.StableHlo.ternary_result',
    Idealize.ShloMosaic.StableHlo.reshape_result',
    Idealize.ShloMosaic.StableHlo.nullary_result_ne', Idealize.ShloMosaic.StableHlo.unary_result_ne',
    Idealize.ShloMosaic.StableHlo.binary_result_ne', Idealize.ShloMosaic.StableHlo.ternary_result_ne',
    Idealize.ShloMosaic.StableHlo.reshape_result_ne',
    Idealize.ShloMosaic.StableHlo.tref_nullary_result', Idealize.ShloMosaic.StableHlo.tref_unary_result',
    Idealize.ShloMosaic.StableHlo.tref_binary_result', Idealize.ShloMosaic.StableHlo.tref_ternary_result',
    Idealize.ShloMosaic.StableHlo.tref_nullary_result_ne', Idealize.ShloMosaic.StableHlo.tref_unary_result_ne',
    Idealize.ShloMosaic.StableHlo.tref_binary_result_ne', Idealize.ShloMosaic.StableHlo.tref_ternary_result_ne']
  try simp only [Idealize.ShloMosaic.StableHlo.TRef.ofBuf, Idealize.ShloMosaic.StableHlo.TRef.toBuf, cast_eq, id_eq]))
-- ==== Proof.RefSeg0.lean ====
/- The first stretch of the reference: the constant tables are written, the points are flattened to [N,3] and
   normalised. Read at an index, the normalised array is (x - 0) / 1 entrywise, and each table buffer holds its printed words. -/
import proofs.«133126_j89799176225629_2_alg».proof.Proof.RefOps
import proofs.«133126_j89799176225629_2_alg».proof.Proof.Spec
import Idealize.ShloMosaic.Lib.Pipeline.Value

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

/-- The five constant tables of the reference, as the specification's parameters. -/
def refTables : Cert.Spec.Tables where
  es := fun i => FloatOps.ofBits .f32 (lit0 (S16x3.rowMajor i))
  o := fun i => FloatOps.ofBits .f32 (lit1 (S8x3.rowMajor i))
  num := fun i => lit2 (S16x3.rowMajor i)
  str := fun i => lit3 (S6x3.rowMajor i)
  base := fun i => lit4 (S6.rowMajor i)

variable (W : Valuation τ sig (Elt Ideal))

/-- The flattened points: the argument regrouped as [N,3]. -/
abbrev pts : FVec Ideal S131072x3 .f32 :=
  shapeCast S131072x3 (W (main_arg0 : DevRef τ sig) : S2x65536x3.Idx → Ideal .f32) shapeCasts_S2x65536x3_S131072x3

theorem seg0_v6 (n : Fin 131072) (d : Fin 3) :
    (after (seg0 (F := Ideal)) W (main_v6 : DevRef τ sig) : S131072x3.Idx → Ideal .f32) (ix2 n d)
      = Cert.Spec.xn (pts W) n d := by
  simp only [seg0]
  after_results
  rfl

theorem seg0_es : (after (seg0 (F := Ideal)) W (main_cst_1 : DevRef τ sig) : S16x3.Idx → Ideal .f32) = refTables.es := by
  simp only [seg0]
  after_results
  rfl

theorem seg0_o : (after (seg0 (F := Ideal)) W (main_cst_2 : DevRef τ sig) : S8x3.Idx → Ideal .f32) = refTables.o := by
  simp only [seg0]
  after_results
  rfl

theorem seg0_num : (after (seg0 (F := Ideal)) W (main_c : DevRef τ sig) : S16x3.Idx → BitVec 32) = refTables.num := by
  simp only [seg0]
  after_results
  rfl

theorem seg0_str : (after (seg0 (F := Ideal)) W (main_c_3 : DevRef τ sig) : S6x3.Idx → BitVec 32) = refTables.str := by
  simp only [seg0]
  after_results
  rfl

theorem seg0_base : (after (seg0 (F := Ideal)) W (main_c_4 : DevRef τ sig) : S6.Idx → BitVec 32) = refTables.base := by
  simp only [seg0]
  after_results
  rfl

end Cert.ReferenceIdeal.RefRun

end
-- ==== Proof.RefSeg1.lean ====
/- The second stretch: the normalised coordinates are divided, level by level, by the level's cell size.
   Read at (l, n, d) the result is xn(n, d) / es(l, d): both operands are broadcasts, read at the coordinates they keep. -/
import proofs.«133126_j89799176225629_2_alg».proof.Proof.RefOps
import proofs.«133126_j89799176225629_2_alg».proof.Proof.Spec
import Idealize.ShloMosaic.Lib.Pipeline.Value
import proofs.«133126_j89799176225629_2_alg».proof.Proof.RefTac

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

theorem seg1_v11 (l : Fin 16) (n : Fin 131072) (d : Fin 3) :
    (after (seg1 (F := Ideal)) W (main_v11 : DevRef τ sig) : S16x131072x3.Idx → Ideal .f32) (ix3 l n d)
      = FloatOps.hostDivf (F := Ideal) (φ := .f32) ((W (main_v6 : DevRef τ sig) : S131072x3.Idx → Ideal .f32) (ix2 n d))
          ((W (main_cst_1 : DevRef τ sig) : S16x3.Idx → Ideal .f32) (ix2 l d)) := by
  simp only [seg1]
  after_results
  refine congrArg₂ (FloatOps.hostDivf (F := Ideal) (φ := .f32)) ?_ ?_
  · exact (broadcastInDim_apply _ _ _ (ix3 l n d) (ix3 0 n d) (by axes3)).trans
      (broadcastInDim_apply _ _ _ (ix3 0 n d) (ix2 n d) (by axes2))
  · exact (broadcastInDim_apply _ _ _ (ix3 l n d) (ix3 l 0 d) (by axes3)).trans
      (broadcastInDim_apply _ _ _ (ix3 l 0 d) (ix2 l d) (by axes2))

end Cert.ReferenceIdeal.RefRun

end
-- ==== Proof.RefSeg2.lean ====
/- The third stretch: corner k's integer grid coordinate. The level's coordinate plus the corner's offset is
   converted to an integer and clamped between 0 and the level's resolution less one (the clamp is an outlined function:
   a maximum with the broadcast lower bound, then a minimum with the broadcast upper bound). -/
import proofs.«133126_j89799176225629_2_alg».proof.Proof.RefOps
import proofs.«133126_j89799176225629_2_alg».proof.Proof.Spec
import Idealize.ShloMosaic.Lib.Pipeline.Value
import proofs.«133126_j89799176225629_2_alg».proof.Proof.RefTac

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

theorem seg2_v21 (l : Fin 16) (n : Fin 131072) (k : Fin 8) (d : Fin 3) :
    (after (seg2 (F := Ideal)) W (main_v21 : DevRef τ sig) : S16x131072x8x3.Idx → BitVec 32) (ix4 l n k d)
      = IntOp.minsi (w := 32) (IntOp.subi ((W (main_c : DevRef τ sig) : S16x3.Idx → BitVec 32) (ix2 l d)) 1#32)
          (IntOp.maxsi 0#32 (FloatOps.fptosi (F := Ideal) (φ := .f32) 32
            (FloatOps.addf (F := Ideal) (φ := .f32)
              ((W (main_v11 : DevRef τ sig) : S16x131072x3.Idx → Ideal .f32) (ix3 l n d))
              ((W (main_cst_2 : DevRef τ sig) : S8x3.Idx → Ideal .f32) (ix2 k d))))) := by
  simp only [seg2]
  read_results
  refine congrArg₂ (IntOp.minsi (w := 32)) ?_ (congrArg₂ (IntOp.maxsi (w := 32)) rfl
    (congrArg (FloatOps.fptosi (F := Ideal) (φ := .f32) 32) (congrArg₂ (FloatOps.addf (F := Ideal) (φ := .f32)) ?_ ?_)))
  · refine (broadcastInDim_apply _ _ _ (ix4 l n k d) (ix4 l 0 0 d : S16x1x1x3.Idx) (by axes4)).trans ?_
    refine congrArg₂ (IntOp.subi (w := 32)) ?_ rfl
    exact broadcastInDim_apply _ _ _ (ix4 l 0 0 d : S16x1x1x3.Idx) (ix2 l d : S16x3.Idx) (by axes2)
  · exact (broadcastInDim_apply _ _ _ (ix4 l n k d) (ix4 l n 0 d : S16x131072x1x3.Idx) (by axes4)).trans
      (broadcastInDim_apply _ _ _ (ix4 l n 0 d : S16x131072x1x3.Idx) (ix3 l n d : S16x131072x3.Idx) (by axes3))
  · exact (broadcastInDim_apply _ _ _ (ix4 l n k d) (ix4 0 0 k d : S1x1x8x3.Idx) (by axes4)).trans
      (broadcastInDim_apply _ _ _ (ix4 0 0 k d : S1x1x8x3.Idx) (ix2 k d : S8x3.Idx) (by axes2))

end Cert.ReferenceIdeal.RefRun

end
-- ==== Proof.RefSeg3.lean ====
/- The fourth stretch: the point's offset from corner 0. Corner 0's clamped integer coordinate (the slice at
   corner 0 with its unit axis dropped) is converted back to a float and subtracted from the level's coordinate. -/
import proofs.«133126_j89799176225629_2_alg».proof.Proof.RefOps
import proofs.«133126_j89799176225629_2_alg».proof.Proof.Spec
import Idealize.ShloMosaic.Lib.Pipeline.Value
import proofs.«133126_j89799176225629_2_alg».proof.Proof.RefTac

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

theorem seg3_v25 (l : Fin 16) (n : Fin 131072) (d : Fin 3) :
    (after (seg3 (F := Ideal)) W (main_v25 : DevRef τ sig) : S16x131072x3.Idx → Ideal .f32) (ix3 l n d)
      = FloatOps.subf (F := Ideal) (φ := .f32)
          ((W (main_v11 : DevRef τ sig) : S16x131072x3.Idx → Ideal .f32) (ix3 l n d))
          (FloatOps.sitofp (F := Ideal) .f32
            ((W (main_v21 : DevRef τ sig) : S16x131072x8x3.Idx → BitVec 32) (ix4 l n 0 d))) := by
  simp only [seg3]
  after_results
  refine congrArg₂ (FloatOps.subf (F := Ideal) (φ := .f32)) rfl (congrArg (FloatOps.sitofp (F := Ideal) .f32) ?_)
  refine (shapeCast_apply _ _ (ix3 l n d : S16x131072x3.Idx) (ix4 l n 0 d : S16x131072x1x3.Idx) ?_).trans ?_
  · rw [Shape.rowMajor_val_four, Shape.rowMajor_val_three]
    show ((l.val * 131072 + n.val) * 1 + 0) * 3 + d.val = (l.val * 131072 + n.val) * 3 + d.val
    omega
  · exact extractStridedSlice_apply _ _ _ (ix4 l n 0 d : S16x131072x1x3.Idx) (ix4 l n 0 d : S16x131072x8x3.Idx) (by axes4)

end Cert.ReferenceIdeal.RefRun

end
-- ==== Proof.RefSeg4.lean ====
/- The fifth stretch: the row of a dense level's corner. The first six levels' integer coordinates are multiplied by
   the level's strides and summed over the three axes (an integer sum, read as the fold over the reduced axis), and the
   level's base row is added. -/
import proofs.«133126_j89799176225629_2_alg».proof.Proof.RefOps
import proofs.«133126_j89799176225629_2_alg».proof.Proof.Spec
import Idealize.ShloMosaic.Lib.Pipeline.Value
import Idealize.ShloMosaic.PureOps.Reduce
import proofs.«133126_j89799176225629_2_alg».proof.Proof.RefTac

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

theorem seg4_v33 (l : Fin 6) (n : Fin 131072) (k : Fin 8) :
    (after (seg4 (F := Ideal)) W (main_v33 : DevRef τ sig) : S6x131072x8.Idx → BitVec 32) (ix3 l n k)
      = IntOp.addi (w := 32)
          ((Finset.univ : Finset (Fin 3)).fold IntOp.addi 0#32 fun d =>
            IntOp.muli ((W (main_v21 : DevRef τ sig) : S16x131072x8x3.Idx → BitVec 32) (ix4 (Cert.Spec.lo6 l) n k d))
              ((W (main_c_3 : DevRef τ sig) : S6x3.Idx → BitVec 32) (ix2 l d)))
          ((W (main_c_4 : DevRef τ sig) : S6.Idx → BitVec 32) (ix1 l)) := by
  simp only [seg4]
  read_results
  refine congrArg₂ (IntOp.addi (w := 32)) ?_ ?_
  · refine (Host.reduce_eq_fold_single IntOp.addi _ _ reducesTo_S6x131072x8x3_S6x131072x8_d3 (by decide) h_S_
      (ix3 l n k : S6x131072x8.Idx)).trans ?_
    refine Finset.fold_congr fun d _ => ?_
    refine congrArg₂ (IntOp.muli (w := 32)) ?_ ?_
    · exact extractStridedSlice_apply _ _ _ _ (ix4 (Cert.Spec.lo6 l) n k d : S16x131072x8x3.Idx) (by axes4)
    · exact (broadcastInDim_apply _ _ _ _ (ix4 l 0 0 d : S6x1x1x3.Idx) (by axes4)).trans
        (broadcastInDim_apply _ _ _ (ix4 l 0 0 d : S6x1x1x3.Idx) (ix2 l d : S6x3.Idx) (by axes2))
  · exact (broadcastInDim_apply _ _ _ (ix3 l n k : S6x131072x8.Idx) (ix3 l 0 0 : S6x1x1.Idx) (by axes3)).trans
      (broadcastInDim_apply _ _ _ (ix3 l 0 0 : S6x1x1.Idx) (ix1 l : S6.Idx) (by axes1))

end Cert.ReferenceIdeal.RefRun

end
-- ==== Proof.RefSeg5.lean ====
/- The sixth stretch: a hashed level's corner, before the reduction modulo the table length. The last ten levels'
   three integer coordinates (slices at level offset 6, their unit axis dropped) are multiplied by 1 and the two
   primes and combined with 1 by exclusive or. -/
import proofs.«133126_j89799176225629_2_alg».proof.Proof.RefOps
import proofs.«133126_j89799176225629_2_alg».proof.Proof.Spec
import Idealize.ShloMosaic.Lib.Pipeline.Value
import proofs.«133126_j89799176225629_2_alg».proof.Proof.RefTac

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

/-- Axis c of the hashed levels' coordinates, sliced out and flattened, read at (h, n, k): the full array at level
    6 + h. -/
theorem hashed_coord (x : S16x131072x8x3.Idx → BitVec 32) (c : Fin 3)
    (hs : S16x131072x8x3.Slices ![6, 0, 0, c.val] S10x131072x8x1) (h : Fin 10) (n : Fin 131072) (k : Fin 8) :
    shapeCast S10x131072x8 (extractStridedSlice S10x131072x8x1 ![6, 0, 0, c.val] x hs)
        shapeCasts_S10x131072x8x1_S10x131072x8 (ix3 h n k)
      = x (ix4 (Cert.Spec.hi10 h) n k c) := by
  refine (shapeCast_apply _ _ (ix3 h n k : S10x131072x8.Idx) (ix4 h n k 0 : S10x131072x8x1.Idx) ?_).trans ?_
  · rw [Shape.rowMajor_val_four, Shape.rowMajor_val_three]
    show ((h.val * 131072 + n.val) * 8 + k.val) * 1 + 0 = (h.val * 131072 + n.val) * 8 + k.val
    omega
  · exact extractStridedSlice_apply _ _ _ (ix4 h n k 0 : S10x131072x8x1.Idx)
      (ix4 (Cert.Spec.hi10 h) n k c : S16x131072x8x3.Idx) (by axes4)

set_option maxHeartbeats 2000000 in
theorem seg5_v51 (h : Fin 10) (n : Fin 131072) (k : Fin 8) :
    (after (seg5 (F := Ideal)) W (main_v51 : DevRef τ sig) : S10x131072x8.Idx → BitVec 32) (ix3 h n k)
      = IntOp.xori (w := 32)
          (IntOp.xori
            (IntOp.xori 1#32
              (IntOp.muli ((W (main_v21 : DevRef τ sig) : S16x131072x8x3.Idx → BitVec 32) (ix4 (Cert.Spec.hi10 h) n k 0)) 1#32))
            (IntOp.muli ((W (main_v21 : DevRef τ sig) : S16x131072x8x3.Idx → BitVec 32) (ix4 (Cert.Spec.hi10 h) n k 1))
              19349663#32))
          (IntOp.muli ((W (main_v21 : DevRef τ sig) : S16x131072x8x3.Idx → BitVec 32) (ix4 (Cert.Spec.hi10 h) n k 2))
            83492791#32) := by
  simp only [seg5]
  read_results_simp
  simp only [xori, muli, broadcastInDim, constantI]
  refine congrArg₂ (IntOp.xori (w := 32)) ?_ ?_
  · refine congrArg₂ (IntOp.xori (w := 32)) ?_ ?_
    · refine congrArg₂ (IntOp.xori (w := 32)) rfl ?_
      exact congrArg₂ (IntOp.muli (w := 32)) (hashed_coord _ 0 _ h n k) rfl
    · exact congrArg₂ (IntOp.muli (w := 32)) (hashed_coord _ 1 _ h n k) rfl
  · exact congrArg₂ (IntOp.muli (w := 32)) (hashed_coord _ 2 _ h n k) rfl

end Cert.ReferenceIdeal.RefRun

end
-- ==== Proof.RefSeg6.lean ====
/- The seventh stretch: the hashed row reduced modulo the table length, as the host spells the remainder of a
   floor division (an outlined function): every operand but the hash is a broadcast scalar, so the result read at an
   index is the scalar formula of the hash at that index. -/
import proofs.«133126_j89799176225629_2_alg».proof.Proof.RefOps
import proofs.«133126_j89799176225629_2_alg».proof.Proof.Spec
import Idealize.ShloMosaic.Lib.Pipeline.Value
import proofs.«133126_j89799176225629_2_alg».proof.Proof.RefTac

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

set_option maxHeartbeats 2000000 in
theorem seg6_v52 (h : Fin 10) (n : Fin 131072) (k : Fin 8) :
    (after (seg6 (F := Ideal)) W (main_v52 : DevRef τ sig) : S10x131072x8.Idx → BitVec 32) (ix3 h n k)
      = Cert.Spec.pmod ((W (main_v51 : DevRef τ sig) : S10x131072x8.Idx → BitVec 32) (ix3 h n k)) 524309#32 := by
  simp only [seg6]
  read_results_simp
  simp only [select, andi, cmpi, addi, Host.remsi, broadcastInDim, constantI]
  rfl

end Cert.ReferenceIdeal.RefRun

end
-- ==== Proof.RefGather.lean ====
/- The two gathers of the reference read at an index. Each result element is the operand at the index made, axis by
   axis, of the start word (read signed and clamped into the table) on the gathered axis, the result's own coordinate
   on the batching axis (the hashed levels' tables are gathered level by level) and the result's feature coordinate. -/
import proofs.«133126_j89799176225629_2_alg».proof.Proof.RefOps
import proofs.«133126_j89799176225629_2_alg».proof.Proof.Spec
import Idealize.ShloMosaic.Lib.Pipeline.Value
import proofs.«133126_j89799176225629_2_alg».proof.Proof.RefTac

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable {α : Type}

/-- The dense table's gather at (l, n, k, f): row "start word at (l, n, k, 0), clamped", column f. -/
theorem dense_gather_apply (x : S822944x2.Idx → α) (idx : IVec S6x131072x8x1 32)
    (l : Fin 6) (n : Fin 131072) (k : Fin 8) (f : Fin 2) :
    Host.gather gather_S822944x2_S6x131072x8x1_S6x131072x8x2_3_0_n_n_0_3_12 x idx (ix4 l n k f)
      = x (ix2 (Cert.Spec.rowAt 822944 (by omega) (idx (ix4 l n k 0))) f) := by
  unfold Host.gather
  refine congrArg x (funext fun a => Fin.ext ?_)
  match a with
  | ⟨0, _⟩ =>
    have hsi : gather_S822944x2_S6x131072x8x1_S6x131072x8x2_3_0_n_n_0_3_12.siIdx (ix4 l n k f) ⟨0, by decide⟩
        = (ix4 l n k 0 : S6x131072x8x1.Idx) := by
      funext b; refine Fin.ext ?_
      match b with
      | ⟨0, _⟩ => rfl
      | ⟨1, _⟩ => rfl
      | ⟨2, _⟩ => rfl
      | ⟨3, _⟩ => rfl
    show min (idx (gather_S822944x2_S6x131072x8x1_S6x131072x8x2_3_0_n_n_0_3_12.siIdx (ix4 l n k f) ⟨0, _⟩)).toInt.toNat
        (822944 - 1) + 0 + 0 = min (idx (ix4 l n k 0)).toInt.toNat (822944 - 1)
    rw [hsi]
    rfl
  | ⟨1, _⟩ =>
    show 0 + 0 + f.val = f.val
    omega

/-- The hashed tables' gather at (h, m, f): table h, row "start word at (h, m, 0), clamped", column f. -/
theorem hashed_gather_apply (x : S10x524309x2.Idx → α) (idx : IVec S10x1048576x1 32)
    (h : Fin 10) (m : Fin 1048576) (f : Fin 2) :
    Host.gather gather_S10x524309x2_S10x1048576x1_S10x1048576x2_2_1_0_0_1_2_112 x idx (ix3 h m f)
      = x (ix3 h (Cert.Spec.rowAt 524309 (by omega) (idx (ix3 h m 0))) f) := by
  unfold Host.gather
  refine congrArg x (funext fun a => Fin.ext ?_)
  match a with
  | ⟨0, _⟩ =>
    show 0 + h.val + 0 = h.val
    omega
  | ⟨1, _⟩ =>
    have hsi : gather_S10x524309x2_S10x1048576x1_S10x1048576x2_2_1_0_0_1_2_112.siIdx (ix3 h m f) ⟨0, by decide⟩
        = (ix3 h m 0 : S10x1048576x1.Idx) := by
      funext b; refine Fin.ext ?_
      match b with
      | ⟨0, _⟩ => rfl
      | ⟨1, _⟩ => rfl
      | ⟨2, _⟩ => rfl
    show min (idx (gather_S10x524309x2_S10x1048576x1_S10x1048576x2_2_1_0_0_1_2_112.siIdx (ix3 h m f) ⟨0, _⟩)).toInt.toNat
        (524309 - 1) + 0 + 0 = min (idx (ix3 h m 0)).toInt.toNat (524309 - 1)
    rw [hsi]
    rfl
  | ⟨2, _⟩ =>
    show 0 + 0 + f.val = f.val
    omega

end Cert.ReferenceIdeal.RefRun

end
-- ==== Proof.RefSeg7.lean ====
/- The eighth stretch: the dense levels' corner values. A negative row counts from the end of the table (the
   select before the gather); the gather then reads the dense table at that row, clamped into the table, with no range
   test. -/
import proofs.«133126_j89799176225629_2_alg».proof.Proof.RefOps
import proofs.«133126_j89799176225629_2_alg».proof.Proof.Spec
import Idealize.ShloMosaic.Lib.Pipeline.Value
import proofs.«133126_j89799176225629_2_alg».proof.Proof.RefTac
import proofs.«133126_j89799176225629_2_alg».proof.Proof.RefGather

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

theorem seg7_v59 (l : Fin 6) (n : Fin 131072) (k : Fin 8) (f : Fin 2) :
    (after (seg7 (F := Ideal)) W (main_v59 : DevRef τ sig) : S6x131072x8x2.Idx → Ideal .f32) (ix4 l n k f)
      = (W (main_arg1 : DevRef τ sig) : S822944x2.Idx → Ideal .f32)
          (ix2 (Cert.Spec.rowAt 822944 (by omega) (Cert.Spec.wrap 822944#32
            ((W (main_v33 : DevRef τ sig) : S6x131072x8.Idx → BitVec 32) (ix3 l n k)))) f) := by
  simp only [seg7]
  read_results
  refine (dense_gather_apply _ _ l n k f).trans ?_
  refine congrArg (fun i => (W (main_arg1 : DevRef τ sig) : S822944x2.Idx → Ideal .f32)
    (ix2 (Cert.Spec.rowAt 822944 (by omega) i) f)) ?_
  refine (broadcastInDim_apply _ _ _ (ix4 l n k 0 : S6x131072x8x1.Idx) (ix3 l n k : S6x131072x8.Idx) (by axes3)).trans ?_
  simp only [select, cmpi, addi, broadcastInDim, constantI]
  rfl

end Cert.ReferenceIdeal.RefRun

end
-- ==== Proof.RefSeg8.lean ====
/- The ninth stretch, in five steps: the hashed levels' corner values and the sixteen levels side by side. The hashed
   rows are flattened to [10, N*8] and given a unit axis. A fill-mode take along the row axis (an outlined function)
   wraps a negative row; tests the row against [0, last] (an "and" over the unit axis, from true); gathers level by level
   and puts the fill word where the test fails. The result is regrouped as [10,N,8,2] and appended to the dense levels'
   values along the level axis. -/
import proofs.«133126_j89799176225629_2_alg».proof.Proof.RefOps
import proofs.«133126_j89799176225629_2_alg».proof.Proof.Spec
import Idealize.ShloMosaic.Lib.Pipeline.Value
import proofs.«133126_j89799176225629_2_alg».proof.Proof.RefTac
import proofs.«133126_j89799176225629_2_alg».proof.Proof.RefGather
import Idealize.ShloMosaic.PureOps.Reduce

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

-- the reduction and the gather are read by their lemmas only: their bodies walk every element of arrays of ten million
attribute [local irreducible] Host.reduce Host.gather

/-- The flattened position of corner k of point n. -/
abbrev flat (n : Fin 131072) (k : Fin 8) : Fin 1048576 := ⟨n.val * 8 + k.val, by omega⟩

/-- Step one: the rows handed to the take, at (h, n*8 + k, 0): the hashed row of (h, n, k). -/
theorem seg8a_v61 (h : Fin 10) (n : Fin 131072) (k : Fin 8) :
    (after (seg8a (F := Ideal)) W (main_v61 : DevRef τ sig) : S10x1048576x1.Idx → BitVec 32) (ix3 h (flat n k) 0)
      = (W (main_v52 : DevRef τ sig) : S10x131072x8.Idx → BitVec 32) (ix3 h n k) := by
  simp only [seg8a]
  read_results
  refine (broadcastInDim_apply _ _ _ (ix3 h (flat n k) 0 : S10x1048576x1.Idx)
    (ix2 h (flat n k) : S10x1048576.Idx) (by axes2)).trans ?_
  refine shapeCast_apply _ _ (ix2 h (flat n k) : S10x1048576.Idx) (ix3 h n k : S10x131072x8.Idx) ?_
  rw [Shape.rowMajor_val_three, Shape.rowMajor_val_two]
  show (h.val * 131072 + n.val) * 8 + k.val = h.val * 1048576 + (n.val * 8 + k.val)
  omega

/-- Step two: a negative row counts from the end of the table. -/
theorem seg8b_v4 (j : S10x1048576x1.Idx) :
    (after (seg8b (F := Ideal)) W (main_call2_v4 : DevRef τ sig) : S10x1048576x1.Idx → BitVec 32) j
      = Cert.Spec.wrap 524309#32 ((W (main_v61 : DevRef τ sig) : S10x1048576x1.Idx → BitVec 32) j) := by
  simp only [seg8b]
  read_results
  simp only [select, cmpi, addi, broadcastInDim, constantI]
  rfl

/-- The range test over any rows: at (h, m) the "and" over the unit axis, from true, of "0 ≤ row ≤ last". -/
theorem range_test_apply (r : IVec S10x1048576x1 32) (h : Fin 10) (m : Fin 1048576) :
    Host.reduce IntOp.andi
        (andi
          (cmpi .sge r (broadcastInDim S10x1048576x1 ![] bcast_S_S10x1048576x1 (constantI S_ 32 0#32)))
          (cmpi .sle r
            (broadcastInDim S10x1048576x1 ![0, 1, 2] bcast_S1x1x1_S10x1048576x1_0_1_2
              (broadcastInDim S1x1x1 ![2] bcast_S1_S1x1x1_2 (constantI S1 32 524308#32)))))
        (constantI S_ 1 1#1) reducesTo_S10x1048576x1_S10x1048576_d2 h_S_ (ix2 h m)
      = Cert.Spec.inRange 524308#32 (r (ix3 h m 0)) := by
  refine (Host.reduce_eq_fold_single IntOp.andi _ _ reducesTo_S10x1048576x1_S10x1048576_d2 (by decide) h_S_
    (ix2 h m : S10x1048576.Idx)).trans ?_
  unfold Cert.Spec.inRange
  refine Finset.fold_congr fun c _ => ?_
  have hc : (Shape.Reduces.lift (s := S10x1048576x1) (a := 2) (t := S10x1048576) (by decide) (ix2 h m) c)
      = (ix3 h m 0 : S10x1048576x1.Idx) := by
    funext b; refine Fin.ext ?_
    match b with
    | ⟨0, _⟩ => rfl
    | ⟨1, _⟩ => rfl
    | ⟨2, _⟩ => exact Nat.lt_one_iff.mp c.isLt
  show andi _ _ (Shape.Reduces.lift _ (ix2 h m) c) = _
  rw [hc]
  simp only [cmpi, andi, broadcastInDim, constantI]

/-- Step three: the range test as the operations compose it. -/
theorem seg8c_v11_term :
    (after (seg8c (F := Ideal)) W (main_call2_v11 : DevRef τ sig) : S10x1048576.Idx → BitVec 1)
      = Host.reduce IntOp.andi
          (andi
            (cmpi .sge (W (main_call2_v4 : DevRef τ sig) : S10x1048576x1.Idx → BitVec 32)
              (broadcastInDim S10x1048576x1 ![] bcast_S_S10x1048576x1 (constantI S_ 32 0#32)))
            (cmpi .sle (W (main_call2_v4 : DevRef τ sig) : S10x1048576x1.Idx → BitVec 32)
              (broadcastInDim S10x1048576x1 ![0, 1, 2] bcast_S1x1x1_S10x1048576x1_0_1_2
                (broadcastInDim S1x1x1 ![2] bcast_S1_S1x1x1_2 (constantI S1 32 524308#32)))))
          (constantI S_ 1 1#1) reducesTo_S10x1048576x1_S10x1048576_d2 h_S_ := by
  simp only [seg8c]
  read_results

/-- Step three, read at (h, m). -/
theorem seg8c_v11 (h : Fin 10) (m : Fin 1048576) :
    (after (seg8c (F := Ideal)) W (main_call2_v11 : DevRef τ sig) : S10x1048576.Idx → BitVec 1) (ix2 h m)
      = Cert.Spec.inRange 524308#32 ((W (main_call2_v4 : DevRef τ sig) : S10x1048576x1.Idx → BitVec 32) (ix3 h m 0)) := by
  rw [seg8c_v11_term]
  exact range_test_apply _ h m

/-- Step four: the take's result at (h, m, f): the gathered word where the test holds, the fill word elsewhere. -/
theorem seg8d_v62 (h : Fin 10) (m : Fin 1048576) (f : Fin 2) :
    (after (seg8d (F := Ideal)) W (main_v62 : DevRef τ sig) : S10x1048576x2.Idx → Ideal .f32) (ix3 h m f)
      = Scalar.select ((W (main_call2_v11 : DevRef τ sig) : S10x1048576.Idx → BitVec 1) (ix2 h m))
          ((W (main_arg2 : DevRef τ sig) : S10x524309x2.Idx → Ideal .f32)
            (ix3 h (Cert.Spec.rowAt 524309 (by omega)
              ((W (main_call2_v4 : DevRef τ sig) : S10x1048576x1.Idx → BitVec 32) (ix3 h m 0))) f))
          Cert.Spec.cfill := by
  simp only [seg8d]
  read_results
  rw [select_apply]
  refine congr (congrArg₂ Scalar.select ?_ ?_) rfl
  · exact broadcastInDim_apply _ _ _ (ix3 h m f : S10x1048576x2.Idx) (ix2 h m : S10x1048576.Idx) (by axes2)
  · exact hashed_gather_apply _ _ h m f

/-- Step five: the two halves side by side. -/
theorem seg8e_v64 :
    (after (seg8e (F := Ideal)) W (main_v64 : DevRef τ sig) : S16x131072x8x2.Idx → Ideal .f32)
      = concatenate S16x131072x8x2 0
          [⟨S6x131072x8x2, (W (main_v59 : DevRef τ sig) : S6x131072x8x2.Idx → Ideal .f32)⟩,
            ⟨S10x131072x8x2, shapeCast S10x131072x8x2 (W (main_v62 : DevRef τ sig) : S10x1048576x2.Idx → Ideal .f32)
              shapeCasts_S10x1048576x2_S10x131072x8x2⟩]
          concatenates_S6x131072x8x2_S10x131072x8x2_S16x131072x8x2_d0 := by
  simp only [seg8e]
  read_results
  rfl

theorem seg8e_v64_lo (l : Fin 6) (n : Fin 131072) (k : Fin 8) (f : Fin 2) :
    (after (seg8e (F := Ideal)) W (main_v64 : DevRef τ sig) : S16x131072x8x2.Idx → Ideal .f32) (ix4 (Cert.Spec.lo6 l) n k f)
      = (W (main_v59 : DevRef τ sig) : S6x131072x8x2.Idx → Ideal .f32) (ix4 l n k f) := by
  rw [seg8e_v64]
  exact concatenate_pair_apply_left (s₁ := S6x131072x8x2) (s₂ := S10x131072x8x2) (0 : Fin 4) _ _ _
    (ix4 (Cert.Spec.lo6 l) n k f : S16x131072x8x2.Idx) rfl (ix4 l n k f : S6x131072x8x2.Idx) (by axes4)

theorem seg8e_v64_hi (h : Fin 10) (n : Fin 131072) (k : Fin 8) (f : Fin 2) :
    (after (seg8e (F := Ideal)) W (main_v64 : DevRef τ sig) : S16x131072x8x2.Idx → Ideal .f32) (ix4 (Cert.Spec.hi10 h) n k f)
      = (W (main_v62 : DevRef τ sig) : S10x1048576x2.Idx → Ideal .f32) (ix3 h (flat n k) f) := by
  rw [seg8e_v64]
  refine (concatenate_pair_apply_right (s₁ := S6x131072x8x2) (s₂ := S10x131072x8x2) (0 : Fin 4) _ _ _
    (ix4 (Cert.Spec.hi10 h) n k f : S16x131072x8x2.Idx) rfl rfl (ix4 h n k f : S10x131072x8x2.Idx) ?_ ?_).trans ?_
  · intro b hb
    match b with
    | ⟨0, _⟩ => exact absurd rfl hb
    | ⟨1, _⟩ => rfl
    | ⟨2, _⟩ => rfl
    | ⟨3, _⟩ => rfl
  · show h.val + 6 = 6 + h.val
    omega
  · refine shapeCast_apply _ _ (ix4 h n k f : S10x131072x8x2.Idx) (ix3 h (flat n k) f : S10x1048576x2.Idx) ?_
    rw [Shape.rowMajor_val_three, Shape.rowMajor_val_four]
    show (h.val * 1048576 + (n.val * 8 + k.val)) * 2 + f.val = ((h.val * 131072 + n.val) * 8 + k.val) * 2 + f.val
    omega

end Cert.ReferenceIdeal.RefRun

end
-- ==== Proof.RefSeg9.lean ====
/- The tenth stretch: the corner's weight. Per axis the factor is (1 - o(k,d)) + (2 o(k,d) - 1) off(l,d,n), the
   corner table and the offsets broadcast to [L,N,K,3]; the weight is the product of the factors of axes 0 and 1 (two
   slices of the factor array, their unit axis dropped). -/
import proofs.«133126_j89799176225629_2_alg».proof.Proof.RefOps
import proofs.«133126_j89799176225629_2_alg».proof.Proof.Spec
import Idealize.ShloMosaic.Lib.Pipeline.Value
import proofs.«133126_j89799176225629_2_alg».proof.Proof.RefTac

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

variable (W : Valuation τ sig (Elt Ideal))

/-- The factor array [L,N,K,3] as the operations compose it from the corner table and the offsets. -/
def factors (o : S8x3.Idx → Ideal .f32) (r : S16x131072x3.Idx → Ideal .f32) : S16x131072x8x3.Idx → Ideal .f32 :=
  addf
    (broadcastInDim S16x131072x8x3 ![0, 1, 2, 3] bcast_S1x1x8x3_S16x131072x8x3_0_1_2_3
      (subf (broadcastInDim S1x1x8x3 ![] bcast_S_S1x1x8x3 (constant (F := Ideal) S_ .f32 0x3F800000#32))
        (broadcastInDim S1x1x8x3 ![2, 3] bcast_S8x3_S1x1x8x3_2_3 o)))
    (mulf
      (broadcastInDim S16x131072x8x3 ![0, 1, 2, 3] bcast_S1x1x8x3_S16x131072x8x3_0_1_2_3
        (subf
          (mulf (broadcastInDim S1x1x8x3 ![] bcast_S_S1x1x8x3 (constant (F := Ideal) S_ .f32 0x40000000#32))
            (broadcastInDim S1x1x8x3 ![2, 3] bcast_S8x3_S1x1x8x3_2_3 o))
          (broadcastInDim S1x1x8x3 ![] bcast_S_S1x1x8x3 (constant (F := Ideal) S_ .f32 0x3F800000#32))))
      (broadcastInDim S16x131072x8x3 ![0, 1, 2, 3] bcast_S16x131072x1x3_S16x131072x8x3_0_1_2_3
        (broadcastInDim S16x131072x1x3 ![0, 1, 3] bcast_S16x131072x3_S16x131072x1x3_0_1_3 r)))

theorem factors_apply (o : S8x3.Idx → Ideal .f32) (r : S16x131072x3.Idx → Ideal .f32)
    (l : Fin 16) (n : Fin 131072) (k : Fin 8) (d : Fin 3) :
    factors o r (ix4 l n k d)
      = FloatOps.addf (F := Ideal) (φ := .f32) (FloatOps.subf Cert.Spec.c1 (o (ix2 k d)))
          (FloatOps.mulf (FloatOps.subf (FloatOps.mulf Cert.Spec.c2 (o (ix2 k d))) Cert.Spec.c1) (r (ix3 l n d))) := by
  have ho : broadcastInDim S1x1x8x3 ![2, 3] bcast_S8x3_S1x1x8x3_2_3 o (ix4 0 0 k d) = o (ix2 k d) :=
    broadcastInDim_apply _ _ _ (ix4 0 0 k d : S1x1x8x3.Idx) (ix2 k d : S8x3.Idx) (by axes2)
  unfold factors
  refine congrArg₂ (FloatOps.addf (F := Ideal) (φ := .f32)) ?_ (congrArg₂ (FloatOps.mulf (F := Ideal) (φ := .f32)) ?_ ?_)
  · refine (broadcastInDim_apply _ _ _ (ix4 l n k d : S16x131072x8x3.Idx) (ix4 0 0 k d : S1x1x8x3.Idx) (by axes4)).trans ?_
    exact congrArg₂ (FloatOps.subf (F := Ideal) (φ := .f32)) rfl ho
  · refine (broadcastInDim_apply _ _ _ (ix4 l n k d : S16x131072x8x3.Idx) (ix4 0 0 k d : S1x1x8x3.Idx) (by axes4)).trans ?_
    exact congrArg₂ (FloatOps.subf (F := Ideal) (φ := .f32))
      (congrArg₂ (FloatOps.mulf (F := Ideal) (φ := .f32)) rfl ho) rfl
  · exact (broadcastInDim_apply _ _ _ (ix4 l n k d : S16x131072x8x3.Idx) (ix4 l n 0 d : S16x131072x1x3.Idx) (by axes4)).trans
      (broadcastInDim_apply _ _ _ (ix4 l n 0 d : S16x131072x1x3.Idx) (ix3 l n d : S16x131072x3.Idx) (by axes3))

/-- Axis c of the factor array, sliced out and flattened, read at (l, n, k). -/
theorem factor_axis (x : S16x131072x8x3.Idx → Ideal .f32) (c : Fin 3)
    (hs : S16x131072x8x3.Slices ![0, 0, 0, c.val] S16x131072x8x1) (l : Fin 16) (n : Fin 131072) (k : Fin 8) :
    shapeCast S16x131072x8 (extractStridedSlice S16x131072x8x1 ![0, 0, 0, c.val] x hs)
        shapeCasts_S16x131072x8x1_S16x131072x8 (ix3 l n k)
      = x (ix4 l n k c) := by
  refine (shapeCast_apply _ _ (ix3 l n k : S16x131072x8.Idx) (ix4 l n k 0 : S16x131072x8x1.Idx) ?_).trans ?_
  · rw [Shape.rowMajor_val_four, Shape.rowMajor_val_three]
    show ((l.val * 131072 + n.val) * 8 + k.val) * 1 + 0 = (l.val * 131072 + n.val) * 8 + k.val
    omega
  · exact extractStridedSlice_apply _ _ _ (ix4 l n k 0 : S16x131072x8x1.Idx) (ix4 l n k c : S16x131072x8x3.Idx) (by axes4)

theorem seg9_v82 (l : Fin 16) (n : Fin 131072) (k : Fin 8) :
    (after (seg9 (F := Ideal)) W (main_v82 : DevRef τ sig) : S16x131072x8.Idx → Ideal .f32) (ix3 l n k)
      = FloatOps.mulf (F := Ideal) (φ := .f32)
          (factors (W (main_cst_2 : DevRef τ sig)) (W (main_v25 : DevRef τ sig)) (ix4 l n k 0))
          (factors (W (main_cst_2 : DevRef τ sig)) (W (main_v25 : DevRef τ sig)) (ix4 l n k 1)) := by
  simp only [seg9]
  read_results
  exact congrArg₂ (FloatOps.mulf (F := Ideal) (φ := .f32))
    (factor_axis (factors (W (main_cst_2 : DevRef τ sig)) (W (main_v25 : DevRef τ sig))) 0 _ l n k)
    (factor_axis (factors (W (main_cst_2 : DevRef τ sig)) (W (main_v25 : DevRef τ sig))) 1 _ l n k)

end Cert.ReferenceIdeal.RefRun

end
-- ==== Proof.RefSeg10.lean ====
/- The last stretch: the features and the output. The weights are broadcast along the feature axis and multiplied
   into the corner values; the host's float sum over the eight corners, read at the ideal instance, is the initial word 0
   plus the sum of the products; the result is transposed to [N,16,2], flattened to [N,32], appended to the normalised
   coordinates and regrouped as [2,N/2,35]. -/
import proofs.«133126_j89799176225629_2_alg».proof.Proof.RefOps
import proofs.«133126_j89799176225629_2_alg».proof.Proof.Spec
import Idealize.ShloMosaic.Lib.Pipeline.Value
import proofs.«133126_j89799176225629_2_alg».proof.Proof.RefTac
import Idealize.ShloMosaic.PureOps.Ideal.Laws

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

/-- The feature array [N,16,2] as the operations compose it from the weights [L,N,K] and the values [L,N,K,2]. -/
def featArr (w : S16x131072x8.Idx → Ideal .f32) (v : S16x131072x8x2.Idx → Ideal .f32) : S131072x16x2.Idx → Ideal .f32 :=
  transpose S131072x16x2 [1, 0, 2]
    (Host.reduceAdd (F := Ideal)
      (mulf
        (broadcastInDim S16x131072x8x2 ![0, 1, 2, 3] bcast_S16x131072x8x1_S16x131072x8x2_0_1_2_3
          (broadcastInDim S16x131072x8x1 ![0, 1, 2] bcast_S16x131072x8_S16x131072x8x1_0_1_2 w))
        v)
      (constant (F := Ideal) S_ .f32 0x00000000#32) reducesTo_S16x131072x8x2_S16x131072x2_d2 h_S_)
    transposes_S16x131072x2_S131072x16x2_1_0_2

theorem featArr_apply (w : S16x131072x8.Idx → Ideal .f32) (v : S16x131072x8x2.Idx → Ideal .f32)
    (n : Fin 131072) (l : Fin 16) (f : Fin 2) :
    featArr w v (ix3 n l f) = Cert.Spec.c0 + ∑ k : Fin 8, w (ix3 l n k) * v (ix4 l n k f) := by
  unfold featArr
  refine (transpose_apply _ _ _ (ix3 n l f : S131072x16x2.Idx) (ix3 l n f : S16x131072x2.Idx) (by axes3)).trans ?_
  show Ideal.hostReduceAdd reducesTo_S16x131072x8x2_S16x131072x2_d2 _ Cert.Spec.c0 (ix3 l n f) = _
  refine (Ideal.hostReduceAdd_single reducesTo_S16x131072x8x2_S16x131072x2_d2 (by decide) _ _
    (ix3 l n f : S16x131072x2.Idx)).trans ?_
  refine congrArg (Cert.Spec.c0 + ·) (Finset.sum_congr rfl fun k _ => ?_)
  have hc : (Shape.Reduces.lift (s := S16x131072x8x2) (a := 2) (t := S16x131072x2) (by decide) (ix3 l n f) k)
      = (ix4 l n k f : S16x131072x8x2.Idx) := by
    funext b; refine Fin.ext ?_
    match b with
    | ⟨0, _⟩ => rfl
    | ⟨1, _⟩ => rfl
    | ⟨2, _⟩ => rfl
    | ⟨3, _⟩ => rfl
  rw [hc, mulf_apply]
  refine congrArg (· * v (ix4 l n k f)) ?_
  exact (broadcastInDim_apply _ _ _ (ix4 l n k f : S16x131072x8x2.Idx) (ix4 l n k 0 : S16x131072x8x1.Idx) (by axes4)).trans
    (broadcastInDim_apply _ _ _ (ix4 l n k 0 : S16x131072x8x1.Idx) (ix3 l n k : S16x131072x8.Idx) (by axes3))

variable (W : Valuation τ sig (Elt Ideal))

theorem seg10_v90 :
    (after (seg10 (F := Ideal)) W (main_v90 : DevRef τ sig) : S2x65536x35.Idx → Ideal .f32)
      = Cert.Spec.tail shapeCasts_S131072x16x2_S131072x32 concatenates_S131072x3_S131072x32_S131072x35_d1
          shapeCasts_S131072x35_S2x65536x35 (W (main_v6 : DevRef τ sig))
          (featArr (W (main_v82 : DevRef τ sig)) (W (main_v64 : DevRef τ sig))) := by
  simp only [seg10]
  read_results
  rfl

end Cert.ReferenceIdeal.RefRun

end
-- ==== Proof.RefChain.lean ====
/- The reference's result against the specification. The program's stretches run one after the other; each
   intermediate array is written once, by one stretch, and kept by the later ones. So the array a stretch reads is the
   array its writer left, and, stretch by stretch, each intermediate array read at an index is the specification's scalar
   function of the three argument arrays: the normalised coordinates, the grid coordinates, the clamped corner
   coordinates, the offsets, the dense rows, the hashed rows, the corner values, the weights, and at last the output. -/
import proofs.«133126_j89799176225629_2_alg».proof.Proof.RefRun
import proofs.«133126_j89799176225629_2_alg».proof.Proof.RefTac
import proofs.«133126_j89799176225629_2_alg».proof.Proof.RefSeg0
import proofs.«133126_j89799176225629_2_alg».proof.Proof.RefSeg1
import proofs.«133126_j89799176225629_2_alg».proof.Proof.RefSeg2
import proofs.«133126_j89799176225629_2_alg».proof.Proof.RefSeg3
import proofs.«133126_j89799176225629_2_alg».proof.Proof.RefSeg4
import proofs.«133126_j89799176225629_2_alg».proof.Proof.RefSeg5
import proofs.«133126_j89799176225629_2_alg».proof.Proof.RefSeg6
import proofs.«133126_j89799176225629_2_alg».proof.Proof.RefSeg7
import proofs.«133126_j89799176225629_2_alg».proof.Proof.RefSeg8
import proofs.«133126_j89799176225629_2_alg».proof.Proof.RefSeg9
import proofs.«133126_j89799176225629_2_alg».proof.Proof.RefSeg10

noncomputable section

namespace Cert.ReferenceIdeal.RefRun

open Cert.ReferenceIdeal Cert.ReferenceIdeal.Gen Idealize.ShloMosaic Idealize.ShloMosaic.TcCoe Idealize.SL.Sem Idealize.ShloMosaic.StableHlo
open Idealize.ShloMosaic.ValueIdx

/-! A reference a stretch does not write keeps its contents through it: the segments' facts, restated so that one
    rewriting pass can use them at any reference. -/

theorem seg0_keep' (V : Valuation τ sig (Elt Ideal)) (r : Ref sig .tc) (h : r ∉ seg0_W) :
    after (seg0 (F := Ideal)) V (no_index (Proc.devRef .tc r)) = V (Proc.devRef .tc r) := seg0_keep V r h
theorem seg1_keep' (V : Valuation τ sig (Elt Ideal)) (r : Ref sig .tc) (h : r ∉ seg1_W) :
    after (seg1 (F := Ideal)) V (no_index (Proc.devRef .tc r)) = V (Proc.devRef .tc r) := seg1_keep V r h
theorem seg2_keep' (V : Valuation τ sig (Elt Ideal)) (r : Ref sig .tc) (h : r ∉ seg2_W) :
    after (seg2 (F := Ideal)) V (no_index (Proc.devRef .tc r)) = V (Proc.devRef .tc r) := seg2_keep V r h
theorem seg3_keep' (V : Valuation τ sig (Elt Ideal)) (r : Ref sig .tc) (h : r ∉ seg3_W) :
    after (seg3 (F := Ideal)) V (no_index (Proc.devRef .tc r)) = V (Proc.devRef .tc r) := seg3_keep V r h
theorem seg4_keep' (V : Valuation τ sig (Elt Ideal)) (r : Ref sig .tc) (h : r ∉ seg4_W) :
    after (seg4 (F := Ideal)) V (no_index (Proc.devRef .tc r)) = V (Proc.devRef .tc r) := seg4_keep V r h
theorem seg5_keep' (V : Valuation τ sig (Elt Ideal)) (r : Ref sig .tc) (h : r ∉ seg5_W) :
    after (seg5 (F := Ideal)) V (no_index (Proc.devRef .tc r)) = V (Proc.devRef .tc r) := seg5_keep V r h
theorem seg6_keep' (V : Valuation τ sig (Elt Ideal)) (r : Ref sig .tc) (h : r ∉ seg6_W) :
    after (seg6 (F := Ideal)) V (no_index (Proc.devRef .tc r)) = V (Proc.devRef .tc r) := seg6_keep V r h
theorem seg7_keep' (V : Valuation τ sig (Elt Ideal)) (r : Ref sig .tc) (h : r ∉ seg7_W) :
    after (seg7 (F := Ideal)) V (no_index (Proc.devRef .tc r)) = V (Proc.devRef .tc r) := seg7_keep V r h
theorem seg8a_keep' (V : Valuation τ sig (Elt Ideal)) (r : Ref sig .tc) (h : r ∉ seg8a_W) :
    after (seg8a (F := Ideal)) V (no_index (Proc.devRef .tc r)) = V (Proc.devRef .tc r) := seg8a_keep V r h
theorem seg8b_keep' (V : Valuation τ sig (Elt Ideal)) (r : Ref sig .tc) (h : r ∉ seg8b_W) :
    after (seg8b (F := Ideal)) V (no_index (Proc.devRef .tc r)) = V (Proc.devRef .tc r) := seg8b_keep V r h
theorem seg8c_keep' (V : Valuation τ sig (Elt Ideal)) (r : Ref sig .tc) (h : r ∉ seg8c_W) :
    after (seg8c (F := Ideal)) V (no_index (Proc.devRef .tc r)) = V (Proc.devRef .tc r) := seg8c_keep V r h
theorem seg8d_keep' (V : Valuation τ sig (Elt Ideal)) (r : Ref sig .tc) (h : r ∉ seg8d_W) :
    after (seg8d (F := Ideal)) V (no_index (Proc.devRef .tc r)) = V (Proc.devRef .tc r) := seg8d_keep V r h
theorem seg8e_keep' (V : Valuation τ sig (Elt Ideal)) (r : Ref sig .tc) (h : r ∉ seg8e_W) :
    after (seg8e (F := Ideal)) V (no_index (Proc.devRef .tc r)) = V (Proc.devRef .tc r) := seg8e_keep V r h
theorem seg9_keep' (V : Valuation τ sig (Elt Ideal)) (r : Ref sig .tc) (h : r ∉ seg9_W) :
    after (seg9 (F := Ideal)) V (no_index (Proc.devRef .tc r)) = V (Proc.devRef .tc r) := seg9_keep V r h
theorem seg10_keep' (V : Valuation τ sig (Elt Ideal)) (r : Ref sig .tc) (h : r ∉ seg10_W) :
    after (seg10 (F := Ideal)) V (no_index (Proc.devRef .tc r)) = V (Proc.devRef .tc r) := seg10_keep V r h

/-- A buffer read after stretches that do not write it is the buffer before them. -/
macro "keeps" : tactic => `(tactic| try simp (disch := decide) only [seg0_keep', seg1_keep', seg2_keep', seg3_keep', seg4_keep', seg5_keep', seg6_keep', seg7_keep', seg8a_keep', seg8b_keep', seg8c_keep', seg8d_keep', seg8e_keep', seg9_keep', seg10_keep'])

/-! ## The corner values of all levels, by the level's half -/

section Val
variable (T : Cert.Spec.Tables) (X : FVec Ideal ⟨2, ![131072, 3]⟩ .f32)
  (D : FVec Ideal ⟨2, ![822944, 2]⟩ .f32) (H : FVec Ideal ⟨3, ![10, 524309, 2]⟩ .f32)

theorem val_lo (l : Fin 6) (k : Fin 8) (n : Fin 131072) (f : Fin 2) :
    Cert.Spec.val T X D H (Cert.Spec.lo6 l) k n f = Cert.Spec.valDense T X D l k n f := by
  unfold Cert.Spec.val
  rw [dif_pos (show (Cert.Spec.lo6 l).val < 6 from l.isLt)]
  rfl

theorem val_hi (h : Fin 10) (k : Fin 8) (n : Fin 131072) (f : Fin 2) :
    Cert.Spec.val T X D H (Cert.Spec.hi10 h) k n f = Cert.Spec.valHash T X H h k n f := by
  unfold Cert.Spec.val
  rw [dif_neg (show ¬ (Cert.Spec.hi10 h).val < 6 from by show ¬ 6 + h.val < 6; omega)]
  exact congrArg (fun a => Cert.Spec.valHash T X H a k n f) (Fin.ext (by show 6 + h.val - 6 = h.val; omega))

theorem level_cases (l : Fin 16) : (∃ l' : Fin 6, l = Cert.Spec.lo6 l') ∨ (∃ h : Fin 10, l = Cert.Spec.hi10 h) := by
  by_cases hl : l.val < 6
  · exact Or.inl ⟨⟨l.val, hl⟩, Fin.ext rfl⟩
  · exact Or.inr ⟨⟨l.val - 6, by omega⟩, Fin.ext (by show l.val = 6 + (l.val - 6); omega)⟩

end Val

/-! ## Stretch by stretch -/

variable (V : Valuation τ sig (Elt Ideal))

local notation "V0" => after (seg0 (F := Ideal)) V
local notation "V1" => after (seg1 (F := Ideal)) V0
local notation "V2" => after (seg2 (F := Ideal)) V1
local notation "V3" => after (seg3 (F := Ideal)) V2
local notation "V4" => after (seg4 (F := Ideal)) V3
local notation "V5" => after (seg5 (F := Ideal)) V4
local notation "V6" => after (seg6 (F := Ideal)) V5
local notation "V7" => after (seg7 (F := Ideal)) V6
local notation "V8a" => after (seg8a (F := Ideal)) V7
local notation "V8b" => after (seg8b (F := Ideal)) V8a
local notation "V8c" => after (seg8c (F := Ideal)) V8b
local notation "V8d" => after (seg8d (F := Ideal)) V8c
local notation "V8e" => after (seg8e (F := Ideal)) V8d
local notation "V9" => after (seg9 (F := Ideal)) V8e

local notation "𝐓" => refTables
local notation "𝐗" => pts V
local notation "𝐃" => (V (main_arg1 : DevRef τ sig) : S822944x2.Idx → Ideal FTy.f32)
local notation "𝐇" => (V (main_arg2 : DevRef τ sig) : S10x524309x2.Idx → Ideal FTy.f32)

theorem st1_v11 (l : Fin 16) (n : Fin 131072) (d : Fin 3) :
    (V1 (main_v11 : DevRef τ sig) : S16x131072x3.Idx → Ideal .f32) (ix3 l n d) = Cert.Spec.flt 𝐓 𝐗 l d n := by
  rw [seg1_v11, seg0_v6, seg0_es]
  rfl

theorem st2_v21 (l : Fin 16) (n : Fin 131072) (k : Fin 8) (d : Fin 3) :
    (V2 (main_v21 : DevRef τ sig) : S16x131072x8x3.Idx → BitVec 32) (ix4 l n k d) = Cert.Spec.intx 𝐓 𝐗 l k d n := by
  rw [seg2_v21]
  keeps
  rw [st1_v11, seg0_num, seg0_o]
  rfl

/-- The same, in the form one rewriting pass can use under a sum. -/
theorem st2_v21' (l : Fin 16) (n : Fin 131072) (k : Fin 8) (d : Fin 3) :
    (V2 (no_index (main_v21 : DevRef τ sig)) : S16x131072x8x3.Idx → BitVec 32) (ix4 l n k d) = Cert.Spec.intx 𝐓 𝐗 l k d n :=
  st2_v21 V l n k d

theorem st3_v25 (l : Fin 16) (n : Fin 131072) (d : Fin 3) :
    (V3 (main_v25 : DevRef τ sig) : S16x131072x3.Idx → Ideal .f32) (ix3 l n d) = Cert.Spec.off 𝐓 𝐗 l d n := by
  rw [seg3_v25]
  keeps
  rw [st1_v11, st2_v21]
  rfl

theorem st4_v33 (l : Fin 6) (n : Fin 131072) (k : Fin 8) :
    (V4 (main_v33 : DevRef τ sig) : S6x131072x8.Idx → BitVec 32) (ix3 l n k) = Cert.Spec.ind 𝐓 𝐗 l k n := by
  rw [seg4_v33]
  keeps
  rw [seg0_str, seg0_base]
  simp only [st2_v21']
  rfl

theorem st6_v52 (h : Fin 10) (n : Fin 131072) (k : Fin 8) :
    (V6 (main_v52 : DevRef τ sig) : S10x131072x8.Idx → BitVec 32) (ix3 h n k) = Cert.Spec.ih 𝐓 𝐗 h k n := by
  rw [seg6_v52, seg5_v51]
  keeps
  rw [st2_v21, st2_v21, st2_v21]
  rfl

theorem st7_v59 (l : Fin 6) (n : Fin 131072) (k : Fin 8) (f : Fin 2) :
    (V7 (main_v59 : DevRef τ sig) : S6x131072x8x2.Idx → Ideal .f32) (ix4 l n k f) = Cert.Spec.valDense 𝐓 𝐗 𝐃 l k n f := by
  rw [seg7_v59]
  keeps
  rw [st4_v33]
  rfl

theorem st8_v64 (l : Fin 16) (n : Fin 131072) (k : Fin 8) (f : Fin 2) :
    (V8e (main_v64 : DevRef τ sig) : S16x131072x8x2.Idx → Ideal .f32) (ix4 l n k f) = Cert.Spec.val 𝐓 𝐗 𝐃 𝐇 l k n f := by
  rcases level_cases l with ⟨l', rfl⟩ | ⟨h, rfl⟩
  · rw [seg8e_v64_lo]
    keeps
    rw [st7_v59, val_lo]
  · rw [seg8e_v64_hi, seg8d_v62]
    keeps
    rw [seg8c_v11, seg8b_v4, seg8a_v61]
    keeps
    rw [st6_v52, val_hi]
    rfl

theorem st9_v82 (l : Fin 16) (n : Fin 131072) (k : Fin 8) :
    (V9 (main_v82 : DevRef τ sig) : S16x131072x8.Idx → Ideal .f32) (ix3 l n k) = Cert.Spec.w 𝐓 𝐗 l k n := by
  rw [seg9_v82, factors_apply, factors_apply]
  keeps
  rw [seg0_o, st3_v25, st3_v25]
  rfl

/-- THE REFERENCE'S RESULT: the output array is the specification's assembly of the normalised coordinates and the
    features, as functions of the three argument arrays. -/
theorem result_eq :
    (after (ops (F := Ideal)) V (main_v90 : DevRef τ sig) : S2x65536x35.Idx → Ideal .f32)
      = Cert.Spec.tail shapeCasts_S131072x16x2_S131072x32 concatenates_S131072x3_S131072x32_S131072x35_d1
          shapeCasts_S131072x35_S2x65536x35
          (fun i => Cert.Spec.xn 𝐗 (i 0) (i 1))
          (fun i => Cert.Spec.featR 𝐓 𝐗 𝐃 𝐇 (i 0) (i 1) (i 2)) := by
  rw [after_ops, seg10_v90]
  refine congrArg₂ (Cert.Spec.tail shapeCasts_S131072x16x2_S131072x32
    concatenates_S131072x3_S131072x32_S131072x35_d1 shapeCasts_S131072x35_S2x65536x35) ?_ ?_
  · funext i
    obtain ⟨n, d, rfl⟩ : ∃ (n : Fin 131072) (d : Fin 3), i = ix2 n d := ⟨i 0, i 1, eq_ix2 i⟩
    keeps
    exact seg0_v6 V n d
  · funext i
    obtain ⟨n, l, f, rfl⟩ : ∃ (n : Fin 131072) (l : Fin 16) (f : Fin 2), i = ix3 n l f := ⟨i 0, i 1, i 2, eq_ix3 i⟩
    rw [featArr_apply]
    show _ = Cert.Spec.featR 𝐓 𝐗 𝐃 𝐇 n l f
    unfold Cert.Spec.featR
    refine congrArg (Cert.Spec.c0 + ·) (Finset.sum_congr rfl fun k _ => ?_)
    keeps
    rw [st9_v82, st8_v64]

end Cert.ReferenceIdeal.RefRun

end
-- ==== Proof.DenseRange.lean ====
/-
  A dense level's row index never leaves the dense table.  The clipped grid coordinates lie in [0, r - 1] for the
  level's resolution r, the strides are (r^2, r, 1), so the index is at most (r - 1)(r^2 + r + 1) + base =
  r^3 - 1 + base, which is below the next level's base and, at the last dense level, is the table's last row
  822943.  Nothing wraps in 32 bits.  Hence a fill-mode take of that row (a range test, a fill word outside) reads
  exactly what a plain gather reads.
-/
import proofs.«133126_j89799176225629_2_alg».proof.Proof.Spec
import Idealize.ShloMosaic.Lib.Affine

noncomputable section
namespace Cert.Spec
open Idealize.ShloMosaic Idealize.ShloMosaic.ValueIdx

theorem fold3 (g : Fin 3 → BitVec 32) :
    (Finset.univ : Finset (Fin 3)).fold IntOp.addi 0#32 g = g 0 + (g 1 + (g 2 + 0#32)) := by
  rfl

theorem fold1 (x : BitVec 1) :
    (Finset.univ : Finset (Fin 1)).fold IntOp.andi 1#1 (fun _ => x) = x &&& 1#1 := by
  rfl

theorem clip_bounds (M r : BitVec 32) (hM : 0 ≤ M.toInt) :
    0 ≤ (IntOp.minsi M (IntOp.maxsi 0#32 r)).toInt ∧ (IntOp.minsi M (IntOp.maxsi 0#32 r)).toInt ≤ M.toInt := by
  unfold IntOp.minsi IntOp.maxsi
  simp only [BitVec.slt_iff_toInt_lt]
  split <;> split <;> simp_all <;> omega

theorem toNat_of_bounds (a : BitVec 32) (M : Nat) (h0 : 0 ≤ a.toInt) (h1 : a.toInt ≤ M) : a.toNat ≤ M := by
  have h := BitVec.toInt_eq_toNat_cond a
  have hl := a.isLt
  split at h <;> omega

theorem wrap_of_nonneg (N i : BitVec 32) (h : 0 ≤ i.toInt) : wrap N i = i := by
  unfold wrap Scalar.select
  rw [if_neg]
  intro hc
  have h2 := (IntOp.cmpi_slt (x := i) (y := 0#32)).1 hc
  simp at h2
  omega

theorem inRange_of (last i : BitVec 32) (h0 : 0 ≤ i.toInt) (h1 : i.toInt ≤ last.toInt) : inRange last i = 1#1 := by
  unfold inRange
  rw [fold1]
  have a : IntOp.cmpi .sge i 0#32 = 1#1 := IntOp.cmpi_sge.2 (by simpa using h0)
  have b : IntOp.cmpi .sle i last = 1#1 := IntOp.cmpi_sle.2 h1
  rw [a, b]; rfl

/-- Three coordinates in [0, M] times the strides (S0, S1, 1) plus the base stay in [0, 822943] as 32-bit words when
    M S0 + M S1 + M + base does. -/
theorem level_arith (a b c s0 s1 B : BitVec 32) (M S0 S1 Bn : Nat)
    (ha : 0 ≤ a.toInt ∧ a.toInt ≤ M) (hb : 0 ≤ b.toInt ∧ b.toInt ≤ M) (hc : 0 ≤ c.toInt ∧ c.toInt ≤ M)
    (hs0 : s0.toNat = S0) (hs1 : s1.toNat = S1) (hB : B.toNat = Bn)
    (hM : M < 4096) (hS0 : S0 < 8192) (hS1 : S1 < 128)
    (hfit : M * S0 + M * S1 + M + Bn ≤ 822943) :
    0 ≤ (a * s0 + (b * s1 + (c * 1#32 + 0#32)) + B).toInt ∧ (a * s0 + (b * s1 + (c * 1#32 + 0#32)) + B).toInt ≤ 822943 := by
  have hA := toNat_of_bounds a M ha.1 ha.2
  have hBb := toNat_of_bounds b M hb.1 hb.2
  have hC := toNat_of_bounds c M hc.1 hc.2
  have hp : a.toNat * S0 ≤ M * S0 := Nat.mul_le_mul_right _ hA
  have hq : b.toNat * S1 ≤ M * S1 := Nat.mul_le_mul_right _ hBb
  have hv : (a * s0 + (b * s1 + (c * 1#32 + 0#32)) + B).toNat = a.toNat * S0 + (b.toNat * S1 + c.toNat) + Bn := by
    simp only [BitVec.toNat_add, BitVec.toNat_mul, BitVec.toNat_ofNat, hs0, hs1, hB]
    omega
  have h := BitVec.toInt_eq_toNat_cond (a * s0 + (b * s1 + (c * 1#32 + 0#32)) + B)
  rw [hv] at h
  split at h <;> omega

/-- The resolutions, strides and base rows of the six dense levels. -/
def NUMv : Fin 6 → BitVec 32 := ![16#32, 22#32, 30#32, 42#32, 58#32, 80#32]
def S0v : Fin 6 → BitVec 32 := ![256#32, 484#32, 900#32, 1764#32, 3364#32, 6400#32]
def S1v : Fin 6 → BitVec 32 := ![16#32, 22#32, 30#32, 42#32, 58#32, 80#32]
def BASEv : Fin 6 → BitVec 32 := ![0#32, 4096#32, 14744#32, 41744#32, 115832#32, 310944#32]
def Mv : Fin 6 → Nat := ![15, 21, 29, 41, 57, 79]

/-- The tables carry those constants at the dense levels. -/
structure DenseTables (T : Tables) : Prop where
  num : ∀ (l : Fin 6) (d : Fin 3), T.num (ix2 (lo6 l) d) = NUMv l
  s0 : ∀ l : Fin 6, T.str (ix2 l 0) = S0v l
  s1 : ∀ l : Fin 6, T.str (ix2 l 1) = S1v l
  s2 : ∀ l : Fin 6, T.str (ix2 l 2) = 1#32
  base : ∀ l : Fin 6, T.base (ix1 l) = BASEv l

theorem hMv (l : Fin 6) : (IntOp.subi (NUMv l) 1#32).toInt = Mv l := by fin_cases l <;> decide

/-- A dense level's row index is a row of the dense table: the clipped coordinates are at most resolution - 1, and
    (r-1)(r^2 + r + 1) + base = r^3 - 1 + base is below the next level's base. -/
theorem ind_range (T : Tables) (hT : DenseTables T) (X : FVec Ideal ⟨2, ![131072, 3]⟩ .f32) (l : Fin 6) (k : Fin 8)
    (n : Fin 131072) : 0 ≤ (ind T X l k n).toInt ∧ (ind T X l k n).toInt ≤ 822943 := by
  have hb : ∀ d, 0 ≤ (intx T X (lo6 l) k d n).toInt ∧ (intx T X (lo6 l) k d n).toInt ≤ Mv l := by
    intro d
    unfold intx
    rw [hT.num, ← hMv l]
    exact clip_bounds _ _ (by rw [hMv l]; omega)
  unfold ind
  rw [fold3]
  simp only [IntOp.addi, IntOp.muli, hT.s0, hT.s1, hT.s2, hT.base]
  exact level_arith _ _ _ _ _ _ (Mv l) (S0v l).toNat (S1v l).toNat (BASEv l).toNat (hb 0) (hb 1) (hb 2) rfl rfl rfl
    (by fin_cases l <;> decide) (by fin_cases l <;> decide) (by fin_cases l <;> decide) (by fin_cases l <;> decide)

/-- So the fill-mode take of a dense level reads what the plain gather reads. -/
theorem valDenseFill_eq (T : Tables) (hT : DenseTables T) (X : FVec Ideal ⟨2, ![131072, 3]⟩ .f32)
    (D : FVec Ideal ⟨2, ![822944, 2]⟩ .f32) (l : Fin 6) (k : Fin 8) (n : Fin 131072) (f : Fin 2) :
    valDenseFill T X D l k n f = valDense T X D l k n f := by
  obtain ⟨h0, h1⟩ := ind_range T hT X l k n
  unfold valDenseFill
  rw [wrap_of_nonneg _ _ h0, inRange_of _ _ h0 (by simpa using h1)]
  rfl

theorem valFill_eq (T : Tables) (hT : DenseTables T) (X : FVec Ideal ⟨2, ![131072, 3]⟩ .f32)
    (D : FVec Ideal ⟨2, ![822944, 2]⟩ .f32) (H : FVec Ideal ⟨3, ![10, 524309, 2]⟩ .f32) (l : Fin 16) (k : Fin 8)
    (n : Fin 131072) (f : Fin 2) : valFill T X D H l k n f = val T X D H l k n f := by
  unfold valFill val
  split
  · exact valDenseFill_eq T hT X D _ k n f
  · rfl

end Cert.Spec
end
-- ==== Proof.Bridge.lean ====
/-
  The two ways of summing a feature agree on the extended reals: the fill-mode take of a dense level reads the plain
  gather's entry (its row is always in range), the sum from the word zero is the plain sum, and each product commutes.
-/
import proofs.«133126_j89799176225629_2_alg».proof.Proof.Spec
import proofs.«133126_j89799176225629_2_alg».proof.Proof.DenseRange
import Idealize.ShloMosaic.PureOps.Ideal.Laws

noncomputable section

namespace Cert.Spec

open Idealize.ShloMosaic Idealize.ShloMosaic.ValueIdx

/-- The float word zero denotes the number zero. -/
theorem c0_zero : c0 = 0 := Ideal.ofBits_zero_f32

/-- Summing value times weight over the corners, the dense levels read by a fill-mode take, is summing weight times
    value from zero, the dense levels read by a plain gather. -/
theorem featK_eq_featR (T : Tables) (hT : DenseTables T) (X : FVec Ideal ⟨2, ![131072, 3]⟩ .f32)
    (D : FVec Ideal ⟨2, ![822944, 2]⟩ .f32) (H : FVec Ideal ⟨3, ![10, 524309, 2]⟩ .f32) (n : Fin 131072) (l : Fin 16)
    (f : Fin 2) : featK T X D H n l f = featR T X D H n l f := by
  unfold featK featR
  rw [c0_zero, zero_add]
  refine Finset.sum_congr rfl fun k _ => ?_
  rw [valFill_eq T hT, mul_comm]

end Cert.Spec

end
-- ==== Proof.Glue.lean ====
/-
  The two programs print the same five constant tables, and at the six dense levels the tables hold the resolutions
  16, 22, 30, 42, 58, 80 with strides (r^2, r, 1) and base rows 0, 4096, 14744, 41744, 115832, 310944.
-/
import proofs.«133126_j89799176225629_2_alg».proof.Proof.KerL0
import proofs.«133126_j89799176225629_2_alg».proof.Proof.RefSeg0
import proofs.«133126_j89799176225629_2_alg».proof.Proof.DenseRange

noncomputable section

namespace Cert.Glue

open Idealize.ShloMosaic Idealize.ShloMosaic.ValueIdx Cert.Spec

theorem lit0_eq : Cert.KernelIdeal.lit0 = Cert.ReferenceIdeal.lit0 := by funext i; fin_cases i <;> rfl
theorem lit1_eq : Cert.KernelIdeal.lit1 = Cert.ReferenceIdeal.lit1 := by funext i; fin_cases i <;> rfl
theorem lit2_eq : Cert.KernelIdeal.lit2 = Cert.ReferenceIdeal.lit2 := by funext i; fin_cases i <;> rfl
theorem lit3_eq : Cert.KernelIdeal.lit3 = Cert.ReferenceIdeal.lit3 := by funext i; fin_cases i <;> rfl
theorem lit4_eq : Cert.KernelIdeal.lit4 = Cert.ReferenceIdeal.lit4 := by funext i; fin_cases i <;> rfl

/-- The kernel program's tables are the reference's. -/
theorem tables_eq : Cert.KernelIdeal.KerHost.kerTables = Cert.ReferenceIdeal.RefRun.refTables := by
  unfold Cert.KernelIdeal.KerHost.kerTables Cert.ReferenceIdeal.RefRun.refTables
  rw [lit0_eq, lit1_eq, lit2_eq, lit3_eq, lit4_eq]

/-- They hold the dense levels' constants. -/
theorem ker_dense : DenseTables Cert.KernelIdeal.KerHost.kerTables where
  num := fun l d => by fin_cases l <;> fin_cases d <;> rfl
  s0 := fun l => by fin_cases l <;> rfl
  s1 := fun l => by fin_cases l <;> rfl
  s2 := fun l => by fin_cases l <;> rfl
  base := fun l => by fin_cases l <;> rfl

end Cert.Glue

end
-- ==== Proof.lean ====
/-
  A multiresolution hash-grid embedding, its Pallas kernel against its jnp reference, on the extended reals.

  Both programs compute, for every point n, level l, corner k and axis d, the clipped integer grid coordinate of the
  corner, the interpolation weight w(l,k,n) of the corner, the row of the corner in the level's table and the two
  feature values val(l,k,n,f) stored there; the feature (l,f) of the point is the sum over the eight corners of weight
  times value, and the output row is the point's three normalised coordinates followed by its 32 features.  The
  reference lays its arrays out as (L,N,K,.) and does everything in host operations; the kernel program lays them out
  as (L,K,.,N) / (F,L,K,N), does the product and the corner sum in one region over blocks of 4096 points, and
  transposes back.

  The proof reads both programs against one scalar specification (Spec).  The reference's run is a straight line of
  host operations read stretch by stretch (RefRun, RefSeg*, RefChain).  The kernel program's host operations before
  the region are read the same way (Ker*); the region's output is the weighted corner sum of the two staged arrays at
  every index because the 32 blocks tile it (KPayload, KRegion, KCover), and the four closing operations are the same
  function in both programs (KTail, KRun, KOut).  Two things differ in the arithmetic and are equal on the extended
  reals: the reference sums weight * value from the word zero while the region sums value * weight (commutativity,
  0 + x = x), and the kernel program reads the dense levels by a fill-mode take, whose range test always passes
  because a dense row index is at most r^3 - 1 + base (DenseRange, Bridge).  Finiteness of the inputs is never used.
-/
import proofs.«133126_j89799176225629_2_alg».proof.Defs
import proofs.«133126_j89799176225629_2_alg».proof.Proof.Gen.Kernel.Frame
import proofs.«133126_j89799176225629_2_alg».proof.Proof.Gen.KernelIdeal.Frame
import proofs.«133126_j89799176225629_2_alg».proof.Proof.Gen.ReferenceIdeal
import proofs.«133126_j89799176225629_2_alg».proof.Proof.Gen.Pre_finite_inputs
import proofs.«133126_j89799176225629_2_alg».proof.Proof.KOut
import proofs.«133126_j89799176225629_2_alg».proof.Proof.KerV
import proofs.«133126_j89799176225629_2_alg».proof.Proof.RefChain
import proofs.«133126_j89799176225629_2_alg».proof.Proof.Bridge
import proofs.«133126_j89799176225629_2_alg».proof.Proof.Glue
import Idealize.ShloMosaic.Adequacy
import Idealize.ShloMosaic.Init

noncomputable section

namespace Cert.Proof

open Idealize.ShloMosaic Idealize.ShloMosaic.TcCoe Idealize.SL.Sem

/-- The word-level kernel program runs and leaves its arguments. -/
theorem frame_p : Cert.frame_Kernel := fun m ρ _ => Cert.Kernel.Gen.frame m ρ

/-- So does its idealization. -/
theorem frame_pi : Cert.frame_KernelIdeal := fun m ρ _ => Cert.KernelIdeal.Gen.frame m ρ

/-- The reference is a straight line of host operations none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.RefRun.arg0_keep _),
      (h c Cert.ReferenceIdeal.main_arg1).trans (Cert.ReferenceIdeal.RefRun.arg1_keep _),
      (h c Cert.ReferenceIdeal.main_arg2).trans (Cert.ReferenceIdeal.RefRun.arg2_keep _)⟩)
    (Cert.ReferenceIdeal.RefRun.run_main (F := Ideal) m ρ)

/-- The ideal pass rewrote nothing. -/
theorem preserves : Cert.preserves_Kernel_KernelIdeal := trivial

/-- The kernel program's result in the specification's terms, from its own argument arrays. -/
theorem kernel_result (m : (ℓ : Loc Cert.KernelIdeal.nD Cert.KernelIdeal.τ Cert.KernelIdeal.sig) → Buf (Elt Ideal) ℓ)
    (c : Dev Cert.KernelIdeal.nD) :
    Cert.KernelIdeal.Region.outK m c
      = Cert.Spec.tail Cert.KernelIdeal.Facts₀.shapeCasts_S131072x16x2_S131072x32
          Cert.KernelIdeal.Facts₀.concatenates_S131072x3_S131072x32_S131072x35_d1
          Cert.KernelIdeal.Facts₀.shapeCasts_S131072x35_S2x65536x35
          (fun i => Cert.Spec.xn (Cert.KernelIdeal.KerHost.Xof m c) (i 0) (i 1))
          (fun i => Cert.Spec.featR Cert.ReferenceIdeal.RefRun.refTables (Cert.KernelIdeal.KerHost.Xof m c)
            (m ((c : Thread Cert.KernelIdeal.nD Cert.KernelIdeal.τ).loc Cert.KernelIdeal.main_arg1))
            (m ((c : Thread Cert.KernelIdeal.nD Cert.KernelIdeal.τ).loc Cert.KernelIdeal.main_arg2)) (i 0) (i 1) (i 2)) := by
  rw [Cert.KernelIdeal.Region.outK_eq m c Cert.KernelIdeal.KerHost.kerTables (Cert.KernelIdeal.KerHost.Xof m c)
    (m ((c : Thread Cert.KernelIdeal.nD Cert.KernelIdeal.τ).loc Cert.KernelIdeal.main_arg1))
    (m ((c : Thread Cert.KernelIdeal.nD Cert.KernelIdeal.τ).loc Cert.KernelIdeal.main_arg2))
    (Cert.KernelIdeal.KerHost.V_xn m c) (Cert.KernelIdeal.KerHost.V_val m c) (Cert.KernelIdeal.KerHost.V_w m c)]
  refine congrArg _ (funext fun i => ?_)
  exact (Cert.Spec.featK_eq_featR _ Cert.Glue.ker_dense _ _ _ (i 0) (i 1) (i 2)).trans
    (congrArg (fun T => Cert.Spec.featR T _ _ _ (i 0) (i 1) (i 2)) Cert.Glue.tables_eq)

/-- From memories agreeing on the arguments both programs end with the same result array. -/
theorem algebraic : Cert.algebraic_KernelIdeal_ReferenceIdeal := by
  intro m ρ m' ρ' _ hagree
  refine ⟨fun c => Cert.KernelIdeal.Region.outK m c, Cert.KernelIdeal.Region.run m ρ, ?_⟩
  refine (θ_run Cert.ReferenceIdeal.defs _ _).mono (fun _ h c =>
    ⟨(h c Cert.ReferenceIdeal.main_v90).trans ?_,
      (h c Cert.ReferenceIdeal.main_arg0).trans (Cert.ReferenceIdeal.RefRun.arg0_keep _),
      (h c Cert.ReferenceIdeal.main_arg1).trans (Cert.ReferenceIdeal.RefRun.arg1_keep _),
      (h c Cert.ReferenceIdeal.main_arg2).trans (Cert.ReferenceIdeal.RefRun.arg2_keep _)⟩)
    (Cert.ReferenceIdeal.RefRun.run_main (F := Ideal) m' ρ')
  show _ = Cert.KernelIdeal.Region.outK m c
  rw [kernel_result m c]
  refine (Cert.ReferenceIdeal.RefRun.result_eq (StableHlo.launchContents m' c)).trans ?_
  obtain ⟨h0, h1, h2⟩ := hagree c
  show Cert.Spec.tail _ _ _
      (fun i => Cert.Spec.xn (shapeCast Cert.ReferenceIdeal.S131072x3
        (m' ((c.tc : Thread Cert.ReferenceIdeal.nD Cert.ReferenceIdeal.τ).loc Cert.ReferenceIdeal.main_arg0)) _) (i 0) (i 1))
      (fun i => Cert.Spec.featR Cert.ReferenceIdeal.RefRun.refTables (shapeCast Cert.ReferenceIdeal.S131072x3
        (m' ((c.tc : Thread Cert.ReferenceIdeal.nD Cert.ReferenceIdeal.τ).loc Cert.ReferenceIdeal.main_arg0)) _)
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (i 0) (i 1) (i 2)) = _
  rw [h0, h1, h2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
